-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v12_0)) (v2 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v12_0) = v1 c
          ∧ r.2.mem ((c.tc : Thread Cert.KernelIdeal.nD Cert.KernelIdeal.τ).loc Cert.KernelIdeal.main_v51) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v154) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x96 : Shape := ⟨2, ![65536, 96]⟩
abbrev S65536x64 : Shape := ⟨2, ![65536, 64]⟩
abbrev S8192x8x24 : Shape := ⟨3, ![8192, 8, 24]⟩
abbrev S96x64 : Shape := ⟨2, ![96, 64]⟩
abbrev S64 : Shape := ⟨1, ![64]⟩
abbrev S64x192 : Shape := ⟨2, ![64, 192]⟩
abbrev S192 : Shape := ⟨1, ![192]⟩
abbrev S64x64 : Shape := ⟨2, ![64, 64]⟩
abbrev S64x48 : Shape := ⟨2, ![64, 48]⟩
abbrev S48 : Shape := ⟨1, ![48]⟩
abbrev S128x64 : Shape := ⟨2, ![128, 64]⟩
abbrev S64x6 : Shape := ⟨2, ![64, 6]⟩
abbrev S6 : Shape := ⟨1, ![6]⟩
abbrev S88x14 : Shape := ⟨2, ![88, 14]⟩
abbrev S14 : Shape := ⟨1, ![14]⟩
abbrev S_ : Shape := ⟨0, ![]⟩

class Facts : Prop where
  bcast_S_S65536x96 : S_.BroadcastsInDim S65536x96 (![] : Fin 0 → Fin S65536x96.rank)
  reducesTo_S65536x96_S_d0_1 : S65536x96.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_
  bcast_S_S8192x8x24 : S_.BroadcastsInDim S8192x8x24 (![] : Fin 0 → Fin S8192x8x24.rank)
  reducesTo_S8192x8x24_S_d0_1_2 : S8192x8x24.ReducesTo [0, 1, 2] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S64x192 : S_.BroadcastsInDim S64x192 (![] : Fin 0 → Fin S64x192.rank)
  reducesTo_S64x192_S_d0_1 : S64x192.ReducesTo [0, 1] S_
  bcast_S_S192 : S_.BroadcastsInDim S192 (![] : Fin 0 → Fin S192.rank)
  reducesTo_S192_S_d0 : S192.ReducesTo [0] S_
  bcast_S_S64x64 : S_.BroadcastsInDim S64x64 (![] : Fin 0 → Fin S64x64.rank)
  reducesTo_S64x64_S_d0_1 : S64x64.ReducesTo [0, 1] S_
  bcast_S_S64x48 : S_.BroadcastsInDim S64x48 (![] : Fin 0 → Fin S64x48.rank)
  reducesTo_S64x48_S_d0_1 : S64x48.ReducesTo [0, 1] S_
  bcast_S_S48 : S_.BroadcastsInDim S48 (![] : Fin 0 → Fin S48.rank)
  reducesTo_S48_S_d0 : S48.ReducesTo [0] S_
  bcast_S_S128x64 : S_.BroadcastsInDim S128x64 (![] : Fin 0 → Fin S128x64.rank)
  reducesTo_S128x64_S_d0_1 : S128x64.ReducesTo [0, 1] S_
  bcast_S_S64x6 : S_.BroadcastsInDim S64x6 (![] : Fin 0 → Fin S64x6.rank)
  reducesTo_S64x6_S_d0_1 : S64x6.ReducesTo [0, 1] S_
  bcast_S_S6 : S_.BroadcastsInDim S6 (![] : Fin 0 → Fin S6.rank)
  reducesTo_S6_S_d0 : S6.ReducesTo [0] S_
  bcast_S_S88x14 : S_.BroadcastsInDim S88x14 (![] : Fin 0 → Fin S88x14.rank)
  reducesTo_S88x14_S_d0_1 : S88x14.ReducesTo [0, 1] S_
  bcast_S_S14 : S_.BroadcastsInDim S14 (![] : Fin 0 → Fin S14.rank)
  reducesTo_S14_S_d0 : S14.ReducesTo [0] S_

variable [Facts]

def fn_part6 {F : FTy → Type} [FloatOps F] (main_arg21 : FVec F S88x14 .f32) (main_arg22 : FVec F S14 .f32) (main_v98 : IVec S_ 1) (main_v101 : IVec S6 1) (main_c_39 : IVec S_ 1) : IVec S_ 1 :=
  let main_v102 : IVec S_ 1 := (fun x v => Host.reduce IntOp.andi x v reducesTo_S6_S_d0 h_S_) main_v101 main_c_39
  let main_v103 : IVec S_ 1 := andi main_v98 main_v102
  let main_v104 : FVec F S88x14 .f32 := Host.absf main_arg21
  let main_cst_40 : FVec F S_ .f32 := constant S_ .f32 0x7F800000#32
  let main_v105 : FVec F S88x14 .f32 := broadcastInDim S88x14 ![] bcast_S_S88x14 main_cst_40
  let main_v106 : IVec S88x14 1 := cmpf .olt main_v104 main_v105
  let main_c_41 : IVec S_ 1 := constantI S_ 1 1#1
  let main_v107 : IVec S_ 1 := (fun x v => Host.reduce IntOp.andi x v reducesTo_S88x14_S_d0_1 h_S_) main_v106 main_c_41
  let main_v108 : IVec S_ 1 := andi main_v103 main_v107
  let main_v109 : FVec F S14 .f32 := Host.absf main_arg22
  let main_cst_42 : FVec F S_ .f32 := constant S_ .f32 0x7F800000#32
  let main_v110 : FVec F S14 .f32 := broadcastInDim S14 ![] bcast_S_S14 main_cst_42
  let main_v111 : IVec S14 1 := cmpf .olt main_v109 main_v110
  let main_c_43 : IVec S_ 1 := constantI S_ 1 1#1
  let main_v112 : IVec S_ 1 := (fun x v => Host.reduce IntOp.andi x v reducesTo_S14_S_d0 h_S_) main_v111 main_c_43
  let main_v113 : IVec S_ 1 := andi main_v108 main_v112
  main_v113

def fn_part5 {F : FTy → Type} [FloatOps F] (main_arg18 : FVec F S64 .f32) (main_arg19 : FVec F S64x6 .f32) (main_arg20 : FVec F S6 .f32) (main_arg21 : FVec F S88x14 .f32) (main_arg22 : FVec F S14 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x6 .f32 := Host.absf main_arg19
  let main_cst_36 : FVec F S_ .f32 := constant S_ .f32 0x7F800000#32
  let main_v95 : FVec F S64x6 .f32 := broadcastInDim S64x6 ![] bcast_S_S64x6 main_cst_36
  let main_v96 : IVec S64x6 1 := cmpf .olt main_v94 main_v95
  let main_c_37 : IVec S_ 1 := constantI S_ 1 1#1
  let main_v97 : IVec S_ 1 := (fun x v => Host.reduce IntOp.andi x v reducesTo_S64x6_S_d0_1 h_S_) main_v96 main_c_37
  let main_v98 : IVec S_ 1 := andi main_v93 main_v97
  let main_v99 : FVec F S6 .f32 := Host.absf main_arg20
  let main_cst_38 : FVec F S_ .f32 := constant S_ .f32 0x7F800000#32
  let main_v100 : FVec F S6 .f32 := broadcastInDim S6 ![] bcast_S_S6 main_cst_38
  let main_v101 : IVec S6 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S48 .f32) (main_arg15 : FVec F S128x64 .f32) (main_arg16 : FVec F S64 .f32) (main_arg17 : FVec F S64 .f32) (main_arg18 : FVec F S64 .f32) (main_arg19 : FVec F S64x6 .f32) (main_arg20 : FVec F S6 .f32) (main_arg21 : FVec F S88x14 .f32) (main_arg22 : FVec F S14 .f32) (main_v63 : IVec S_ 1) (main_v67 : IVec S_ 1) : IVec S_ 1 :=
  let main_v68 : IVec S_ 1 := andi main_v63 main_v67
  let main_v69 : FVec F S48 .f32 := Host.absf main_arg14
  let main_cst_26 : FVec F S_ .f32 := constant S_ .f32 0x7F800000#32
  let main_v70 : FVec F S48 .f32 := broadcastInDim S48 ![] bcast_S_S48 main_cst_26
  let main_v71 : IVec S48 1 := cmpf .olt main_v69 main_v70
  let main_c_27 : IVec S_ 1 := constantI S_ 1 1#1
  let main_v72 : IVec S_ 1 := (fun x v => Host.reduce IntOp.andi x v reducesTo_S48_S_d0 h_S_) main_v71 main_c_27
  let main_v73 : IVec S_ 1 := andi main_v68 main_v72
  let main_v74 : FVec F S128x64 .f32 := Host.absf main_arg15
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S64 .f32) (main_arg12 : FVec F S64 .f32) (main_arg13 : FVec F S64x48 .f32) (main_arg14 : FVec F S48 .f32) (main_arg15 : FVec F S128x64 .f32) (main_arg16 : FVec F S64 .f32) (main_arg17 : FVec F S64 .f32) (main_arg18 : FVec F S64 .f32) (main_arg19 : FVec F S64x6 .f32) (main_arg20 : FVec F S6 .f32) (main_arg21 : FVec F S88x14 .f32) (main_arg22 : FVec F S14 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x48 .f32 := Host.absf main_arg13
  let main_cst_24 : FVec F S_ .f32 := constant S_ .f32 0x7F800000#32
  let main_v65 : FVec F S64x48 .f32 := broadcastInDim S64x48 ![] bcast_S_S64x48 main_cst_24
  let main_v66 : IVec S64x48 1 := cmpf .olt main_v64 main_v65
  let main_c_25 : IVec S_ 1 := constantI S_ 1 1#1
  let main_v67 : IVec S_ 1 := (fun x v => Host.reduce IntOp.andi x v reducesTo_S64x48_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S192 .f32) (main_arg8 : FVec F S192 .f32) (main_arg9 : FVec F S64x64 .f32) (main_arg10 : FVec F S64 .f32) (main_arg11 : FVec F S64 .f32) (main_arg12 : FVec F S64 .f32) (main_arg13 : FVec F S64x48 .f32) (main_arg14 : FVec F S48 .f32) (main_arg15 : FVec F S128x64 .f32) (main_arg16 : FVec F S64 .f32) (main_arg17 : FVec F S64 .f32) (main_arg18 : FVec F S64 .f32) (main_arg19 : FVec F S64x6 .f32) (main_arg20 : FVec F S6 .f32) (main_arg21 : FVec F S88x14 .f32) (main_arg22 : FVec F S14 .f32) (main_v33 : IVec S_ 1) : IVec S_ 1 :=
  let main_v34 : FVec F S192 .f32 := Host.absf main_arg7
  let main_cst_12 : FVec F S_ .f32 := constant S_ .f32 0x7F800000#32
  let main_v35 : FVec F S192 .f32 := broadcastInDim S192 ![] bcast_S_S192 main_cst_12
  let main_v36 : IVec S192 1 := cmpf .olt main_v34 main_v35
  let main_c_13 : IVec S_ 1 := constantI S_ 1 1#1
  let main_v37 : IVec S_ 1 := (fun x v => Host.reduce IntOp.andi x v reducesTo_S192_S_d0 h_S_) main_v36 main_c_13
  let main_v38 : IVec S_ 1 := andi main_v33 main_v37
  let main_v39 : FVec F S192 .f32 := Host.absf main_arg8
  let main_cst_14 : FVec F S_ .f32 := constant S_ .f32 0x7F800000#32
  let main_v40 : FVec F S192 .f32 := broadcastInDim S192 ![] bcast_S_S192 main_cst_14
  let main_v41 : IVec S192 1 := cmpf .olt main_v39 main_v40
  let main_c_15 : IVec S_ 1 := constantI S_ 1 1#1
  let main_v42 : IVec S_ 1 := (fun x v => Host.reduce IntOp.andi x v reducesTo_S192_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S64 .f32) (main_arg5 : FVec F S64x192 .f32) (main_arg6 : FVec F S64x192 .f32) (main_arg7 : FVec F S192 .f32) (main_arg8 : FVec F S192 .f32) (main_arg9 : FVec F S64x64 .f32) (main_arg10 : FVec F S64 .f32) (main_arg11 : FVec F S64 .f32) (main_arg12 : FVec F S64 .f32) (main_arg13 : FVec F S64x48 .f32) (main_arg14 : FVec F S48 .f32) (main_arg15 : FVec F S128x64 .f32) (main_arg16 : FVec F S64 .f32) (main_arg17 : FVec F S64 .f32) (main_arg18 : FVec F S64 .f32) (main_arg19 : FVec F S64x6 .f32) (main_arg20 : FVec F S6 .f32) (main_arg21 : FVec F S88x14 .f32) (main_arg22 : FVec F S14 .f32) (main_v13 : IVec S_ 1) (main_v16 : IVec S96x64 1) : IVec S_ 1 :=
  let main_c_5 : IVec S_ 1 := constantI S_ 1 1#1
  let main_v17 : IVec S_ 1 := (fun x v => Host.reduce IntOp.andi x v reducesTo_S96x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x192 .f32 := Host.absf main_arg5
  let main_cst_8 : FVec F S_ .f32 := constant S_ .f32 0x7F800000#32
  let main_v25 : FVec F S64x192 .f32 := broadcastInDim S64x192 ![] bcast_S_S64x192 main_cst_8
  let main_v26 : IVec S64x192 1 := cmpf .olt main_v24 main_v25
  let main_c_9 : IVec S_ 1 := constantI S_ 1 1#1
  let main_v27 : IVec S_ 1 := (fun x v => Host.reduce IntOp.andi x v reducesTo_S64x192_S_d0_1 h_S_) main_v26 main_c_9
  let main_v28 : IVec S_ 1 := andi main_v23 main_v27
  let main_v29 : FVec F S64x192 .f32 := Host.absf main_arg6
  let main_cst_10 : FVec F S_ .f32 := constant S_ .f32 0x7F800000#32
  let main_v30 : FVec F S64x192 .f32 := broadcastInDim S64x192 ![] bcast_S_S64x192 main_cst_10
  let main_v31 : IVec S64x192 1 := cmpf .olt main_v29 main_v30
  let main_c_11 : IVec S_ 1 := constantI S_ 1 1#1
  let main_v32 : IVec S_ 1 := (fun x v => Host.reduce IntOp.andi x v reducesTo_S64x192_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S65536x96 .f32) (main_arg1 : FVec F S65536x64 .f32) (main_arg2 : FVec F S8192x8x24 .f32) (main_arg3 : FVec F S96x64 .f32) (main_arg4 : FVec F S64 .f32) (main_arg5 : FVec F S64x192 .f32) (main_arg6 : FVec F S64x192 .f32) (main_arg7 : FVec F S192 .f32) (main_arg8 : FVec F S192 .f32) (main_arg9 : FVec F S64x64 .f32) (main_arg10 : FVec F S64 .f32) (main_arg11 : FVec F S64 .f32) (main_arg12 : FVec F S64 .f32) (main_arg13 : FVec F S64x48 .f32) (main_arg14 : FVec F S48 .f32) (main_arg15 : FVec F S128x64 .f32) (main_arg16 : FVec F S64 .f32) (main_arg17 : FVec F S64 .f32) (main_arg18 : FVec F S64 .f32) (main_arg19 : FVec F S64x6 .f32) (main_arg20 : FVec F S6 .f32) (main_arg21 : FVec F S88x14 .f32) (main_arg22 : FVec F S14 .f32) : IVec S_ 1 :=
  let main_v0 : FVec F S65536x96 .f32 := Host.absf main_arg0
  let main_cst : FVec F S_ .f32 := constant S_ .f32 0x7F800000#32
  let main_v1 : FVec F S65536x96 .f32 := broadcastInDim S65536x96 ![] bcast_S_S65536x96 main_cst
  let main_v2 : IVec S65536x96 1 := cmpf .olt main_v0 main_v1
  let main_c : IVec S_ 1 := constantI S_ 1 1#1
  let main_v3 : IVec S_ 1 := (fun x v => Host.reduce IntOp.andi x v reducesTo_S65536x96_S_d0_1 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  let main_v9 : FVec F S8192x8x24 .f32 := Host.absf main_arg2
  let main_cst_2 : FVec F S_ .f32 := constant S_ .f32 0x7F800000#32
  let main_v10 : FVec F S8192x8x24 .f32 := broadcastInDim S8192x8x24 ![] bcast_S_S8192x8x24 main_cst_2
  let main_v11 : IVec S8192x8x24 1 := cmpf .olt main_v9 main_v10
  let main_c_3 : IVec S_ 1 := constantI S_ 1 1#1
  let main_v12 : IVec S_ 1 := (fun x v => Host.reduce IntOp.andi x v reducesTo_S8192x8x24_S_d0_1_2 h_S_) main_v11 main_c_3
  let main_v13 : IVec S_ 1 := andi main_v8 main_v12
  let main_v14 : FVec F S96x64 .f32 := Host.absf main_arg3
  let main_cst_4 : FVec F S_ .f32 := constant S_ .f32 0x7F800000#32
  let main_v15 : FVec F S96x64 .f32 := broadcastInDim S96x64 ![] bcast_S_S96x64 main_cst_4
  let main_v16 : IVec S96x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S65536x96 : Shape := ⟨2, ![65536, 96]⟩
abbrev S65536x64 : Shape := ⟨2, ![65536, 64]⟩
abbrev S8192x8x24 : Shape := ⟨3, ![8192, 8, 24]⟩
abbrev S96x64 : Shape := ⟨2, ![96, 64]⟩
abbrev S64 : Shape := ⟨1, ![64]⟩
abbrev S64x192 : Shape := ⟨2, ![64, 192]⟩
abbrev S192 : Shape := ⟨1, ![192]⟩
abbrev S64x64 : Shape := ⟨2, ![64, 64]⟩
abbrev S64x48 : Shape := ⟨2, ![64, 48]⟩
abbrev S48 : Shape := ⟨1, ![48]⟩
abbrev S128x64 : Shape := ⟨2, ![128, 64]⟩
abbrev S64x6 : Shape := ⟨2, ![64, 6]⟩
abbrev S6 : Shape := ⟨1, ![6]⟩
abbrev S88x14 : Shape := ⟨2, ![88, 14]⟩
abbrev S14 : Shape := ⟨1, ![14]⟩
abbrev S1x64 : Shape := ⟨2, ![1, 64]⟩
abbrev S1x192 : Shape := ⟨2, ![1, 192]⟩
abbrev S1x48 : Shape := ⟨2, ![1, 48]⟩
abbrev S1x6 : Shape := ⟨2, ![1, 6]⟩
abbrev S1x14 : Shape := ⟨2, ![1, 14]⟩
abbrev S64x8x64 : Shape := ⟨3, ![64, 8, 64]⟩
abbrev S1024x96 : Shape := ⟨2, ![1024, 96]⟩
abbrev S1024x64 : Shape := ⟨2, ![1024, 64]⟩
abbrev S1x8x64 : Shape := ⟨3, ![1, 8, 64]⟩
abbrev S1024x192 : Shape := ⟨2, ![1024, 192]⟩
abbrev S8x64 : Shape := ⟨2, ![8, 64]⟩
abbrev S64x1x64 : Shape := ⟨3, ![64, 1, 64]⟩
abbrev S_ : Shape := ⟨0, ![]⟩
abbrev S65536x24 : Shape := ⟨2, ![65536, 24]⟩
abbrev S65536x14 : Shape := ⟨2, ![65536, 14]⟩
abbrev S65536x48 : Shape := ⟨2, ![65536, 48]⟩
abbrev S2048x64 : Shape := ⟨2, ![2048, 64]⟩
abbrev S2048x24 : Shape := ⟨2, ![2048, 24]⟩
abbrev S2048x14 : Shape := ⟨2, ![2048, 14]⟩
abbrev S2048x48 : Shape := ⟨2, ![2048, 48]⟩
abbrev S2048x88 : Shape := ⟨2, ![2048, 88]⟩
abbrev S8192x8x64 : Shape := ⟨3, ![8192, 8, 64]⟩
abbrev S128x8x64 : Shape := ⟨3, ![128, 8, 64]⟩
abbrev S128x1x8x64 : Shape := ⟨4, ![128, 1, 8, 64]⟩
abbrev S128x8x8x64 : Shape := ⟨4, ![128, 8, 8, 64]⟩
abbrev S128x8x1x64 : Shape := ⟨4, ![128, 8, 1, 64]⟩
abbrev S1x1x1x64 : Shape := ⟨4, ![1, 1, 1, 64]⟩
abbrev S8192x1 : Shape := ⟨2, ![8192, 1]⟩
abbrev S128x8x24 : Shape := ⟨3, ![128, 8, 24]⟩
abbrev S128x1 : Shape := ⟨2, ![128, 1]⟩
abbrev S8192x64 : Shape := ⟨2, ![8192, 64]⟩
abbrev S8192x6 : Shape := ⟨2, ![8192, 6]⟩
abbrev S128x8x8x6 : Shape := ⟨4, ![128, 8, 8, 6]⟩
abbrev S128x8x4x6 : Shape := ⟨4, ![128, 8, 4, 6]⟩
abbrev S128x8 : Shape := ⟨2, ![128, 8]⟩
abbrev S128 : Shape := ⟨1, ![128]⟩

abbrev nBuf : Space → Nat
  | .hbm => 88
  | .vmem => 64
  | .smem => 0
  | _ => 0

abbrev bufTy : (tb : Table) → Fin (tcTables nBuf tb) → BufTy
  | .hbm, ⟨0, _⟩ => ⟨S65536x96, .f32⟩
  | .hbm, ⟨1, _⟩ => ⟨S65536x64, .f32⟩
  | .hbm, ⟨2, _⟩ => ⟨S8192x8x24, .f32⟩
  | .hbm, ⟨3, _⟩ => ⟨S96x64, .f32⟩
  | .hbm, ⟨4, _⟩ => ⟨S64, .f32⟩
  | .hbm, ⟨5, _⟩ => ⟨S64x192, .f32⟩
  | .hbm, ⟨6, _⟩ => ⟨S64x192, .f32⟩
  | .hbm, ⟨7, _⟩ => ⟨S192, .f32⟩
  | .hbm, ⟨8, _⟩ => ⟨S192, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64x48, .f32⟩
  | .hbm, ⟨14, _⟩ => ⟨S48, .f32⟩
  | .hbm, ⟨15, _⟩ => ⟨S128x64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64x6, .f32⟩
  | .hbm, ⟨20, _⟩ => ⟨S6, .f32⟩
  | .hbm, ⟨21, _⟩ => ⟨S88x14, .f32⟩
  | .hbm, ⟨22, _⟩ => ⟨S14, .f32⟩
  | .hbm, ⟨23, _⟩ => ⟨S1x64, .f32⟩
  | .hbm, ⟨24, _⟩ => ⟨S1x192, .f32⟩
  | .hbm, ⟨25, _⟩ => ⟨S1x192, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S1x48, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S1x6, .f32⟩
  | .hbm, ⟨34, _⟩ => ⟨S1x14, .f32⟩
  | .hbm, ⟨35, _⟩ => ⟨S65536x64, .f32⟩
  | .hbm, ⟨36, _⟩ => ⟨S65536x64, .f32⟩
  | .hbm, ⟨37, _⟩ => ⟨S64x8x64, .f32⟩
  | .hbm, ⟨38, _⟩ => ⟨S64x8x64, .f32⟩
  | .hbm, ⟨39, _⟩ => ⟨S64x1x64, .f32⟩
  | .hbm, ⟨40, _⟩ => ⟨S64x64, .f32⟩
  | .hbm, ⟨41, _⟩ => ⟨S_, .f32⟩
  | .hbm, ⟨42, _⟩ => ⟨S64, .f32⟩
  | .hbm, ⟨43, _⟩ => ⟨S64x1x64, .f32⟩
  | .hbm, ⟨44, _⟩ => ⟨S64x64, .f32⟩
  | .hbm, ⟨45, _⟩ => ⟨S_, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S1x64, .f32⟩
  | .hbm, ⟨56, _⟩ => ⟨S1x64, .f32⟩
  | .hbm, ⟨57, _⟩ => ⟨S65536x24, .f32⟩
  | .hbm, ⟨58, _⟩ => ⟨S65536x14, .f32⟩
  | .hbm, ⟨59, _⟩ => ⟨S65536x48, .f32⟩
  | .hbm, ⟨60, _⟩ => ⟨S65536x24, .f32⟩
  | .hbm, ⟨61, _⟩ => ⟨S65536x24, .f32⟩
  | .hbm, ⟨62, _⟩ => ⟨S8192x8x64, .f32⟩
  | .hbm, ⟨63, _⟩ => ⟨S64x64, .f32⟩
  | .hbm, ⟨64, _⟩ => ⟨S64x64, .f32⟩
  | .hbm, ⟨65, _⟩ => ⟨S64x8x64, .f32⟩
  | .hbm, ⟨66, _⟩ => ⟨S64x8x64, .f32⟩
  | .hbm, ⟨67, _⟩ => ⟨S64x1x64, .f32⟩
  | .hbm, ⟨68, _⟩ => ⟨S64x64, .f32⟩
  | .hbm, ⟨69, _⟩ => ⟨S_, .f32⟩
  | .hbm, ⟨70, _⟩ => ⟨S64, .f32⟩
  | .hbm, ⟨71, _⟩ => ⟨S64x1x64, .f32⟩
  | .hbm, ⟨72, _⟩ => ⟨S64x64, .f32⟩
  | .hbm, ⟨73, _⟩ => ⟨S_, .f32⟩
  | .hbm, ⟨74, _⟩ => ⟨S64, .f32⟩
  | .hbm, ⟨75, _⟩ => ⟨S_, .f32⟩
  | .hbm, ⟨76, _⟩ => ⟨S64, .f32⟩
  | .hbm, ⟨77, _⟩ => ⟨S64, .f32⟩
  | .hbm, ⟨78, _⟩ => ⟨S_, .f32⟩
  | .hbm, ⟨79, _⟩ => ⟨S64, .f32⟩
  | .hbm, ⟨80, _⟩ => ⟨S64, .f32⟩
  | .hbm, ⟨81, _⟩ => ⟨S64, .f32⟩
  | .hbm, ⟨82, _⟩ => ⟨S64, .f32⟩
  | .hbm, ⟨83, _⟩ => ⟨S1x64, .f32⟩
  | .hbm, ⟨84, _⟩ => ⟨S1x64, .f32⟩
  | .hbm, ⟨85, _⟩ => ⟨S8192x8x24, .f32⟩
  | .hbm, ⟨86, _⟩ => ⟨S8192x8x24, .f32⟩
  | .hbm, ⟨87, _⟩ => ⟨S8192x1, .f32⟩
  | .local _ .vmem, ⟨0, _⟩ => ⟨S1024x96, .f32⟩
  | .local _ .vmem, ⟨1, _⟩ => ⟨S1024x96, .f32⟩
  | .local _ .vmem, ⟨2, _⟩ => ⟨S1024x64, .f32⟩
  | .local _ .vmem, ⟨3, _⟩ => ⟨S1024x64, .f32⟩
  | .local _ .vmem, ⟨4, _⟩ => ⟨S96x64, .f32⟩
  | .local _ .vmem, ⟨5, _⟩ => ⟨S1x64, .f32⟩
  | .local _ .vmem, ⟨6, _⟩ => ⟨S64x192, .f32⟩
  | .local _ .vmem, ⟨7, _⟩ => ⟨S64x192, .f32⟩
  | .local _ .vmem, ⟨8, _⟩ => ⟨S1x192, .f32⟩
  | .local _ .vmem, ⟨9, _⟩ => ⟨S1x192, .f32⟩
  | .local _ .vmem, ⟨10, _⟩ => ⟨S64x64, .f32⟩
  | .local _ .vmem, ⟨11, _⟩ => ⟨S1x64, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | .local _ .vmem, ⟨16, _⟩ => ⟨S1x8x64, .f32⟩
  | .local _ .vmem, ⟨17, _⟩ => ⟨S1x8x64, .f32⟩
  | .local _ .vmem, ⟨18, _⟩ => ⟨S1x8x64, .f32⟩
  | .local _ .vmem, ⟨19, _⟩ => ⟨S1x8x64, .f32⟩
  | .local _ .vmem, ⟨20, _⟩ => ⟨S2048x64, .f32⟩
  | .local _ .vmem, ⟨21, _⟩ => ⟨S2048x64, .f32⟩
  | .local _ .vmem, ⟨22, _⟩ => ⟨S2048x64, .f32⟩
  | .local _ .vmem, ⟨23, _⟩ => ⟨S2048x64, .f32⟩
  | .local _ .vmem, ⟨24, _⟩ => ⟨S2048x24, .f32⟩
  | .local _ .vmem, ⟨25, _⟩ => ⟨S2048x24, .f32⟩
  | .local _ .vmem, ⟨26, _⟩ => ⟨S64x48, .f32⟩
  | .local _ .vmem, ⟨27, _⟩ => ⟨S1x48, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S88x14, .f32⟩
  | .local _ .vmem, ⟨33, _⟩ => ⟨S1x14, .f32⟩
  | .local _ .vmem, ⟨34, _⟩ => ⟨S2048x14, .f32⟩
  | .local _ .vmem, ⟨35, _⟩ => ⟨S2048x14, .f32⟩
  | .local _ .vmem, ⟨36, _⟩ => ⟨S2048x48, .f32⟩
  | .local _ .vmem, ⟨37, _⟩ => ⟨S2048x48, .f32⟩
  | .local _ .vmem, ⟨38, _⟩ => ⟨S128x8x64, .f32⟩
  | .local _ .vmem, ⟨39, _⟩ => ⟨S128x8x64, .f32⟩
  | .local _ .vmem, ⟨40, _⟩ => ⟨S64x64, .f32⟩
  | .local _ .vmem, ⟨41, _⟩ => ⟨S64x64, .f32⟩
  | .local _ .vmem, ⟨42, _⟩ => ⟨S1x64, .f32⟩
  | .local _ .vmem, ⟨43, _⟩ => ⟨S1x8x64, .f32⟩
  | .local _ .vmem, ⟨44, _⟩ => ⟨S1x8x64, .f32⟩
  | .local _ .vmem, ⟨45, _⟩ => ⟨S1x8x64, .f32⟩
  | .local _ .vmem, ⟨46, _⟩ => ⟨S1x8x64, .f32⟩
  | .local _ .vmem, ⟨47, _⟩ => ⟨S128x8x64, .f32⟩
  | .local _ .vmem, ⟨48, _⟩ => ⟨S128x8x64, .f32⟩
  | .local _ .vmem, ⟨49, _⟩ => ⟨S64x64, .f32⟩
  | .local _ .vmem, ⟨50, _⟩ => ⟨S64x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S1x64, .f32⟩
  | .local _ .vmem, ⟨55, _⟩ => ⟨S1x64, .f32⟩
  | .local _ .vmem, ⟨56, _⟩ => ⟨S64x6, .f32⟩
  | .local _ .vmem, ⟨57, _⟩ => ⟨S1x6, .f32⟩
  | .local _ .vmem, ⟨58, _⟩ => ⟨S128x8x24, .f32⟩
  | .local _ .vmem, ⟨59, _⟩ => ⟨S128x8x24, .f32⟩
  | .local _ .vmem, ⟨60, _⟩ => ⟨S128x8x24, .f32⟩
  | .local _ .vmem, ⟨61, _⟩ => ⟨S128x8x24, .f32⟩
  | .local _ .vmem, ⟨62, _⟩ => ⟨S128x1, .f32⟩
  | .local _ .vmem, ⟨63, _⟩ => ⟨S128x1, .f32⟩
  | _, _ => ⟨S65536x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12_0 : Ref sig .tc := ⟨.hbm, 35, rfl⟩
abbrev main_v12_1 : Ref sig .tc := ⟨.hbm, 36, rfl⟩
abbrev main_v12_2 : Ref sig .tc := ⟨.hbm, 37, rfl⟩
abbrev main_v12_3 : Ref sig .tc := ⟨.hbm, 38, rfl⟩
abbrev main_v13 : Ref sig .tc := ⟨.hbm, 39, rfl⟩
abbrev main_v14 : Ref sig .tc := ⟨.hbm, 40, rfl⟩
abbrev main_cst : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_0 : Ref sig .tc := ⟨.hbm, 45, rfl⟩
abbrev main_v18 : Ref sig .tc := ⟨.hbm, 46, rfl⟩
abbrev main_cst_1 : Ref sig .tc := ⟨.hbm, 47, rfl⟩
abbrev main_v19 : Ref sig .tc := ⟨.hbm, 48, rfl⟩
abbrev main_v20 : Ref sig .tc := ⟨.hbm, 49, rfl⟩
abbrev main_cst_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28_0 : Ref sig .tc := ⟨.hbm, 58, rfl⟩
abbrev main_v28_1 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34_0 : Ref sig .tc := ⟨.hbm, 65, rfl⟩
abbrev main_v34_1 : Ref sig .tc := ⟨.hbm, 66, rfl⟩
abbrev main_v35 : Ref sig .tc := ⟨.hbm, 67, rfl⟩
abbrev main_v36 : Ref sig .tc := ⟨.hbm, 68, rfl⟩
abbrev main_cst_3 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_4 : Ref sig .tc := ⟨.hbm, 73, rfl⟩
abbrev main_v40 : Ref sig .tc := ⟨.hbm, 74, rfl⟩
abbrev main_cst_5 : Ref sig .tc := ⟨.hbm, 75, rfl⟩
abbrev main_v41 : Ref sig .tc := ⟨.hbm, 76, rfl⟩
abbrev main_v42 : Ref sig .tc := ⟨.hbm, 77, rfl⟩
abbrev main_cst_6 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg10_0 : Ref sig .tc := ⟨.vmem, 33, rfl⟩
abbrev cc1_stg11_0 : Ref sig .tc := ⟨.vmem, 34, rfl⟩
abbrev cc1_stg11_1 : Ref sig .tc := ⟨.vmem, 35, rfl⟩
abbrev cc1_stg12_0 : Ref sig .tc := ⟨.vmem, 36, rfl⟩
abbrev cc1_stg12_1 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg2_0 : Ref sig .tc := ⟨.vmem, 41, rfl⟩
abbrev cc2_stg3_0 : Ref sig .tc := ⟨.vmem, 42, rfl⟩
abbrev cc2_stg4_0 : Ref sig .tc := ⟨.vmem, 43, rfl⟩
abbrev cc2_stg4_1 : Ref sig .tc := ⟨.vmem, 44, rfl⟩
abbrev cc2_stg5_0 : Ref sig .tc := ⟨.vmem, 45, rfl⟩
abbrev cc2_stg5_1 : Ref sig .tc := ⟨.vmem, 46, rfl⟩
abbrev cc3_stg0_0 : Ref sig .tc := ⟨.vmem, 47, rfl⟩
abbrev cc3_stg0_1 : Ref sig .tc := ⟨.vmem, 48, rfl⟩
abbrev cc3_stg1_0 : Ref sig .tc := ⟨.vmem, 49, rfl⟩
abbrev cc3_stg2_0 : Ref sig .tc := ⟨.vmem, 50, rfl⟩
abbrev cc3_stg3_0 : Ref sig .tc := ⟨.vmem, 51, rfl⟩
abbrev cc3_stg4_0 : Ref sig .tc := ⟨.vmem, 52, rfl⟩
abbrev cc3_stg5_0 : Ref sig .tc := ⟨.vmem, 53, rfl⟩
abbrev cc3_stg6_0 : Ref sig .tc := ⟨.vmem, 54, rfl⟩
abbrev cc3_stg7_0 : Ref sig .tc := ⟨.vmem, 55, rfl⟩
abbrev cc3_stg8_0 : Ref sig .tc := ⟨.vmem, 56, rfl⟩
abbrev cc3_stg9_0 : Ref sig .tc := ⟨.vmem, 57, rfl⟩
abbrev cc3_stg10_0 : Ref sig .tc := ⟨.vmem, 58, rfl⟩
abbrev cc3_stg10_1 : Ref sig .tc := ⟨.vmem, 59, rfl⟩
abbrev cc3_stg11_0 : Ref sig .tc := ⟨.vmem, 60, rfl⟩
abbrev cc3_stg11_1 : Ref sig .tc := ⟨.vmem, 61, rfl⟩
abbrev cc3_stg12_0 : Ref sig .tc := ⟨.vmem, 62, rfl⟩
abbrev cc3_stg12_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem11_0 : DmaSem sig := 34
abbrev cc1_sem11_1 : DmaSem sig := 35
abbrev cc1_sem12_0 : DmaSem sig := 36
abbrev cc1_sem12_1 : DmaSem sig := 37
abbrev cc2_sem0_0 : DmaSem sig := 38
abbrev cc2_sem0_1 : DmaSem sig := 39
abbrev cc2_sem1_0 : DmaSem sig := 40
abbrev cc2_sem2_0 : DmaSem sig := 41
abbrev cc2_sem3_0 : DmaSem sig := 42
abbrev cc2_sem4_0 : DmaSem sig := 43
abbrev cc2_sem4_1 : DmaSem sig := 44
abbrev cc2_sem5_0 : DmaSem sig := 45
abbrev cc2_sem5_1 : DmaSem sig := 46
abbrev cc3_sem0_0 : DmaSem sig := 47
abbrev cc3_sem0_1 : DmaSem sig := 48
abbrev cc3_sem1_0 : DmaSem sig := 49
abbrev cc3_sem2_0 : DmaSem sig := 50
abbrev cc3_sem3_0 : DmaSem sig := 51
abbrev cc3_sem4_0 : DmaSem sig := 52
abbrev cc3_sem5_0 : DmaSem sig := 53
abbrev cc3_sem6_0 : DmaSem sig := 54
abbrev cc3_sem7_0 : DmaSem sig := 55
abbrev cc3_sem8_0 : DmaSem sig := 56
abbrev cc3_sem9_0 : DmaSem sig := 57
abbrev cc3_sem10_0 : DmaSem sig := 58
abbrev cc3_sem10_1 : DmaSem sig := 59
abbrev cc3_sem11_0 : DmaSem sig := 60
abbrev cc3_sem11_1 : DmaSem sig := 61
abbrev cc3_sem12_0 : DmaSem sig := 62
abbrev cc3_sem12_1 : DmaSem sig := 63

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x24 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x48 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x48 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S88x14 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x14 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2048x14 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S2048x48 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![64], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S128x8x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x8x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x8x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![64], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x8x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x6 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x6 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S128x8x24 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S128x8x24 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S128x1 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

class Facts₀ : Prop where
  shapeCasts_S64_S1x64 : S64.ShapeCasts S1x64
  shapeCasts_S192_S1x192 : S192.ShapeCasts S1x192
  shapeCasts_S48_S1x48 : S48.ShapeCasts S1x48
  shapeCasts_S6_S1x6 : S6.ShapeCasts S1x6
  shapeCasts_S14_S1x14 : S14.ShapeCasts S1x14
  inb_S1024x96_S1024x96_0_0 : ∀ a, (![0, 0] : Fin 2 → Nat) a + S1024x96.size a ≤ S1024x96.size a
  h_S1024x96 : 0 < S1024x96.numel
  bitsLt_bf16_f32 : FTy.bits .bf16 < FTy.bits .f32
  inb_S96x64_S96x64_0_0 : ∀ a, (![0, 0] : Fin 2 → Nat) a + S96x64.size a ≤ S96x64.size a
  h_S96x64 : 0 < S96x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  inb_S64x192_S64x192_0_0 : ∀ a, (![0, 0] : Fin 2 → Nat) a + S64x192.size a ≤ S64x192.size a
  h_S64x192 : 0 < S64x192.numel
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S1024x192 : S1x192.Broadcasts S1024x192
  slices_S1024x192_o0_0_S1024x64 : S1024x192.Slices ![0, 0] S1024x64
  slices_S1024x192_o0_64_S1024x64 : S1024x192.Slices ![0, 64] S1024x64
  slices_S1024x192_o0_128_S1024x64 : S1024x192.Slices ![0, 128] S1024x64
  inb_S64x64_S64x64_0_0 : ∀ a, (![0, 0] : Fin 2 → Nat) a + S64x64.size a ≤ S64x64.size a
  h_S64x64 : 0 < S64x64.numel
  reduces_S1024x64_S64 : S1024x64.Reduces [0] S64
  broadcasts_S1x64_S8x64 : S1x64.Broadcasts S8x64
  inb_S1x8x64_S1x8x64_0_0_0 : ∀ a, (![0, 0, 0] : Fin 3 → Nat) a + S1x8x64.size a ≤ S1x8x64.size a
  h_S1x8x64 : 0 < S1x8x64.numel
  shapeCasts_S1x8x64_S8x64 : S1x8x64.ShapeCasts S8x64
  shapeCasts_S8x64_S1x8x64 : S8x64.ShapeCasts S1x8x64
  slices_S64x8x64_S64x1x64_0_0_0 : S64x8x64.Slices ![0, 0, 0] S64x1x64
  shapeCasts_S64x1x64_S64x64 : S64x1x64.ShapeCasts S64x64
  reducesTo_S64x64_S64_d0 : S64x64.ReducesTo [0] S64
  h_S_ : 0 < S_.numel
  bcast_S_S64 : S_.BroadcastsInDim S64 (![] : Fin 0 → Fin S64.rank)
  shapeCasts_S8192x8x24_S65536x24 : S8192x8x24.ShapeCasts S65536x24
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S1x64_S2048x64 : S1x64.Broadcasts S2048x64
  inb_S64x48_S64x48_0_0 : ∀ a, (![0, 0] : Fin 2 → Nat) a + S64x48.size a ≤ S64x48.size a
  h_S64x48 : 0 < S64x48.numel
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S2048x48 : S1x48.Broadcasts S2048x48
  slices_S2048x48_o0_0_S2048x24 : S2048x48.Slices ![0, 0] S2048x24
  slices_S2048x48_o0_24_S2048x24 : S2048x48.Slices ![0, 24] S2048x24
  inb_S2048x24_S2048x24_0_0 : ∀ a, (![0, 0] : Fin 2 → Nat) a + S2048x24.size a ≤ S2048x24.size a
  h_S2048x24 : 0 < S2048x24.numel
  shapeCasts_S2048x24_S2048x24 : S2048x24.ShapeCasts S2048x24
  concatenates_S2048x64_S2048x24_S2048x88_d1 : Shape.Concatenates [S2048x64, S2048x24] S2048x88 1
  inb_S88x14_S88x14_0_0 : ∀ a, (![0, 0] : Fin 2 → Nat) a + S88x14.size a ≤ S88x14.size a
  h_S88x14 : 0 < S88x14.numel
  inb_S1x14_S1x14_0_0 : ∀ a, (![0, 0] : Fin 2 → Nat) a + S1x14.size a ≤ S1x14.size a
  h_S1x14 : 0 < S1x14.numel
  shapeCasts_S1x14_S1x14 : S1x14.ShapeCasts S1x14
  broadcasts_S1x14_S2048x14 : S1x14.Broadcasts S2048x14
  inb_S2048x14_S2048x14_0_0 : ∀ a, (![0, 0] : Fin 2 → Nat) a + S2048x14.size a ≤ S2048x14.size a
  h_S2048x14 : 0 < S2048x14.numel
  concatenates_S2048x24_S2048x24_S2048x48_d1 : Shape.Concatenates [S2048x24, S2048x24] S2048x48 1
  inb_S2048x48_S2048x48_0_0 : ∀ a, (![0, 0] : Fin 2 → Nat) a + S2048x48.size a ≤ S2048x48.size a
  h_S2048x48 : 0 < S2048x48.numel
  slices_S65536x48_S65536x24_0_0 : S65536x48.Slices ![0, 0] S65536x24
  slices_S65536x48_S65536x24_0_24 : S65536x48.Slices ![0, 24] S65536x24
  shapeCasts_S65536x64_S8192x8x64 : S65536x64.ShapeCasts S8192x8x64
  slices_S128x64_S64x64_0_0 : S128x64.Slices ![0, 0] S64x64
  slices_S128x64_S64x64_64_0 : S128x64.Slices ![64, 0] S64x64
  inb_S128x8x64_S128x8x64_0_0_0 : ∀ a, (![0, 0, 0] : Fin 3 → Nat) a + S128x8x64.size a ≤ S128x8x64.size a
  h_S128x8x64 : 0 < S128x8x64.numel
  shapeCasts_S128x8x64_S128x8x64 : S128x8x64.ShapeCasts S128x8x64
  shapeCasts_S128x8x64_S1024x64 : S128x8x64.ShapeCasts S1024x64
  shapeCasts_S64x64_S64x64 : S64x64.ShapeCasts S64x64
  shapeCasts_S1024x64_S128x8x64 : S1024x64.ShapeCasts S128x8x64
  shapeCasts_S128x8x64_S128x1x8x64 : S128x8x64.ShapeCasts S128x1x8x64
  shapeCasts_S128x1x8x64_S128x1x8x64 : S128x1x8x64.ShapeCasts S128x1x8x64
  broadcasts_S128x1x8x64_S128x8x8x64 : S128x1x8x64.Broadcasts S128x8x8x64
  shapeCasts_S128x8x64_S128x8x1x64 : S128x8x64.ShapeCasts S128x8x1x64
  shapeCasts_S128x8x1x64_S128x8x1x64 : S128x8x1x64.ShapeCasts S128x8x1x64
  broadcasts_S128x8x1x64_S128x8x8x64 : S128x8x1x64.Broadcasts S128x8x8x64
  shapeCasts_S1x64_S1x1x1x64 : S1x64.ShapeCasts S1x1x1x64
  broadcasts_S1x1x1x64_S128x8x8x64 : S1x1x1x64.Broadcasts S128x8x8x64
  reduces_S128x8x8x64_S128x8x64 : S128x8x8x64.Reduces [2] S128x8x64
  reduces_S128x8x64_S128x64 : S128x8x64.Reduces [1] S128x64
  reduces_S128x64_S64 : S128x64.Reduces [0] S64
  shapeCasts_S65536x24_S8192x8x24 : S65536x24.ShapeCasts S8192x8x24
  shapeCasts_S128x8x8x64_S8192x64 : S128x8x8x64.ShapeCasts S8192x64
  inb_S64x6_S64x6_0_0 : ∀ a, (![0, 0] : Fin 2 → Nat) a + S64x6.size a ≤ S64x6.size a
  h_S64x6 : 0 < S64x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S8192x6 : S1x6.Broadcasts S8192x6
  shapeCasts_S8192x6_S128x8x8x6 : S8192x6.ShapeCasts S128x8x8x6
  slices_S128x8x8x6_o0_0_0_0_S128x8x4x6 : S128x8x8x6.Slices ![0, 0, 0, 0] S128x8x4x6
  shapeCasts_S128x8x4x6_S128x8x24 : S128x8x4x6.ShapeCasts S128x8x24
  slices_S128x8x8x6_o0_0_4_0_S128x8x4x6 : S128x8x8x6.Slices ![0, 0, 4, 0] S128x8x4x6
  inb_S128x8x24_S128x8x24_0_0_0 : ∀ a, (![0, 0, 0] : Fin 3 → Nat) a + S128x8x24.size a ≤ S128x8x24.size a
  h_S128x8x24 : 0 < S128x8x24.numel
  shapeCasts_S128x8x24_S128x8x24 : S128x8x24.ShapeCasts S128x8x24
  reduces_S128x8x24_S128x8 : S128x8x24.Reduces [2] S128x8
  reduces_S128x8_S128 : S128x8.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  dot_S1024x96_S96x64_S1024x64_1_0_0_1_n_n_wf : DotDims.WF S1024x96 S96x64 S1024x64 [1] [0] [0] [1] [] []
  dot_S1024x64_S64x192_S1024x192_1_0_0_1_n_n_wf : DotDims.WF S1024x64 S64x192 S1024x192 [1] [0] [0] [1] [] []
  dot_S1024x64_S64x64_S1024x64_1_0_0_1_n_n_wf : DotDims.WF S1024x64 S64x64 S1024x64 [1] [0] [0] [1] [] []
  dot_S2048x64_S64x48_S2048x48_1_0_0_1_n_n_wf : DotDims.WF S2048x64 S64x48 S2048x48 [1] [0] [0] [1] [] []
  dot_S2048x88_S88x14_S2048x14_1_0_0_1_n_n_wf : DotDims.WF S2048x88 S88x14 S2048x14 [1] [0] [0] [1] [] []
  dot_S8192x64_S64x6_S8192x6_1_0_0_1_n_n_wf : DotDims.WF S8192x64 S64x6 S8192x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x96.size a ≤ S65536x96.size a
  hwx0_0 : ∀ i : grid0.Coords, EltTy.bits .f32 = 32 ∨ (Rect.block (s := S65536x96) S1024x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S65536x64.size a
  hwx0_1 : ∀ i : grid0.Coords, EltTy.bits .f32 = 32 ∨ (Rect.block (s := S65536x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x64.size a ≤ S96x64.size a
  hwx0_2 : ∀ i : grid0.Coords, EltTy.bits .f32 = 32 ∨ (Rect.block (s := S96x64) S96x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x192.size a ≤ S64x192.size a
  hwx0_4 : ∀ i : grid0.Coords, EltTy.bits .f32 = 32 ∨ (Rect.block (s := S64x192) S64x192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x192.size a ≤ S64x192.size a
  hwx0_5 : ∀ i : grid0.Coords, EltTy.bits .f32 = 32 ∨ (Rect.block (s := S64x192) S64x192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x192.size a ≤ S1x192.size a
  hwx0_6 : ∀ i : grid0.Coords, EltTy.bits .f32 = 32 ∨ (Rect.block (s := S1x192) S1x192.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x192.size a ≤ S1x192.size a
  hwx0_7 : ∀ i : grid0.Coords, EltTy.bits .f32 = 32 ∨ (Rect.block (s := S1x192) S1x192.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x64.size a ≤ S65536x64.size a
  hwx0_10 : ∀ i : grid0.Coords, EltTy.bits .f32 = 32 ∨ (Rect.block (s := S65536x64) S1024x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x64.size a ≤ S65536x64.size a
  hwx0_11 : ∀ i : grid0.Coords, EltTy.bits .f32 = 32 ∨ (Rect.block (s := S65536x64) S1024x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x8x64.size a ≤ S64x8x64.size a
  hwx0_12 : ∀ i : grid0.Coords, EltTy.bits .f32 = 32 ∨ (Rect.block (s := S64x8x64) S1x8x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x8x64.size a ≤ S64x8x64.size a
  hwx0_13 : ∀ i : grid0.Coords, EltTy.bits .f32 = 32 ∨ (Rect.block (s := S64x8x64) S1x8x64.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S65536x64.size a
  hwx1_0 : ∀ i : grid1.Coords, EltTy.bits .f32 = 32 ∨ (Rect.block (s := S65536x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S65536x64.size a
  hwx1_1 : ∀ i : grid1.Coords, EltTy.bits .f32 = 32 ∨ (Rect.block (s := S65536x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x24.size a ≤ S65536x24.size a
  hwx1_2 : ∀ i : grid1.Coords, EltTy.bits .f32 = 32 ∨ (Rect.block (s := S65536x24) S2048x24.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x48.size a ≤ S64x48.size a
  hwx1_3 : ∀ i : grid1.Coords, EltTy.bits .f32 = 32 ∨ (Rect.block (s := S64x48) S64x48.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x48.size a ≤ S1x48.size a
  hwx1_4 : ∀ i : grid1.Coords, EltTy.bits .f32 = 32 ∨ (Rect.block (s := S1x48) S1x48.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S88x14.size a ≤ S88x14.size a
  hwx1_9 : ∀ i : grid1.Coords, EltTy.bits .f32 = 32 ∨ (Rect.block (s := S88x14) S88x14.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x14.size a ≤ S1x14.size a
  hwx1_10 : ∀ i : grid1.Coords, EltTy.bits .f32 = 32 ∨ (Rect.block (s := S1x14) S1x14.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2048x14.size a ≤ S65536x14.size a
  hwx1_11 : ∀ i : grid1.Coords, EltTy.bits .f32 = 32 ∨ (Rect.block (s := S65536x14) S2048x14.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2048x48.size a ≤ S65536x48.size a
  hwx1_12 : ∀ i : grid1.Coords, EltTy.bits .f32 = 32 ∨ (Rect.block (s := S65536x48) S2048x48.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x8x64.size a ≤ S8192x8x64.size a
  hwx2_0 : ∀ i : grid2.Coords, EltTy.bits .f32 = 32 ∨ (Rect.block (s := S8192x8x64) S128x8x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x8x64.size a ≤ S64x8x64.size a
  hwx2_4 : ∀ i : grid2.Coords, EltTy.bits .f32 = 32 ∨ (Rect.block (s := S64x8x64) S1x8x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x8x64.size a ≤ S64x8x64.size a
  hwx2_5 : ∀ i : grid2.Coords, EltTy.bits .f32 = 32 ∨ (Rect.block (s := S64x8x64) S1x8x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x8x64.size a ≤ S8192x8x64.size a
  hwx3_0 : ∀ i : grid3.Coords, EltTy.bits .f32 = 32 ∨ (Rect.block (s := S8192x8x64) S128x8x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x6.size a ≤ S64x6.size a
  hwx3_8 : ∀ i : grid3.Coords, EltTy.bits .f32 = 32 ∨ (Rect.block (s := S64x6) S64x6.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x6.size a ≤ S1x6.size a
  hwx3_9 : ∀ i : grid3.Coords, EltTy.bits .f32 = 32 ∨ (Rect.block (s := S1x6) S1x6.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S128x8x24.size a ≤ S8192x8x24.size a
  hwx3_10 : ∀ i : grid3.Coords, EltTy.bits .f32 = 32 ∨ (Rect.block (s := S8192x8x24) S128x8x24.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S128x8x24.size a ≤ S8192x8x24.size a
  hwx3_11 : ∀ i : grid3.Coords, EltTy.bits .f32 = 32 ∨ (Rect.block (s := S8192x8x24) S128x8x24.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S128x1.size a ≤ S8192x1.size a
  hwx3_12 : ∀ i : grid3.Coords, EltTy.bits .f32 = 32 ∨ (Rect.block (s := S8192x1) S128x1.size (cc3_transform_12 i) (hinb3_12 i)).WholeWords (EltTy.packing .f32)

variable [Facts₀]

def dot_S1024x96_S96x64_S1024x64_1_0_0_1_n_n : DotDims S1024x96 S96x64 S1024x64 where
  lhsContracting := [1]
  rhsContracting := [0]
  lhsNonContracting := [0]
  rhsNonContracting := [1]
  lhsBatch := []
  rhsBatch := []
  wf := dot_S1024x96_S96x64_S1024x64_1_0_0_1_n_n_wf
def dot_S1024x64_S64x192_S1024x192_1_0_0_1_n_n : DotDims S1024x64 S64x192 S1024x192 where
  lhsContracting := [1]
  rhsContracting := [0]
  lhsNonContracting := [0]
  rhsNonContracting := [1]
  lhsBatch := []
  rhsBatch := []
  wf := dot_S1024x64_S64x192_S1024x192_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S2048x64_S64x48_S2048x48_1_0_0_1_n_n : DotDims S2048x64 S64x48 S2048x48 where
  lhsContracting := [1]
  rhsContracting := [0]
  lhsNonContracting := [0]
  rhsNonContracting := [1]
  lhsBatch := []
  rhsBatch := []
  wf := dot_S2048x64_S64x48_S2048x48_1_0_0_1_n_n_wf
def dot_S2048x88_S88x14_S2048x14_1_0_0_1_n_n : DotDims S2048x88 S88x14 S2048x14 where
  lhsContracting := [1]
  rhsContracting := [0]
  lhsNonContracting := [0]
  rhsNonContracting := [1]
  lhsBatch := []
  rhsBatch := []
  wf := dot_S2048x88_S88x14_S2048x14_1_0_0_1_n_n_wf
def dot_S8192x64_S64x6_S8192x6_1_0_0_1_n_n : DotDims S8192x64 S64x6 S8192x6 where
  lhsContracting := [1]
  rhsContracting := [0]
  lhsNonContracting := [0]
  rhsNonContracting := [1]
  lhsBatch := []
  rhsBatch := []
  wf := dot_S8192x64_S64x6_S8192x6_1_0_0_1_n_n_wf

abbrev win0_0 : Pipeline.Window sig grid0 :=
  Pipeline.Window.ofSpec (Memref.whole main_arg0) S1024x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S96x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x192.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12_0) S1024x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v12_1) S1024x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v12_2) S1x8x64.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v12_3) S1x8x64.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v12_1) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_0) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S2048x24.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S64x48.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x48.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v26) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg21) S88x14.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v11) S1x14.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v28_0) S2048x14.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v28_1) S2048x48.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v31) S128x8x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34_0) S1x8x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v34_1) S1x8x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v31) S128x8x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v33) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v48) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v8) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v9) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg19) S64x6.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v10) S1x6.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v49) S128x8x24.size cc3_transform_10 reads3_10 false false 2 stage3_10 sem3_10
    hrank3 hreads3_10 hinb3_10 nbuf3_10 (Memref.isWhole_whole _) hwx3_10 hstage3_10

abbrev win3_11 : Pipeline.Window sig grid3 :=
  Pipeline.Window.ofSpec (Memref.whole main_v50) S128x8x24.size cc3_transform_11 reads3_11 false false 2 stage3_11 sem3_11
    hrank3 hreads3_11 hinb3_11 nbuf3_11 (Memref.isWhole_whole _) hwx3_11 hstage3_11

abbrev win3_12 : Pipeline.Window sig grid3 :=
  Pipeline.Window.ofSpec (Memref.whole main_v51) S128x1.size cc3_transform_12 reads3_12 true false 2 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

class Facts : Prop extends Facts₀ where

variable [Facts]
-- ==== ReferenceIdeal.lean ====
abbrev S65536x96 : Shape := ⟨2, ![65536, 96]⟩
abbrev S65536x64 : Shape := ⟨2, ![65536, 64]⟩
abbrev S8192x8x24 : Shape := ⟨3, ![8192, 8, 24]⟩
abbrev S96x64 : Shape := ⟨2, ![96, 64]⟩
abbrev S64 : Shape := ⟨1, ![64]⟩
abbrev S64x192 : Shape := ⟨2, ![64, 192]⟩
abbrev S192 : Shape := ⟨1, ![192]⟩
abbrev S64x64 : Shape := ⟨2, ![64, 64]⟩
abbrev S64x48 : Shape := ⟨2, ![64, 48]⟩
abbrev S48 : Shape := ⟨1, ![48]⟩
abbrev S128x64 : Shape := ⟨2, ![128, 64]⟩
abbrev S64x6 : Shape := ⟨2, ![64, 6]⟩
abbrev S6 : Shape := ⟨1, ![6]⟩
abbrev S88x14 : Shape := ⟨2, ![88, 14]⟩
abbrev S14 : Shape := ⟨1, ![14]⟩
abbrev S1x64 : Shape := ⟨2, ![1, 64]⟩
abbrev S_ : Shape := ⟨0, ![]⟩
abbrev S65536x192 : Shape := ⟨2, ![65536, 192]⟩
abbrev S1x192 : Shape := ⟨2, ![1, 192]⟩
abbrev S65536x48 : Shape := ⟨2, ![65536, 48]⟩
abbrev S1x48 : Shape := ⟨2, ![1, 48]⟩
abbrev S8192x8x48 : Shape := ⟨3, ![8192, 8, 48]⟩
abbrev S65536x24 : Shape := ⟨2, ![65536, 24]⟩
abbrev S65536x88 : Shape := ⟨2, ![65536, 88]⟩
abbrev S65536x14 : Shape := ⟨2, ![65536, 14]⟩
abbrev S1x14 : Shape := ⟨2, ![1, 14]⟩
abbrev S8192x8x64 : Shape := ⟨3, ![8192, 8, 64]⟩
abbrev S8192x1x8x64 : Shape := ⟨4, ![8192, 1, 8, 64]⟩
abbrev S8192x8x8x64 : Shape := ⟨4, ![8192, 8, 8, 64]⟩
abbrev S8192x8x1x64 : Shape := ⟨4, ![8192, 8, 1, 64]⟩
abbrev S8192x8x8x128 : Shape := ⟨4, ![8192, 8, 8, 128]⟩
abbrev S524288x128 : Shape := ⟨2, ![524288, 128]⟩
abbrev S524288x64 : Shape := ⟨2, ![524288, 64]⟩
abbrev S524288x6 : Shape := ⟨2, ![524288, 6]⟩
abbrev S1x6 : Shape := ⟨2, ![1, 6]⟩
abbrev S8192x8 : Shape := ⟨2, ![8192, 8]⟩
abbrev S8192 : Shape := ⟨1, ![8192]⟩
abbrev S8192x1 : Shape := ⟨2, ![8192, 1]⟩

abbrev nBuf : Space → Nat
  | .hbm => 207
  | .vmem => 0
  | .smem => 0
  | _ => 0

abbrev hbmTy0_0 (i : Nat) : BufTy := match i % 128 with
  | 0 => ⟨S65536x96, .f32⟩
  | 1 => ⟨S65536x64, .f32⟩
  | 2 => ⟨S8192x8x24, .f32⟩
  | 3 => ⟨S96x64, .f32⟩
  | 4 => ⟨S64, .f32⟩
  | 5 => ⟨S64x192, .f32⟩
  | 6 => ⟨S64x192, .f32⟩
  | 7 => ⟨S192, .f32⟩
  | 8 => ⟨S192, .f32⟩
  | 9 => ⟨S64x64, .f32⟩
  | 10 => ⟨S64, .f32⟩
  | 11 => ⟨S64, .f32⟩
  | 12 => ⟨S64, .f32⟩
  | 13 => ⟨S64x48, .f32⟩
  | 14 => ⟨S48, .f32⟩
  | 15 => ⟨S128x64, .f32⟩
  | 16 => ⟨S64, .f32⟩
  | 17 => ⟨S64, .f32⟩
  | 18 => ⟨S64, .f32⟩
  | 19 => ⟨S64x6, .f32⟩
  | 20 => ⟨S6, .f32⟩
  | 21 => ⟨S88x14, .f32⟩
  | 22 => ⟨S14, .f32⟩
  | 23 => ⟨S65536x64, .f32⟩
  | 24 => ⟨S1x64, .f32⟩
  | 25 => ⟨S65536x64, .f32⟩
  | 26 => ⟨S65536x64, .f32⟩
  | 27 => ⟨S_, .f32⟩
  | 28 => ⟨S65536x64, .f32⟩
  | 29 => ⟨S65536x64, .f32⟩
  | 30 => ⟨S65536x192, .f32⟩
  | 31 => ⟨S1x192, .f32⟩
  | 32 => ⟨S65536x192, .f32⟩
  | 33 => ⟨S65536x192, .f32⟩
  | 34 => ⟨S65536x192, .f32⟩
  | 35 => ⟨S1x192, .f32⟩
  | 36 => ⟨S65536x192, .f32⟩
  | 37 => ⟨S65536x192, .f32⟩
  | 38 => ⟨S65536x64, .f32⟩
  | 39 => ⟨S65536x64, .f32⟩
  | 40 => ⟨S65536x64, .f32⟩
  | 41 => ⟨S65536x64, .f32⟩
  | 42 => ⟨S65536x64, .f32⟩
  | 43 => ⟨S65536x64, .f32⟩
  | 44 => ⟨S65536x64, .f32⟩
  | 45 => ⟨S65536x64, .f32⟩
  | 46 => ⟨S65536x64, .f32⟩
  | 47 => ⟨S_, .f32⟩
  | 48 => ⟨S65536x64, .f32⟩
  | 49 => ⟨S65536x64, .f32⟩
  | 50 => ⟨S_, .f32⟩
  | 51 => ⟨S65536x64, .f32⟩
  | 52 => ⟨S65536x64, .f32⟩
  | 53 => ⟨S65536x64, .f32⟩
  | 54 => ⟨S65536x64, .f32⟩
  | 55 => ⟨S65536x64, .f32⟩
  | 56 => ⟨S_, .f32⟩
  | 57 => ⟨S65536x64, .f32⟩
  | 58 => ⟨S65536x64, .f32⟩
  | 59 => ⟨S_, .f32⟩
  | 60 => ⟨S65536x64, .f32⟩
  | 61 => ⟨S65536x64, .f32⟩
  | 62 => ⟨S65536x64, .f32⟩
  | 63 => ⟨S65536x64, .f32⟩
  | 64 => ⟨S65536x64, .f32⟩
  | 65 => ⟨S_, .f32⟩
  | 66 => ⟨S65536x64, .f32⟩
  | 67 => ⟨S65536x64, .f32⟩
  | 68 => ⟨S65536x64, .f32⟩
  | 69 => ⟨S65536x64, .f32⟩
  | 70 => ⟨S65536x64, .f32⟩
  | 71 => ⟨S65536x64, .f32⟩
  | 72 => ⟨S1x64, .f32⟩
  | 73 => ⟨S65536x64, .f32⟩
  | 74 => ⟨S65536x64, .f32⟩
  | 75 => ⟨S_, .f32⟩
  | 76 => ⟨S64, .f32⟩
  | 77 => ⟨S_, .f32⟩
  | 78 => ⟨S64, .f32⟩
  | 79 => ⟨S64, .f32⟩
  | 80 => ⟨S1x64, .f32⟩
  | 81 => ⟨S65536x64, .f32⟩
  | 82 => ⟨S65536x64, .f32⟩
  | 83 => ⟨S65536x64, .f32⟩
  | 84 => ⟨S_, .f32⟩
  | 85 => ⟨S64, .f32⟩
  | 86 => ⟨S_, .f32⟩
  | 87 => ⟨S64, .f32⟩
  | 88 => ⟨S64, .f32⟩
  | 89 => ⟨S1x64, .f32⟩
  | 90 => ⟨S65536x64, .f32⟩
  | 91 => ⟨S65536x64, .f32⟩
  | 92 => ⟨S1x64, .f32⟩
  | 93 => ⟨S65536x64, .f32⟩
  | 94 => ⟨S65536x64, .f32⟩
  | 95 => ⟨S_, .f32⟩
  | 96 => ⟨S64, .f32⟩
  | 97 => ⟨S64, .f32⟩
  | 98 => ⟨S64, .f32⟩
  | 99 => ⟨S1x64, .f32⟩
  | 100 => ⟨S65536x64, .f32⟩
  | 101 => ⟨S65536x64, .f32⟩
  | 102 => ⟨S1x64, .f32⟩
  | 103 => ⟨S65536x64, .f32⟩
  | 104 => ⟨S65536x64, .f32⟩
  | 105 => ⟨S_, .f32⟩
  | 106 => ⟨S65536x64, .f32⟩
  | 107 => ⟨S65536x64, .f32⟩
  | 108 => ⟨S65536x48, .f32⟩
  | 109 => ⟨S1x48, .f32⟩
  | 110 => ⟨S65536x48, .f32⟩
  | 111 => ⟨S65536x48, .f32⟩
  | 112 => ⟨S8192x8x48, .f32⟩
  | 113 => ⟨S8192x8x24, .f32⟩
  | 114 => ⟨S8192x8x24, .f32⟩
  | 115 => ⟨S8192x8x24, .f32⟩
  | 116 => ⟨S_, .f32⟩
  | 117 => ⟨S8192x8x24, .f32⟩
  | 118 => ⟨S8192x8x24, .f32⟩
  | 119 => ⟨S8192x8x24, .f32⟩
  | 120 => ⟨S8192x8x24, .f32⟩
  | 121 => ⟨S8192x8x24, .f32⟩
  | 122 => ⟨S65536x24, .f32⟩
  | 123 => ⟨S65536x88, .f32⟩
  | 124 => ⟨S65536x14, .f32⟩
  | 125 => ⟨S1x14, .f32⟩
  | 126 => ⟨S65536x14, .f32⟩
  | 127 => ⟨S65536x14, .f32⟩
  | _ => ⟨S65536x96, .f32⟩

abbrev hbmTy0_1 (i : Nat) : BufTy := match i % 128 with
  | 0 => ⟨S8192x8x64, .f32⟩
  | 1 => ⟨S8192x1x8x64, .f32⟩
  | 2 => ⟨S8192x8x8x64, .f32⟩
  | 3 => ⟨S8192x8x1x64, .f32⟩
  | 4 => ⟨S8192x8x8x64, .f32⟩
  | 5 => ⟨S8192x8x8x128, .f32⟩
  | 6 => ⟨S524288x128, .f32⟩
  | 7 => ⟨S524288x64, .f32⟩
  | 8 => ⟨S1x64, .f32⟩
  | 9 => ⟨S524288x64, .f32⟩
  | 10 => ⟨S524288x64, .f32⟩
  | 11 => ⟨S_, .f32⟩
  | 12 => ⟨S64, .f32⟩
  | 13 => ⟨S_, .f32⟩
  | 14 => ⟨S64, .f32⟩
  | 15 => ⟨S64, .f32⟩
  | 16 => ⟨S1x64, .f32⟩
  | 17 => ⟨S524288x64, .f32⟩
  | 18 => ⟨S524288x64, .f32⟩
  | 19 => ⟨S524288x64, .f32⟩
  | 20 => ⟨S_, .f32⟩
  | 21 => ⟨S64, .f32⟩
  | 22 => ⟨S_, .f32⟩
  | 23 => ⟨S64, .f32⟩
  | 24 => ⟨S64, .f32⟩
  | 25 => ⟨S1x64, .f32⟩
  | 26 => ⟨S524288x64, .f32⟩
  | 27 => ⟨S524288x64, .f32⟩
  | 28 => ⟨S1x64, .f32⟩
  | 29 => ⟨S524288x64, .f32⟩
  | 30 => ⟨S524288x64, .f32⟩
  | 31 => ⟨S_, .f32⟩
  | 32 => ⟨S64, .f32⟩
  | 33 => ⟨S64, .f32⟩
  | 34 => ⟨S64, .f32⟩
  | 35 => ⟨S1x64, .f32⟩
  | 36 => ⟨S524288x64, .f32⟩
  | 37 => ⟨S524288x64, .f32⟩
  | 38 => ⟨S1x64, .f32⟩
  | 39 => ⟨S524288x64, .f32⟩
  | 40 => ⟨S524288x64, .f32⟩
  | 41 => ⟨S_, .f32⟩
  | 42 => ⟨S524288x64, .f32⟩
  | 43 => ⟨S524288x64, .f32⟩
  | 44 => ⟨S524288x6, .f32⟩
  | 45 => ⟨S1x6, .f32⟩
  | 46 => ⟨S524288x6, .f32⟩
  | 47 => ⟨S524288x6, .f32⟩
  | 48 => ⟨S8192x8x48, .f32⟩
  | 49 => ⟨S8192x8x24, .f32⟩
  | 50 => ⟨S8192x8x24, .f32⟩
  | 51 => ⟨S8192x8x24, .f32⟩
  | 52 => ⟨S_, .f32⟩
  | 53 => ⟨S8192x8x24, .f32⟩
  | 54 => ⟨S8192x8x24, .f32⟩
  | 55 => ⟨S8192x8x24, .f32⟩
  | 56 => ⟨S8192x8x24, .f32⟩
  | 57 => ⟨S8192x8x24, .f32⟩
  | 58 => ⟨S8192x8x24, .f32⟩
  | 59 => ⟨S8192x8x24, .f32⟩
  | 60 => ⟨S8192x8x24, .f32⟩
  | 61 => ⟨S8192x8x24, .f32⟩
  | 62 => ⟨S_, .f32⟩
  | 63 => ⟨S8192x8x24, .f32⟩
  | 64 => ⟨S8192x8x24, .f32⟩
  | 65 => ⟨S_, .f32⟩
  | 66 => ⟨S8192x8x24, .f32⟩
  | 67 => ⟨S8192x8x24, .f32⟩
  | 68 => ⟨S_, .f32⟩
  | 69 => ⟨S8192x8, .f32⟩
  | 70 => ⟨S_, .f32⟩
  | 71 => ⟨S8192x8, .f32⟩
  | 72 => ⟨S8192x8, .f32⟩
  | 73 => ⟨S_, .f32⟩
  | 74 => ⟨S8192, .f32⟩
  | 75 => ⟨S8192x1, .f32⟩
  | 76 => ⟨S_, .f32⟩
  | 77 => ⟨S8192x1, .f32⟩
  | 78 => ⟨S8192x1, .f32⟩
  | _ => ⟨S65536x96, .f32⟩

abbrev hbmTy (i : Nat) : BufTy := match i / 128 with
  | 0 => hbmTy0_0 i
  | 1 => hbmTy0_1 i
  | _ => ⟨S65536x96, .f32⟩

abbrev bufTy : (tb : Table) → Fin (tcTables nBuf tb) → BufTy
  | .hbm, ⟨i, _⟩ => hbmTy i
  | _, _ => ⟨S65536x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_call0_cst : Ref sig .tc := ⟨.hbm, 27, rfl⟩
abbrev main_call0_v0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst : Ref sig .tc := ⟨.hbm, 47, rfl⟩
abbrev main_v22 : Ref sig .tc := ⟨.hbm, 48, rfl⟩
abbrev main_v23 : Ref sig .tc := ⟨.hbm, 49, rfl⟩
abbrev main_cst_0 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_1 : Ref sig .tc := ⟨.hbm, 56, rfl⟩
abbrev main_v29 : Ref sig .tc := ⟨.hbm, 57, rfl⟩
abbrev main_v30 : Ref sig .tc := ⟨.hbm, 58, rfl⟩
abbrev main_cst_2 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_3 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_4 : Ref sig .tc := ⟨.hbm, 75, rfl⟩
abbrev main_v45 : Ref sig .tc := ⟨.hbm, 76, rfl⟩
abbrev main_cst_5 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_6 : Ref sig .tc := ⟨.hbm, 84, rfl⟩
abbrev main_v52 : Ref sig .tc := ⟨.hbm, 85, rfl⟩
abbrev main_cst_7 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_8 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call1_cst : Ref sig .tc := ⟨.hbm, 105, rfl⟩
abbrev main_call1_v0 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_9 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_10 : Ref sig .tc := ⟨.hbm, 139, rfl⟩
abbrev main_v101 : Ref sig .tc := ⟨.hbm, 140, rfl⟩
abbrev main_cst_11 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_12 : Ref sig .tc := ⟨.hbm, 148, rfl⟩
abbrev main_v108 : Ref sig .tc := ⟨.hbm, 149, rfl⟩
abbrev main_cst_13 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_14 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_call2_cst : Ref sig .tc := ⟨.hbm, 169, rfl⟩
abbrev main_call2_v0 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_15 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_cst_16 : Ref sig .tc := ⟨.hbm, 190, rfl⟩
abbrev main_v144 : Ref sig .tc := ⟨.hbm, 191, rfl⟩
abbrev main_v145 : Ref sig .tc := ⟨.hbm, 192, rfl⟩
abbrev main_cst_17 : Ref sig .tc := ⟨.hbm, 193, rfl⟩
abbrev main_v146 : Ref sig .tc := ⟨.hbm, 194, rfl⟩
abbrev main_v147 : Ref sig .tc := ⟨.hbm, 195, rfl⟩
abbrev main_cst_18 : Ref sig .tc := ⟨.hbm, 196, rfl⟩
abbrev main_v148 : Ref sig .tc := ⟨.hbm, 197, rfl⟩
abbrev main_cst_19 : Ref sig .tc := ⟨.hbm, 198, rfl⟩
abbrev main_v149 : Ref sig .tc := ⟨.hbm, 199, rfl⟩
abbrev main_v150 : Ref sig .tc := ⟨.hbm, 200, rfl⟩
abbrev main_cst_20 : Ref sig .tc := ⟨.hbm, 201, rfl⟩
abbrev main_v151 : Ref sig .tc := ⟨.hbm, 202, rfl⟩
abbrev main_v152 : Ref sig .tc := ⟨.hbm, 203, rfl⟩
abbrev main_cst_21 : Ref sig .tc := ⟨.hbm, 204, rfl⟩
abbrev main_v153 : Ref sig .tc := ⟨.hbm, 205, rfl⟩
abbrev main_v154 : Ref sig .tc := ⟨.hbm, 206, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  bcast_S192_S1x192_1 : S192.BroadcastsInDim S1x192 (![1] : Fin 1 → Fin S1x192.rank)
  bcast_S1x192_S65536x192_0_1 : S1x192.BroadcastsInDim S65536x192 (![0, 1] : Fin 2 → Fin S65536x192.rank)
  slices_S65536x192_S65536x64_0_0 : S65536x192.Slices ![0, 0] S65536x64
  slices_S65536x192_S65536x64_0_64 : S65536x192.Slices ![0, 64] S65536x64
  slices_S65536x192_S65536x64_0_128 : S65536x192.Slices ![0, 128] S65536x64
  reducesTo_S65536x64_S64_d0 : S65536x64.ReducesTo [0] S64
  h_S_ : 0 < S_.numel
  bcast_S_S64 : S_.BroadcastsInDim S64 (![] : Fin 0 → Fin S64.rank)
  bcast_S48_S1x48_1 : S48.BroadcastsInDim S1x48 (![1] : Fin 1 → Fin S1x48.rank)
  bcast_S1x48_S65536x48_0_1 : S1x48.BroadcastsInDim S65536x48 (![0, 1] : Fin 2 → Fin S65536x48.rank)
  shapeCasts_S65536x48_S8192x8x48 : S65536x48.ShapeCasts S8192x8x48
  slices_S8192x8x48_S8192x8x24_0_0_0 : S8192x8x48.Slices ![0, 0, 0] S8192x8x24
  slices_S8192x8x48_S8192x8x24_0_0_24 : S8192x8x48.Slices ![0, 0, 24] S8192x8x24
  bcast_S_S8192x8x24 : S_.BroadcastsInDim S8192x8x24 (![] : Fin 0 → Fin S8192x8x24.rank)
  shapeCasts_S8192x8x24_S65536x24 : S8192x8x24.ShapeCasts S65536x24
  concatenates_S65536x64_S65536x24_S65536x88_d1 : Shape.Concatenates [S65536x64, S65536x24] S65536x88 1
  bcast_S14_S1x14_1 : S14.BroadcastsInDim S1x14 (![1] : Fin 1 → Fin S1x14.rank)
  bcast_S1x14_S65536x14_0_1 : S1x14.BroadcastsInDim S65536x14 (![0, 1] : Fin 2 → Fin S65536x14.rank)
  shapeCasts_S65536x64_S8192x8x64 : S65536x64.ShapeCasts S8192x8x64
  bcast_S8192x8x64_S8192x1x8x64_0_2_3 : S8192x8x64.BroadcastsInDim S8192x1x8x64 (![0, 2, 3] : Fin 3 → Fin S8192x1x8x64.rank)
  bcast_S8192x1x8x64_S8192x8x8x64_0_1_2_3 : S8192x1x8x64.BroadcastsInDim S8192x8x8x64 (![0, 1, 2, 3] : Fin 4 → Fin S8192x8x8x64.rank)
  bcast_S8192x8x64_S8192x8x1x64_0_1_3 : S8192x8x64.BroadcastsInDim S8192x8x1x64 (![0, 1, 3] : Fin 3 → Fin S8192x8x1x64.rank)
  bcast_S8192x8x1x64_S8192x8x8x64_0_1_2_3 : S8192x8x1x64.BroadcastsInDim S8192x8x8x64 (![0, 1, 2, 3] : Fin 4 → Fin S8192x8x8x64.rank)
  concatenates_S8192x8x8x64_S8192x8x8x64_S8192x8x8x128_d3 : Shape.Concatenates [S8192x8x8x64, S8192x8x8x64] S8192x8x8x128 3
  shapeCasts_S8192x8x8x128_S524288x128 : S8192x8x8x128.ShapeCasts S524288x128
  bcast_S1x64_S524288x64_0_1 : S1x64.BroadcastsInDim S524288x64 (![0, 1] : Fin 2 → Fin S524288x64.rank)
  reducesTo_S524288x64_S64_d0 : S524288x64.ReducesTo [0] S64
  bcast_S_S524288x64 : S_.BroadcastsInDim S524288x64 (![] : Fin 0 → Fin S524288x64.rank)
  bcast_S6_S1x6_1 : S6.BroadcastsInDim S1x6 (![1] : Fin 1 → Fin S1x6.rank)
  bcast_S1x6_S524288x6_0_1 : S1x6.BroadcastsInDim S524288x6 (![0, 1] : Fin 2 → Fin S524288x6.rank)
  shapeCasts_S524288x6_S8192x8x48 : S524288x6.ShapeCasts S8192x8x48
  reducesTo_S8192x8x24_S8192x8_d2 : S8192x8x24.ReducesTo [2] S8192x8
  bcast_S_S8192x8 : S_.BroadcastsInDim S8192x8 (![] : Fin 0 → Fin S8192x8.rank)
  reducesTo_S8192x8_S8192_d1 : S8192x8.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  dot_S65536x96_S96x64_S65536x64_1_0_0_1_n_n_wf : DotDims.WF S65536x96 S96x64 S65536x64 [1] [0] [0] [1] [] []
  dot_S65536x64_S64x192_S65536x192_1_0_0_1_n_n_wf : DotDims.WF S65536x64 S64x192 S65536x192 [1] [0] [0] [1] [] []
  dot_S65536x64_S64x64_S65536x64_1_0_0_1_n_n_wf : DotDims.WF S65536x64 S64x64 S65536x64 [1] [0] [0] [1] [] []
  dot_S65536x64_S64x48_S65536x48_1_0_0_1_n_n_wf : DotDims.WF S65536x64 S64x48 S65536x48 [1] [0] [0] [1] [] []
  dot_S65536x88_S88x14_S65536x14_1_0_0_1_n_n_wf : DotDims.WF S65536x88 S88x14 S65536x14 [1] [0] [0] [1] [] []
  dot_S524288x128_S128x64_S524288x64_1_0_0_1_n_n_wf : DotDims.WF S524288x128 S128x64 S524288x64 [1] [0] [0] [1] [] []
  dot_S524288x64_S64x6_S524288x6_1_0_0_1_n_n_wf : DotDims.WF S524288x64 S64x6 S524288x6 [1] [0] [0] [1] [] []

variable [Facts₀]

def dot_S65536x96_S96x64_S65536x64_1_0_0_1_n_n : DotDims S65536x96 S96x64 S65536x64 where
  lhsContracting := [1]
  rhsContracting := [0]
  lhsNonContracting := [0]
  rhsNonContracting := [1]
  lhsBatch := []
  rhsBatch := []
  wf := dot_S65536x96_S96x64_S65536x64_1_0_0_1_n_n_wf
def dot_S65536x64_S64x192_S65536x192_1_0_0_1_n_n : DotDims S65536x64 S64x192 S65536x192 where
  lhsContracting := [1]
  rhsContracting := [0]
  lhsNonContracting := [0]
  rhsNonContracting := [1]
  lhsBatch := []
  rhsBatch := []
  wf := dot_S65536x64_S64x192_S65536x192_1_0_0_1_n_n_wf
def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf
def dot_S65536x64_S64x48_S65536x48_1_0_0_1_n_n : DotDims S65536x64 S64x48 S65536x48 where
  lhsContracting := [1]
  rhsContracting := [0]
  lhsNonContracting := [0]
  rhsNonContracting := [1]
  lhsBatch := []
  rhsBatch := []
  wf := dot_S65536x64_S64x48_S65536x48_1_0_0_1_n_n_wf
def dot_S65536x88_S88x14_S65536x14_1_0_0_1_n_n : DotDims S65536x88 S88x14 S65536x14 where
  lhsContracting := [1]
  rhsContracting := [0]
  lhsNonContracting := [0]
  rhsNonContracting := [1]
  lhsBatch := []
  rhsBatch := []
  wf := dot_S65536x88_S88x14_S65536x14_1_0_0_1_n_n_wf
def dot_S524288x128_S128x64_S524288x64_1_0_0_1_n_n : DotDims S524288x128 S128x64 S524288x64 where
  lhsContracting := [1]
  rhsContracting := [0]
  lhsNonContracting := [0]
  rhsNonContracting := [1]
  lhsBatch := []
  rhsBatch := []
  wf := dot_S524288x128_S128x64_S524288x64_1_0_0_1_n_n_wf
def dot_S524288x64_S64x6_S524288x6_1_0_0_1_n_n : DotDims S524288x64 S64x6 S524288x6 where
  lhsContracting := [1]
  rhsContracting := [0]
  lhsNonContracting := [0]
  rhsNonContracting := [1]
  lhsBatch := []
  rhsBatch := []
  wf := dot_S524288x64_S64x6_S524288x6_1_0_0_1_n_n_wf

class Facts : Prop extends Facts₀ where

variable [Facts]
-- ==== Proof.RunValues.lean ====
/-
  The idealized kernel's run with its three result arrays named.

  The program is eight segments: four stretches of host operations and four grid regions.  The contents of the
  TensorCore's buffers at the boundaries form a fold W0, W1, …, W8 from the launch memory: a host stretch
  replaces what its operations write, a region replaces each of its output arrays by what its write-backs
  leave.  Every weakly fair execution terminates without a fault in a state whose unscoped buffers hold W8; so
  the three results are W8 at their references, and the arguments are as launched.
-/
import proofs.«141456_j50483045597756_2_alg».proof.Proof.KernelIdealFrameP

set_option maxRecDepth 16384

noncomputable section

namespace Cert.Forward

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the action values, the new
    hidden state and the divergence end at the last boundary's contents, and the arguments as launched. -/
theorem run_values : θ_run defs (onTc (τ := τ) (main (F := F))) ⟨m, fun _ => 0, ρ⟩ (fun r => ∀ c : Dev nD,
      r.2.mem ((c.tc : Thread nD τ).loc main_v28_0) = W8 m ρ c (Proc.devRef .tc main_v28_0)
      ∧ r.2.mem ((c.tc : Thread nD τ).loc main_v12_0) = W8 m ρ c (Proc.devRef .tc main_v12_0)
      ∧ r.2.mem ((c.tc : Thread nD τ).loc main_v51) = W8 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v28_0 (by decide)),
       h c _ (mem_uc main_v12_0 (by decide)),
       h c _ (mem_uc main_v51 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c),
       (h c _ (mem_uc main_arg22 (by decide))).trans (W8_main_arg22 m ρ c)⟩)

end Cert.Forward

end
-- ==== Proof.LibDense.lean ====
/-
  Dense layers on the extended reals, index by index.

  A matrix here is a function of a two-coordinate index into the extended reals.  `mm X W` is the
  textbook product: entry (r, j) is the sum over k of X (r, k) * W (k, j).  A matrix unit's product into a zero
  accumulator, read at an output index, is that sum (`matmul_zero_eq`), whatever the formats of the operands
  (a change of float format is the identity on the extended reals); the host's `dot_general` likewise
  (`dotGeneral_eq`).  `ssp` is the shifted softplus as the kernel spells it,
  max z 0 + log1p (exp (0 - |z - 0|)) - log 2 under a guard `z - 0 ≠ z - 0` that never fires on the
  extended reals, and `ssp_host` says that the host's spelling, with a negation in place of the subtraction
  from zero, is the same number.
-/
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx

/-- Entry (r, j) of the product of an [R, K] matrix and a [K, C] matrix: the sum over k of X (r, k) * W (k, j). -/
def mm {R K C : Nat} (X : (⟨2, ![R, K]⟩ : Shape).Idx → EReal) (W : (⟨2, ![K, C]⟩ : Shape).Idx → EReal) :
    (⟨2, ![R, C]⟩ : Shape).Idx → EReal :=
  fun i => ∑ k : Fin K, X (ix2 (i 0) k) * W (ix2 k (i 1))

/-- A product into the zero accumulator, with dimension numbers that contract the left operand's second axis
    with the right operand's first, is `mm` at every output index. -/
theorem matmul_zero_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision)
    (lhs : FVec Ideal ⟨2, ![R, K]⟩ φ₁) (rhs : FVec Ideal ⟨2, ![K, C]⟩ φ₂) (j : (⟨2, ![R, C]⟩ : Shape).Idx) :
    FloatOps.matmul D prec lhs rhs (constant ⟨2, ![R, C]⟩ .f32 0x00000000#32) j = mm lhs rhs j := by
  rw [Ideal.matmul_constant_zero_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- The host's product of the same operands is the same sum. -/
theorem dotGeneral_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision) (sched : HostSchedule)
    (lhs : FVec Ideal ⟨2, ![R, K]⟩ φ₁) (rhs : FVec Ideal ⟨2, ![K, C]⟩ φ₂) (j : (⟨2, ![R, C]⟩ : Shape).Idx) :
    FloatOps.dotGeneral D prec sched lhs rhs j = mm lhs rhs j := by
  rw [Ideal.dotGeneral_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- Two products agree at two entries when the left operands agree along the two rows and the right operands
    along the two columns. -/
theorem mm_congr {R R' K C C' : Nat} {X : (⟨2, ![R, K]⟩ : Shape).Idx → EReal} {X' : (⟨2, ![R', K]⟩ : Shape).Idx → EReal}
    {W : (⟨2, ![K, C]⟩ : Shape).Idx → EReal} {W' : (⟨2, ![K, C']⟩ : Shape).Idx → EReal}
    (i : (⟨2, ![R, C]⟩ : Shape).Idx) (i' : (⟨2, ![R', C']⟩ : Shape).Idx)
    (hX : ∀ k : Fin K, X (ix2 (i 0) k) = X' (ix2 (i' 0) k))
    (hW : ∀ k : Fin K, W (ix2 k (i 1)) = W' (ix2 k (i' 1))) : mm X W i = mm X' W' i' := by
  unfold mm
  exact Finset.sum_congr rfl fun k _ => by rw [hX k, hW k]

/-- The zero and the shift of the softplus, as the float words both programs spell. -/
abbrev z0 : EReal := Ideal.ofBits .f32 0x00000000#32
abbrev ln2 : EReal := Ideal.ofBits .f32 0x3F317218#32

/-- The shifted softplus of one extended real, in the kernel's spelling. -/
def ssp (z : EReal) : EReal :=
  Scalar.select (Ideal.cmp .one (z - z0) (z - z0)) (z + z0)
    (max z z0 + Ideal.log1p (Ideal.exp (z0 - max (z - z0) (-(z - z0))))) - ln2

/-- The host's spelling: the unordered comparison in the guard (the same comparison on a linear order) and a
    negation where the kernel subtracts from zero. -/
theorem ssp_host (z : EReal) :
    Scalar.select (Ideal.cmp .une (z - z0) (z - z0)) (z + z0)
      (max z z0 + Ideal.log1p (Ideal.exp (-(max (z - z0) (-(z - z0)))))) - ln2 = ssp z := by
  unfold ssp
  have h0 : ∀ a : EReal, z0 - a = -a := fun a => by
    show Ideal.ofBits .f32 0x00000000#32 - a = -a
    rw [Ideal.ofBits_zero_f32, zero_sub]
  rw [h0]
  rfl

/-! ## The layers of the interaction block, entry by entry

  A bias is kept as the [1, C] row both programs hand to the layer; the per-edge distance as an [E, 1] column. -/

/-- The cosine cutoff's constants, as the float words both programs spell: π/10 rounded to f32, one, one half. -/
abbrev kpi : EReal := Ideal.ofBits .f32 0x3EA0D97C#32
abbrev one : EReal := Ideal.ofBits .f32 0x3F800000#32
abbrev half : EReal := Ideal.ofBits .f32 0x3F000000#32

/-- A length-C vector as the [1, C] row a layer takes its bias as, and a length-E vector as an [E, 1] column. -/
def row {C : Nat} (b : (⟨1, ![C]⟩ : Shape).Idx → EReal) : (⟨2, ![1, C]⟩ : Shape).Idx → EReal := fun i => b (ix1 (i 1))
def col {E : Nat} (d : (⟨1, ![E]⟩ : Shape).Idx → EReal) : (⟨2, ![E, 1]⟩ : Shape).Idx → EReal := fun i => d (ix1 (i 0))

/-- A dense layer: entry (r, j) of X · W plus the bias row's entry j. -/
def lin {R K C : Nat} (X : (⟨2, ![R, K]⟩ : Shape).Idx → EReal) (W : (⟨2, ![K, C]⟩ : Shape).Idx → EReal)
    (B : (⟨2, ![1, C]⟩ : Shape).Idx → EReal) : (⟨2, ![R, C]⟩ : Shape).Idx → EReal :=
  fun i => mm X W i + B (ix2 (0 : Fin 1) (i 1))

/-- The cosine cutoff of row r's distance d: one half of (cos (d · π/10) + 1). -/
def cutoff {R : Nat} (D : (⟨2, ![R, 1]⟩ : Shape).Idx → EReal) (r : Fin R) : EReal :=
  half * (Ideal.cos (D (ix2 r (0 : Fin 1)) * kpi) + one)

/-- Two dense layers with the shifted softplus between them. -/
def mlp {R K C C' : Nat} (X : (⟨2, ![R, K]⟩ : Shape).Idx → EReal) (W1 : (⟨2, ![K, C]⟩ : Shape).Idx → EReal)
    (B1 : (⟨2, ![1, C]⟩ : Shape).Idx → EReal) (W2 : (⟨2, ![C, C']⟩ : Shape).Idx → EReal)
    (B2 : (⟨2, ![1, C']⟩ : Shape).Idx → EReal) : (⟨2, ![R, C']⟩ : Shape).Idx → EReal :=
  lin (fun i' => ssp (lin X W1 B1 i')) W2 B2

/-- The edge filter: the two-layer filter network of an edge's features, times the edge's cutoff. -/
def edgeFilter {E K C C' : Nat} (A : (⟨2, ![E, K]⟩ : Shape).Idx → EReal) (D : (⟨2, ![E, 1]⟩ : Shape).Idx → EReal)
    (W1 : (⟨2, ![K, C]⟩ : Shape).Idx → EReal) (B1 : (⟨2, ![1, C]⟩ : Shape).Idx → EReal)
    (W2 : (⟨2, ![C, C']⟩ : Shape).Idx → EReal) (B2 : (⟨2, ![1, C']⟩ : Shape).Idx → EReal) :
    (⟨2, ![E, C']⟩ : Shape).Idx → EReal :=
  fun i => mlp A W1 B1 W2 B2 i * cutoff D (i 0)

/-- Two dense layers agree at an entry when their inputs agree on the entry's row and their weights and biases
    on its column. -/
theorem lin_congr {R R' K C : Nat} {X : (⟨2, ![R, K]⟩ : Shape).Idx → EReal} {X' : (⟨2, ![R', K]⟩ : Shape).Idx → EReal}
    {W W' : (⟨2, ![K, C]⟩ : Shape).Idx → EReal} {B B' : (⟨2, ![1, C]⟩ : Shape).Idx → EReal}
    (i : (⟨2, ![R, C]⟩ : Shape).Idx) (i' : (⟨2, ![R', C]⟩ : Shape).Idx) (h1 : i 1 = i' 1)
    (hX : ∀ k : Fin K, X (ix2 (i 0) k) = X' (ix2 (i' 0) k)) (hW : W = W') (hB : B = B') :
    lin X W B i = lin X' W' B' i' := by
  subst hW hB
  unfold lin mm
  rw [h1]
  exact congrArg (· + B (ix2 (0 : Fin 1) (i' 1))) (Finset.sum_congr rfl fun k _ => by rw [hX k])

end Cert.Dense

end
-- ==== Proof.Spec.lean ====
/-
  The network both programs compute, entry by entry on the extended reals.

  One step of a recurrent agent: a dense layer with a rectifier, a gated recurrent cell, an "awareness" head
  (a dense layer, a batch normalisation over all rows, a rectifier, a dense layer whose 48 outputs are 24 means
  and 24 log-variances), a sample from that Gaussian, the action layer on the hidden state joined with the
  sample; and a "poster" head on all ordered pairs (j, i) of the 8 agents of a batch entry: a dense layer on the
  two agents' hidden states joined, a batch normalisation over all pairs, a rectifier, a 6-output dense layer whose
  outputs over i make 24 means and 24 log-variances, and the mean over agents and components of the
  Kullback-Leibler divergence between the two diagonal Gaussians.

  Matrices are functions of a two-coordinate index.  Row-wise stages are stated for any number of rows, so
  that a block of rows of an array and the array itself are read by one definition.  The batch statistics are
  stated twice: from the centred squares over all rows (variance as the mean of (x - mean)^2), and from per-block
  partial sums and sums of squares (variance as the mean of squares minus the squared mean).
-/
import Idealize.ShloMosaic.Lib.ValueIdx
import Idealize.ShloMosaic.PureOps.Ideal.Laws
import proofs.«141456_j50483045597756_2_alg».proof.Proof.LibDense

noncomputable section

namespace Cert.Spec

open Idealize.ShloMosaic Idealize.ShloMosaic.ValueIdx Cert.Dense

abbrev Mat (R C : Nat) : Type := (⟨2, ![R, C]⟩ : Shape).Idx → EReal
abbrev Vct (C : Nat) : Type := (⟨1, ![C]⟩ : Shape).Idx → EReal
abbrev Ten3 (A B C : Nat) : Type := (⟨3, ![A, B, C]⟩ : Shape).Idx → EReal

/-! ## The constants, as the float words both programs spell -/

abbrev zero : EReal := Ideal.ofBits .f32 0x00000000#32
abbrev one : EReal := Ideal.ofBits .f32 0x3F800000#32
/-- the variance offset of the normalisations (1e-5 rounded to f32) -/
abbrev eps : EReal := Ideal.ofBits .f32 0x3727C5AC#32
/-- the variance floor (0.2 rounded to f32) -/
abbrev clip : EReal := Ideal.ofBits .f32 0x3E4CCCCD#32
abbrev half : EReal := Ideal.ofBits .f32 0x3F000000#32
abbrev c8 : EReal := Ideal.ofBits .f32 0x41000000#32
abbrev c24 : EReal := Ideal.ofBits .f32 0x41C00000#32
/-- the number of rows, 65536 -/
abbrev nRows : EReal := Ideal.ofBits .f32 0x47800000#32
/-- the number of (batch entry, j, i) triples, 524288 -/
abbrev nPairs : EReal := Ideal.ofBits .f32 0x49000000#32

/-! ## Row and column arithmetic -/

/-- Column g * 64 + k of a 192-wide gate matrix: gate g (reset, update, candidate), unit k. -/
def gateCol (g : Fin 3) (k : Fin 64) : Fin 192 := ⟨g.val * 64 + k.val, by omega⟩
/-- Row t * 1024 + r: row r of the t-th block of 1024 rows. -/
def blockRow (t : Fin 64) (r : Fin 1024) : Fin 65536 := ⟨t.val * 1024 + r.val, by omega⟩
/-- Row t * 2048 + r: row r of the t-th block of 2048 rows. -/
def wideRow (t : Fin 32) (r : Fin 2048) : Fin 65536 := ⟨t.val * 2048 + r.val, by omega⟩
/-- Row b * 8 + j: agent j of batch entry b. -/
def agentRow (b : Fin 8192) (j : Fin 8) : Fin 65536 := ⟨b.val * 8 + j.val, by omega⟩
/-- Batch entry t * 128 + b: entry b of the t-th block of 128 batch entries. -/
def blockBatch (t : Fin 64) (b : Fin 128) : Fin 8192 := ⟨t.val * 128 + b.val, by omega⟩
/-- Row (b * 8 + j) * 8 + i of the all-pairs matrix. -/
def pairRow (b : Fin 8192) (j i : Fin 8) : Fin 524288 := ⟨(b.val * 8 + j.val) * 8 + i.val, by omega⟩
/-- The first 24 and the last 24 of 48 columns; the first 64 and the last 24 of 88; the two halves of 128. -/
def lo24 (c : Fin 24) : Fin 48 := ⟨c.val, by omega⟩
def hi24 (c : Fin 24) : Fin 48 := ⟨24 + c.val, by omega⟩
def lo64 (q : Fin 64) : Fin 128 := ⟨q.val, by omega⟩
def hi64 (q : Fin 64) : Fin 128 := ⟨64 + q.val, by omega⟩
/-- Component c of the 24 = 4 * 6 merged outputs: agent slot c / 6 (of the first four, or of the last four) and
    output c % 6. -/
def slotLo (c : Fin 24) : Fin 8 := ⟨c.val / 6, by omega⟩
def slotHi (c : Fin 24) : Fin 8 := ⟨4 + c.val / 6, by omega⟩
def comp6 (c : Fin 24) : Fin 6 := ⟨c.val % 6, by omega⟩

/-! ## The recurrent cell (row-wise) -/

/-- A dense layer followed by the rectifier. -/
def reluLin {R K C : Nat} (X : Mat R K) (W : Mat K C) (B : Mat 1 C) : Mat R C := fun i => max (lin X W B i) zero

/-- The gated recurrent cell's output from the two 192-wide gate pre-activations gi (of the input) and gh (of
    the old state): r = logistic (gi_r + gh_r), z = logistic (gi_z + gh_z), n = tanh (gi_n + r * gh_n),
    h' = (1 - z) * n + z * h. -/
def gruOut {R : Nat} (gi gh : Mat R 192) (hid : Mat R 64) : Mat R 64 := fun i =>
  (one - Ideal.logistic (gi (ix2 (i 0) (gateCol 1 (i 1))) + gh (ix2 (i 0) (gateCol 1 (i 1)))))
      * Ideal.tanh (gi (ix2 (i 0) (gateCol 2 (i 1)))
          + Ideal.logistic (gi (ix2 (i 0) (gateCol 0 (i 1))) + gh (ix2 (i 0) (gateCol 0 (i 1))))
            * gh (ix2 (i 0) (gateCol 2 (i 1))))
    + Ideal.logistic (gi (ix2 (i 0) (gateCol 1 (i 1))) + gh (ix2 (i 0) (gateCol 1 (i 1)))) * hid (ix2 (i 0) (i 1))

/-- The new hidden state of every row. -/
def hidden {R : Nat} (inp : Mat R 96) (hid : Mat R 64) (fc1w : Mat 96 64) (fc1b : Mat 1 64)
    (wih whh : Mat 64 192) (bih bhh : Mat 1 192) : Mat R 64 :=
  gruOut (lin (reluLin inp fc1w fc1b) wih bih) (lin hid whh bhh) hid

/-! ## Batch normalisation with a rectifier (row-wise, given the statistics as [1, 64] rows) -/

/-- One normalised, scaled, shifted and rectified value. -/
def bnAct (x mean var g be : EReal) : EReal := max (g * (x - mean) * Ideal.rsqrt (var + eps) + be) zero

def bnRelu {R : Nat} (z : Mat R 64) (mean var g be : Mat 1 64) : Mat R 64 := fun i =>
  bnAct (z i) (mean (ix2 (0 : Fin 1) (i 1))) (var (ix2 (0 : Fin 1) (i 1))) (g (ix2 (0 : Fin 1) (i 1)))
    (be (ix2 (0 : Fin 1) (i 1)))

/-! ## Column statistics -/

/-- The mean of each column over all N rows (the sum divided by the count n as a float word). -/
def colMean {N : Nat} (z : Mat N 64) (n : EReal) : Vct 64 := fun k => Ideal.div (∑ r : Fin N, z (ix2 r (k 0))) n

/-- The variance of each column as the mean of the centred squares. -/
def colVarCentred {N : Nat} (z : Mat N 64) (n : EReal) : Vct 64 := fun k =>
  Ideal.div (∑ r : Fin N, (z (ix2 r (k 0)) - colMean z n k) * (z (ix2 r (k 0)) - colMean z n k)) n

/-- From per-block partial sums kept in row 0 of a [64, 8, 64] array: the mean. -/
def meanOfBlocks (s : Ten3 64 8 64) (n : EReal) : Vct 64 := fun k =>
  Ideal.div (∑ t : Fin 64, s (ix3 t (0 : Fin 8) (k 0))) n

/-- From per-block partial sums and sums of squares: the mean of squares minus the squared mean. -/
def varOfBlocks (s sq : Ten3 64 8 64) (n : EReal) : Vct 64 := fun k =>
  Ideal.div (∑ t : Fin 64, sq (ix3 t (0 : Fin 8) (k 0))) n - meanOfBlocks s n k * meanOfBlocks s n k

/-- The partial column sums of the 64 blocks of 1024 rows, the same in each of the 8 middle positions. -/
def blockSums (z : Mat 65536 64) : Ten3 64 8 64 := fun i => ∑ r : Fin 1024, z (ix2 (blockRow (i 0) r) (i 2))
def blockSqSums (z : Mat 65536 64) : Ten3 64 8 64 := fun i =>
  ∑ r : Fin 1024, z (ix2 (blockRow (i 0) r) (i 2)) * z (ix2 (blockRow (i 0) r) (i 2))

/-! ## The awareness head and the action layer (row-wise) -/

def muAt {R : Nat} (aw : Mat R 48) (r : Fin R) (c : Fin 24) : EReal := aw (ix2 r (lo24 c))
def sigmaAt {R : Nat} (aw : Mat R 48) (r : Fin R) (c : Fin 24) : EReal := max (Ideal.exp (aw (ix2 r (hi24 c)))) clip

/-- The 24 means followed by the 24 floored variances of each row. -/
def muSigma {R : Nat} (aw : Mat R 48) : Mat R 48 := fun i =>
  if h : (i 1).val < 24 then muAt aw (i 0) ⟨(i 1).val, h⟩ else sigmaAt aw (i 0) ⟨(i 1).val - 24, by have h2 : (i 1).val < 48 := (i 1).isLt; omega⟩

/-- The sample mean + sqrt variance * noise. -/
def sample {R : Nat} (aw : Mat R 48) (noise : Mat R 24) : Mat R 24 := fun i =>
  muAt aw (i 0) (i 1) + Ideal.sqrt (sigmaAt aw (i 0) (i 1)) * noise i

/-- A 64-wide and a 24-wide matrix side by side. -/
def hcat {R : Nat} (h : Mat R 64) (c : Mat R 24) : Mat R 88 := fun i =>
  if hl : (i 1).val < 64 then h (ix2 (i 0) ⟨(i 1).val, hl⟩) else c (ix2 (i 0) ⟨(i 1).val - 64, by have h2 : (i 1).val < 88 := (i 1).isLt; omega⟩)

/-- The [8192, 8, 24] noise read as 65536 rows: row b * 8 + j is (b, j). -/
def flatNoise (noise : Ten3 8192 8 24) : Mat 65536 24 := fun i =>
  noise (ix3 ⟨(i 0).val / 8, by have h2 : (i 0).val < 65536 := (i 0).isLt; omega⟩ ⟨(i 0).val % 8, by omega⟩ (i 1))

/-- The awareness head's 48 outputs per row, from the pre-normalisation values z1. -/
def aware {R : Nat} (z1 : Mat R 64) (mean var g be : Mat 1 64) (aw2w : Mat 64 48) (aw2b : Mat 1 48) : Mat R 48 :=
  lin (bnRelu z1 mean var g be) aw2w aw2b

/-- The action values of each row. -/
def actions {R : Nat} (h : Mat R 64) (aw : Mat R 48) (noise : Mat R 24) (fc2w : Mat 88 14) (fc2b : Mat 1 14) : Mat R 14 :=
  lin (hcat h (sample aw noise)) fc2w fc2b

/-! ## The poster head (per batch entry; the hidden states as a [B, 8, 64] array) -/

/-- The pair layer before normalisation at batch entry b, pair (j, i), unit k: agent i's state through the top
    half of the weights plus agent j's state through the bottom half, plus the bias. -/
def pairPre {B : Nat} (hd : Ten3 B 8 64) (top bot : Mat 64 64) (pb : Mat 1 64) (b : Fin B) (j i : Fin 8) (k : Fin 64) : EReal :=
  ((∑ q : Fin 64, hd (ix3 b i q) * top (ix2 q k)) + (∑ q : Fin 64, hd (ix3 b j q) * bot (ix2 q k))) + pb (ix2 (0 : Fin 1) k)

/-- The top and the bottom half of the [128, 64] pair weights. -/
def topOf (w : Mat 128 64) : Mat 64 64 := fun i => w (ix2 (lo64 (i 0)) (i 1))
def botOf (w : Mat 128 64) : Mat 64 64 := fun i => w (ix2 (hi64 (i 0)) (i 1))

/-- The hidden states grouped by batch entry. -/
def grouped (h : Mat 65536 64) : Ten3 8192 8 64 := fun i => h (ix2 (agentRow (i 0) (i 1)) (i 2))

/-- The pair layer as the [524288, 64] matrix the statistics range over. -/
def pairMat (hd : Ten3 8192 8 64) (top bot : Mat 64 64) (pb : Mat 1 64) : Mat 524288 64 := fun n =>
  pairPre hd top bot pb ⟨(n 0).val / 64, by have h2 : (n 0).val < 524288 := (n 0).isLt; omega⟩ ⟨(n 0).val / 8 % 8, by omega⟩ ⟨(n 0).val % 8, by omega⟩ (n 1)

/-- Per block of 128 batch entries: the sum of the pair layer over the block's entries and all pairs. -/
def pairBlockSums (hd : Ten3 8192 8 64) (top bot : Mat 64 64) (pb : Mat 1 64) : Ten3 64 8 64 := fun i =>
  ∑ b : Fin 128, ∑ j : Fin 8, ∑ a : Fin 8, pairPre hd top bot pb (blockBatch (i 0) b) j a (i 2)
def pairBlockSqSums (hd : Ten3 8192 8 64) (top bot : Mat 64 64) (pb : Mat 1 64) : Ten3 64 8 64 := fun i =>
  ∑ b : Fin 128, ∑ j : Fin 8, ∑ a : Fin 8,
    pairPre hd top bot pb (blockBatch (i 0) b) j a (i 2) * pairPre hd top bot pb (blockBatch (i 0) b) j a (i 2)

/-- The pair layer's 6 outputs at (b, j, i) after normalisation, rectifier and the second dense layer. -/
def pairOut {B : Nat} (hd : Ten3 B 8 64) (top bot : Mat 64 64) (pb mean var g be : Mat 1 64) (po2w : Mat 64 6) (po2b : Mat 1 6)
    (b : Fin B) (j i : Fin 8) (e : Fin 6) : EReal :=
  (∑ k : Fin 64, bnAct (pairPre hd top bot pb b j i k) (mean (ix2 (0 : Fin 1) k)) (var (ix2 (0 : Fin 1) k))
      (g (ix2 (0 : Fin 1) k)) (be (ix2 (0 : Fin 1) k)) * po2w (ix2 k e)) + po2b (ix2 (0 : Fin 1) e)

/-- One component's divergence term: half of (log (s1 / s) + (s + (m - m1)^2) / s1 - 1). -/
def klTerm (m s m1 s1 : EReal) : EReal :=
  half * ((Ideal.log (Ideal.div s1 s) + Ideal.div (s + (m - m1) * (m - m1)) s1) - one)

/-- The divergence of batch entry b: the mean over the 8 agents of the mean over the 24 components. -/
def klMean {B : Nat} (hd : Ten3 B 8 64) (top bot : Mat 64 64) (pb mean var g be : Mat 1 64) (po2w : Mat 64 6) (po2b : Mat 1 6)
    (mu sg : Ten3 B 8 24) (b : Fin B) : EReal :=
  Ideal.div (∑ j : Fin 8, Ideal.div (∑ c : Fin 24,
      klTerm (mu (ix3 b j c)) (sg (ix3 b j c))
        (pairOut hd top bot pb mean var g be po2w po2b b j (slotLo c) (comp6 c))
        (max (Ideal.exp (pairOut hd top bot pb mean var g be po2w po2b b j (slotHi c) (comp6 c))) clip)) c24) c8

/-! ## Real-valued arrays -/

/-- An extended real that is a real number. -/
def IsReal (x : EReal) : Prop := ∃ r : ℝ, x = (r : EReal)

end Cert.Spec

end
-- ==== Proof.Network.lean ====
/-
  The three results as functions of the 23 argument arrays.

  The stages of the specification composed in the order both programs run them.  The two batch normalisations'
  statistics are parameters of the later stages, so that the result computed with the statistics taken from
  per-block partial sums (mean of squares minus squared mean) and the result computed with the statistics taken
  over all rows (mean of centred squares) are one function at two arguments: they agree as soon as the statistics do.
-/
import proofs.«141456_j50483045597756_2_alg».proof.Proof.Spec

noncomputable section

namespace Cert.Net

open Idealize.ShloMosaic Idealize.ShloMosaic.ValueIdx Cert.Dense Cert.Spec

/-- The 23 argument arrays, as extended reals. -/
structure Inputs where
  inp : Mat 65536 96
  hid : Mat 65536 64
  noise : Ten3 8192 8 24
  fc1w : Mat 96 64
  fc1b : Vct 64
  wih : Mat 64 192
  whh : Mat 64 192
  bih : Vct 192
  bhh : Vct 192
  aw1w : Mat 64 64
  aw1b : Vct 64
  awg : Vct 64
  awbe : Vct 64
  aw2w : Mat 64 48
  aw2b : Vct 48
  po1w : Mat 128 64
  po1b : Vct 64
  pog : Vct 64
  pobe : Vct 64
  po2w : Mat 64 6
  po2b : Vct 6
  fc2w : Mat 88 14
  fc2b : Vct 14

variable (I : Inputs)

/-- The new hidden state of all 65536 rows. -/
def Inputs.h : Mat 65536 64 := hidden I.inp I.hid I.fc1w (row I.fc1b) I.wih I.whh (row I.bih) (row I.bhh)

/-- The awareness head before its normalisation. -/
def Inputs.z1 : Mat 65536 64 := lin I.h I.aw1w (row I.aw1b)

/-- Its column statistics from per-block partial sums, and over all rows. -/
def Inputs.mean1K : Vct 64 := meanOfBlocks (blockSums I.z1) nRows
def Inputs.var1K : Vct 64 := varOfBlocks (blockSums I.z1) (blockSqSums I.z1) nRows
def Inputs.mean1R : Vct 64 := colMean I.z1 nRows
def Inputs.var1R : Vct 64 := colVarCentred I.z1 nRows

/-- The awareness head's 48 outputs per row, given the statistics. -/
def Inputs.aw (mean var : Vct 64) : Mat 65536 48 :=
  aware I.z1 (row mean) (row var) (row I.awg) (row I.awbe) I.aw2w (row I.aw2b)

/-- The action values, given the statistics. -/
def Inputs.act (mean var : Vct 64) : Mat 65536 14 :=
  actions I.h (I.aw mean var) (flatNoise I.noise) I.fc2w (row I.fc2b)

/-- The awareness means and variances grouped by batch entry. -/
def Inputs.mu (mean var : Vct 64) : Ten3 8192 8 24 := fun i => muAt (I.aw mean var) (agentRow (i 0) (i 1)) (i 2)
def Inputs.sg (mean var : Vct 64) : Ten3 8192 8 24 := fun i => sigmaAt (I.aw mean var) (agentRow (i 0) (i 1)) (i 2)

/-- The hidden states grouped by batch entry, and the two halves of the pair weights. -/
def Inputs.hd : Ten3 8192 8 64 := grouped I.h
def Inputs.top : Mat 64 64 := topOf I.po1w
def Inputs.bot : Mat 64 64 := botOf I.po1w

/-- The pair layer over all 524288 (batch entry, j, i) rows, and its statistics both ways. -/
def Inputs.pair : Mat 524288 64 := pairMat I.hd I.top I.bot (row I.po1b)
def Inputs.mean2K : Vct 64 := meanOfBlocks (pairBlockSums I.hd I.top I.bot (row I.po1b)) nPairs
def Inputs.var2K : Vct 64 :=
  varOfBlocks (pairBlockSums I.hd I.top I.bot (row I.po1b)) (pairBlockSqSums I.hd I.top I.bot (row I.po1b)) nPairs
def Inputs.mean2R : Vct 64 := colMean I.pair nPairs
def Inputs.var2R : Vct 64 := colVarCentred I.pair nPairs

/-- The divergence per batch entry, given both normalisations' statistics. -/
def Inputs.kl (mean1 var1 mean2 var2 : Vct 64) : Mat 8192 1 := fun i =>
  klMean I.hd I.top I.bot (row I.po1b) (row mean2) (row var2) (row I.pog) (row I.pobe) I.po2w (row I.po2b)
    (I.mu mean1 var1) (I.sg mean1 var1) (i 0)

/-- The arguments the statistics depend on are real-valued. -/
structure Inputs.Real : Prop where
  inp : ∀ i, IsReal (I.inp i)
  hid : ∀ i, IsReal (I.hid i)
  fc1w : ∀ i, IsReal (I.fc1w i)
  fc1b : ∀ i, IsReal (I.fc1b i)
  wih : ∀ i, IsReal (I.wih i)
  whh : ∀ i, IsReal (I.whh i)
  bih : ∀ i, IsReal (I.bih i)
  bhh : ∀ i, IsReal (I.bhh i)
  aw1w : ∀ i, IsReal (I.aw1w i)
  aw1b : ∀ i, IsReal (I.aw1b i)
  po1w : ∀ i, IsReal (I.po1w i)
  po1b : ∀ i, IsReal (I.po1b i)

end Cert.Net

end
-- ==== Proof.Layouts.lean ====
/-
  The layout operations of the host stretches, read against the specification's index arithmetic.

  A [C] vector cast to a [1, C] row; the [8192, 8, 24] noise cast to 65536 rows; the 65536 hidden rows cast to
  [8192, 8, 64] groups; the halves of a 48-wide matrix cast to [8192, 8, 24]; the halves of the [128, 64] pair
  weights; row 0 of each [1, 8, 64] block of partial sums as a [64, 64] matrix.  A cast keeps the row-major position,
  a slice adds its offset.
-/
import Idealize.ShloMosaic.Lib.ValueIdx
import Idealize.ShloMosaic.Lib.ValueLayout
import Idealize.ShloMosaic.Lib.Pipeline.Value
import proofs.«141456_j50483045597756_2_alg».proof.Proof.Spec

noncomputable section

namespace Cert.Layouts

open Idealize.ShloMosaic Idealize.ShloMosaic.ValueIdx Cert.Dense Cert.Spec

/-- A [C] vector cast to [1, C] is the bias row of a dense layer. -/
theorem cast_row {C : Nat} (v : Vct C) (h : (⟨1, ![C]⟩ : Shape).ShapeCasts ⟨2, ![1, C]⟩) :
    shapeCast ⟨2, ![1, C]⟩ v h = row v := by
  funext i
  obtain ⟨u, q, rfl⟩ : ∃ (u : Fin 1) (q : Fin C), i = ix2 u q := ⟨i 0, i 1, eq_ix2 i⟩
  rw [shapeCast_a_1a_apply]
  rfl

/-- The noise cast to 65536 rows: row b * 8 + j is (b, j). -/
theorem cast_flatNoise (x : Ten3 8192 8 24) (h : (⟨3, ![8192, 8, 24]⟩ : Shape).ShapeCasts ⟨2, ![65536, 24]⟩) :
    shapeCast ⟨2, ![65536, 24]⟩ x h = flatNoise x := by
  funext i
  obtain ⟨r, q, rfl⟩ : ∃ (r : Fin 65536) (q : Fin 24), i = ix2 r q := ⟨i 0, i 1, eq_ix2 i⟩
  unfold flatNoise
  refine shapeCast_apply x h _ _ ?_
  rw [Shape.rowMajor_val_two, Shape.rowMajor_val_three]
  show (r.val / 8 * 8 + r.val % 8) * 24 + q.val = r.val * 24 + q.val
  rw [Nat.div_add_mod' r.val 8]

/-- The hidden rows cast to groups of 8: (b, j) is row b * 8 + j. -/
theorem cast_grouped (x : Mat 65536 64) (h : (⟨2, ![65536, 64]⟩ : Shape).ShapeCasts ⟨3, ![8192, 8, 64]⟩) :
    shapeCast ⟨3, ![8192, 8, 64]⟩ x h = grouped x := by
  funext i
  obtain ⟨b, j, q, rfl⟩ : ∃ (b : Fin 8192) (j : Fin 8) (q : Fin 64), i = ix3 b j q := ⟨i 0, i 1, i 2, eq_ix3 i⟩
  unfold grouped
  refine shapeCast_apply x h _ _ ?_
  rw [Shape.rowMajor_val_two, Shape.rowMajor_val_three]
  rfl

/-- Columns off … off + 23 of a 48-wide matrix, cast to [8192, 8, 24]: (b, j, c) is row b * 8 + j, column off + c. -/
theorem cast_slice24 (x : Mat 65536 48) (off : Fin 2 → Nat) (col : Fin 24 → Fin 48) (hcol : ∀ q, (col q).val = off 1 + q.val)
    (h0 : off 0 = 0) (hs : (⟨2, ![65536, 48]⟩ : Shape).Slices off ⟨2, ![65536, 24]⟩)
    (h : (⟨2, ![65536, 24]⟩ : Shape).ShapeCasts ⟨3, ![8192, 8, 24]⟩) :
    shapeCast ⟨3, ![8192, 8, 24]⟩ (extractStridedSlice ⟨2, ![65536, 24]⟩ off x hs) h
      = fun i => x (ix2 (agentRow (i 0) (i 1)) (col (i 2))) := by
  funext i
  obtain ⟨b, j, q, rfl⟩ : ∃ (b : Fin 8192) (j : Fin 8) (q : Fin 24), i = ix3 b j q := ⟨i 0, i 1, i 2, eq_ix3 i⟩
  rw [shapeCast_apply _ h (ix3 b j q) (ix2 (agentRow b j) q) (by
    rw [Shape.rowMajor_val_two, Shape.rowMajor_val_three]; rfl)]
  refine extractStridedSlice_apply off x hs _ _ fun a => ?_
  match a with
  | ⟨0, _⟩ => show (agentRow b j).val = off 0 + (agentRow b j).val; rw [h0, Nat.zero_add]
  | ⟨1, _⟩ => exact hcol q

/-- Rows off … off + 63 of the [128, 64] pair weights. -/
theorem slice_half (w : Mat 128 64) (off : Fin 2 → Nat) (rw_ : Fin 64 → Fin 128) (hrow : ∀ q, (rw_ q).val = off 0 + q.val)
    (h1 : off 1 = 0) (hs : (⟨2, ![128, 64]⟩ : Shape).Slices off ⟨2, ![64, 64]⟩) :
    extractStridedSlice ⟨2, ![64, 64]⟩ off w hs = fun i => w (ix2 (rw_ (i 0)) (i 1)) := by
  funext i
  obtain ⟨q, k, rfl⟩ : ∃ (q : Fin 64) (k : Fin 64), i = ix2 q k := ⟨i 0, i 1, eq_ix2 i⟩
  refine extractStridedSlice_apply off w hs _ _ fun a => ?_
  match a with
  | ⟨0, _⟩ => exact hrow q
  | ⟨1, _⟩ => show k.val = off 1 + k.val; rw [h1, Nat.zero_add]

/-- Row 0 of each [1, 8, 64] block of a [64, 8, 64] array, as a [64, 64] matrix. -/
theorem first_rows (s : Ten3 64 8 64) (hs : (⟨3, ![64, 8, 64]⟩ : Shape).Slices ![0, 0, 0] ⟨3, ![64, 1, 64]⟩)
    (h : (⟨3, ![64, 1, 64]⟩ : Shape).ShapeCasts ⟨2, ![64, 64]⟩) (t k : Fin 64) :
    shapeCast ⟨2, ![64, 64]⟩ (extractStridedSlice ⟨3, ![64, 1, 64]⟩ ![0, 0, 0] s hs) h (ix2 t k) = s (ix3 t (0 : Fin 8) k) := by
  rw [shapeCast_apply _ h (ix2 t k) (ix3 t (0 : Fin 1) k) (by
    rw [Shape.rowMajor_val_two, Shape.rowMajor_val_three]
    show (t.val * 1 + 0) * 64 + k.val = t.val * 64 + k.val
    rw [Nat.mul_one, Nat.add_zero])]
  refine extractStridedSlice_apply ![0, 0, 0] s hs _ _ fun a => ?_
  match a with
  | ⟨0, _⟩ => show t.val = 0 + t.val; rw [Nat.zero_add]
  | ⟨1, _⟩ => rfl
  | ⟨2, _⟩ => show k.val = 0 + k.val; rw [Nat.zero_add]

end Cert.Layouts

end
-- ==== Proof.HostStats.lean ====
/-
  The host's statistics between the regions, read against the specification.

  From a [64, 8, 64] array of per-block partial sums the host takes row 0 of each block, sums the 64 rows, divides
  by the count word: the mean of each column.  From the partial sums of squares, likewise, minus the squared mean:
  the variance.  Both are handed to the next region as [1, 64] rows.
-/
import Idealize.ShloMosaic.PureOps.Ideal.Laws
import proofs.«141456_j50483045597756_2_alg».proof.Proof.Layouts

noncomputable section

namespace Cert.HostStats

open Idealize.ShloMosaic Idealize.ShloMosaic.ValueIdx Cert.Dense Cert.Spec Cert.Layouts

/-- The host's sum over the rows of a [64, 64] matrix from the zero word: entry k is the plain sum of column k. -/
theorem colsum_apply (x : Mat 64 64) (hrt : (⟨2, ![64, 64]⟩ : Shape).ReducesTo [0] ⟨1, ![64]⟩)
    (hu : 0 < (⟨0, ![]⟩ : Shape).numel) (k : Fin 64) :
    Host.reduceAdd (F := Ideal) (φ := .f32) x (constant ⟨0, ![]⟩ .f32 0x00000000#32) hrt hu (ix1 k)
      = ∑ t : Fin 64, x (ix2 t k) := by
  simp only [Host.reduceAdd, Ideal.hostReduceAdd_def]
  rw [Ideal.hostReduceAdd_single hrt (by decide)]
  show Ideal.ofBits .f32 0x00000000#32 + _ = _
  rw [Ideal.ofBits_zero_f32, zero_add]
  refine Finset.sum_congr rfl fun t _ => ?_
  exact congrArg x (funext fun a => Fin.ext (by match a with | ⟨0, _⟩ => rfl | ⟨1, _⟩ => rfl))

/-- The mean the host computes from the partial sums, as a vector. -/
theorem mean_eq (s : Ten3 64 8 64) (n : BitVec 32)
    (hs : (⟨3, ![64, 8, 64]⟩ : Shape).Slices ![0, 0, 0] ⟨3, ![64, 1, 64]⟩)
    (hc : (⟨3, ![64, 1, 64]⟩ : Shape).ShapeCasts ⟨2, ![64, 64]⟩)
    (hrt : (⟨2, ![64, 64]⟩ : Shape).ReducesTo [0] ⟨1, ![64]⟩) (hu : 0 < (⟨0, ![]⟩ : Shape).numel)
    (hb : (⟨0, ![]⟩ : Shape).BroadcastsInDim ⟨1, ![64]⟩ ![]) :
    Host.divf (F := Ideal) (φ := .f32)
        (Host.reduceAdd (shapeCast ⟨2, ![64, 64]⟩ (extractStridedSlice ⟨3, ![64, 1, 64]⟩ ![0, 0, 0] s hs) hc)
          (constant ⟨0, ![]⟩ .f32 0x00000000#32) hrt hu)
        (broadcastInDim ⟨1, ![64]⟩ ![] hb (constant ⟨0, ![]⟩ .f32 n))
      = meanOfBlocks s (Ideal.ofBits .f32 n) := by
  funext i
  obtain ⟨k, rfl⟩ : ∃ k : Fin 64, i = ix1 k := ⟨i 0, eq_ix1 i⟩
  unfold meanOfBlocks
  show Ideal.div (Host.reduceAdd (F := Ideal) (φ := .f32) _ _ hrt hu (ix1 k)) _ = _
  rw [colsum_apply]
  simp only [first_rows]
  rfl

/-- The variance the host computes from the partial sums and sums of squares, as a vector. -/
theorem var_eq (s sq : Ten3 64 8 64) (n : BitVec 32)
    (hs : (⟨3, ![64, 8, 64]⟩ : Shape).Slices ![0, 0, 0] ⟨3, ![64, 1, 64]⟩)
    (hc : (⟨3, ![64, 1, 64]⟩ : Shape).ShapeCasts ⟨2, ![64, 64]⟩)
    (hrt : (⟨2, ![64, 64]⟩ : Shape).ReducesTo [0] ⟨1, ![64]⟩) (hu : 0 < (⟨0, ![]⟩ : Shape).numel)
    (hb : (⟨0, ![]⟩ : Shape).BroadcastsInDim ⟨1, ![64]⟩ ![]) (mean : Vct 64) (hmean : mean = meanOfBlocks s (Ideal.ofBits .f32 n)) :
    subf (F := Ideal) (φ := .f32)
        (Host.divf
          (Host.reduceAdd (shapeCast ⟨2, ![64, 64]⟩ (extractStridedSlice ⟨3, ![64, 1, 64]⟩ ![0, 0, 0] sq hs) hc)
            (constant ⟨0, ![]⟩ .f32 0x00000000#32) hrt hu)
          (broadcastInDim ⟨1, ![64]⟩ ![] hb (constant ⟨0, ![]⟩ .f32 n)))
        (mulf mean mean)
      = varOfBlocks s sq (Ideal.ofBits .f32 n) := by
  subst hmean
  rw [mean_eq sq n hs hc hrt hu hb]
  funext i
  unfold varOfBlocks meanOfBlocks
  rfl

end Cert.HostStats

end
-- ==== Proof.Boundary0.lean ====
/-
  The contents of the kernel program's buffers at its first two boundaries, as functions of the argument arrays.

  At the entry of the first region the arguments are as launched and the twelve bias vectors have been cast to
  [1, C] rows.  At its exit the region's four output arrays hold the new hidden state, the awareness head before
  its normalisation, and that head's per-block column sums and sums of squares.  What a region leaves in its
  output arrays, for any contents at its entry, is taken here as a hypothesis (one field per output array).
-/
import proofs.«141456_j50483045597756_2_alg».proof.Proof.KernelIdealFrameP
import proofs.«141456_j50483045597756_2_alg».proof.Proof.Network
import proofs.«141456_j50483045597756_2_alg».proof.Proof.Layouts
import proofs.«141456_j50483045597756_2_alg».proof.Proof.HostStats
import Idealize.ShloMosaic.Lib.StableHlo.Run

set_option maxRecDepth 16384

noncomputable section

namespace Cert.Forward

open Idealize.ShloMosaic Idealize.ShloMosaic.TcCoe Idealize.ShloMosaic.ValueIdx Idealize.ShloMosaic.StableHlo Idealize.SL.Sem
open Cert.KernelIdeal Cert.KernelIdeal.Gen Cert.KernelIdeal.GenP
open Cert.Spec Cert.Dense Cert.Layouts

/-- A host stretch leaves a buffer it does not write as it found it. -/
macro "host_keeps" : tactic =>
  `(tactic| (refine StableHlo.after_of_forall_not_mem (b := _) _ _ (List.forall_iff_forall_mem.mp ?_)
             simp only [hostOps0, hostOps1, hostOps2, hostOps3, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- The contents of the TensorCore's buffers, as a region's proof data take them. -/
abbrev Contents : Type := (c : Dev nD) → (b : Ref sig .tc) → Buf (Elt Ideal) ((c : Thread nD τ).loc b)

set_option maxHeartbeats 4000000 in
/-- What the four regions leave in their output arrays, for any contents at their entry. -/
structure RegionFacts : Prop where
  hidden_arr : ∀ (V : Contents) (c : Dev nD), (dat0 V c).arrAt 10 cfg0.N
    = hidden (R := 65536) (V c main_arg0) (V c main_arg1) (V c main_arg3) (V c main_v0) (V c main_arg5) (V c main_arg6) (V c main_v1) (V c main_v2)
  pre_arr : ∀ (V : Contents) (c : Dev nD), (dat0 V c).arrAt 11 cfg0.N
    = lin (hidden (R := 65536) (V c main_arg0) (V c main_arg1) (V c main_arg3) (V c main_v0) (V c main_arg5) (V c main_arg6) (V c main_v1) (V c main_v2))
        (V c main_arg9) (V c main_v3)
  sums_arr : ∀ (V : Contents) (c : Dev nD), (dat0 V c).arrAt 12 cfg0.N
    = blockSums (lin (hidden (R := 65536) (V c main_arg0) (V c main_arg1) (V c main_arg3) (V c main_v0) (V c main_arg5) (V c main_arg6) (V c main_v1) (V c main_v2))
        (V c main_arg9) (V c main_v3))
  sqsums_arr : ∀ (V : Contents) (c : Dev nD), (dat0 V c).arrAt 13 cfg0.N
    = blockSqSums (lin (hidden (R := 65536) (V c main_arg0) (V c main_arg1) (V c main_arg3) (V c main_v0) (V c main_arg5) (V c main_arg6) (V c main_v1) (V c main_v2))
        (V c main_arg9) (V c main_v3))
  actions_arr : ∀ (V : Contents) (c : Dev nD), (dat1 V c).arrAt 11 cfg1.N
    = actions (R := 65536) (V c main_v12_0)
        (aware (V c main_v12_1) (V c main_v25) (V c main_v26) (V c main_v4) (V c main_v5) (V c main_arg13) (V c main_v6))
        (V c main_v27) (V c main_arg21) (V c main_v11)
  musigma_arr : ∀ (V : Contents) (c : Dev nD), (dat1 V c).arrAt 12 cfg1.N
    = muSigma (R := 65536) (aware (V c main_v12_1) (V c main_v25) (V c main_v26) (V c main_v4) (V c main_v5) (V c main_arg13) (V c main_v6))
  pairsums_arr : ∀ (V : Contents) (c : Dev nD), (dat2 V c).arrAt 4 cfg2.N
    = pairBlockSums (V c main_v31) (V c main_v32) (V c main_v33) (V c main_v7)
  pairsq_arr : ∀ (V : Contents) (c : Dev nD), (dat2 V c).arrAt 5 cfg2.N
    = pairBlockSqSums (V c main_v31) (V c main_v32) (V c main_v33) (V c main_v7)
  kl_arr : ∀ (V : Contents) (c : Dev nD), (dat3 V c).arrAt 12 cfg3.N
    = fun i => klMean (B := 8192) (V c main_v31) (V c main_v32) (V c main_v33) (V c main_v7) (V c main_v47) (V c main_v48) (V c main_v8) (V c main_v9)
        (V c main_arg19) (V c main_v10) (V c main_v49) (V c main_v50) (i 0)

variable (m : (ℓ : Loc nD τ sig) → Buf (Elt Ideal) ℓ) (ρ : Dev nD → PrngReg) (c : Dev nD)

/-- The argument arrays of core c. -/
def kIn : Cert.Net.Inputs where
  inp := m ((c.tc : Thread nD τ).loc main_arg0)
  hid := m ((c.tc : Thread nD τ).loc main_arg1)
  noise := m ((c.tc : Thread nD τ).loc main_arg2)
  fc1w := m ((c.tc : Thread nD τ).loc main_arg3)
  fc1b := m ((c.tc : Thread nD τ).loc main_arg4)
  wih := m ((c.tc : Thread nD τ).loc main_arg5)
  whh := m ((c.tc : Thread nD τ).loc main_arg6)
  bih := m ((c.tc : Thread nD τ).loc main_arg7)
  bhh := m ((c.tc : Thread nD τ).loc main_arg8)
  aw1w := m ((c.tc : Thread nD τ).loc main_arg9)
  aw1b := m ((c.tc : Thread nD τ).loc main_arg10)
  awg := m ((c.tc : Thread nD τ).loc main_arg11)
  awbe := m ((c.tc : Thread nD τ).loc main_arg12)
  aw2w := m ((c.tc : Thread nD τ).loc main_arg13)
  aw2b := m ((c.tc : Thread nD τ).loc main_arg14)
  po1w := m ((c.tc : Thread nD τ).loc main_arg15)
  po1b := m ((c.tc : Thread nD τ).loc main_arg16)
  pog := m ((c.tc : Thread nD τ).loc main_arg17)
  pobe := m ((c.tc : Thread nD τ).loc main_arg18)
  po2w := m ((c.tc : Thread nD τ).loc main_arg19)
  po2b := m ((c.tc : Thread nD τ).loc main_arg20)
  fc2w := m ((c.tc : Thread nD τ).loc main_arg21)
  fc2b := m ((c.tc : Thread nD τ).loc main_arg22)

/-! ## The entry of the first region -/

/-- Argument 0 is as launched when region 0 is entered. -/
theorem W1_arg0 : (W1 m ρ c (Proc.devRef .tc main_arg0) : Mat 65536 96) = (kIn m c).inp := by
  show W1 m ρ c (Proc.devRef .tc main_arg0) = W0 m ρ c (Proc.devRef .tc main_arg0)
  host_keeps
/-- Argument 1 is as launched when region 0 is entered. -/
theorem W1_arg1 : (W1 m ρ c (Proc.devRef .tc main_arg1) : Mat 65536 64) = (kIn m c).hid := by
  show W1 m ρ c (Proc.devRef .tc main_arg1) = W0 m ρ c (Proc.devRef .tc main_arg1)
  host_keeps
/-- Argument 2 is as launched when region 0 is entered. -/
theorem W1_arg2 : (W1 m ρ c (Proc.devRef .tc main_arg2) : Ten3 8192 8 24) = (kIn m c).noise := by
  show W1 m ρ c (Proc.devRef .tc main_arg2) = W0 m ρ c (Proc.devRef .tc main_arg2)
  host_keeps
/-- Argument 3 is as launched when region 0 is entered. -/
theorem W1_arg3 : (W1 m ρ c (Proc.devRef .tc main_arg3) : Mat 96 64) = (kIn m c).fc1w := by
  show W1 m ρ c (Proc.devRef .tc main_arg3) = W0 m ρ c (Proc.devRef .tc main_arg3)
  host_keeps
/-- Argument 5 is as launched when region 0 is entered. -/
theorem W1_arg5 : (W1 m ρ c (Proc.devRef .tc main_arg5) : Mat 64 192) = (kIn m c).wih := by
  show W1 m ρ c (Proc.devRef .tc main_arg5) = W0 m ρ c (Proc.devRef .tc main_arg5)
  host_keeps
/-- Argument 6 is as launched when region 0 is entered. -/
theorem W1_arg6 : (W1 m ρ c (Proc.devRef .tc main_arg6) : Mat 64 192) = (kIn m c).whh := by
  show W1 m ρ c (Proc.devRef .tc main_arg6) = W0 m ρ c (Proc.devRef .tc main_arg6)
  host_keeps
/-- Argument 9 is as launched when region 0 is entered. -/
theorem W1_arg9 : (W1 m ρ c (Proc.devRef .tc main_arg9) : Mat 64 64) = (kIn m c).aw1w := by
  show W1 m ρ c (Proc.devRef .tc main_arg9) = W0 m ρ c (Proc.devRef .tc main_arg9)
  host_keeps
/-- Argument 13 is as launched when region 0 is entered. -/
theorem W1_arg13 : (W1 m ρ c (Proc.devRef .tc main_arg13) : Mat 64 48) = (kIn m c).aw2w := by
  show W1 m ρ c (Proc.devRef .tc main_arg13) = W0 m ρ c (Proc.devRef .tc main_arg13)
  host_keeps
/-- Argument 15 is as launched when region 0 is entered. -/
theorem W1_arg15 : (W1 m ρ c (Proc.devRef .tc main_arg15) : Mat 128 64) = (kIn m c).po1w := by
  show W1 m ρ c (Proc.devRef .tc main_arg15) = W0 m ρ c (Proc.devRef .tc main_arg15)
  host_keeps
/-- Argument 19 is as launched when region 0 is entered. -/
theorem W1_arg19 : (W1 m ρ c (Proc.devRef .tc main_arg19) : Mat 64 6) = (kIn m c).po2w := by
  show W1 m ρ c (Proc.devRef .tc main_arg19) = W0 m ρ c (Proc.devRef .tc main_arg19)
  host_keeps
/-- Argument 21 is as launched when region 0 is entered. -/
theorem W1_arg21 : (W1 m ρ c (Proc.devRef .tc main_arg21) : Mat 88 14) = (kIn m c).fc2w := by
  show W1 m ρ c (Proc.devRef .tc main_arg21) = W0 m ρ c (Proc.devRef .tc main_arg21)
  host_keeps

/-- The [1, C] row the wrapper makes of argument 4. -/
theorem W1_v0 : (W1 m ρ c (Proc.devRef .tc main_v0) : Mat 1 64) = row (kIn m c).fc1b := by
  show StableHlo.after hostOps0 (W0 m ρ c) (Proc.devRef .tc main_v0) = _
  after_results
  exact cast_row _ _
/-- The [1, C] row the wrapper makes of argument 7. -/
theorem W1_v1 : (W1 m ρ c (Proc.devRef .tc main_v1) : Mat 1 192) = row (kIn m c).bih := by
  show StableHlo.after hostOps0 (W0 m ρ c) (Proc.devRef .tc main_v1) = _
  after_results
  exact cast_row _ _
/-- The [1, C] row the wrapper makes of argument 8. -/
theorem W1_v2 : (W1 m ρ c (Proc.devRef .tc main_v2) : Mat 1 192) = row (kIn m c).bhh := by
  show StableHlo.after hostOps0 (W0 m ρ c) (Proc.devRef .tc main_v2) = _
  after_results
  exact cast_row _ _
/-- The [1, C] row the wrapper makes of argument 10. -/
theorem W1_v3 : (W1 m ρ c (Proc.devRef .tc main_v3) : Mat 1 64) = row (kIn m c).aw1b := by
  show StableHlo.after hostOps0 (W0 m ρ c) (Proc.devRef .tc main_v3) = _
  after_results
  exact cast_row _ _
/-- The [1, C] row the wrapper makes of argument 11. -/
theorem W1_v4 : (W1 m ρ c (Proc.devRef .tc main_v4) : Mat 1 64) = row (kIn m c).awg := by
  show StableHlo.after hostOps0 (W0 m ρ c) (Proc.devRef .tc main_v4) = _
  after_results
  exact cast_row _ _
/-- The [1, C] row the wrapper makes of argument 12. -/
theorem W1_v5 : (W1 m ρ c (Proc.devRef .tc main_v5) : Mat 1 64) = row (kIn m c).awbe := by
  show StableHlo.after hostOps0 (W0 m ρ c) (Proc.devRef .tc main_v5) = _
  after_results
  exact cast_row _ _
/-- The [1, C] row the wrapper makes of argument 14. -/
theorem W1_v6 : (W1 m ρ c (Proc.devRef .tc main_v6) : Mat 1 48) = row (kIn m c).aw2b := by
  show StableHlo.after hostOps0 (W0 m ρ c) (Proc.devRef .tc main_v6) = _
  after_results
  exact cast_row _ _
/-- The [1, C] row the wrapper makes of argument 16. -/
theorem W1_v7 : (W1 m ρ c (Proc.devRef .tc main_v7) : Mat 1 64) = row (kIn m c).po1b := by
  show StableHlo.after hostOps0 (W0 m ρ c) (Proc.devRef .tc main_v7) = _
  after_results
  exact cast_row _ _
/-- The [1, C] row the wrapper makes of argument 17. -/
theorem W1_v8 : (W1 m ρ c (Proc.devRef .tc main_v8) : Mat 1 64) = row (kIn m c).pog := by
  show StableHlo.after hostOps0 (W0 m ρ c) (Proc.devRef .tc main_v8) = _
  after_results
  exact cast_row _ _
/-- The [1, C] row the wrapper makes of argument 18. -/
theorem W1_v9 : (W1 m ρ c (Proc.devRef .tc main_v9) : Mat 1 64) = row (kIn m c).pobe := by
  show StableHlo.after hostOps0 (W0 m ρ c) (Proc.devRef .tc main_v9) = _
  after_results
  exact cast_row _ _
/-- The [1, C] row the wrapper makes of argument 20. -/
theorem W1_v10 : (W1 m ρ c (Proc.devRef .tc main_v10) : Mat 1 6) = row (kIn m c).po2b := by
  show StableHlo.after hostOps0 (W0 m ρ c) (Proc.devRef .tc main_v10) = _
  after_results
  exact cast_row _ _
/-- The [1, C] row the wrapper makes of argument 22. -/
theorem W1_v11 : (W1 m ρ c (Proc.devRef .tc main_v11) : Mat 1 14) = row (kIn m c).fc2b := by
  show StableHlo.after hostOps0 (W0 m ρ c) (Proc.devRef .tc main_v11) = _
  after_results
  exact cast_row _ _

/-! ## The exit of the first region -/

variable (rf : RegionFacts)
include rf

/-- The new hidden state. -/
theorem W2_h : (W2 m ρ c (Proc.devRef .tc main_v12_0) : Mat 65536 64) = (kIn m c).h := by
  rw [show W2 m ρ c (Proc.devRef .tc main_v12_0) = (dat0 (V1 m ρ) c).arrAt 10 cfg0.N from W2_arr m ρ c 10, rf.hidden_arr (V1 m ρ) c]
  show hidden (W1 m ρ c (Proc.devRef .tc main_arg0)) (W1 m ρ c (Proc.devRef .tc main_arg1)) (W1 m ρ c (Proc.devRef .tc main_arg3))
    (W1 m ρ c (Proc.devRef .tc main_v0)) (W1 m ρ c (Proc.devRef .tc main_arg5)) (W1 m ρ c (Proc.devRef .tc main_arg6))
    (W1 m ρ c (Proc.devRef .tc main_v1)) (W1 m ρ c (Proc.devRef .tc main_v2)) = _
  rw [W1_arg0, W1_arg1, W1_arg3, W1_v0, W1_arg5, W1_arg6, W1_v1, W1_v2]
  rfl

/-- The awareness head before its normalisation. -/
theorem W2_z1 : (W2 m ρ c (Proc.devRef .tc main_v12_1) : Mat 65536 64) = (kIn m c).z1 := by
  rw [show W2 m ρ c (Proc.devRef .tc main_v12_1) = (dat0 (V1 m ρ) c).arrAt 11 cfg0.N from W2_arr m ρ c 11, rf.pre_arr (V1 m ρ) c]
  show lin (hidden (W1 m ρ c (Proc.devRef .tc main_arg0)) (W1 m ρ c (Proc.devRef .tc main_arg1)) (W1 m ρ c (Proc.devRef .tc main_arg3))
    (W1 m ρ c (Proc.devRef .tc main_v0)) (W1 m ρ c (Proc.devRef .tc main_arg5)) (W1 m ρ c (Proc.devRef .tc main_arg6))
    (W1 m ρ c (Proc.devRef .tc main_v1)) (W1 m ρ c (Proc.devRef .tc main_v2))) (W1 m ρ c (Proc.devRef .tc main_arg9)) (W1 m ρ c (Proc.devRef .tc main_v3)) = _
  rw [W1_arg0, W1_arg1, W1_arg3, W1_v0, W1_arg5, W1_arg6, W1_v1, W1_v2, W1_arg9, W1_v3]
  rfl

/-- Its per-block column sums and sums of squares. -/
theorem W2_sums : (W2 m ρ c (Proc.devRef .tc main_v12_2) : Ten3 64 8 64) = blockSums (kIn m c).z1 := by
  rw [show W2 m ρ c (Proc.devRef .tc main_v12_2) = (dat0 (V1 m ρ) c).arrAt 12 cfg0.N from W2_arr m ρ c 12, rf.sums_arr (V1 m ρ) c]
  show blockSums (lin (hidden (W1 m ρ c (Proc.devRef .tc main_arg0)) (W1 m ρ c (Proc.devRef .tc main_arg1)) (W1 m ρ c (Proc.devRef .tc main_arg3))
    (W1 m ρ c (Proc.devRef .tc main_v0)) (W1 m ρ c (Proc.devRef .tc main_arg5)) (W1 m ρ c (Proc.devRef .tc main_arg6))
    (W1 m ρ c (Proc.devRef .tc main_v1)) (W1 m ρ c (Proc.devRef .tc main_v2))) (W1 m ρ c (Proc.devRef .tc main_arg9)) (W1 m ρ c (Proc.devRef .tc main_v3))) = _
  rw [W1_arg0, W1_arg1, W1_arg3, W1_v0, W1_arg5, W1_arg6, W1_v1, W1_v2, W1_arg9, W1_v3]
  rfl
theorem W2_sqsums : (W2 m ρ c (Proc.devRef .tc main_v12_3) : Ten3 64 8 64) = blockSqSums (kIn m c).z1 := by
  rw [show W2 m ρ c (Proc.devRef .tc main_v12_3) = (dat0 (V1 m ρ) c).arrAt 13 cfg0.N from W2_arr m ρ c 13, rf.sqsums_arr (V1 m ρ) c]
  show blockSqSums (lin (hidden (W1 m ρ c (Proc.devRef .tc main_arg0)) (W1 m ρ c (Proc.devRef .tc main_arg1)) (W1 m ρ c (Proc.devRef .tc main_arg3))
    (W1 m ρ c (Proc.devRef .tc main_v0)) (W1 m ρ c (Proc.devRef .tc main_arg5)) (W1 m ρ c (Proc.devRef .tc main_arg6))
    (W1 m ρ c (Proc.devRef .tc main_v1)) (W1 m ρ c (Proc.devRef .tc main_v2))) (W1 m ρ c (Proc.devRef .tc main_arg9)) (W1 m ρ c (Proc.devRef .tc main_v3))) = _
  rw [W1_arg0, W1_arg1, W1_arg3, W1_v0, W1_arg5, W1_arg6, W1_v1, W1_v2, W1_arg9, W1_v3]
  rfl

omit rf in
/-- A buffer that is none of the first region's arrays is at the exit what it was at the entry. -/
theorem W2_keep (b : Ref sig .tc) (hb : ∀ w, Pipeline.arrRef spec0 w ≠ b) :
    W2 m ρ c (Proc.devRef .tc b) = W1 m ρ c (Proc.devRef .tc b) := W2_of_ne m ρ c b hb

end Cert.Forward

end
-- ==== Proof.Boundary1.lean ====
/-
  The second region's entry and exit.

  Between the first two regions the host takes row 0 of each block of partial sums, sums the 64 blocks, divides by
  65536 — the mean —, takes the mean of squares minus the squared mean — the variance —, and casts both, and the
  noise, to the shapes the region reads.  At the region's exit its two output arrays hold the action values and
  the awareness means and variances side by side, both computed with those statistics.
-/
import proofs.«141456_j50483045597756_2_alg».proof.Proof.Boundary0

set_option maxRecDepth 16384

noncomputable section

namespace Cert.Forward

open Idealize.ShloMosaic Idealize.ShloMosaic.TcCoe Idealize.ShloMosaic.ValueIdx Idealize.ShloMosaic.StableHlo Idealize.SL.Sem
open Cert.KernelIdeal Cert.KernelIdeal.Gen Cert.KernelIdeal.GenP
open Cert.Spec Cert.Dense Cert.Layouts

variable (m : (ℓ : Loc nD τ sig) → Buf (Elt Ideal) ℓ) (ρ : Dev nD → PrngReg) (c : Dev nD) (rf : RegionFacts)
include rf

/-! ## The entry of the second region -/

/-- The first region's outputs are not touched by the host stretch. -/
theorem W3_h : (W3 m ρ c (Proc.devRef .tc main_v12_0) : Mat 65536 64) = (kIn m c).h := by
  rw [show W3 m ρ c (Proc.devRef .tc main_v12_0) = W2 m ρ c (Proc.devRef .tc main_v12_0) from by host_keeps]
  exact W2_h m ρ c rf
theorem W3_z1 : (W3 m ρ c (Proc.devRef .tc main_v12_1) : Mat 65536 64) = (kIn m c).z1 := by
  rw [show W3 m ρ c (Proc.devRef .tc main_v12_1) = W2 m ρ c (Proc.devRef .tc main_v12_1) from by host_keeps]
  exact W2_z1 m ρ c rf

/-- Arguments and bias rows the first region did not use come down from the launch. -/
theorem W3_arg13 : (W3 m ρ c (Proc.devRef .tc main_arg13) : Mat 64 48) = (kIn m c).aw2w := by
  rw [show W3 m ρ c (Proc.devRef .tc main_arg13) = W2 m ρ c (Proc.devRef .tc main_arg13) from by host_keeps,
    W2_of_ne m ρ c main_arg13 (by decide)]
  exact W1_arg13 m ρ c
theorem W3_arg21 : (W3 m ρ c (Proc.devRef .tc main_arg21) : Mat 88 14) = (kIn m c).fc2w := by
  rw [show W3 m ρ c (Proc.devRef .tc main_arg21) = W2 m ρ c (Proc.devRef .tc main_arg21) from by host_keeps,
    W2_of_ne m ρ c main_arg21 (by decide)]
  exact W1_arg21 m ρ c
theorem W3_v4 : (W3 m ρ c (Proc.devRef .tc main_v4) : Mat 1 64) = row (kIn m c).awg := by
  rw [show W3 m ρ c (Proc.devRef .tc main_v4) = W2 m ρ c (Proc.devRef .tc main_v4) from by host_keeps,
    W2_of_ne m ρ c main_v4 (by decide)]
  exact W1_v4 m ρ c
theorem W3_v5 : (W3 m ρ c (Proc.devRef .tc main_v5) : Mat 1 64) = row (kIn m c).awbe := by
  rw [show W3 m ρ c (Proc.devRef .tc main_v5) = W2 m ρ c (Proc.devRef .tc main_v5) from by host_keeps,
    W2_of_ne m ρ c main_v5 (by decide)]
  exact W1_v5 m ρ c
theorem W3_v6 : (W3 m ρ c (Proc.devRef .tc main_v6) : Mat 1 48) = row (kIn m c).aw2b := by
  rw [show W3 m ρ c (Proc.devRef .tc main_v6) = W2 m ρ c (Proc.devRef .tc main_v6) from by host_keeps,
    W2_of_ne m ρ c main_v6 (by decide)]
  exact W1_v6 m ρ c
theorem W3_v11 : (W3 m ρ c (Proc.devRef .tc main_v11) : Mat 1 14) = row (kIn m c).fc2b := by
  rw [show W3 m ρ c (Proc.devRef .tc main_v11) = W2 m ρ c (Proc.devRef .tc main_v11) from by host_keeps,
    W2_of_ne m ρ c main_v11 (by decide)]
  exact W1_v11 m ρ c

/-- The noise as 65536 rows. -/
theorem W3_v27 : (W3 m ρ c (Proc.devRef .tc main_v27) : Mat 65536 24) = flatNoise (kIn m c).noise := by
  show StableHlo.after hostOps1 (W2 m ρ c) (Proc.devRef .tc main_v27) = _
  after_results
  rw [W2_of_ne m ρ c main_arg2 (by decide), W1_arg2 m ρ c]
  exact cast_flatNoise _ _

/-- The mean, as a [1, 64] row. -/
theorem W3_v25 : (W3 m ρ c (Proc.devRef .tc main_v25) : Mat 1 64) = row (kIn m c).mean1K := by
  show StableHlo.after hostOps1 (W2 m ρ c) (Proc.devRef .tc main_v25) = _
  after_results
  rw [W2_sums m ρ c rf]
  exact (cast_row (C := 64) _ _).trans (congrArg row (HostStats.mean_eq _ _ _ _ _ _ _))

/-- The variance, as a [1, 64] row. -/
theorem W3_v26 : (W3 m ρ c (Proc.devRef .tc main_v26) : Mat 1 64) = row (kIn m c).var1K := by
  show StableHlo.after hostOps1 (W2 m ρ c) (Proc.devRef .tc main_v26) = _
  after_results
  rw [W2_sums m ρ c rf, W2_sqsums m ρ c rf]
  exact (cast_row (C := 64) _ _).trans (congrArg row
    (HostStats.var_eq (blockSums (kIn m c).z1) (blockSqSums (kIn m c).z1) _ _ _ _ _ _ _ (HostStats.mean_eq _ _ _ _ _ _ _)))

/-! ## The exit of the second region -/

/-- The awareness head's 48 outputs per row, with the statistics from the partial sums. -/
abbrev awK : Mat 65536 48 := (kIn m c).aw (kIn m c).mean1K (kIn m c).var1K

/-- The action values. -/
theorem W4_act : (W4 m ρ c (Proc.devRef .tc main_v28_0) : Mat 65536 14) = (kIn m c).act (kIn m c).mean1K (kIn m c).var1K := by
  rw [show W4 m ρ c (Proc.devRef .tc main_v28_0) = (dat1 (V3 m ρ) c).arrAt 11 cfg1.N from W4_arr m ρ c 11, rf.actions_arr (V3 m ρ) c]
  show actions (W3 m ρ c (Proc.devRef .tc main_v12_0))
    (aware (W3 m ρ c (Proc.devRef .tc main_v12_1)) (W3 m ρ c (Proc.devRef .tc main_v25)) (W3 m ρ c (Proc.devRef .tc main_v26))
      (W3 m ρ c (Proc.devRef .tc main_v4)) (W3 m ρ c (Proc.devRef .tc main_v5)) (W3 m ρ c (Proc.devRef .tc main_arg13)) (W3 m ρ c (Proc.devRef .tc main_v6)))
    (W3 m ρ c (Proc.devRef .tc main_v27)) (W3 m ρ c (Proc.devRef .tc main_arg21)) (W3 m ρ c (Proc.devRef .tc main_v11)) = _
  rw [W3_h m ρ c rf, W3_z1 m ρ c rf, W3_v25 m ρ c rf, W3_v26 m ρ c rf, W3_v4 m ρ c rf, W3_v5 m ρ c rf, W3_arg13 m ρ c rf, W3_v6 m ρ c rf, W3_v27 m ρ c rf, W3_arg21 m ρ c rf, W3_v11 m ρ c rf]
  rfl

/-- The awareness means and variances side by side. -/
theorem W4_musig : (W4 m ρ c (Proc.devRef .tc main_v28_1) : Mat 65536 48) = muSigma (awK m c) := by
  rw [show W4 m ρ c (Proc.devRef .tc main_v28_1) = (dat1 (V3 m ρ) c).arrAt 12 cfg1.N from W4_arr m ρ c 12, rf.musigma_arr (V3 m ρ) c]
  show muSigma (aware (W3 m ρ c (Proc.devRef .tc main_v12_1)) (W3 m ρ c (Proc.devRef .tc main_v25)) (W3 m ρ c (Proc.devRef .tc main_v26))
      (W3 m ρ c (Proc.devRef .tc main_v4)) (W3 m ρ c (Proc.devRef .tc main_v5)) (W3 m ρ c (Proc.devRef .tc main_arg13)) (W3 m ρ c (Proc.devRef .tc main_v6))) = _
  rw [W3_z1 m ρ c rf, W3_v25 m ρ c rf, W3_v26 m ρ c rf, W3_v4 m ρ c rf, W3_v5 m ρ c rf, W3_arg13 m ρ c rf, W3_v6 m ρ c rf]
  rfl

/-- The hidden state, an input of the second region, is unchanged by it. -/
theorem W4_h : (W4 m ρ c (Proc.devRef .tc main_v12_0) : Mat 65536 64) = (kIn m c).h := by
  rw [show W4 m ρ c (Proc.devRef .tc main_v12_0) = V3 m ρ c main_v12_0 from
    (W4_arr m ρ c 1).trans (((dat1 (V3 m ρ) c).arrAt_in 1 rfl _).trans (A_eq1 (V3 m ρ) c 1))]
  exact W3_h m ρ c rf

end Cert.Forward

end
-- ==== Proof.SpecFacts.lean ====
/-
  Reading the side-by-side means and variances: the first 24 columns are the means, the last 24 the floored variances.
-/
import proofs.«141456_j50483045597756_2_alg».proof.Proof.Spec

noncomputable section

namespace Cert.Spec

open Idealize.ShloMosaic Idealize.ShloMosaic.ValueIdx

theorem muSigma_lo {R : Nat} (aw : Mat R 48) (r : Fin R) (c : Fin 24) : muSigma aw (ix2 r (lo24 c)) = muAt aw r c := by
  unfold muSigma
  have h : ((ix2 r (lo24 c) : (⟨2, ![R, 48]⟩ : Shape).Idx) 1).val < 24 := c.isLt
  rw [dif_pos h]
  rfl

theorem muSigma_hi {R : Nat} (aw : Mat R 48) (r : Fin R) (c : Fin 24) : muSigma aw (ix2 r (hi24 c)) = sigmaAt aw r c := by
  unfold muSigma
  have h : ¬ ((ix2 r (hi24 c) : (⟨2, ![R, 48]⟩ : Shape).Idx) 1).val < 24 := by
    show ¬ (24 + c.val < 24)
    omega
  rw [dif_neg h]
  exact congrArg (sigmaAt aw r) (Fin.ext (by show 24 + c.val - 24 = c.val; omega))

end Cert.Spec

end
-- ==== Proof.Boundary2.lean ====
/-
  The third region's entry and exit: the poster head's statistics pass.

  The host groups the hidden rows by batch entry, cuts the pair weights into their two halves, and cuts the
  side-by-side means and variances into their two 24-wide halves.  At the region's exit its two output arrays hold
  the per-block sums and sums of squares of the pair layer.
-/
import proofs.«141456_j50483045597756_2_alg».proof.Proof.Boundary1
import proofs.«141456_j50483045597756_2_alg».proof.Proof.SpecFacts

set_option maxRecDepth 16384

noncomputable section

namespace Cert.Forward

open Idealize.ShloMosaic Idealize.ShloMosaic.TcCoe Idealize.ShloMosaic.ValueIdx Idealize.ShloMosaic.StableHlo Idealize.SL.Sem
open Cert.KernelIdeal Cert.KernelIdeal.Gen Cert.KernelIdeal.GenP
open Cert.Spec Cert.Dense Cert.Layouts

variable (m : (ℓ : Loc nD τ sig) → Buf (Elt Ideal) ℓ) (ρ : Dev nD → PrngReg) (c : Dev nD) (rf : RegionFacts)
include rf

/-! ## The entry of the third region -/

/-- The hidden states grouped by batch entry. -/
theorem W5_v31 : (W5 m ρ c (Proc.devRef .tc main_v31) : Ten3 8192 8 64) = (kIn m c).hd := by
  show StableHlo.after hostOps2 (W4 m ρ c) (Proc.devRef .tc main_v31) = _
  after_results
  rw [W4_h m ρ c rf]
  exact cast_grouped _ _

/-- The pair weights as launched, at the third region's entry. -/
theorem W4_arg15 : (W4 m ρ c (Proc.devRef .tc main_arg15) : Mat 128 64) = (kIn m c).po1w := by
  rw [W4_of_ne m ρ c main_arg15 (by decide),
    show W3 m ρ c (Proc.devRef .tc main_arg15) = W2 m ρ c (Proc.devRef .tc main_arg15) from by host_keeps,
    W2_of_ne m ρ c main_arg15 (by decide)]
  exact W1_arg15 m ρ c

/-- The two halves of the pair weights. -/
theorem W5_v32 : (W5 m ρ c (Proc.devRef .tc main_v32) : Mat 64 64) = (kIn m c).top := by
  show StableHlo.after hostOps2 (W4 m ρ c) (Proc.devRef .tc main_v32) = _
  after_results
  rw [W4_arg15 m ρ c rf]
  exact slice_half _ ![0, 0] lo64 (fun q => by show q.val = 0 + q.val; omega) rfl _
theorem W5_v33 : (W5 m ρ c (Proc.devRef .tc main_v33) : Mat 64 64) = (kIn m c).bot := by
  show StableHlo.after hostOps2 (W4 m ρ c) (Proc.devRef .tc main_v33) = _
  after_results
  rw [W4_arg15 m ρ c rf]
  exact slice_half _ ![64, 0] hi64 (fun q => rfl) rfl _

/-- The pair layer's bias row comes down from the launch. -/
theorem W5_v7 : (W5 m ρ c (Proc.devRef .tc main_v7) : Mat 1 64) = row (kIn m c).po1b := by
  rw [show W5 m ρ c (Proc.devRef .tc main_v7) = W4 m ρ c (Proc.devRef .tc main_v7) from by host_keeps,
    W4_of_ne m ρ c main_v7 (by decide),
    show W3 m ρ c (Proc.devRef .tc main_v7) = W2 m ρ c (Proc.devRef .tc main_v7) from by host_keeps,
    W2_of_ne m ρ c main_v7 (by decide)]
  exact W1_v7 m ρ c

/-- The two halves of the side-by-side means and variances, still as 65536 rows. -/
theorem W5_v29 : (W5 m ρ c (Proc.devRef .tc main_v29) : Mat 65536 24)
    = extractStridedSlice S65536x24 ![0, 0] (muSigma (awK m c)) slices_S65536x48_S65536x24_0_0 := by
  show StableHlo.after hostOps2 (W4 m ρ c) (Proc.devRef .tc main_v29) = _
  after_results
  rw [W4_musig m ρ c rf]
theorem W5_v30 : (W5 m ρ c (Proc.devRef .tc main_v30) : Mat 65536 24)
    = extractStridedSlice S65536x24 ![0, 24] (muSigma (awK m c)) slices_S65536x48_S65536x24_0_24 := by
  show StableHlo.after hostOps2 (W4 m ρ c) (Proc.devRef .tc main_v30) = _
  after_results
  rw [W4_musig m ρ c rf]

/-! ## The exit of the third region -/

theorem W6_sums : (W6 m ρ c (Proc.devRef .tc main_v34_0) : Ten3 64 8 64)
    = pairBlockSums (kIn m c).hd (kIn m c).top (kIn m c).bot (row (kIn m c).po1b) := by
  rw [show W6 m ρ c (Proc.devRef .tc main_v34_0) = (dat2 (V5 m ρ) c).arrAt 4 cfg2.N from W6_arr m ρ c 4, rf.pairsums_arr (V5 m ρ) c]
  show pairBlockSums (W5 m ρ c (Proc.devRef .tc main_v31)) (W5 m ρ c (Proc.devRef .tc main_v32)) (W5 m ρ c (Proc.devRef .tc main_v33))
    (W5 m ρ c (Proc.devRef .tc main_v7)) = _
  rw [W5_v31 m ρ c rf, W5_v32 m ρ c rf, W5_v33 m ρ c rf, W5_v7 m ρ c rf]
theorem W6_sqsums : (W6 m ρ c (Proc.devRef .tc main_v34_1) : Ten3 64 8 64)
    = pairBlockSqSums (kIn m c).hd (kIn m c).top (kIn m c).bot (row (kIn m c).po1b) := by
  rw [show W6 m ρ c (Proc.devRef .tc main_v34_1) = (dat2 (V5 m ρ) c).arrAt 5 cfg2.N from W6_arr m ρ c 5, rf.pairsq_arr (V5 m ρ) c]
  show pairBlockSqSums (W5 m ρ c (Proc.devRef .tc main_v31)) (W5 m ρ c (Proc.devRef .tc main_v32)) (W5 m ρ c (Proc.devRef .tc main_v33))
    (W5 m ρ c (Proc.devRef .tc main_v7)) = _
  rw [W5_v31 m ρ c rf, W5_v32 m ρ c rf, W5_v33 m ρ c rf, W5_v7 m ρ c rf]

/-- The third region's inputs are unchanged by it. -/
theorem W6_v31 : (W6 m ρ c (Proc.devRef .tc main_v31) : Ten3 8192 8 64) = (kIn m c).hd := by
  rw [show W6 m ρ c (Proc.devRef .tc main_v31) = V5 m ρ c main_v31 from
    (W6_arr m ρ c 0).trans (((dat2 (V5 m ρ) c).arrAt_in 0 rfl _).trans (A_eq2 (V5 m ρ) c 0))]
  exact W5_v31 m ρ c rf
theorem W6_v32 : (W6 m ρ c (Proc.devRef .tc main_v32) : Mat 64 64) = (kIn m c).top := by
  rw [show W6 m ρ c (Proc.devRef .tc main_v32) = V5 m ρ c main_v32 from
    (W6_arr m ρ c 1).trans (((dat2 (V5 m ρ) c).arrAt_in 1 rfl _).trans (A_eq2 (V5 m ρ) c 1))]
  exact W5_v32 m ρ c rf
theorem W6_v33 : (W6 m ρ c (Proc.devRef .tc main_v33) : Mat 64 64) = (kIn m c).bot := by
  rw [show W6 m ρ c (Proc.devRef .tc main_v33) = V5 m ρ c main_v33 from
    (W6_arr m ρ c 2).trans (((dat2 (V5 m ρ) c).arrAt_in 2 rfl _).trans (A_eq2 (V5 m ρ) c 2))]
  exact W5_v33 m ρ c rf
theorem W6_v7 : (W6 m ρ c (Proc.devRef .tc main_v7) : Mat 1 64) = row (kIn m c).po1b := by
  rw [show W6 m ρ c (Proc.devRef .tc main_v7) = V5 m ρ c main_v7 from
    (W6_arr m ρ c 3).trans (((dat2 (V5 m ρ) c).arrAt_in 3 rfl _).trans (A_eq2 (V5 m ρ) c 3))]
  exact W5_v7 m ρ c rf

end Cert.Forward

end
-- ==== Proof.Boundary3.lean ====
/-
  The fourth region's entry.

  The host turns the pair layer's per-block sums into its mean and variance rows and casts the two halves of the
  awareness outputs to [8192, 8, 24].
-/
import proofs.«141456_j50483045597756_2_alg».proof.Proof.Boundary2

set_option maxRecDepth 16384

noncomputable section

namespace Cert.Forward

open Idealize.ShloMosaic Idealize.ShloMosaic.TcCoe Idealize.ShloMosaic.ValueIdx Idealize.ShloMosaic.StableHlo Idealize.SL.Sem
open Cert.KernelIdeal Cert.KernelIdeal.Gen Cert.KernelIdeal.GenP
open Cert.Spec Cert.Dense Cert.Layouts

variable (m : (ℓ : Loc nD τ sig) → Buf (Elt Ideal) ℓ) (ρ : Dev nD → PrngReg) (c : Dev nD) (rf : RegionFacts)
include rf

/-! ## The entry of the fourth region -/

/-- The third region's inputs, again inputs here, are untouched by the host stretch. -/
theorem W7_v31 : (W7 m ρ c (Proc.devRef .tc main_v31) : Ten3 8192 8 64) = (kIn m c).hd := by
  rw [show W7 m ρ c (Proc.devRef .tc main_v31) = W6 m ρ c (Proc.devRef .tc main_v31) from by host_keeps]
  exact W6_v31 m ρ c rf
theorem W7_v32 : (W7 m ρ c (Proc.devRef .tc main_v32) : Mat 64 64) = (kIn m c).top := by
  rw [show W7 m ρ c (Proc.devRef .tc main_v32) = W6 m ρ c (Proc.devRef .tc main_v32) from by host_keeps]
  exact W6_v32 m ρ c rf
theorem W7_v33 : (W7 m ρ c (Proc.devRef .tc main_v33) : Mat 64 64) = (kIn m c).bot := by
  rw [show W7 m ρ c (Proc.devRef .tc main_v33) = W6 m ρ c (Proc.devRef .tc main_v33) from by host_keeps]
  exact W6_v33 m ρ c rf
theorem W7_v7 : (W7 m ρ c (Proc.devRef .tc main_v7) : Mat 1 64) = row (kIn m c).po1b := by
  rw [show W7 m ρ c (Proc.devRef .tc main_v7) = W6 m ρ c (Proc.devRef .tc main_v7) from by host_keeps]
  exact W6_v7 m ρ c rf

/-- Arguments and bias rows no earlier region used come down from the launch. -/
theorem W7_v8 : (W7 m ρ c (Proc.devRef .tc main_v8) : Mat 1 64) = row (kIn m c).pog := by
  rw [show W7 m ρ c (Proc.devRef .tc main_v8) = W6 m ρ c (Proc.devRef .tc main_v8) from by host_keeps,
    W6_of_ne m ρ c main_v8 (by decide),
    show W5 m ρ c (Proc.devRef .tc main_v8) = W4 m ρ c (Proc.devRef .tc main_v8) from by host_keeps,
    W4_of_ne m ρ c main_v8 (by decide),
    show W3 m ρ c (Proc.devRef .tc main_v8) = W2 m ρ c (Proc.devRef .tc main_v8) from by host_keeps,
    W2_of_ne m ρ c main_v8 (by decide)]
  exact W1_v8 m ρ c
theorem W7_v9 : (W7 m ρ c (Proc.devRef .tc main_v9) : Mat 1 64) = row (kIn m c).pobe := by
  rw [show W7 m ρ c (Proc.devRef .tc main_v9) = W6 m ρ c (Proc.devRef .tc main_v9) from by host_keeps,
    W6_of_ne m ρ c main_v9 (by decide),
    show W5 m ρ c (Proc.devRef .tc main_v9) = W4 m ρ c (Proc.devRef .tc main_v9) from by host_keeps,
    W4_of_ne m ρ c main_v9 (by decide),
    show W3 m ρ c (Proc.devRef .tc main_v9) = W2 m ρ c (Proc.devRef .tc main_v9) from by host_keeps,
    W2_of_ne m ρ c main_v9 (by decide)]
  exact W1_v9 m ρ c
theorem W7_v10 : (W7 m ρ c (Proc.devRef .tc main_v10) : Mat 1 6) = row (kIn m c).po2b := by
  rw [show W7 m ρ c (Proc.devRef .tc main_v10) = W6 m ρ c (Proc.devRef .tc main_v10) from by host_keeps,
    W6_of_ne m ρ c main_v10 (by decide),
    show W5 m ρ c (Proc.devRef .tc main_v10) = W4 m ρ c (Proc.devRef .tc main_v10) from by host_keeps,
    W4_of_ne m ρ c main_v10 (by decide),
    show W3 m ρ c (Proc.devRef .tc main_v10) = W2 m ρ c (Proc.devRef .tc main_v10) from by host_keeps,
    W2_of_ne m ρ c main_v10 (by decide)]
  exact W1_v10 m ρ c
theorem W7_arg19 : (W7 m ρ c (Proc.devRef .tc main_arg19) : Mat 64 6) = (kIn m c).po2w := by
  rw [show W7 m ρ c (Proc.devRef .tc main_arg19) = W6 m ρ c (Proc.devRef .tc main_arg19) from by host_keeps,
    W6_of_ne m ρ c main_arg19 (by decide),
    show W5 m ρ c (Proc.devRef .tc main_arg19) = W4 m ρ c (Proc.devRef .tc main_arg19) from by host_keeps,
    W4_of_ne m ρ c main_arg19 (by decide),
    show W3 m ρ c (Proc.devRef .tc main_arg19) = W2 m ρ c (Proc.devRef .tc main_arg19) from by host_keeps,
    W2_of_ne m ρ c main_arg19 (by decide)]
  exact W1_arg19 m ρ c

/-- The pair layer's mean and variance, as [1, 64] rows. -/
theorem W7_v47 : (W7 m ρ c (Proc.devRef .tc main_v47) : Mat 1 64) = row (kIn m c).mean2K := by
  show StableHlo.after hostOps3 (W6 m ρ c) (Proc.devRef .tc main_v47) = _
  after_results
  rw [W6_sums m ρ c rf]
  exact (cast_row (C := 64) _ _).trans (congrArg row (HostStats.mean_eq _ _ _ _ _ _ _))
set_option maxHeartbeats 4000000 in
theorem W7_v48 : (W7 m ρ c (Proc.devRef .tc main_v48) : Mat 1 64) = row (kIn m c).var2K := by
  show StableHlo.after hostOps3 (W6 m ρ c) (Proc.devRef .tc main_v48) = _
  after_results
  rw [W6_sums m ρ c rf, W6_sqsums m ρ c rf]
  exact (cast_row (C := 64) _ _).trans (congrArg row
    (HostStats.var_eq (pairBlockSums (kIn m c).hd (kIn m c).top (kIn m c).bot (row (kIn m c).po1b))
      (pairBlockSqSums (kIn m c).hd (kIn m c).top (kIn m c).bot (row (kIn m c).po1b)) _ _ _ _ _ _ _ (HostStats.mean_eq _ _ _ _ _ _ _)))

/-- The awareness means and variances grouped by batch entry. -/
theorem W7_v49 : (W7 m ρ c (Proc.devRef .tc main_v49) : Ten3 8192 8 24) = (kIn m c).mu (kIn m c).mean1K (kIn m c).var1K := by
  show StableHlo.after hostOps3 (W6 m ρ c) (Proc.devRef .tc main_v49) = _
  after_results
  rw [W6_of_ne m ρ c main_v29 (by decide), W5_v29 m ρ c rf]
  refine (cast_slice24 (muSigma (awK m c)) ![0, 0] lo24 (fun q => by show q.val = 0 + q.val; omega) rfl _ _).trans ?_
  funext i
  exact muSigma_lo _ _ _
theorem W7_v50 : (W7 m ρ c (Proc.devRef .tc main_v50) : Ten3 8192 8 24) = (kIn m c).sg (kIn m c).mean1K (kIn m c).var1K := by
  show StableHlo.after hostOps3 (W6 m ρ c) (Proc.devRef .tc main_v50) = _
  after_results
  rw [W6_of_ne m ρ c main_v30 (by decide), W5_v30 m ρ c rf]
  refine (cast_slice24 (muSigma (awK m c)) ![0, 24] hi24 (fun q => rfl) rfl _ _).trans ?_
  funext i
  exact muSigma_hi _ _ _

end Cert.Forward

end
-- ==== Proof.Boundary4.lean ====
/-
  The three results at the last boundary.

  At the fourth region's exit its output array holds the divergence of each batch entry.  The action values and the
  new hidden state, written by the second and the first region, are untouched by everything after.
-/
import proofs.«141456_j50483045597756_2_alg».proof.Proof.Boundary3

set_option maxRecDepth 16384

noncomputable section

namespace Cert.Forward

open Idealize.ShloMosaic Idealize.ShloMosaic.TcCoe Idealize.ShloMosaic.ValueIdx Idealize.ShloMosaic.StableHlo Idealize.SL.Sem
open Cert.KernelIdeal Cert.KernelIdeal.Gen Cert.KernelIdeal.GenP
open Cert.Spec Cert.Dense Cert.Layouts

variable (m : (ℓ : Loc nD τ sig) → Buf (Elt Ideal) ℓ) (ρ : Dev nD → PrngReg) (c : Dev nD) (rf : RegionFacts)
include rf

/-- What the fourth region leaves, with its inputs read at its entry. -/
theorem W8_kl_entry : W8 m ρ c (Proc.devRef .tc (Pipeline.arrRef spec3 12))
    = fun i => klMean (B := 8192) (V7 m ρ c main_v31) (V7 m ρ c main_v32) (V7 m ρ c main_v33) (V7 m ρ c main_v7) (V7 m ρ c main_v47)
        (V7 m ρ c main_v48) (V7 m ρ c main_v8) (V7 m ρ c main_v9) (V7 m ρ c main_arg19) (V7 m ρ c main_v10) (V7 m ρ c main_v49)
        (V7 m ρ c main_v50) (i 0) :=
  (W8_arr m ρ c 12).trans (rf.kl_arr (V7 m ρ) c)

/-- The same, at the result's own reference. -/
theorem W8_kl_at : W8 m ρ c (Proc.devRef .tc main_v51)
    = fun i => klMean (B := 8192) (V7 m ρ c main_v31) (V7 m ρ c main_v32) (V7 m ρ c main_v33) (V7 m ρ c main_v7) (V7 m ρ c main_v47)
        (V7 m ρ c main_v48) (V7 m ρ c main_v8) (V7 m ρ c main_v9) (V7 m ρ c main_arg19) (V7 m ρ c main_v10) (V7 m ρ c main_v49)
        (V7 m ρ c main_v50) (i 0) :=
  W8_kl_entry m ρ c rf

/-- With the entry contents read back to the arguments, that is the divergence of the specification. -/
theorem kl_value : (fun i => klMean (B := 8192) (V7 m ρ c main_v31) (V7 m ρ c main_v32) (V7 m ρ c main_v33) (V7 m ρ c main_v7) (V7 m ρ c main_v47)
        (V7 m ρ c main_v48) (V7 m ρ c main_v8) (V7 m ρ c main_v9) (V7 m ρ c main_arg19) (V7 m ρ c main_v10) (V7 m ρ c main_v49)
        (V7 m ρ c main_v50) (i 0) : Mat 8192 1)
    = (kIn m c).kl (kIn m c).mean1K (kIn m c).var1K (kIn m c).mean2K (kIn m c).var2K := by
  rw [show (V7 m ρ c main_v31 : Ten3 8192 8 64) = (kIn m c).hd from W7_v31 m ρ c rf,
    show (V7 m ρ c main_v32 : Mat 64 64) = (kIn m c).top from W7_v32 m ρ c rf,
    show (V7 m ρ c main_v33 : Mat 64 64) = (kIn m c).bot from W7_v33 m ρ c rf,
    show (V7 m ρ c main_v7 : Mat 1 64) = row (kIn m c).po1b from W7_v7 m ρ c rf,
    show (V7 m ρ c main_v47 : Mat 1 64) = row (kIn m c).mean2K from W7_v47 m ρ c rf,
    show (V7 m ρ c main_v48 : Mat 1 64) = row (kIn m c).var2K from W7_v48 m ρ c rf,
    show (V7 m ρ c main_v8 : Mat 1 64) = row (kIn m c).pog from W7_v8 m ρ c rf,
    show (V7 m ρ c main_v9 : Mat 1 64) = row (kIn m c).pobe from W7_v9 m ρ c rf,
    show (V7 m ρ c main_arg19 : Mat 64 6) = (kIn m c).po2w from W7_arg19 m ρ c rf,
    show (V7 m ρ c main_v10 : Mat 1 6) = row (kIn m c).po2b from W7_v10 m ρ c rf,
    show (V7 m ρ c main_v49 : Ten3 8192 8 24) = (kIn m c).mu (kIn m c).mean1K (kIn m c).var1K from W7_v49 m ρ c rf,
    show (V7 m ρ c main_v50 : Ten3 8192 8 24) = (kIn m c).sg (kIn m c).mean1K (kIn m c).var1K from W7_v50 m ρ c rf]
  rfl

/-- The divergence. -/
theorem W8_kl : W8 m ρ c (Proc.devRef .tc main_v51)
    = (kIn m c).kl (kIn m c).mean1K (kIn m c).var1K (kIn m c).mean2K (kIn m c).var2K :=
  (W8_kl_at m ρ c rf).trans (kl_value m ρ c rf)

/-- The action values. -/
theorem W8_act : (W8 m ρ c (Proc.devRef .tc main_v28_0) : Mat 65536 14) = (kIn m c).act (kIn m c).mean1K (kIn m c).var1K := by
  rw [W8_of_ne m ρ c main_v28_0 (by decide),
    show W7 m ρ c (Proc.devRef .tc main_v28_0) = W6 m ρ c (Proc.devRef .tc main_v28_0) from by host_keeps,
    W6_of_ne m ρ c main_v28_0 (by decide),
    show W5 m ρ c (Proc.devRef .tc main_v28_0) = W4 m ρ c (Proc.devRef .tc main_v28_0) from by host_keeps]
  exact W4_act m ρ c rf

/-- The new hidden state. -/
theorem W8_h : (W8 m ρ c (Proc.devRef .tc main_v12_0) : Mat 65536 64) = (kIn m c).h := by
  rw [W8_of_ne m ρ c main_v12_0 (by decide),
    show W7 m ρ c (Proc.devRef .tc main_v12_0) = W6 m ρ c (Proc.devRef .tc main_v12_0) from by host_keeps,
    W6_of_ne m ρ c main_v12_0 (by decide),
    show W5 m ρ c (Proc.devRef .tc main_v12_0) = W4 m ρ c (Proc.devRef .tc main_v12_0) from by host_keeps]
  exact W4_h m ρ c rf

end Cert.Forward

end
-- ==== Proof.LibBlockSum.lean ====
/- General lemmas on finite sums cut into blocks, in any additive commutative monoid (no cancellation and no finiteness
   of the values is used, so they hold of the extended reals): a sum over `Fin (K * B)` is the sum over `K` blocks of
   the sums over each block's `B` entries (`sum_blocks`); the left-nested accumulation that starts from `z` and adds
   one block's partial sum after another ends at `z` plus the whole sum (`accum`, `accum_eq`, `accum_blocks`); and both
   at 8 blocks of 256 with the literal 2048 (`sum_2048`, `accum_2048`). -/
import Mathlib.Algebra.BigOperators.Fin

namespace Cert.BlockSum

/-- Entry `r` of block `k`, among `K` blocks of `B` entries each: position `k * B + r`. -/
def blk (K B : ℕ) (k : Fin K) (r : Fin B) : Fin (K * B) :=
  ⟨k.val * B + r.val,
    calc k.val * B + r.val < k.val * B + B := Nat.add_lt_add_left r.isLt _
      _ = (k.val + 1) * B := (Nat.succ_mul _ _).symm
      _ ≤ K * B := Nat.mul_le_mul_right _ k.isLt⟩

theorem blk_val (K B : ℕ) (k : Fin K) (r : Fin B) : (blk K B k r).val = k.val * B + r.val := rfl

/-- A sum over `K * B` positions is the sum over the `K` blocks of each block's sum over its `B` entries. -/
theorem sum_blocks {M : Type*} [AddCommMonoid M] (K B : ℕ) (f : Fin (K * B) → M) :
    ∑ n : Fin (K * B), f n = ∑ k : Fin K, ∑ r : Fin B, f (blk K B k r) := by
  rw [← finProdFinEquiv.sum_comp f, Fintype.sum_prod_type]
  refine Finset.sum_congr rfl fun k _ => Finset.sum_congr rfl fun r _ => congrArg f (Fin.ext ?_)
  show r.val + B * k.val = k.val * B + r.val
  rw [Nat.mul_comm, Nat.add_comm]

/-- The left-nested accumulation: start from `z`, and at step `k` add `p k` on the right. -/
def accum {M : Type*} [AddCommMonoid M] (z : M) (p : ℕ → M) : ℕ → M
  | 0 => z
  | k + 1 => accum z p k + p k

/-- After `K` steps the accumulation holds its start plus the sum of the first `K` terms. -/
theorem accum_eq {M : Type*} [AddCommMonoid M] (z : M) (p : ℕ → M) (K : ℕ) :
    accum z p K = z + ∑ k : Fin K, p k.val := by
  induction K with
  | zero => simp [accum]
  | succ K ih =>
    rw [accum, ih, Fin.sum_univ_castSucc, add_assoc]
    rfl

/-- Accumulating from zero, block after block, each block's partial sum gives the whole sum. -/
theorem accum_blocks {M : Type*} [AddCommMonoid M] (K B : ℕ) (f : Fin (K * B) → M) :
    accum 0 (fun k => if h : k < K then ∑ r : Fin B, f (blk K B ⟨k, h⟩ r) else 0) K = ∑ n : Fin (K * B), f n := by
  rw [accum_eq, zero_add, sum_blocks]
  exact Finset.sum_congr rfl fun k _ => by rw [dif_pos k.isLt]

/-- A sum over 2048 positions as 8 blocks of 256, with the literal extent. -/
theorem sum_2048 {M : Type*} [AddCommMonoid M] (f : Fin 2048 → M) :
    ∑ n : Fin 2048, f n
      = ∑ k : Fin 8, ∑ r : Fin 256, f ⟨k.val * 256 + r.val, by have := k.isLt; have := r.isLt; omega⟩ :=
  sum_blocks 8 256 f

/-- The accumulation over 8 blocks of 256 from zero is the sum over the 2048 positions. -/
theorem accum_2048 {M : Type*} [AddCommMonoid M] (f : Fin 2048 → M) :
    accum 0 (fun k => if h : k < 8 then ∑ r : Fin 256, f ⟨k * 256 + r.val, by have := r.isLt; omega⟩ else 0) 8
      = ∑ n : Fin 2048, f n :=
  accum_blocks 8 256 f

end Cert.BlockSum
-- ==== Proof.StatsConsts.lean ====
/-
  The count words and the two units of the normalisations, as the numbers their float patterns denote.

  The number of rows 65536 = 2^16 and the number of ordered pairs 524288 = 2^19 are powers of two, so their
  single-precision patterns denote them exactly; the zero pattern denotes 0 and the pattern of 1.0 denotes 1.
-/
import Idealize.ShloMosaic.PureOps.Ideal
import Idealize.ShloMosaic.PureOps.Ideal.Laws
import proofs.«141456_j50483045597756_2_alg».proof.Proof.Spec

noncomputable section

namespace Cert.Stats

open Idealize.ShloMosaic

/-- The row count's word denotes the real number 65536. -/
theorem nRows_eq : Spec.nRows = ((65536 : ℝ) : EReal) := by
  show Ideal.ofBits .f32 0x47800000#32 = ((65536 : ℝ) : EReal)
  simp [Ideal.ofBits, Ideal.ieee, -EReal.coe_mul]; norm_num

/-- The pair count's word denotes the real number 524288. -/
theorem nPairs_eq : Spec.nPairs = ((524288 : ℝ) : EReal) := by
  show Ideal.ofBits .f32 0x49000000#32 = ((524288 : ℝ) : EReal)
  simp [Ideal.ofBits, Ideal.ieee, -EReal.coe_mul]; norm_num

/-- The zero word denotes 0. -/
theorem zero_eq : Spec.zero = 0 := Ideal.ofBits_zero_f32

/-- The word of 1.0 denotes 1. -/
theorem one_eq : Spec.one = 1 := by
  show Ideal.ofBits .f32 0x3F800000#32 = 1
  simp [Ideal.ofBits, Ideal.ieee, -EReal.coe_mul]; norm_num

end Cert.Stats

end
-- ==== Proof.LibCoeLift.lean ====
/-
  Extended-real operations on real arguments stay real: finite sums, the quotient by a nonzero real, and a running
  maximum started at -∞ over a nonempty range. With these, a chain of sums, products, exponentials, quotients and
  maxima of real inputs is read as one real number.
-/
import Idealize.ShloMosaic.PureOps.Ideal
import Idealize.ShloMosaic.PureOps.Ideal.Laws

noncomputable section

namespace Cert.Proof.CoeLift

open Idealize.ShloMosaic

/-- A finite sum of reals, taken in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The extended quotient of two reals, the divisor nonzero, is the real quotient. -/
theorem div_coe_coe (a b : ℝ) (hb : b ≠ 0) : Ideal.div (a : EReal) (b : EReal) = ((a / b : ℝ) : EReal) := by
  rw [Ideal.div_coe hb, ← EReal.coe_mul, mul_one_div]

/-- The word of the negative infinity denotes the bottom of the extended reals. -/
theorem ofBits_neg_inf : Ideal.ofBits .f32 0xFF800000#32 = (⊥ : EReal) := by
  simp [Ideal.ofBits, Ideal.ieee]

/-- A running maximum from -∞ over a nonempty finite set of reals is a real. -/
theorem fold_max_coe_of_nonempty {ι : Type} (s : Finset ι) (hs : s.Nonempty) (f : ι → ℝ) :
    ∃ c : ℝ, s.fold max (⊥ : EReal) (fun i => ((f i : ℝ) : EReal)) = (c : EReal) := by
  induction hs using Finset.Nonempty.cons_induction with
  | singleton a => exact ⟨f a, by rw [Finset.fold_singleton, max_bot_right]⟩
  | cons a s ha hs ih =>
    obtain ⟨c, hc⟩ := ih
    exact ⟨max (f a) c, by rw [Finset.fold_cons, hc]; exact (EReal.coe_strictMono.monotone.map_max).symm⟩

/-- The same over a whole nonempty range. -/
theorem fold_max_coe {n : ℕ} (hn : 0 < n) (f : Fin n → ℝ) :
    ∃ c : ℝ, (Finset.univ : Finset (Fin n)).fold max (⊥ : EReal) (fun i => ((f i : ℝ) : EReal)) = (c : EReal) :=
  fold_max_coe_of_nonempty _ ⟨⟨0, hn⟩, Finset.mem_univ _⟩ f

end Cert.Proof.CoeLift

end
-- ==== Proof.StatsVarLaw.lean ====
/-
  The variance of finitely many real numbers, two ways.

  For real numbers x_i indexed by a finite set with c elements, with mean m = (Σ x_i) / c,
      (Σ x_i^2) / c - m * m = (Σ (x_i - m) * (x_i - m)) / c,
  because Σ (x_i - m)^2 = Σ x_i^2 - 2 m Σ x_i + c m^2 and Σ x_i = c m.  The divisor has to be the number of
  terms.  On the extended reals the identity is stated for entries that are real numbers: there every sum,
  product, difference and quotient by the nonzero count is the real one, and the identity is the real identity
  read through the inclusion of the reals (at an infinite entry the cancellation would fail).
-/
import Idealize.ShloMosaic.PureOps.Ideal
import Idealize.ShloMosaic.PureOps.Ideal.Laws
import proofs.«141456_j50483045597756_2_alg».proof.Proof.Spec
import proofs.«141456_j50483045597756_2_alg».proof.Proof.LibCoeLift

noncomputable section

namespace Cert.Stats

open Idealize.ShloMosaic Cert.Proof

/-- The identity over the reals. -/
theorem var_real {ι : Type} [Fintype ι] (f : ι → ℝ) (c : ℝ) (hc : (Fintype.card ι : ℝ) = c) (h0 : c ≠ 0) :
    (∑ i, f i * f i) / c - (∑ i, f i) / c * ((∑ i, f i) / c)
      = (∑ i, (f i - (∑ i, f i) / c) * (f i - (∑ i, f i) / c)) / c := by
  have expand : ∀ m : ℝ, ∑ i, (f i - m) * (f i - m) = (∑ i, f i * f i) - 2 * m * (∑ i, f i) + c * (m * m) := by
    intro m
    have h : ∀ i, (f i - m) * (f i - m) = f i * f i - 2 * m * f i + m * m := fun i => by ring
    simp only [h, Finset.sum_add_distrib, Finset.sum_sub_distrib, ← Finset.mul_sum, Finset.sum_const,
      Finset.card_univ, nsmul_eq_mul, hc]
    ring
  rw [expand]
  field_simp
  ring

/-- The identity on the extended reals, for the inclusions of real numbers. -/
theorem var_coe {ι : Type} [Fintype ι] (f : ι → ℝ) (c : ℝ) (hc : (Fintype.card ι : ℝ) = c) (h0 : c ≠ 0) :
    Ideal.div (∑ i, ((f i : ℝ) : EReal) * ((f i : ℝ) : EReal)) (c : EReal)
        - Ideal.div (∑ i, ((f i : ℝ) : EReal)) (c : EReal) * Ideal.div (∑ i, ((f i : ℝ) : EReal)) (c : EReal)
      = Ideal.div (∑ i, (((f i : ℝ) : EReal) - Ideal.div (∑ i, ((f i : ℝ) : EReal)) (c : EReal))
            * (((f i : ℝ) : EReal) - Ideal.div (∑ i, ((f i : ℝ) : EReal)) (c : EReal))) (c : EReal) := by
  have hm : Ideal.div (∑ i, ((f i : ℝ) : EReal)) (c : EReal) = (((∑ i, f i) / c : ℝ) : EReal) := by
    rw [CoeLift.coe_sum, CoeLift.div_coe_coe _ _ h0]
  have hq : ∑ i, ((f i : ℝ) : EReal) * ((f i : ℝ) : EReal) = ((∑ i, f i * f i : ℝ) : EReal) := by
    rw [← CoeLift.coe_sum]
    exact Finset.sum_congr rfl fun i _ => (EReal.coe_mul _ _).symm
  have hd : ∑ i, (((f i : ℝ) : EReal) - (((∑ i, f i) / c : ℝ) : EReal)) * (((f i : ℝ) : EReal) - (((∑ i, f i) / c : ℝ) : EReal))
      = ((∑ i, (f i - (∑ i, f i) / c) * (f i - (∑ i, f i) / c) : ℝ) : EReal) := by
    rw [← CoeLift.coe_sum]
    exact Finset.sum_congr rfl fun i _ => by rw [← EReal.coe_sub, ← EReal.coe_mul]
  rw [hm, hq, hd, CoeLift.div_coe_coe _ _ h0, CoeLift.div_coe_coe _ _ h0, ← EReal.coe_mul, ← EReal.coe_sub,
    var_real f c hc h0]

/-- The identity for extended reals that are real numbers, with the count given as an extended real. -/
theorem var_law {ι : Type} [Fintype ι] (g : ι → EReal) (hg : ∀ i, Spec.IsReal (g i)) (n : EReal) (c : ℝ)
    (hn : n = (c : EReal)) (hc : (Fintype.card ι : ℝ) = c) (h0 : c ≠ 0) :
    Ideal.div (∑ i, g i * g i) n - Ideal.div (∑ i, g i) n * Ideal.div (∑ i, g i) n
      = Ideal.div (∑ i, (g i - Ideal.div (∑ i, g i) n) * (g i - Ideal.div (∑ i, g i) n)) n := by
  choose f hf using hg
  obtain rfl : g = fun i => ((f i : ℝ) : EReal) := funext hf
  subst hn
  exact var_coe f c hc h0

end Cert.Stats

end
-- ==== Proof.StatsRows.lean ====
/-
  The first normalisation's statistics: per-block partial sums against one sum over all rows.

  The 65536 rows are 64 blocks of 1024; row t * 1024 + r is row r of block t.  A column's sum over all rows is
  the sum over the blocks of the block's partial sum: only the grouping of the terms changes, so the two means
  agree for any entries.  The variance from partial sums of squares, "mean of squares minus squared mean", is the
  mean of the centred squares when every entry is a real number and the divisor is the number of rows.
-/
import Idealize.ShloMosaic.PureOps.Ideal
import Idealize.ShloMosaic.PureOps.Ideal.Laws
import proofs.«141456_j50483045597756_2_alg».proof.Proof.Spec
import proofs.«141456_j50483045597756_2_alg».proof.Proof.LibBlockSum
import proofs.«141456_j50483045597756_2_alg».proof.Proof.StatsConsts
import proofs.«141456_j50483045597756_2_alg».proof.Proof.StatsVarLaw

noncomputable section

namespace Cert.Stats

open Idealize.ShloMosaic Idealize.ShloMosaic.ValueIdx

/-- A sum over the 65536 rows is the sum over the 64 blocks of the sums over each block's 1024 rows. -/
theorem sum_rows {M : Type*} [AddCommMonoid M] (f : Fin 65536 → M) :
    ∑ n : Fin 65536, f n = ∑ t : Fin 64, ∑ r : Fin 1024, f (Spec.blockRow t r) :=
  BlockSum.sum_blocks 64 1024 f

/-- The mean from the per-block partial sums is the mean over all rows. -/
theorem mean_blocks (z : Spec.Mat 65536 64) (n : EReal) :
    Spec.meanOfBlocks (Spec.blockSums z) n = Spec.colMean z n := by
  funext k
  show Ideal.div (∑ t : Fin 64, ∑ r : Fin 1024, z (ix2 (Spec.blockRow t r) (k 0))) n
    = Ideal.div (∑ r : Fin 65536, z (ix2 r (k 0))) n
  rw [sum_rows fun r => z (ix2 r (k 0))]

/-- The variance from the per-block partial sums and sums of squares is the mean of the centred squares, for
    real entries and the row count as divisor. -/
theorem var_blocks (z : Spec.Mat 65536 64) (hz : ∀ i, Spec.IsReal (z i)) :
    Spec.varOfBlocks (Spec.blockSums z) (Spec.blockSqSums z) Spec.nRows = Spec.colVarCentred z Spec.nRows := by
  funext k
  show Ideal.div (∑ t : Fin 64, ∑ r : Fin 1024,
        z (ix2 (Spec.blockRow t r) (k 0)) * z (ix2 (Spec.blockRow t r) (k 0))) Spec.nRows
      - Spec.meanOfBlocks (Spec.blockSums z) Spec.nRows k * Spec.meanOfBlocks (Spec.blockSums z) Spec.nRows k
    = Ideal.div (∑ r : Fin 65536, (z (ix2 r (k 0)) - Spec.colMean z Spec.nRows k)
        * (z (ix2 r (k 0)) - Spec.colMean z Spec.nRows k)) Spec.nRows
  rw [mean_blocks, ← sum_rows fun r => z (ix2 r (k 0)) * z (ix2 r (k 0))]
  exact var_law (fun r : Fin 65536 => z (ix2 r (k 0))) (fun r => hz _) Spec.nRows 65536 nRows_eq
    (by rw [Fintype.card_fin]; norm_num) (by norm_num)

end Cert.Stats

end
-- ==== Proof.StatsPairs.lean ====
/-
  The second normalisation's statistics: per-block partial sums over batch entries and pairs against one sum
  over all rows of the all-pairs matrix.

  Row n of the [524288, 64] pair matrix is the triple (batch entry, j, i) with n = (entry * 8 + j) * 8 + i, and
  batch entry t * 128 + b is entry b of the t-th block of 128.  A column's sum over all rows is therefore the sum
  over the 64 blocks, the block's 128 entries and the 8 * 8 pairs: only the grouping of the terms changes, so the
  means agree for any entries.  The variance "mean of squares minus squared mean" is the mean of the centred
  squares when every entry is a real number and the divisor is the number of rows, 524288.
-/
import Idealize.ShloMosaic.PureOps.Ideal
import Idealize.ShloMosaic.PureOps.Ideal.Laws
import proofs.«141456_j50483045597756_2_alg».proof.Proof.Spec
import proofs.«141456_j50483045597756_2_alg».proof.Proof.LibBlockSum
import proofs.«141456_j50483045597756_2_alg».proof.Proof.StatsConsts
import proofs.«141456_j50483045597756_2_alg».proof.Proof.StatsVarLaw

noncomputable section

namespace Cert.Stats

open Idealize.ShloMosaic Idealize.ShloMosaic.ValueIdx

/-- A sum over the 524288 pair rows is the sum over the 64 blocks of batch entries, the 128 entries of a block,
    and the 8 * 8 ordered pairs of an entry. -/
theorem sum_pairs {M : Type*} [AddCommMonoid M] (f : Fin 524288 → M) :
    ∑ n : Fin 524288, f n
      = ∑ t : Fin 64, ∑ b : Fin 128, ∑ j : Fin 8, ∑ a : Fin 8, f (Spec.pairRow (Spec.blockBatch t b) j a) := by
  have h1 : ∑ n : Fin 524288, f n = ∑ m : Fin 65536, ∑ a : Fin 8, f (BlockSum.blk 65536 8 m a) :=
    BlockSum.sum_blocks 65536 8 f
  have h2 : ∀ g : Fin 65536 → M, ∑ m : Fin 65536, g m = ∑ e : Fin 8192, ∑ j : Fin 8, g (BlockSum.blk 8192 8 e j) :=
    fun g => BlockSum.sum_blocks 8192 8 g
  have h3 : ∀ g : Fin 8192 → M, ∑ e : Fin 8192, g e = ∑ t : Fin 64, ∑ b : Fin 128, g (BlockSum.blk 64 128 t b) :=
    fun g => BlockSum.sum_blocks 64 128 g
  rw [h1, h2, h3]
  rfl

/-- The pair layer at equal batch entries, pairs and units. -/
theorem pairPre_congr {B : Nat} (hd : Spec.Ten3 B 8 64) (top bot : Spec.Mat 64 64) (pb : Spec.Mat 1 64)
    {b b' : Fin B} {j j' i i' : Fin 8} {k k' : Fin 64} (hb : b = b') (hj : j = j') (hi : i = i') (hk : k = k') :
    Spec.pairPre hd top bot pb b j i k = Spec.pairPre hd top bot pb b' j' i' k' := by
  subst hb hj hi hk
  rfl

/-- The pair matrix at the row of batch entry e and pair (j, a) is the pair layer at (e, j, a): the row number
    (e * 8 + j) * 8 + a has quotient e by 64, quotient by 8 congruent to j modulo 8, and remainder a modulo 8. -/
theorem pairMat_pairRow (hd : Spec.Ten3 8192 8 64) (top bot : Spec.Mat 64 64) (pb : Spec.Mat 1 64)
    (e : Fin 8192) (j a : Fin 8) (k : Fin 64) :
    Spec.pairMat hd top bot pb (ix2 (Spec.pairRow e j a) k) = Spec.pairPre hd top bot pb e j a k := by
  have he := e.isLt
  have hj := j.isLt
  have ha := a.isLt
  unfold Spec.pairMat
  refine pairPre_congr hd top bot pb (Fin.ext ?_) (Fin.ext ?_) (Fin.ext ?_) rfl
  · show ((e.val * 8 + j.val) * 8 + a.val) / 64 = e.val
    omega
  · show ((e.val * 8 + j.val) * 8 + a.val) / 8 % 8 = j.val
    omega
  · show ((e.val * 8 + j.val) * 8 + a.val) % 8 = a.val
    omega

/-- The mean from the per-block partial sums is the mean over all rows of the pair matrix. -/
theorem pair_mean_blocks (hd : Spec.Ten3 8192 8 64) (top bot : Spec.Mat 64 64) (pb : Spec.Mat 1 64) (n : EReal) :
    Spec.meanOfBlocks (Spec.pairBlockSums hd top bot pb) n = Spec.colMean (Spec.pairMat hd top bot pb) n := by
  funext k
  obtain ⟨c, rfl⟩ : ∃ c : Fin 64, k = ix1 c := ⟨k 0, eq_ix1 k⟩
  show Ideal.div (∑ t : Fin 64, ∑ b : Fin 128, ∑ j : Fin 8, ∑ a : Fin 8,
        Spec.pairPre hd top bot pb (Spec.blockBatch t b) j a c) n
    = Ideal.div (∑ r : Fin 524288, Spec.pairMat hd top bot pb (ix2 r c)) n
  rw [sum_pairs fun r => Spec.pairMat hd top bot pb (ix2 r c)]
  simp only [pairMat_pairRow]

/-- The variance from the per-block partial sums and sums of squares is the mean of the centred squares of the
    pair matrix, for real entries and the pair count as divisor. -/
theorem pair_var_blocks (hd : Spec.Ten3 8192 8 64) (top bot : Spec.Mat 64 64) (pb : Spec.Mat 1 64)
    (hz : ∀ n, Spec.IsReal (Spec.pairMat hd top bot pb n)) :
    Spec.varOfBlocks (Spec.pairBlockSums hd top bot pb) (Spec.pairBlockSqSums hd top bot pb) Spec.nPairs
      = Spec.colVarCentred (Spec.pairMat hd top bot pb) Spec.nPairs := by
  funext k
  have hmean := congrFun (pair_mean_blocks hd top bot pb Spec.nPairs) k
  obtain ⟨c, rfl⟩ : ∃ c : Fin 64, k = ix1 c := ⟨k 0, eq_ix1 k⟩
  have hsq : ∑ t : Fin 64, ∑ b : Fin 128, ∑ j : Fin 8, ∑ a : Fin 8,
        Spec.pairPre hd top bot pb (Spec.blockBatch t b) j a c
          * Spec.pairPre hd top bot pb (Spec.blockBatch t b) j a c
      = ∑ r : Fin 524288, Spec.pairMat hd top bot pb (ix2 r c) * Spec.pairMat hd top bot pb (ix2 r c) := by
    rw [sum_pairs fun r => Spec.pairMat hd top bot pb (ix2 r c) * Spec.pairMat hd top bot pb (ix2 r c)]
    simp only [pairMat_pairRow]
  show Ideal.div (∑ t : Fin 64, ∑ b : Fin 128, ∑ j : Fin 8, ∑ a : Fin 8,
        Spec.pairPre hd top bot pb (Spec.blockBatch t b) j a c
          * Spec.pairPre hd top bot pb (Spec.blockBatch t b) j a c) Spec.nPairs
      - Spec.meanOfBlocks (Spec.pairBlockSums hd top bot pb) Spec.nPairs (ix1 c)
        * Spec.meanOfBlocks (Spec.pairBlockSums hd top bot pb) Spec.nPairs (ix1 c)
    = Ideal.div (∑ r : Fin 524288,
        (Spec.pairMat hd top bot pb (ix2 r c) - Spec.colMean (Spec.pairMat hd top bot pb) Spec.nPairs (ix1 c))
          * (Spec.pairMat hd top bot pb (ix2 r c) - Spec.colMean (Spec.pairMat hd top bot pb) Spec.nPairs (ix1 c)))
        Spec.nPairs
  rw [hmean, hsq]
  exact var_law (fun r : Fin 524288 => Spec.pairMat hd top bot pb (ix2 r c)) (fun r => hz _) Spec.nPairs 524288
    nPairs_eq (by rw [Fintype.card_fin]; norm_num) (by norm_num)

end Cert.Stats

end
-- ==== Proof.StatsReal.lean ====
/-
  Real-valued entries stay real through the layers that feed the two normalisations.

  An extended real is "real" when it is the inclusion of a real number.  Sums, differences, products and maxima
  of reals are real, and so is any finite sum of reals; the logistic function 1 / (1 + e^(-x)) and the hyperbolic
  tangent take reals to reals.  Hence a dense layer (a finite sum of products plus a bias entry), a dense layer
  with a rectifier (a maximum with the real 0), the gated recurrent cell (sums, products, logistic and tanh of the
  gate pre-activations) and the all-pairs layer (two finite sums of products plus a bias entry) have real entries
  whenever all their arguments do.
-/
import Idealize.ShloMosaic.PureOps.Ideal
import Idealize.ShloMosaic.PureOps.Ideal.Laws
import proofs.«141456_j50483045597756_2_alg».proof.Proof.Spec
import proofs.«141456_j50483045597756_2_alg».proof.Proof.StatsConsts

noncomputable section

namespace Cert.Stats

open Idealize.ShloMosaic Idealize.ShloMosaic.ValueIdx

/-! ## Closure of the real numbers inside the extended reals -/

theorem isReal_coe (r : ℝ) : Spec.IsReal (r : EReal) := ⟨r, rfl⟩

theorem isReal_zero : Spec.IsReal (0 : EReal) := ⟨0, EReal.coe_zero.symm⟩

theorem isReal_one : Spec.IsReal (1 : EReal) := ⟨1, EReal.coe_one.symm⟩

/-- The zero word and the word of 1.0 denote real numbers. -/
theorem isReal_specZero : Spec.IsReal Spec.zero := by rw [zero_eq]; exact isReal_zero

theorem isReal_specOne : Spec.IsReal Spec.one := by rw [one_eq]; exact isReal_one

theorem isReal_add {x y : EReal} (hx : Spec.IsReal x) (hy : Spec.IsReal y) : Spec.IsReal (x + y) := by
  obtain ⟨a, rfl⟩ := hx
  obtain ⟨b, rfl⟩ := hy
  exact ⟨a + b, (EReal.coe_add a b).symm⟩

theorem isReal_sub {x y : EReal} (hx : Spec.IsReal x) (hy : Spec.IsReal y) : Spec.IsReal (x - y) := by
  obtain ⟨a, rfl⟩ := hx
  obtain ⟨b, rfl⟩ := hy
  exact ⟨a - b, (EReal.coe_sub a b).symm⟩

theorem isReal_mul {x y : EReal} (hx : Spec.IsReal x) (hy : Spec.IsReal y) : Spec.IsReal (x * y) := by
  obtain ⟨a, rfl⟩ := hx
  obtain ⟨b, rfl⟩ := hy
  exact ⟨a * b, (EReal.coe_mul a b).symm⟩

theorem isReal_max {x y : EReal} (hx : Spec.IsReal x) (hy : Spec.IsReal y) : Spec.IsReal (max x y) := by
  obtain ⟨a, rfl⟩ := hx
  obtain ⟨b, rfl⟩ := hy
  exact ⟨max a b, (EReal.coe_strictMono.monotone.map_max).symm⟩

/-- A finite sum of reals is real. -/
theorem isReal_sum {ι : Type} (s : Finset ι) (g : ι → EReal) (h : ∀ i ∈ s, Spec.IsReal (g i)) :
    Spec.IsReal (∑ i ∈ s, g i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- The logistic function of a real is the real 1 / (1 + e^(-x)). -/
theorem isReal_logistic {x : EReal} (hx : Spec.IsReal x) : Spec.IsReal (Ideal.logistic x) := by
  obtain ⟨a, rfl⟩ := hx
  exact ⟨_, Ideal.logistic_coe a⟩

/-- The hyperbolic tangent of a real is the real one. -/
theorem isReal_tanh {x : EReal} (hx : Spec.IsReal x) : Spec.IsReal (Ideal.tanh x) := by
  obtain ⟨a, rfl⟩ := hx
  exact ⟨Real.tanh a, Ideal.tanh_coe a⟩

/-! ## The layers -/

/-- Every entry of a product of real matrices is real. -/
theorem isReal_mm {R K C : Nat} (X : Spec.Mat R K) (W : Spec.Mat K C)
    (hX : ∀ i, Spec.IsReal (X i)) (hW : ∀ i, Spec.IsReal (W i)) (i : (⟨2, ![R, C]⟩ : Shape).Idx) :
    Spec.IsReal (Dense.mm X W i) :=
  isReal_sum _ _ fun _ _ => isReal_mul (hX _) (hW _)

/-- Every entry of a dense layer on real arguments is real. -/
theorem isReal_lin {R K C : Nat} (X : Spec.Mat R K) (W : Spec.Mat K C) (B : Spec.Mat 1 C)
    (hX : ∀ i, Spec.IsReal (X i)) (hW : ∀ i, Spec.IsReal (W i)) (hB : ∀ i, Spec.IsReal (B i))
    (i : (⟨2, ![R, C]⟩ : Shape).Idx) : Spec.IsReal (Dense.lin X W B i) :=
  isReal_add (isReal_mm X W hX hW i) (hB _)

/-- Every entry of a dense layer with a rectifier on real arguments is real. -/
theorem isReal_reluLin {R K C : Nat} (X : Spec.Mat R K) (W : Spec.Mat K C) (B : Spec.Mat 1 C)
    (hX : ∀ i, Spec.IsReal (X i)) (hW : ∀ i, Spec.IsReal (W i)) (hB : ∀ i, Spec.IsReal (B i))
    (i : (⟨2, ![R, C]⟩ : Shape).Idx) : Spec.IsReal (Spec.reluLin X W B i) :=
  isReal_max (isReal_lin X W B hX hW hB i) isReal_specZero

/-- The gated recurrent cell takes real gate pre-activations and a real old state to a real new state. -/
theorem isReal_gruOut {R : Nat} (gi gh : Spec.Mat R 192) (hid : Spec.Mat R 64)
    (hgi : ∀ i, Spec.IsReal (gi i)) (hgh : ∀ i, Spec.IsReal (gh i)) (hh : ∀ i, Spec.IsReal (hid i))
    (i : (⟨2, ![R, 64]⟩ : Shape).Idx) : Spec.IsReal (Spec.gruOut gi gh hid i) := by
  unfold Spec.gruOut
  exact isReal_add
    (isReal_mul (isReal_sub isReal_specOne (isReal_logistic (isReal_add (hgi _) (hgh _))))
      (isReal_tanh (isReal_add (hgi _) (isReal_mul (isReal_logistic (isReal_add (hgi _) (hgh _))) (hgh _)))))
    (isReal_mul (isReal_logistic (isReal_add (hgi _) (hgh _))) (hh _))

/-- Every entry of the new hidden state is real when the inputs, the old state, the weights and the biases are. -/
theorem isReal_hidden {R : Nat} (inp : Spec.Mat R 96) (hid : Spec.Mat R 64) (fc1w : Spec.Mat 96 64)
    (fc1b : Spec.Mat 1 64) (wih whh : Spec.Mat 64 192) (bih bhh : Spec.Mat 1 192)
    (hinp : ∀ i, Spec.IsReal (inp i)) (hhid : ∀ i, Spec.IsReal (hid i)) (hfc1w : ∀ i, Spec.IsReal (fc1w i))
    (hfc1b : ∀ i, Spec.IsReal (fc1b i)) (hwih : ∀ i, Spec.IsReal (wih i)) (hwhh : ∀ i, Spec.IsReal (whh i))
    (hbih : ∀ i, Spec.IsReal (bih i)) (hbhh : ∀ i, Spec.IsReal (bhh i)) (i : (⟨2, ![R, 64]⟩ : Shape).Idx) :
    Spec.IsReal (Spec.hidden inp hid fc1w fc1b wih whh bih bhh i) :=
  isReal_gruOut _ _ _
    (isReal_lin _ _ _ (isReal_reluLin inp fc1w fc1b hinp hfc1w hfc1b) hwih hbih)
    (isReal_lin _ _ _ hhid hwhh hbhh) hhid i

/-- The pair layer before normalisation is real at every batch entry, pair and unit. -/
theorem isReal_pairPre {B : Nat} (hd : Spec.Ten3 B 8 64) (top bot : Spec.Mat 64 64) (pb : Spec.Mat 1 64)
    (hhd : ∀ i, Spec.IsReal (hd i)) (htop : ∀ i, Spec.IsReal (top i)) (hbot : ∀ i, Spec.IsReal (bot i))
    (hpb : ∀ i, Spec.IsReal (pb i)) (b : Fin B) (j i : Fin 8) (k : Fin 64) :
    Spec.IsReal (Spec.pairPre hd top bot pb b j i k) :=
  isReal_add
    (isReal_add (isReal_sum _ _ fun _ _ => isReal_mul (hhd _) (htop _))
      (isReal_sum _ _ fun _ _ => isReal_mul (hhd _) (hbot _)))
    (hpb _)

/-- Every entry of the all-pairs matrix is real. -/
theorem isReal_pairMat (hd : Spec.Ten3 8192 8 64) (top bot : Spec.Mat 64 64) (pb : Spec.Mat 1 64)
    (hhd : ∀ i, Spec.IsReal (hd i)) (htop : ∀ i, Spec.IsReal (top i)) (hbot : ∀ i, Spec.IsReal (bot i))
    (hpb : ∀ i, Spec.IsReal (pb i)) (n : (⟨2, ![524288, 64]⟩ : Shape).Idx) :
    Spec.IsReal (Spec.pairMat hd top bot pb n) :=
  isReal_pairPre hd top bot pb hhd htop hbot hpb _ _ _ _

/-- Regrouping the rows by batch entry and taking the top or the bottom half of the pair weights only re-index
    the entries, so real entries stay real. -/
theorem isReal_grouped (h : Spec.Mat 65536 64) (hh : ∀ i, Spec.IsReal (h i))
    (i : (⟨3, ![8192, 8, 64]⟩ : Shape).Idx) : Spec.IsReal (Spec.grouped h i) := hh _

theorem isReal_topOf (w : Spec.Mat 128 64) (hw : ∀ i, Spec.IsReal (w i))
    (i : (⟨2, ![64, 64]⟩ : Shape).Idx) : Spec.IsReal (Spec.topOf w i) := hw _

theorem isReal_botOf (w : Spec.Mat 128 64) (hw : ∀ i, Spec.IsReal (w i))
    (i : (⟨2, ![64, 64]⟩ : Shape).Idx) : Spec.IsReal (Spec.botOf w i) := hw _

end Cert.Stats

end
-- ==== Proof.Bridge.lean ====
/-
  The results computed with the statistics from per-block partial sums are the results computed with the
  statistics over all rows.

  The hidden state, and with it both pre-normalisation layers, is real-valued as soon as the inputs, the old state
  and the weights and biases before those layers are: sums, products, differences, maxima, the logistic function and
  the hyperbolic tangent of real numbers are real.  On real entries the mean from the 64 partial sums is the mean
  over all rows (a regrouping of one sum) and "mean of squares minus squared mean" is the mean of the centred
  squares.  Every later stage takes the statistics as arguments, so equal statistics give equal results.
-/
import proofs.«141456_j50483045597756_2_alg».proof.Proof.Network
import proofs.«141456_j50483045597756_2_alg».proof.Proof.StatsRows
import proofs.«141456_j50483045597756_2_alg».proof.Proof.StatsPairs
import proofs.«141456_j50483045597756_2_alg».proof.Proof.StatsReal

noncomputable section

namespace Cert.Net

open Idealize.ShloMosaic Idealize.ShloMosaic.ValueIdx Cert.Dense Cert.Spec Cert.Stats

variable (I : Inputs)

/-- A bias row of real entries is real. -/
theorem row_real {C : Nat} (v : Vct C) (h : ∀ i, IsReal (v i)) : ∀ i, IsReal (row v i) := fun _ => h _

theorem Inputs.h_real (hR : I.Real) : ∀ i, IsReal (I.h i) := fun i =>
  isReal_hidden I.inp I.hid I.fc1w (row I.fc1b) I.wih I.whh (row I.bih) (row I.bhh) hR.inp hR.hid hR.fc1w
    (row_real _ hR.fc1b) hR.wih hR.whh (row_real _ hR.bih) (row_real _ hR.bhh) i

theorem Inputs.z1_real (hR : I.Real) : ∀ i, IsReal (I.z1 i) := fun i =>
  isReal_lin I.h I.aw1w (row I.aw1b) (I.h_real hR) hR.aw1w (row_real _ hR.aw1b) i

theorem Inputs.pair_real (hR : I.Real) : ∀ n, IsReal (I.pair n) :=
  isReal_pairMat I.hd I.top I.bot (row I.po1b) (fun _ => I.h_real hR _) (fun _ => hR.po1w _) (fun _ => hR.po1w _)
    (row_real _ hR.po1b)

/-- The awareness head's statistics agree. -/
theorem Inputs.mean1_eq : I.mean1K = I.mean1R := mean_blocks I.z1 nRows
theorem Inputs.var1_eq (hR : I.Real) : I.var1K = I.var1R := var_blocks I.z1 (I.z1_real hR)

/-- The pair layer's statistics agree. -/
theorem Inputs.mean2_eq : I.mean2K = I.mean2R := pair_mean_blocks I.hd I.top I.bot (row I.po1b) nPairs
theorem Inputs.var2_eq (hR : I.Real) : I.var2K = I.var2R :=
  pair_var_blocks I.hd I.top I.bot (row I.po1b) (I.pair_real hR)

/-- The action values and the divergence agree. -/
theorem Inputs.act_eq (hR : I.Real) : I.act I.mean1K I.var1K = I.act I.mean1R I.var1R := by
  rw [I.mean1_eq, I.var1_eq hR]
theorem Inputs.kl_eq (hR : I.Real) :
    I.kl I.mean1K I.var1K I.mean2K I.var2K = I.kl I.mean1R I.var1R I.mean2R I.var2R := by
  rw [I.mean1_eq, I.var1_eq hR, I.mean2_eq, I.var2_eq hR]

end Cert.Net

end
-- ==== Proof.RefHeadBasics.lean ====
/-
  Small facts the reading of the plain program leans on at every dense layer and at every gate.

  A dense layer read entry by entry is a sum over the contracted coordinate of a left entry times a right entry, plus
  a bias entry; once the two index functions are known to be (row, k) and (k, column) and the bias index to be the
  column, that is `lin` with the bias as a one-row matrix.  The float word 0x3F800000 is the number one, so the
  spelled-out quotient 1 / (1 + exp (-x)) is the logistic function.  Column g * 64 + k of a 192-wide gate matrix
  is named by its two coordinates.  A column's mean and variance are sums down the column from the zero word,
  which is the number zero, divided by the count.
-/
import Idealize.ShloMosaic.Lib.ValueIdx
import Idealize.ShloMosaic.PureOps.Ideal.Laws
import proofs.«141456_j50483045597756_2_alg».proof.Proof.Spec

noncomputable section

namespace Cert.RefHead

open Idealize.ShloMosaic Idealize.ShloMosaic.ValueIdx Cert.Dense Cert.Spec

/-- The float word 0x3F800000 is one. -/
theorem ofBits_one : Ideal.ofBits .f32 0x3F800000#32 = 1 := by
  simp [Ideal.ofBits, Ideal.ieee, -EReal.coe_mul]; norm_num

/-- A sum of products along (row, k) and (k, column) plus the column's bias entry is the dense layer's entry. -/
theorem lin_eq {R K C : Nat} (X : Mat R K) (W : Mat K C) (b : Vct C) (i : (⟨2, ![R, C]⟩ : Shape).Idx)
    (l : Fin K → (⟨2, ![R, K]⟩ : Shape).Idx) (r : Fin K → (⟨2, ![K, C]⟩ : Shape).Idx) (c : (⟨1, ![C]⟩ : Shape).Idx)
    (hl : ∀ k, l k = ix2 (i 0) k) (hr : ∀ k, r k = ix2 k (i 1)) (hc : c = ix1 (i 1)) :
    (∑ k : Fin K, X (l k) * W (r k)) + b c = lin X W (row b) i := by
  subst hc
  simp only [hl, hr]
  rfl

/-- One over one plus the exponential of the negation, with one spelled as its float word, is the logistic function. -/
theorem logistic_host (x : EReal) :
    FloatOps.hostDivf (F := Ideal) (φ := .f32) (FloatOps.ofBits .f32 0x3F800000#32)
      (FloatOps.addf (FloatOps.ofBits .f32 0x3F800000#32) (FloatOps.hostUnary .exp (FloatOps.hostNegf x)))
      = Ideal.logistic x := by
  simp only [Ideal.ofBits_def, ofBits_one]
  rfl

/-- A column sum that starts from the zero word, divided by the count, is the column's mean. -/
theorem colMean_eq {N : Nat} (z : Mat N 64) (n : EReal) (k : (⟨1, ![64]⟩ : Shape).Idx)
    (ix : Fin N → (⟨2, ![N, 64]⟩ : Shape).Idx) (h : ∀ r, ix r = ix2 r (k 0)) :
    Ideal.div (Ideal.ofBits .f32 0x00000000#32 + ∑ r : Fin N, z (ix r)) n = colMean z n k := by
  rw [Ideal.ofBits_zero_f32, zero_add]
  unfold colMean
  exact congrArg (fun s => Ideal.div s n) (Finset.sum_congr rfl fun r _ => congrArg z (h r))

/-- A sum of centred squares down a column that starts from the zero word, divided by the count, is the column's
    variance. -/
theorem colVar_eq {N : Nat} (z : Mat N 64) (n : EReal) (c : Fin 64) (f : Fin N → EReal)
    (h : ∀ r, f r = (z (ix2 r c) - colMean z n (ix1 c)) * (z (ix2 r c) - colMean z n (ix1 c))) :
    Ideal.div (Ideal.ofBits .f32 0x00000000#32 + ∑ r : Fin N, f r) n = colVarCentred z n (ix1 c) := by
  rw [Ideal.ofBits_zero_f32, zero_add]
  unfold colVarCentred
  exact congrArg (fun s => Ideal.div s n) (Finset.sum_congr rfl fun r _ => h r)

/-- An index of the 192-wide gate matrix with row r and column g * 64 + k is (r, gateCol g k). -/
theorem gate_idx (g : Fin 3) (j : (⟨2, ![65536, 64]⟩ : Shape).Idx) (i' : (⟨2, ![65536, 192]⟩ : Shape).Idx)
    (h0 : (i' 0).val = (j 0).val) (h1 : (i' 1).val = g.val * 64 + (j 1).val) : i' = ix2 (j 0) (gateCol g (j 1)) := by
  funext a
  match a with
  | ⟨0, _⟩ => exact Fin.ext h0
  | ⟨1, _⟩ => exact Fin.ext h1

end Cert.RefHead

end
-- ==== Proof.RefHeadLayers.lean ====
/-
  The three dense layers in front of the gated recurrent cell, as the plain program computes them.

  The input goes through a 96-to-64 layer and a rectifier; the result goes through the 64-to-192 input-side gate layer;
  the old hidden state goes through the 64-to-192 state-side gate layer.  Each product is read as a sum over the
  contracted coordinate, each bias as the vector broadcast first to one row and then down the rows.
-/
import proofs.«141456_j50483045597756_2_alg».proof.Proof.Gen.ReferenceIdeal.Read
import proofs.«141456_j50483045597756_2_alg».proof.Proof.RefHeadBasics

noncomputable section

namespace Cert.RefHead

open Idealize.ShloMosaic Idealize.ShloMosaic.ValueIdx Cert.ReferenceIdeal Cert.ReferenceIdeal.Read Cert.Dense Cert.Spec

/-- Two indices with the same coordinates are the same index (rank 1, rank 2). -/
local macro "idx1" : tactic => `(tactic| (funext a; match a with | ⟨0, _⟩ => rfl))
local macro "idx2" : tactic => `(tactic| (funext a; match a with | ⟨0, _⟩ => rfl | ⟨1, _⟩ => rfl))

/-- The first layer with its rectifier. -/
theorem relu_ref (x0 : (⟨S65536x96, .f32⟩ : BufTy).Contents (Elt Ideal)) (x3 : (⟨S96x64, .f32⟩ : BufTy).Contents (Elt Ideal)) (x4 : (⟨S64, .f32⟩ : BufTy).Contents (Elt Ideal)) :
    val_main_v4 (F := Ideal) x0 x3 x4 = reluLin x0 x3 (row x4) := by
  funext i
  rw [val_main_v4_apply, val_main_v3_apply, val_main_v0_apply, val_main_v2_apply, val_main_v1_apply,
    val_main_call0_v0_apply, val_main_call0_cst_apply]
  exact congrArg (fun t => max t zero) (lin_eq x0 x3 x4 i (lidx_main_v0 i) (ridx_main_v0 i) (idx_main_v1 (idx_main_v2 i))
    (fun k => by idx2) (fun k => by idx2) (by idx1))

/-- The input-side gate pre-activations. -/
theorem gi_ref (x0 : (⟨S65536x96, .f32⟩ : BufTy).Contents (Elt Ideal)) (x3 : (⟨S96x64, .f32⟩ : BufTy).Contents (Elt Ideal)) (x4 : (⟨S64, .f32⟩ : BufTy).Contents (Elt Ideal)) (x5 : (⟨S64x192, .f32⟩ : BufTy).Contents (Elt Ideal)) (x7 : (⟨S192, .f32⟩ : BufTy).Contents (Elt Ideal)) :
    val_main_v8 (F := Ideal) x0 x3 x4 x5 x7 = lin (val_main_v4 (F := Ideal) x0 x3 x4) x5 (row x7) := by
  funext i
  rw [val_main_v8_apply, val_main_v5_apply, val_main_v7_apply, val_main_v6_apply]
  exact lin_eq (val_main_v4 (F := Ideal) x0 x3 x4) x5 x7 i (lidx_main_v5 i) (ridx_main_v5 i) (idx_main_v6 (idx_main_v7 i))
    (fun k => by idx2) (fun k => by idx2) (by idx1)

/-- The state-side gate pre-activations. -/
theorem gh_ref (x1 : (⟨S65536x64, .f32⟩ : BufTy).Contents (Elt Ideal)) (x6 : (⟨S64x192, .f32⟩ : BufTy).Contents (Elt Ideal)) (x8 : (⟨S192, .f32⟩ : BufTy).Contents (Elt Ideal)) :
    val_main_v12 (F := Ideal) x1 x6 x8 = lin x1 x6 (row x8) := by
  funext i
  rw [val_main_v12_apply, val_main_v9_apply, val_main_v11_apply, val_main_v10_apply]
  exact lin_eq x1 x6 x8 i (lidx_main_v9 i) (ridx_main_v9 i) (idx_main_v10 (idx_main_v11 i))
    (fun k => by idx2) (fun k => by idx2) (by idx1)

end Cert.RefHead

end
-- ==== Proof.RefHeadCell.lean ====
/-
  The gated recurrent cell of the plain program, entry by entry.

  The three gates of unit q of row p sit in columns q, 64 + q and 128 + q of the two 192-wide pre-activation
  matrices.  The reset and the update gate are logistic functions of the sums of the two matrices' entries; the
  candidate is the hyperbolic tangent of the input side plus the reset gate times the state side; the new state is
  (1 - update) * candidate + update * old state.
-/
import proofs.«141456_j50483045597756_2_alg».proof.Proof.Gen.ReferenceIdeal.Read
import proofs.«141456_j50483045597756_2_alg».proof.Proof.RefHeadLayers

noncomputable section

namespace Cert.RefHead

open Idealize.ShloMosaic Idealize.ShloMosaic.ValueIdx Cert.ReferenceIdeal Cert.ReferenceIdeal.Read Cert.Dense Cert.Spec

/-- The reset gate: columns 0 .. 63. -/
theorem reset_at (x0 : (⟨S65536x96, .f32⟩ : BufTy).Contents (Elt Ideal)) (x1 : (⟨S65536x64, .f32⟩ : BufTy).Contents (Elt Ideal)) (x3 : (⟨S96x64, .f32⟩ : BufTy).Contents (Elt Ideal)) (x4 : (⟨S64, .f32⟩ : BufTy).Contents (Elt Ideal)) (x5 : (⟨S64x192, .f32⟩ : BufTy).Contents (Elt Ideal)) (x6 : (⟨S64x192, .f32⟩ : BufTy).Contents (Elt Ideal)) (x7 : (⟨S192, .f32⟩ : BufTy).Contents (Elt Ideal)) (x8 : (⟨S192, .f32⟩ : BufTy).Contents (Elt Ideal)) (p : Fin 65536) (q : Fin 64) :
    val_main_v25 (F := Ideal) x0 x1 x3 x4 x5 x6 x7 x8 (ix2 p q) = Ideal.logistic (val_main_v8 (F := Ideal) x0 x3 x4 x5 x7 (ix2 p (gateCol 0 q)) + val_main_v12 (F := Ideal) x1 x6 x8 (ix2 p (gateCol 0 q))) := by
  rw [val_main_v25_apply, val_main_v24_apply, val_main_cst_0_apply, val_main_v23_apply, val_main_v22_apply,
    val_main_cst_apply, val_main_v21_apply, val_main_v20_apply, val_main_v19_apply, val_main_v13_apply, val_main_v16_apply,
    gate_idx 0 (ix2 p q) (idx_main_v13 (ix2 p q)) rfl (by show q.val = 0 * 64 + q.val; omega),
    gate_idx 0 (ix2 p q) (idx_main_v16 (ix2 p q)) rfl (by show q.val = 0 * 64 + q.val; omega)]
  exact logistic_host _

/-- The update gate: columns 64 .. 127. -/
theorem update_at (x0 : (⟨S65536x96, .f32⟩ : BufTy).Contents (Elt Ideal)) (x1 : (⟨S65536x64, .f32⟩ : BufTy).Contents (Elt Ideal)) (x3 : (⟨S96x64, .f32⟩ : BufTy).Contents (Elt Ideal)) (x4 : (⟨S64, .f32⟩ : BufTy).Contents (Elt Ideal)) (x5 : (⟨S64x192, .f32⟩ : BufTy).Contents (Elt Ideal)) (x6 : (⟨S64x192, .f32⟩ : BufTy).Contents (Elt Ideal)) (x7 : (⟨S192, .f32⟩ : BufTy).Contents (Elt Ideal)) (x8 : (⟨S192, .f32⟩ : BufTy).Contents (Elt Ideal)) (p : Fin 65536) (q : Fin 64) :
    val_main_v32 (F := Ideal) x0 x1 x3 x4 x5 x6 x7 x8 (ix2 p q) = Ideal.logistic (val_main_v8 (F := Ideal) x0 x3 x4 x5 x7 (ix2 p (gateCol 1 q)) + val_main_v12 (F := Ideal) x1 x6 x8 (ix2 p (gateCol 1 q))) := by
  rw [val_main_v32_apply, val_main_v31_apply, val_main_cst_2_apply, val_main_v30_apply, val_main_v29_apply,
    val_main_cst_1_apply, val_main_v28_apply, val_main_v27_apply, val_main_v26_apply, val_main_v14_apply, val_main_v17_apply,
    gate_idx 1 (ix2 p q) (idx_main_v14 (ix2 p q)) rfl (by show 64 + q.val = 1 * 64 + q.val; omega),
    gate_idx 1 (ix2 p q) (idx_main_v17 (ix2 p q)) rfl (by show 64 + q.val = 1 * 64 + q.val; omega)]
  exact logistic_host _

/-- The new hidden state from the two pre-activation matrices and the old state. -/
theorem cell_at (x0 : (⟨S65536x96, .f32⟩ : BufTy).Contents (Elt Ideal)) (x1 : (⟨S65536x64, .f32⟩ : BufTy).Contents (Elt Ideal)) (x3 : (⟨S96x64, .f32⟩ : BufTy).Contents (Elt Ideal)) (x4 : (⟨S64, .f32⟩ : BufTy).Contents (Elt Ideal)) (x5 : (⟨S64x192, .f32⟩ : BufTy).Contents (Elt Ideal)) (x6 : (⟨S64x192, .f32⟩ : BufTy).Contents (Elt Ideal)) (x7 : (⟨S192, .f32⟩ : BufTy).Contents (Elt Ideal)) (x8 : (⟨S192, .f32⟩ : BufTy).Contents (Elt Ideal)) (p : Fin 65536) (q : Fin 64) :
    val_main_v40 (F := Ideal) x0 x1 x3 x4 x5 x6 x7 x8 (ix2 p q) = gruOut (val_main_v8 (F := Ideal) x0 x3 x4 x5 x7) (val_main_v12 (F := Ideal) x1 x6 x8) x1 (ix2 p q) := by
  rw [val_main_v40_apply, val_main_v38_apply, val_main_v39_apply, val_main_v37_apply, val_main_v36_apply,
    val_main_cst_3_apply, val_main_v35_apply, val_main_v34_apply, val_main_v33_apply, val_main_v15_apply, val_main_v18_apply,
    gate_idx 2 (ix2 p q) (idx_main_v15 (ix2 p q)) rfl (by show 128 + q.val = 2 * 64 + q.val; omega),
    gate_idx 2 (ix2 p q) (idx_main_v18 (ix2 p q)) rfl (by show 128 + q.val = 2 * 64 + q.val; omega),
    reset_at, update_at]
  rfl

/-- The plain program's hidden state is the specification's. -/
theorem hidden_ref (x0 : (⟨S65536x96, .f32⟩ : BufTy).Contents (Elt Ideal)) (x1 : (⟨S65536x64, .f32⟩ : BufTy).Contents (Elt Ideal)) (x3 : (⟨S96x64, .f32⟩ : BufTy).Contents (Elt Ideal)) (x4 : (⟨S64, .f32⟩ : BufTy).Contents (Elt Ideal)) (x5 : (⟨S64x192, .f32⟩ : BufTy).Contents (Elt Ideal)) (x6 : (⟨S64x192, .f32⟩ : BufTy).Contents (Elt Ideal)) (x7 : (⟨S192, .f32⟩ : BufTy).Contents (Elt Ideal)) (x8 : (⟨S192, .f32⟩ : BufTy).Contents (Elt Ideal)) :
    val_main_v40 (F := Ideal) x0 x1 x3 x4 x5 x6 x7 x8 = Spec.hidden x0 x1 x3 (row x4) x5 x6 (row x7) (row x8) := by
  unfold Spec.hidden
  rw [← relu_ref x0 x3 x4, ← gi_ref x0 x3 x4 x5 x7, ← gh_ref x1 x6 x8]
  funext i
  obtain ⟨p, q, rfl⟩ : ∃ (p : Fin 65536) (q : Fin 64), i = ix2 p q := ⟨i 0, i 1, eq_ix2 i⟩
  exact cell_at x0 x1 x3 x4 x5 x6 x7 x8 p q

end Cert.RefHead

end
-- ==== Proof.RefHeadPre.lean ====
/-
  The awareness head's first dense layer, on the plain program's hidden state.
-/
import proofs.«141456_j50483045597756_2_alg».proof.Proof.Gen.ReferenceIdeal.Read
import proofs.«141456_j50483045597756_2_alg».proof.Proof.RefHeadBasics

noncomputable section

namespace Cert.RefHead

open Idealize.ShloMosaic Idealize.ShloMosaic.ValueIdx Cert.ReferenceIdeal Cert.ReferenceIdeal.Read Cert.Dense Cert.Spec

/-- Two indices with the same coordinates are the same index (rank 1, rank 2). -/
local macro "idx1" : tactic => `(tactic| (funext a; match a with | ⟨0, _⟩ => rfl))
local macro "idx2" : tactic => `(tactic| (funext a; match a with | ⟨0, _⟩ => rfl | ⟨1, _⟩ => rfl))

/-- The values the first batch normalisation ranges over. -/
theorem pre_ref (x0 : (⟨S65536x96, .f32⟩ : BufTy).Contents (Elt Ideal)) (x1 : (⟨S65536x64, .f32⟩ : BufTy).Contents (Elt Ideal)) (x3 : (⟨S96x64, .f32⟩ : BufTy).Contents (Elt Ideal)) (x4 : (⟨S64, .f32⟩ : BufTy).Contents (Elt Ideal)) (x5 : (⟨S64x192, .f32⟩ : BufTy).Contents (Elt Ideal)) (x6 : (⟨S64x192, .f32⟩ : BufTy).Contents (Elt Ideal)) (x7 : (⟨S192, .f32⟩ : BufTy).Contents (Elt Ideal)) (x8 : (⟨S192, .f32⟩ : BufTy).Contents (Elt Ideal)) (x9 : (⟨S64x64, .f32⟩ : BufTy).Contents (Elt Ideal)) (x10 : (⟨S64, .f32⟩ : BufTy).Contents (Elt Ideal)) :
    val_main_v44 (F := Ideal) x0 x1 x3 x4 x5 x6 x7 x8 x9 x10 = lin (val_main_v40 (F := Ideal) x0 x1 x3 x4 x5 x6 x7 x8) x9 (row x10) := by
  funext i
  rw [val_main_v44_apply, val_main_v41_apply, val_main_v43_apply, val_main_v42_apply]
  exact lin_eq (val_main_v40 (F := Ideal) x0 x1 x3 x4 x5 x6 x7 x8) x9 x10 i (lidx_main_v41 i) (ridx_main_v41 i) (idx_main_v42 (idx_main_v43 i))
    (fun k => by idx2) (fun k => by idx2) (by idx1)

end Cert.RefHead

end
-- ==== Proof.RefHeadStats.lean ====
/-
  The first batch normalisation's statistics in the plain program: for each of the 64 columns the mean over all
  65536 rows, and the variance as the mean of the squares of the entries less the column's mean.  A sum down a
  column starts from the zero word, which is the number zero, and the divisor is the float word for 65536.
-/
import proofs.«141456_j50483045597756_2_alg».proof.Proof.Gen.ReferenceIdeal.Read
import proofs.«141456_j50483045597756_2_alg».proof.Proof.RefHeadBasics

noncomputable section

namespace Cert.RefHead

open Idealize.ShloMosaic Idealize.ShloMosaic.ValueIdx Cert.ReferenceIdeal Cert.ReferenceIdeal.Read Cert.Dense Cert.Spec

/-- Two indices with the same coordinates are the same index (rank 1, rank 2). -/
local macro "idx1" : tactic => `(tactic| (funext a; match a with | ⟨0, _⟩ => rfl))
local macro "idx2" : tactic => `(tactic| (funext a; match a with | ⟨0, _⟩ => rfl | ⟨1, _⟩ => rfl))

/-- The column means. -/
theorem mean_ref (x0 : (⟨S65536x96, .f32⟩ : BufTy).Contents (Elt Ideal)) (x1 : (⟨S65536x64, .f32⟩ : BufTy).Contents (Elt Ideal)) (x3 : (⟨S96x64, .f32⟩ : BufTy).Contents (Elt Ideal)) (x4 : (⟨S64, .f32⟩ : BufTy).Contents (Elt Ideal)) (x5 : (⟨S64x192, .f32⟩ : BufTy).Contents (Elt Ideal)) (x6 : (⟨S64x192, .f32⟩ : BufTy).Contents (Elt Ideal)) (x7 : (⟨S192, .f32⟩ : BufTy).Contents (Elt Ideal)) (x8 : (⟨S192, .f32⟩ : BufTy).Contents (Elt Ideal)) (x9 : (⟨S64x64, .f32⟩ : BufTy).Contents (Elt Ideal)) (x10 : (⟨S64, .f32⟩ : BufTy).Contents (Elt Ideal)) :
    val_main_v47 (F := Ideal) x0 x1 x3 x4 x5 x6 x7 x8 x9 x10 = Spec.colMean (val_main_v44 (F := Ideal) x0 x1 x3 x4 x5 x6 x7 x8 x9 x10) Spec.nRows := by
  funext k
  rw [val_main_v47_apply, val_main_v45_apply, val_main_v46_apply, val_main_cst_5_apply, val_main_cst_4_apply]
  exact colMean_eq (val_main_v44 (F := Ideal) x0 x1 x3 x4 x5 x6 x7 x8 x9 x10) Spec.nRows k (idx_main_v45 k) (fun r => by idx2)

/-- An entry less its column's mean. -/
theorem centred_at (x0 : (⟨S65536x96, .f32⟩ : BufTy).Contents (Elt Ideal)) (x1 : (⟨S65536x64, .f32⟩ : BufTy).Contents (Elt Ideal)) (x3 : (⟨S96x64, .f32⟩ : BufTy).Contents (Elt Ideal)) (x4 : (⟨S64, .f32⟩ : BufTy).Contents (Elt Ideal)) (x5 : (⟨S64x192, .f32⟩ : BufTy).Contents (Elt Ideal)) (x6 : (⟨S64x192, .f32⟩ : BufTy).Contents (Elt Ideal)) (x7 : (⟨S192, .f32⟩ : BufTy).Contents (Elt Ideal)) (x8 : (⟨S192, .f32⟩ : BufTy).Contents (Elt Ideal)) (x9 : (⟨S64x64, .f32⟩ : BufTy).Contents (Elt Ideal)) (x10 : (⟨S64, .f32⟩ : BufTy).Contents (Elt Ideal)) (r : Fin 65536) (c : Fin 64) :
    val_main_v50 (F := Ideal) x0 x1 x3 x4 x5 x6 x7 x8 x9 x10 (ix2 r c)
      = val_main_v44 (F := Ideal) x0 x1 x3 x4 x5 x6 x7 x8 x9 x10 (ix2 r c) - Spec.colMean (val_main_v44 (F := Ideal) x0 x1 x3 x4 x5 x6 x7 x8 x9 x10) Spec.nRows (ix1 c) := by
  rw [val_main_v50_apply, val_main_v49_apply, val_main_v48_apply, mean_ref]
  have h : idx_main_v48 (idx_main_v49 (ix2 r c)) = ix1 c := by idx1
  rw [h]
  rfl

/-- The column variances, from the centred squares. -/
theorem var_ref (x0 : (⟨S65536x96, .f32⟩ : BufTy).Contents (Elt Ideal)) (x1 : (⟨S65536x64, .f32⟩ : BufTy).Contents (Elt Ideal)) (x3 : (⟨S96x64, .f32⟩ : BufTy).Contents (Elt Ideal)) (x4 : (⟨S64, .f32⟩ : BufTy).Contents (Elt Ideal)) (x5 : (⟨S64x192, .f32⟩ : BufTy).Contents (Elt Ideal)) (x6 : (⟨S64x192, .f32⟩ : BufTy).Contents (Elt Ideal)) (x7 : (⟨S192, .f32⟩ : BufTy).Contents (Elt Ideal)) (x8 : (⟨S192, .f32⟩ : BufTy).Contents (Elt Ideal)) (x9 : (⟨S64x64, .f32⟩ : BufTy).Contents (Elt Ideal)) (x10 : (⟨S64, .f32⟩ : BufTy).Contents (Elt Ideal)) :
    val_main_v54 (F := Ideal) x0 x1 x3 x4 x5 x6 x7 x8 x9 x10 = Spec.colVarCentred (val_main_v44 (F := Ideal) x0 x1 x3 x4 x5 x6 x7 x8 x9 x10) Spec.nRows := by
  funext k
  obtain ⟨c, rfl⟩ : ∃ c : Fin 64, k = ix1 c := ⟨k 0, eq_ix1 k⟩
  rw [val_main_v54_apply, val_main_v52_apply, val_main_v53_apply, val_main_cst_7_apply, val_main_cst_6_apply]
  have hi : ∀ r : Fin 65536, idx_main_v52 (ix1 c) r = ix2 r c := fun r => by idx2
  exact colVar_eq (val_main_v44 (F := Ideal) x0 x1 x3 x4 x5 x6 x7 x8 x9 x10) Spec.nRows c
    (fun r => val_main_v51 (F := Ideal) x0 x1 x3 x4 x5 x6 x7 x8 x9 x10 (idx_main_v52 (ix1 c) r))
    (fun r => by
      show val_main_v51 (F := Ideal) x0 x1 x3 x4 x5 x6 x7 x8 x9 x10 (idx_main_v52 (ix1 c) r) = _
      rw [hi r, val_main_v51_apply, centred_at]
      rfl)

end Cert.RefHead

end
-- ==== Proof.RefHeadAware.lean ====
/-
  The awareness head of the plain program after its first dense layer: every entry is normalised with its column's
  mean and variance (the variance offset added under the reciprocal square root), scaled, shifted and rectified,
  and the result goes through the 64-to-48 dense layer.  The statistics, the scale and the shift are vectors
  broadcast to one row and then down the rows, so each is read at the entry's column.
-/
import proofs.«141456_j50483045597756_2_alg».proof.Proof.Gen.ReferenceIdeal.Read
import proofs.«141456_j50483045597756_2_alg».proof.Proof.RefHeadBasics

noncomputable section

namespace Cert.RefHead

open Idealize.ShloMosaic Idealize.ShloMosaic.ValueIdx Cert.ReferenceIdeal Cert.ReferenceIdeal.Read Cert.Dense Cert.Spec

/-- Two indices with the same coordinates are the same index (rank 1, rank 2). -/
local macro "idx1" : tactic => `(tactic| (funext a; match a with | ⟨0, _⟩ => rfl))
local macro "idx2" : tactic => `(tactic| (funext a; match a with | ⟨0, _⟩ => rfl | ⟨1, _⟩ => rfl))

/-- One normalised, scaled, shifted and rectified entry. -/
theorem bn_at (x0 : (⟨S65536x96, .f32⟩ : BufTy).Contents (Elt Ideal)) (x1 : (⟨S65536x64, .f32⟩ : BufTy).Contents (Elt Ideal)) (x3 : (⟨S96x64, .f32⟩ : BufTy).Contents (Elt Ideal)) (x4 : (⟨S64, .f32⟩ : BufTy).Contents (Elt Ideal)) (x5 : (⟨S64x192, .f32⟩ : BufTy).Contents (Elt Ideal)) (x6 : (⟨S64x192, .f32⟩ : BufTy).Contents (Elt Ideal)) (x7 : (⟨S192, .f32⟩ : BufTy).Contents (Elt Ideal)) (x8 : (⟨S192, .f32⟩ : BufTy).Contents (Elt Ideal)) (x9 : (⟨S64x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (p : Fin 65536) (q : Fin 64) :
    val_main_v70 (F := Ideal) x0 x1 x3 x4 x5 x6 x7 x8 x9 x10 x11 x12 (ix2 p q)
      = bnRelu (val_main_v44 (F := Ideal) x0 x1 x3 x4 x5 x6 x7 x8 x9 x10) (row (val_main_v47 (F := Ideal) x0 x1 x3 x4 x5 x6 x7 x8 x9 x10)) (row (val_main_v54 (F := Ideal) x0 x1 x3 x4 x5 x6 x7 x8 x9 x10)) (row x11) (row x12) (ix2 p q) := by
  rw [val_main_v70_apply, val_main_call1_v0_apply, val_main_call1_cst_apply, val_main_v69_apply, val_main_v68_apply,
    val_main_v67_apply, val_main_v66_apply, val_main_v65_apply, val_main_v64_apply, val_main_v63_apply, val_main_v62_apply,
    val_main_v61_apply, val_main_cst_8_apply, val_main_v60_apply, val_main_v59_apply, val_main_v58_apply, val_main_v57_apply,
    val_main_v56_apply, val_main_v55_apply]
  have h1 : idx_main_v67 (idx_main_v68 (ix2 p q)) = ix1 q := by idx1
  have h2 : idx_main_v64 (idx_main_v65 (ix2 p q)) = ix1 q := by idx1
  have h3 : idx_main_v58 (idx_main_v59 (ix2 p q)) = ix1 q := by idx1
  have h4 : idx_main_v55 (idx_main_v56 (ix2 p q)) = ix1 q := by idx1
  rw [h1, h2, h3, h4]
  rfl

/-- The awareness head's 48 outputs per row. -/
theorem aware_ref (x0 : (⟨S65536x96, .f32⟩ : BufTy).Contents (Elt Ideal)) (x1 : (⟨S65536x64, .f32⟩ : BufTy).Contents (Elt Ideal)) (x3 : (⟨S96x64, .f32⟩ : BufTy).Contents (Elt Ideal)) (x4 : (⟨S64, .f32⟩ : BufTy).Contents (Elt Ideal)) (x5 : (⟨S64x192, .f32⟩ : BufTy).Contents (Elt Ideal)) (x6 : (⟨S64x192, .f32⟩ : BufTy).Contents (Elt Ideal)) (x7 : (⟨S192, .f32⟩ : BufTy).Contents (Elt Ideal)) (x8 : (⟨S192, .f32⟩ : BufTy).Contents (Elt Ideal)) (x9 : (⟨S64x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64x48, .f32⟩ : BufTy).Contents (Elt Ideal)) (x14 : (⟨S48, .f32⟩ : BufTy).Contents (Elt Ideal)) :
    val_main_v74 (F := Ideal) x0 x1 x3 x4 x5 x6 x7 x8 x9 x10 x11 x12 x13 x14
      = Spec.aware (val_main_v44 (F := Ideal) x0 x1 x3 x4 x5 x6 x7 x8 x9 x10) (row (val_main_v47 (F := Ideal) x0 x1 x3 x4 x5 x6 x7 x8 x9 x10)) (row (val_main_v54 (F := Ideal) x0 x1 x3 x4 x5 x6 x7 x8 x9 x10)) (row x11) (row x12) x13 (row x14) := by
  have hb : val_main_v70 (F := Ideal) x0 x1 x3 x4 x5 x6 x7 x8 x9 x10 x11 x12
      = bnRelu (val_main_v44 (F := Ideal) x0 x1 x3 x4 x5 x6 x7 x8 x9 x10) (row (val_main_v47 (F := Ideal) x0 x1 x3 x4 x5 x6 x7 x8 x9 x10)) (row (val_main_v54 (F := Ideal) x0 x1 x3 x4 x5 x6 x7 x8 x9 x10)) (row x11) (row x12) := by
    funext i
    obtain ⟨p, q, rfl⟩ : ∃ (p : Fin 65536) (q : Fin 64), i = ix2 p q := ⟨i 0, i 1, eq_ix2 i⟩
    exact bn_at x0 x1 x3 x4 x5 x6 x7 x8 x9 x10 x11 x12 p q
  unfold Spec.aware
  rw [← hb]
  funext i
  rw [val_main_v74_apply, val_main_v71_apply, val_main_v73_apply, val_main_v72_apply]
  exact lin_eq (val_main_v70 (F := Ideal) x0 x1 x3 x4 x5 x6 x7 x8 x9 x10 x11 x12) x13 x14 i (lidx_main_v71 i) (ridx_main_v71 i) (idx_main_v72 (idx_main_v73 i))
    (fun k => by idx2) (fun k => by idx2) (by idx1)

end Cert.RefHead

end
-- ==== Proof.RefHeadMuSigma.lean ====
/-
  The means and the floored variances the plain program cuts out of the awareness head's output.

  The [65536, 48] output is regrouped as [8192, 8, 48]: entry (b, j, c) is entry (b * 8 + j, c), because
  (b * 8 + j) * 48 + c divided by 48 is b * 8 + j with remainder c.  The first 24 columns are the means; the
  exponentials of the last 24, floored at the clip word, are the variances.
-/
import proofs.«141456_j50483045597756_2_alg».proof.Proof.Gen.ReferenceIdeal.Read
import proofs.«141456_j50483045597756_2_alg».proof.Proof.Spec

noncomputable section

namespace Cert.RefHead

open Idealize.ShloMosaic Idealize.ShloMosaic.ValueIdx Cert.ReferenceIdeal Cert.ReferenceIdeal.Read Cert.Dense Cert.Spec

/-- The means. -/
theorem mu_ref (x0 : (⟨S65536x96, .f32⟩ : BufTy).Contents (Elt Ideal)) (x1 : (⟨S65536x64, .f32⟩ : BufTy).Contents (Elt Ideal)) (x3 : (⟨S96x64, .f32⟩ : BufTy).Contents (Elt Ideal)) (x4 : (⟨S64, .f32⟩ : BufTy).Contents (Elt Ideal)) (x5 : (⟨S64x192, .f32⟩ : BufTy).Contents (Elt Ideal)) (x6 : (⟨S64x192, .f32⟩ : BufTy).Contents (Elt Ideal)) (x7 : (⟨S192, .f32⟩ : BufTy).Contents (Elt Ideal)) (x8 : (⟨S192, .f32⟩ : BufTy).Contents (Elt Ideal)) (x9 : (⟨S64x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64x48, .f32⟩ : BufTy).Contents (Elt Ideal)) (x14 : (⟨S48, .f32⟩ : BufTy).Contents (Elt Ideal)) :
    val_main_v76 (F := Ideal) x0 x1 x3 x4 x5 x6 x7 x8 x9 x10 x11 x12 x13 x14
      = fun i => Spec.muAt (val_main_v74 (F := Ideal) x0 x1 x3 x4 x5 x6 x7 x8 x9 x10 x11 x12 x13 x14) (Spec.agentRow (i 0) (i 1)) (i 2) := by
  funext i
  rw [val_main_v76_apply, val_main_v75_apply]
  have h0 : (i 0).val < 8192 := (i 0).isLt
  have h1 : (i 1).val < 8 := (i 1).isLt
  have h2 : (i 2).val < 24 := (i 2).isLt
  have h : idx_main_v75 (idx_main_v76 i) = ix2 (agentRow (i 0) (i 1)) (lo24 (i 2)) := by
    funext a
    match a with
    | ⟨0, _⟩ => exact Fin.ext (by
        show (((i 0).val * 8 + (i 1).val) * 48 + (i 2).val) / 48 = (i 0).val * 8 + (i 1).val
        omega)
    | ⟨1, _⟩ => exact Fin.ext (by
        show (((i 0).val * 8 + (i 1).val) * 48 + (i 2).val) % 48 = (i 2).val
        omega)
  rw [h]
  rfl

/-- The variances: exponentials floored at the clip word. -/
theorem sigma_ref (x0 : (⟨S65536x96, .f32⟩ : BufTy).Contents (Elt Ideal)) (x1 : (⟨S65536x64, .f32⟩ : BufTy).Contents (Elt Ideal)) (x3 : (⟨S96x64, .f32⟩ : BufTy).Contents (Elt Ideal)) (x4 : (⟨S64, .f32⟩ : BufTy).Contents (Elt Ideal)) (x5 : (⟨S64x192, .f32⟩ : BufTy).Contents (Elt Ideal)) (x6 : (⟨S64x192, .f32⟩ : BufTy).Contents (Elt Ideal)) (x7 : (⟨S192, .f32⟩ : BufTy).Contents (Elt Ideal)) (x8 : (⟨S192, .f32⟩ : BufTy).Contents (Elt Ideal)) (x9 : (⟨S64x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64x48, .f32⟩ : BufTy).Contents (Elt Ideal)) (x14 : (⟨S48, .f32⟩ : BufTy).Contents (Elt Ideal)) :
    val_main_v80 (F := Ideal) x0 x1 x3 x4 x5 x6 x7 x8 x9 x10 x11 x12 x13 x14
      = fun i => Spec.sigmaAt (val_main_v74 (F := Ideal) x0 x1 x3 x4 x5 x6 x7 x8 x9 x10 x11 x12 x13 x14) (Spec.agentRow (i 0) (i 1)) (i 2) := by
  funext i
  rw [val_main_v80_apply, val_main_v79_apply, val_main_cst_9_apply, val_main_v78_apply, val_main_v77_apply, val_main_v75_apply]
  have h0 : (i 0).val < 8192 := (i 0).isLt
  have h1 : (i 1).val < 8 := (i 1).isLt
  have h2 : (i 2).val < 24 := (i 2).isLt
  have h : idx_main_v75 (idx_main_v77 i) = ix2 (agentRow (i 0) (i 1)) (hi24 (i 2)) := by
    funext a
    match a with
    | ⟨0, _⟩ => exact Fin.ext (by
        show (((i 0).val * 8 + (i 1).val) * 48 + (24 + (i 2).val)) / 48 = (i 0).val * 8 + (i 1).val
        omega)
    | ⟨1, _⟩ => exact Fin.ext (by
        show (((i 0).val * 8 + (i 1).val) * 48 + (24 + (i 2).val)) % 48 = 24 + (i 2).val
        omega)
  rw [h]
  rfl

end Cert.RefHead

end
-- ==== Proof.RefHeadSample.lean ====
/-
  The Gaussian sample of the plain program: mean + sqrt variance * noise on the [8192, 8, 24] grouping, then
  regrouped as [65536, 24].  Entry (p, c) of the regrouped array is entry (p / 8, p % 8, c) of the grouped one,
  because p * 24 + c divided by 192 is p / 8, divided by 24 is p, and leaves remainder c modulo 24; and row
  (p / 8) * 8 + p % 8 is row p.
-/
import proofs.«141456_j50483045597756_2_alg».proof.Proof.Gen.ReferenceIdeal.Read
import proofs.«141456_j50483045597756_2_alg».proof.Proof.RefHeadMuSigma

noncomputable section

namespace Cert.RefHead

open Idealize.ShloMosaic Idealize.ShloMosaic.ValueIdx Cert.ReferenceIdeal Cert.ReferenceIdeal.Read Cert.Dense Cert.Spec

/-- The sample at a grouped index whose coordinates are (p / 8, p % 8, c) is the specification's sample at (p, c). -/
theorem sample_eq (aw : Mat 65536 48) (noise : Ten3 8192 8 24) (p : Fin 65536) (c : Fin 24)
    (j : (⟨3, ![8192, 8, 24]⟩ : Shape).Idx) (h0 : (j 0).val = p.val / 8) (h1 : (j 1).val = p.val % 8) (h2 : j 2 = c) :
    muAt aw (agentRow (j 0) (j 1)) (j 2) + Ideal.sqrt (sigmaAt aw (agentRow (j 0) (j 1)) (j 2)) * noise j
      = sample aw (flatNoise noise) (ix2 p c) := by
  have hp : p.val < 65536 := p.isLt
  have hr : agentRow (j 0) (j 1) = p := Fin.ext (by show (j 0).val * 8 + (j 1).val = p.val; omega)
  have hj : j = ix3 ⟨p.val / 8, by omega⟩ ⟨p.val % 8, by omega⟩ c := by
    funext a
    match a with
    | ⟨0, _⟩ => exact Fin.ext h0
    | ⟨1, _⟩ => exact Fin.ext h1
    | ⟨2, _⟩ => exact h2
  have e : ∀ (r r' : Fin 65536) (d d' : Fin 24) (x x' : EReal), r = r' → d = d' → x = x' →
      muAt aw r d + Ideal.sqrt (sigmaAt aw r d) * x = muAt aw r' d' + Ideal.sqrt (sigmaAt aw r' d') * x' := by
    intro r r' d d' x x' hr hd hx
    rw [hr, hd, hx]
  exact e _ _ _ _ _ _ hr h2 (congrArg noise hj)

/-- The plain program's sample at (p, c). -/
theorem sample_at (x0 : (⟨S65536x96, .f32⟩ : BufTy).Contents (Elt Ideal)) (x1 : (⟨S65536x64, .f32⟩ : BufTy).Contents (Elt Ideal)) (x2 : (⟨S8192x8x24, .f32⟩ : BufTy).Contents (Elt Ideal)) (x3 : (⟨S96x64, .f32⟩ : BufTy).Contents (Elt Ideal)) (x4 : (⟨S64, .f32⟩ : BufTy).Contents (Elt Ideal)) (x5 : (⟨S64x192, .f32⟩ : BufTy).Contents (Elt Ideal)) (x6 : (⟨S64x192, .f32⟩ : BufTy).Contents (Elt Ideal)) (x7 : (⟨S192, .f32⟩ : BufTy).Contents (Elt Ideal)) (x8 : (⟨S192, .f32⟩ : BufTy).Contents (Elt Ideal)) (x9 : (⟨S64x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64x48, .f32⟩ : BufTy).Contents (Elt Ideal)) (x14 : (⟨S48, .f32⟩ : BufTy).Contents (Elt Ideal)) (p : Fin 65536) (c : Fin 24) :
    val_main_v84 (F := Ideal) x0 x1 x2 x3 x4 x5 x6 x7 x8 x9 x10 x11 x12 x13 x14 (ix2 p c)
      = sample (val_main_v74 (F := Ideal) x0 x1 x3 x4 x5 x6 x7 x8 x9 x10 x11 x12 x13 x14) (flatNoise x2) (ix2 p c) := by
  rw [val_main_v84_apply, val_main_v83_apply, val_main_v82_apply, val_main_v81_apply, mu_ref, sigma_ref]
  have hp : p.val < 65536 := p.isLt
  have hc : c.val < 24 := c.isLt
  exact sample_eq (val_main_v74 (F := Ideal) x0 x1 x3 x4 x5 x6 x7 x8 x9 x10 x11 x12 x13 x14) x2 p c (idx_main_v84 (ix2 p c))
    (by show (p.val * 24 + c.val) / 192 = p.val / 8; omega)
    (by show (p.val * 24 + c.val) / 24 % 8 = p.val % 8; omega)
    (Fin.ext (by show (p.val * 24 + c.val) % 24 = c.val; omega))

/-- The plain program's sample is the specification's. -/
theorem sample_ref (x0 : (⟨S65536x96, .f32⟩ : BufTy).Contents (Elt Ideal)) (x1 : (⟨S65536x64, .f32⟩ : BufTy).Contents (Elt Ideal)) (x2 : (⟨S8192x8x24, .f32⟩ : BufTy).Contents (Elt Ideal)) (x3 : (⟨S96x64, .f32⟩ : BufTy).Contents (Elt Ideal)) (x4 : (⟨S64, .f32⟩ : BufTy).Contents (Elt Ideal)) (x5 : (⟨S64x192, .f32⟩ : BufTy).Contents (Elt Ideal)) (x6 : (⟨S64x192, .f32⟩ : BufTy).Contents (Elt Ideal)) (x7 : (⟨S192, .f32⟩ : BufTy).Contents (Elt Ideal)) (x8 : (⟨S192, .f32⟩ : BufTy).Contents (Elt Ideal)) (x9 : (⟨S64x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64x48, .f32⟩ : BufTy).Contents (Elt Ideal)) (x14 : (⟨S48, .f32⟩ : BufTy).Contents (Elt Ideal)) :
    val_main_v84 (F := Ideal) x0 x1 x2 x3 x4 x5 x6 x7 x8 x9 x10 x11 x12 x13 x14 = sample (val_main_v74 (F := Ideal) x0 x1 x3 x4 x5 x6 x7 x8 x9 x10 x11 x12 x13 x14) (flatNoise x2) := by
  funext i
  obtain ⟨p, c, rfl⟩ : ∃ (p : Fin 65536) (c : Fin 24), i = ix2 p c := ⟨i 0, i 1, eq_ix2 i⟩
  exact sample_at x0 x1 x2 x3 x4 x5 x6 x7 x8 x9 x10 x11 x12 x13 x14 p c

end Cert.RefHead

end
-- ==== Proof.RefHeadActions.lean ====
/-
  The action layer of the plain program: the hidden state and the sample side by side as 88 columns, through the
  88-to-14 dense layer.  Column k of the joined matrix is column k of the hidden state when k < 64 and column
  k - 64 of the sample otherwise.
-/
import proofs.«141456_j50483045597756_2_alg».proof.Proof.Gen.ReferenceIdeal.Read
import Idealize.ShloMosaic.Lib.Pipeline.Value
import proofs.«141456_j50483045597756_2_alg».proof.Proof.RefHeadBasics
import proofs.«141456_j50483045597756_2_alg».proof.Proof.RefHeadSample

noncomputable section

namespace Cert.RefHead

open Idealize.ShloMosaic Idealize.ShloMosaic.ValueIdx Cert.ReferenceIdeal Cert.ReferenceIdeal.Read Cert.Dense Cert.Spec

/-- Two indices with the same coordinates are the same index (rank 1, rank 2). -/
local macro "idx1" : tactic => `(tactic| (funext a; match a with | ⟨0, _⟩ => rfl))
local macro "idx2" : tactic => `(tactic| (funext a; match a with | ⟨0, _⟩ => rfl | ⟨1, _⟩ => rfl))

/-- The joined matrix at (p, k). -/
theorem cat_at (x0 : (⟨S65536x96, .f32⟩ : BufTy).Contents (Elt Ideal)) (x1 : (⟨S65536x64, .f32⟩ : BufTy).Contents (Elt Ideal)) (x2 : (⟨S8192x8x24, .f32⟩ : BufTy).Contents (Elt Ideal)) (x3 : (⟨S96x64, .f32⟩ : BufTy).Contents (Elt Ideal)) (x4 : (⟨S64, .f32⟩ : BufTy).Contents (Elt Ideal)) (x5 : (⟨S64x192, .f32⟩ : BufTy).Contents (Elt Ideal)) (x6 : (⟨S64x192, .f32⟩ : BufTy).Contents (Elt Ideal)) (x7 : (⟨S192, .f32⟩ : BufTy).Contents (Elt Ideal)) (x8 : (⟨S192, .f32⟩ : BufTy).Contents (Elt Ideal)) (x9 : (⟨S64x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64x48, .f32⟩ : BufTy).Contents (Elt Ideal)) (x14 : (⟨S48, .f32⟩ : BufTy).Contents (Elt Ideal)) (p : Fin 65536) (k : Fin 88) :
    val_main_v85 (F := Ideal) x0 x1 x2 x3 x4 x5 x6 x7 x8 x9 x10 x11 x12 x13 x14 (ix2 p k)
      = hcat (val_main_v40 (F := Ideal) x0 x1 x3 x4 x5 x6 x7 x8) (val_main_v84 (F := Ideal) x0 x1 x2 x3 x4 x5 x6 x7 x8 x9 x10 x11 x12 x13 x14) (ix2 p k) := by
  have hk : k.val < 88 := k.isLt
  unfold val_main_v85
  by_cases hl : k.val < 64
  · have e : hcat (val_main_v40 (F := Ideal) x0 x1 x3 x4 x5 x6 x7 x8) (val_main_v84 (F := Ideal) x0 x1 x2 x3 x4 x5 x6 x7 x8 x9 x10 x11 x12 x13 x14) (ix2 p k)
        = val_main_v40 (F := Ideal) x0 x1 x3 x4 x5 x6 x7 x8 (ix2 p ⟨k.val, hl⟩) := dif_pos hl
    rw [e]
    exact concatenate_pair_apply_left (t := S65536x88) (s₁ := S65536x64) (s₂ := S65536x24) (1 : Fin 2) _ _ Gen.concatenates_S65536x64_S65536x24_S65536x88_d1 (ix2 p k) rfl
      (ix2 p ⟨k.val, hl⟩) (fun b => match b with | ⟨0, _⟩ => rfl | ⟨1, _⟩ => rfl)
  · have e : hcat (val_main_v40 (F := Ideal) x0 x1 x3 x4 x5 x6 x7 x8) (val_main_v84 (F := Ideal) x0 x1 x2 x3 x4 x5 x6 x7 x8 x9 x10 x11 x12 x13 x14) (ix2 p k)
        = val_main_v84 (F := Ideal) x0 x1 x2 x3 x4 x5 x6 x7 x8 x9 x10 x11 x12 x13 x14 (ix2 p ⟨k.val - 64, by omega⟩) := dif_neg hl
    rw [e]
    exact concatenate_pair_apply_right (t := S65536x88) (s₁ := S65536x64) (s₂ := S65536x24) (1 : Fin 2) _ _ Gen.concatenates_S65536x64_S65536x24_S65536x88_d1 (ix2 p k) rfl rfl
      (ix2 p ⟨k.val - 64, by omega⟩) (fun b hb => match b with | ⟨0, _⟩ => rfl | ⟨1, _⟩ => (hb rfl).elim)
      (by show k.val - 64 + 64 = k.val; omega)

/-- The plain program's action values are the specification's. -/
theorem actions_ref (x0 : (⟨S65536x96, .f32⟩ : BufTy).Contents (Elt Ideal)) (x1 : (⟨S65536x64, .f32⟩ : BufTy).Contents (Elt Ideal)) (x2 : (⟨S8192x8x24, .f32⟩ : BufTy).Contents (Elt Ideal)) (x3 : (⟨S96x64, .f32⟩ : BufTy).Contents (Elt Ideal)) (x4 : (⟨S64, .f32⟩ : BufTy).Contents (Elt Ideal)) (x5 : (⟨S64x192, .f32⟩ : BufTy).Contents (Elt Ideal)) (x6 : (⟨S64x192, .f32⟩ : BufTy).Contents (Elt Ideal)) (x7 : (⟨S192, .f32⟩ : BufTy).Contents (Elt Ideal)) (x8 : (⟨S192, .f32⟩ : BufTy).Contents (Elt Ideal)) (x9 : (⟨S64x64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64x48, .f32⟩ : BufTy).Contents (Elt Ideal)) (x14 : (⟨S48, .f32⟩ : BufTy).Contents (Elt Ideal)) (x21 : (⟨S88x14, .f32⟩ : BufTy).Contents (Elt Ideal)) (x22 : (⟨S14, .f32⟩ : BufTy).Contents (Elt Ideal)) :
    val_main_v89 (F := Ideal) x0 x1 x2 x3 x4 x5 x6 x7 x8 x9 x10 x11 x12 x13 x14 x21 x22
      = Spec.actions (val_main_v40 (F := Ideal) x0 x1 x3 x4 x5 x6 x7 x8) (val_main_v74 (F := Ideal) x0 x1 x3 x4 x5 x6 x7 x8 x9 x10 x11 x12 x13 x14) (Spec.flatNoise x2) x21 (row x22) := by
  have hc : val_main_v85 (F := Ideal) x0 x1 x2 x3 x4 x5 x6 x7 x8 x9 x10 x11 x12 x13 x14 = hcat (val_main_v40 (F := Ideal) x0 x1 x3 x4 x5 x6 x7 x8) (val_main_v84 (F := Ideal) x0 x1 x2 x3 x4 x5 x6 x7 x8 x9 x10 x11 x12 x13 x14) := by
    funext i
    obtain ⟨p, k, rfl⟩ : ∃ (p : Fin 65536) (k : Fin 88), i = ix2 p k := ⟨i 0, i 1, eq_ix2 i⟩
    exact cat_at x0 x1 x2 x3 x4 x5 x6 x7 x8 x9 x10 x11 x12 x13 x14 p k
  unfold Spec.actions
  rw [← sample_ref x0 x1 x2 x3 x4 x5 x6 x7 x8 x9 x10 x11 x12 x13 x14, ← hc]
  funext i
  rw [val_main_v89_apply, val_main_v86_apply, val_main_v88_apply, val_main_v87_apply]
  exact lin_eq (val_main_v85 (F := Ideal) x0 x1 x2 x3 x4 x5 x6 x7 x8 x9 x10 x11 x12 x13 x14) x21 x22 i (lidx_main_v86 i) (ridx_main_v86 i) (idx_main_v87 (idx_main_v88 i))
    (fun k => by idx2) (fun k => by idx2) (by idx1)

end Cert.RefHead

end
-- ==== Proof.RefPairA.lean ====
/-
  The joined input of the all-pairs layer, read at a row.

  The reference lays the hidden states out as an [8192, 8, 8, 128] array whose entry (b, j, i, ·) is agent i's
  64 hidden values followed by agent j's, and reads it as a matrix of 524288 rows.  Row (b * 8 + j) * 8 + i of
  that matrix therefore holds, in its first 64 columns, row b * 8 + i of the hidden state and, in its last 64,
  row b * 8 + j.  The hidden state itself is never opened here: it is whatever the earlier operations computed.
-/
import proofs.«141456_j50483045597756_2_alg».proof.Proof.Gen.ReferenceIdeal.Read
import proofs.«141456_j50483045597756_2_alg».proof.Proof.Spec

noncomputable section

namespace Cert.RefPair

open Idealize.ShloMosaic Idealize.ShloMosaic.ValueIdx Cert Cert.ReferenceIdeal Cert.ReferenceIdeal.Read

/-- Two [8192, 8, 8, 64] arrays joined along the last axis, read in the first array's columns. -/
theorem joined_first {α : Type} (x₁ x₂ : S8192x8x8x64.Idx → α)
    (h : Shape.Concatenates [S8192x8x8x64, S8192x8x8x64] S8192x8x8x128 3)
    (b : Fin 8192) (j i : Fin 8) (q : Fin 64) (c : Fin 128) (hc : c.val = q.val) :
    concatenate S8192x8x8x128 3 [⟨S8192x8x8x64, x₁⟩, ⟨S8192x8x8x64, x₂⟩] h (ix4 b j i c) = x₁ (ix4 b j i q) :=
  concatenate_pair_apply_left (t := S8192x8x8x128) (s₁ := S8192x8x8x64) (s₂ := S8192x8x8x64) 3 x₁ x₂ h _ rfl _ (fun a => by
    match a with
    | ⟨0, _⟩ => rfl
    | ⟨1, _⟩ => rfl
    | ⟨2, _⟩ => rfl
    | ⟨3, _⟩ => exact hc.symm)

/-- The same, in the second array's columns: column 64 + q of the joined array is column q of the second. -/
theorem joined_second {α : Type} (x₁ x₂ : S8192x8x8x64.Idx → α)
    (h : Shape.Concatenates [S8192x8x8x64, S8192x8x8x64] S8192x8x8x128 3)
    (b : Fin 8192) (j i : Fin 8) (q : Fin 64) (c : Fin 128) (hc : q.val + 64 = c.val) :
    concatenate S8192x8x8x128 3 [⟨S8192x8x8x64, x₁⟩, ⟨S8192x8x8x64, x₂⟩] h (ix4 b j i c) = x₂ (ix4 b j i q) :=
  concatenate_pair_apply_right (t := S8192x8x8x128) (s₁ := S8192x8x8x64) (s₂ := S8192x8x8x64) 3 x₁ x₂ h _ rfl rfl _
    (fun a ha => by
      match a with
      | ⟨0, _⟩ => rfl
      | ⟨1, _⟩ => rfl
      | ⟨2, _⟩ => rfl
      | ⟨3, _⟩ => exact absurd rfl ha)
    hc

variable (x0 : (⟨S65536x96, .f32⟩ : BufTy).Contents (Elt Ideal)) (x1 : (⟨S65536x64, .f32⟩ : BufTy).Contents (Elt Ideal))
  (x3 : (⟨S96x64, .f32⟩ : BufTy).Contents (Elt Ideal)) (x4 : (⟨S64, .f32⟩ : BufTy).Contents (Elt Ideal))
  (x5 x6 : (⟨S64x192, .f32⟩ : BufTy).Contents (Elt Ideal)) (x7 x8 : (⟨S192, .f32⟩ : BufTy).Contents (Elt Ideal))

/-- Columns 0 … 63 of row (b, j, i) of the joined matrix: agent i's hidden state. -/
theorem joined_lo (b : Fin 8192) (j i : Fin 8) (q : Fin 64) :
    val_main_v96 (F := Ideal) x0 x1 x3 x4 x5 x6 x7 x8 (ix2 (Spec.pairRow b j i) (Spec.lo64 q))
      = val_main_v40 (F := Ideal) x0 x1 x3 x4 x5 x6 x7 x8 (ix2 (Spec.agentRow b i) q) := by
  rw [val_main_v96_apply]
  have e : idx_main_v96 (ix2 (Spec.pairRow b j i) (Spec.lo64 q)) = ix4 b j i (Spec.lo64 q) :=
    funext fun a => Fin.ext (by
      have hb := b.isLt; have hj := j.isLt; have hi := i.isLt; have hq := q.isLt
      match a with
      | ⟨0, _⟩ => show (((b.val * 8 + j.val) * 8 + i.val) * 128 + q.val) / 8192 = b.val; omega
      | ⟨1, _⟩ => show (((b.val * 8 + j.val) * 8 + i.val) * 128 + q.val) / 1024 % 8 = j.val; omega
      | ⟨2, _⟩ => show (((b.val * 8 + j.val) * 8 + i.val) * 128 + q.val) / 128 % 8 = i.val; omega
      | ⟨3, _⟩ => show (((b.val * 8 + j.val) * 8 + i.val) * 128 + q.val) % 128 = q.val; omega)
  rw [e]
  unfold val_main_v95
  refine (joined_first _ _ _ b j i q (Spec.lo64 q) rfl).trans ?_
  rw [val_main_v92_apply, val_main_v91_apply, val_main_v90_apply]
  refine congrArg _ (funext fun a => Fin.ext ?_)
  have hb := b.isLt; have hi := i.isLt; have hq := q.isLt
  match a with
  | ⟨0, _⟩ => show ((b.val * 8 + i.val) * 64 + q.val) / 64 = b.val * 8 + i.val; omega
  | ⟨1, _⟩ => show ((b.val * 8 + i.val) * 64 + q.val) % 64 = q.val; omega

/-- Columns 64 … 127 of row (b, j, i) of the joined matrix: agent j's hidden state. -/
theorem joined_hi (b : Fin 8192) (j i : Fin 8) (q : Fin 64) :
    val_main_v96 (F := Ideal) x0 x1 x3 x4 x5 x6 x7 x8 (ix2 (Spec.pairRow b j i) (Spec.hi64 q))
      = val_main_v40 (F := Ideal) x0 x1 x3 x4 x5 x6 x7 x8 (ix2 (Spec.agentRow b j) q) := by
  rw [val_main_v96_apply]
  have e : idx_main_v96 (ix2 (Spec.pairRow b j i) (Spec.hi64 q)) = ix4 b j i (Spec.hi64 q) :=
    funext fun a => Fin.ext (by
      have hb := b.isLt; have hj := j.isLt; have hi := i.isLt; have hq := q.isLt
      match a with
      | ⟨0, _⟩ => show (((b.val * 8 + j.val) * 8 + i.val) * 128 + (64 + q.val)) / 8192 = b.val; omega
      | ⟨1, _⟩ => show (((b.val * 8 + j.val) * 8 + i.val) * 128 + (64 + q.val)) / 1024 % 8 = j.val; omega
      | ⟨2, _⟩ => show (((b.val * 8 + j.val) * 8 + i.val) * 128 + (64 + q.val)) / 128 % 8 = i.val; omega
      | ⟨3, _⟩ => show (((b.val * 8 + j.val) * 8 + i.val) * 128 + (64 + q.val)) % 128 = 64 + q.val; omega)
  rw [e]
  unfold val_main_v95
  refine (joined_second _ _ _ b j i q (Spec.hi64 q) (by show q.val + 64 = 64 + q.val; omega)).trans ?_
  rw [val_main_v94_apply, val_main_v93_apply, val_main_v90_apply]
  refine congrArg _ (funext fun a => Fin.ext ?_)
  have hb := b.isLt; have hj := j.isLt; have hq := q.isLt
  match a with
  | ⟨0, _⟩ => show ((b.val * 8 + j.val) * 64 + q.val) / 64 = b.val * 8 + j.val; omega
  | ⟨1, _⟩ => show ((b.val * 8 + j.val) * 64 + q.val) % 64 = q.val; omega

end Cert.RefPair

end
-- ==== Proof.LibSplitSum.lean ====
/-
  A sum over consecutive indices splits into consecutive stretches.

  The reference contracts the concatenation of three (or two) pieces against the whole first weight (or the whole
  update weight); the kernel contracts each piece against its own block of the weight and adds. The two agree because
  a sum over `Fin 288` is the sum over its first 128 indices plus the sum over the next 128 plus the sum over the
  last 32, and a sum over `Fin 256` the sum over its two halves — in any additive commutative monoid, the extended
  reals included: only the order and grouping of the terms change.
-/
import Mathlib.Algebra.BigOperators.Fin

namespace Cert.Split

/-- `Fin (a + b)` summed as its first `a` indices and its last `b`. -/
theorem sum_two {M : Type*} [AddCommMonoid M] (a b n : ℕ) (h : a + b = n) (f : Fin n → M) :
    ∑ q : Fin n, f q
      = (∑ k : Fin a, f ⟨k.val, by omega⟩) + ∑ k : Fin b, f ⟨a + k.val, by omega⟩ := by
  subst h
  rw [Fin.sum_univ_add]
  rfl

/-- `Fin (a + b + c)` summed as three consecutive stretches, the third starting at `ab = a + b`. -/
theorem sum_three {M : Type*} [AddCommMonoid M] (a b c ab n : ℕ) (hab : a + b = ab) (h : ab + c = n) (f : Fin n → M) :
    ∑ q : Fin n, f q
      = ((∑ k : Fin a, f ⟨k.val, by omega⟩) + ∑ k : Fin b, f ⟨a + k.val, by omega⟩)
        + ∑ k : Fin c, f ⟨ab + k.val, by omega⟩ := by
  subst hab
  rw [sum_two (a + b) c n h f, sum_two a b (a + b) rfl fun q => f ⟨q.val, by omega⟩]

end Cert.Split
-- ==== Proof.RefPairB.lean ====
/-
  The all-pairs layer before normalisation.

  Entry (n, k) of the reference's [524288, 64] product is the 128-long contraction of row n of the joined matrix
  with column k of the pair weights, plus the bias.  A sum over 128 consecutive indices is the sum over the first
  64 plus the sum over the last 64 (only the grouping of the terms changes, so nothing is asked of the summands);
  the first half meets agent i's hidden state and the top half of the weights, the second agent j's and the
  bottom half.  Row n is the triple (b, j, i) with n = (b * 8 + j) * 8 + i.
-/
import proofs.«141456_j50483045597756_2_alg».proof.Proof.RefPairA
import proofs.«141456_j50483045597756_2_alg».proof.Proof.LibSplitSum

noncomputable section

namespace Cert.RefPair

open Idealize.ShloMosaic Idealize.ShloMosaic.ValueIdx Cert Cert.ReferenceIdeal Cert.ReferenceIdeal.Read

/-- Every row number below 524288 is (b * 8 + j) * 8 + i for one batch entry b and one ordered pair (j, i). -/
theorem exists_pairRow (r : Fin 524288) : ∃ (b : Fin 8192) (j i : Fin 8), r = Spec.pairRow b j i :=
  ⟨⟨r.val / 64, by have := r.isLt; omega⟩, ⟨r.val / 8 % 8, by omega⟩, ⟨r.val % 8, by omega⟩,
    Fin.ext (by show r.val = (r.val / 64 * 8 + r.val / 8 % 8) * 8 + r.val % 8; omega)⟩

/-- The pair matrix at row (b, j, i) is the pair layer of that triple. -/
theorem pairMat_at (hd : Spec.Ten3 8192 8 64) (top bot : Spec.Mat 64 64) (pb : Spec.Mat 1 64)
    (b : Fin 8192) (j i : Fin 8) (k : Fin 64) :
    Spec.pairMat hd top bot pb (ix2 (Spec.pairRow b j i) k) = Spec.pairPre hd top bot pb b j i k := by
  have hb := b.isLt; have hj := j.isLt; have hi := i.isLt
  have e1 : (⟨((b.val * 8 + j.val) * 8 + i.val) / 64, by omega⟩ : Fin 8192) = b := Fin.ext (by
    show ((b.val * 8 + j.val) * 8 + i.val) / 64 = b.val; omega)
  have e2 : (⟨((b.val * 8 + j.val) * 8 + i.val) / 8 % 8, by omega⟩ : Fin 8) = j := Fin.ext (by
    show ((b.val * 8 + j.val) * 8 + i.val) / 8 % 8 = j.val; omega)
  have e3 : (⟨((b.val * 8 + j.val) * 8 + i.val) % 8, by omega⟩ : Fin 8) = i := Fin.ext (by
    show ((b.val * 8 + j.val) * 8 + i.val) % 8 = i.val; omega)
  show Spec.pairPre hd top bot pb ⟨((b.val * 8 + j.val) * 8 + i.val) / 64, _⟩
    ⟨((b.val * 8 + j.val) * 8 + i.val) / 8 % 8, _⟩ ⟨((b.val * 8 + j.val) * 8 + i.val) % 8, _⟩ k = _
  rw [e1, e2, e3]

variable (x0 : (⟨S65536x96, .f32⟩ : BufTy).Contents (Elt Ideal)) (x1 : (⟨S65536x64, .f32⟩ : BufTy).Contents (Elt Ideal))
  (x3 : (⟨S96x64, .f32⟩ : BufTy).Contents (Elt Ideal)) (x4 : (⟨S64, .f32⟩ : BufTy).Contents (Elt Ideal))
  (x5 x6 : (⟨S64x192, .f32⟩ : BufTy).Contents (Elt Ideal)) (x7 x8 : (⟨S192, .f32⟩ : BufTy).Contents (Elt Ideal))
variable (x15 : (⟨S128x64, .f32⟩ : BufTy).Contents (Elt Ideal)) (x16 : (⟨S64, .f32⟩ : BufTy).Contents (Elt Ideal))

/-- The reference's pair layer at row (b, j, i), unit k. -/
theorem pair_at (b : Fin 8192) (j i : Fin 8) (k : Fin 64) :
    val_main_v100 (F := Ideal) x0 x1 x3 x4 x5 x6 x7 x8 x15 x16 (ix2 (Spec.pairRow b j i) k)
      = Spec.pairPre (Spec.grouped (val_main_v40 (F := Ideal) x0 x1 x3 x4 x5 x6 x7 x8)) (Spec.topOf x15) (Spec.botOf x15)
          (Cert.Dense.row x16) b j i k := by
  rw [val_main_v100_apply, val_main_v97_apply, val_main_v99_apply, val_main_v98_apply, Ideal.addf_def,
    Cert.Split.sum_two 64 64 128 rfl]
  unfold Spec.pairPre
  refine congrArg₂ (· + ·) (congrArg₂ (· + ·) (Finset.sum_congr rfl fun q _ => ?_) (Finset.sum_congr rfl fun q _ => ?_)) ?_
  · have el : lidx_main_v97 (ix2 (Spec.pairRow b j i) k) ⟨q.val, by omega⟩ = ix2 (Spec.pairRow b j i) (Spec.lo64 q) :=
      funext fun a => by
        match a with
        | ⟨0, _⟩ => rfl
        | ⟨1, _⟩ => rfl
    have er : ridx_main_v97 (ix2 (Spec.pairRow b j i) k) ⟨q.val, by omega⟩ = ix2 (Spec.lo64 q) k :=
      funext fun a => by
        match a with
        | ⟨0, _⟩ => rfl
        | ⟨1, _⟩ => rfl
    rw [el, er, joined_lo]
    rfl
  · have el : lidx_main_v97 (ix2 (Spec.pairRow b j i) k) ⟨64 + q.val, by omega⟩ = ix2 (Spec.pairRow b j i) (Spec.hi64 q) :=
      funext fun a => by
        match a with
        | ⟨0, _⟩ => rfl
        | ⟨1, _⟩ => rfl
    have er : ridx_main_v97 (ix2 (Spec.pairRow b j i) k) ⟨64 + q.val, by omega⟩ = ix2 (Spec.hi64 q) k :=
      funext fun a => by
        match a with
        | ⟨0, _⟩ => rfl
        | ⟨1, _⟩ => rfl
    rw [el, er, joined_hi]
    rfl
  · exact congrArg x16 (funext fun a => by
      match a with
      | ⟨0, _⟩ => rfl)

/-- The reference's [524288, 64] pair layer is the specification's pair matrix of the grouped hidden states. -/
theorem pair_ref :
    val_main_v100 (F := Ideal) x0 x1 x3 x4 x5 x6 x7 x8 x15 x16
      = Spec.pairMat (Spec.grouped (val_main_v40 (F := Ideal) x0 x1 x3 x4 x5 x6 x7 x8)) (Spec.topOf x15) (Spec.botOf x15)
          (Cert.Dense.row x16) := by
  funext n
  obtain ⟨r, k, rfl⟩ : ∃ (r : Fin 524288) (k : Fin 64), n = ix2 r k := ⟨n 0, n 1, eq_ix2 n⟩
  obtain ⟨b, j, i, rfl⟩ := exists_pairRow r
  rw [pair_at, pairMat_at]

end Cert.RefPair

end
-- ==== Proof.RefPairC.lean ====
/-
  The column means of the all-pairs layer.

  The reference adds the 524288 rows of each column onto a zero and divides by the count, spelt as a float word.
  The pair layer is not opened: the statement holds for whatever matrix the earlier operations produced.
-/
import proofs.«141456_j50483045597756_2_alg».proof.Proof.Gen.ReferenceIdeal.Read
import proofs.«141456_j50483045597756_2_alg».proof.Proof.Spec

noncomputable section

namespace Cert.RefPair

open Idealize.ShloMosaic Idealize.ShloMosaic.ValueIdx Cert Cert.ReferenceIdeal Cert.ReferenceIdeal.Read

variable (x0 : (⟨S65536x96, .f32⟩ : BufTy).Contents (Elt Ideal)) (x1 : (⟨S65536x64, .f32⟩ : BufTy).Contents (Elt Ideal))
  (x3 : (⟨S96x64, .f32⟩ : BufTy).Contents (Elt Ideal)) (x4 : (⟨S64, .f32⟩ : BufTy).Contents (Elt Ideal))
  (x5 x6 : (⟨S64x192, .f32⟩ : BufTy).Contents (Elt Ideal)) (x7 x8 : (⟨S192, .f32⟩ : BufTy).Contents (Elt Ideal))
variable (x15 : (⟨S128x64, .f32⟩ : BufTy).Contents (Elt Ideal)) (x16 : (⟨S64, .f32⟩ : BufTy).Contents (Elt Ideal))

/-- The reference's per-column mean over all pairs is the specification's column mean of the pair layer. -/
theorem pmean_ref :
    val_main_v103 (F := Ideal) x0 x1 x3 x4 x5 x6 x7 x8 x15 x16
      = Spec.colMean (val_main_v100 (F := Ideal) x0 x1 x3 x4 x5 x6 x7 x8 x15 x16) Spec.nPairs := by
  funext n
  obtain ⟨k, rfl⟩ : ∃ k : Fin 64, n = ix1 k := ⟨n 0, eq_ix1 n⟩
  rw [val_main_v103_apply, val_main_v101_apply, val_main_v102_apply, val_main_cst_11_apply, val_main_cst_10_apply]
  generalize val_main_v100 (F := Ideal) x0 x1 x3 x4 x5 x6 x7 x8 x15 x16 = z
  have ei : ∀ r : Fin 524288, idx_main_v101 (ix1 k) r = ix2 r k := fun r => funext fun a => by
    match a with
    | ⟨0, _⟩ => rfl
    | ⟨1, _⟩ => rfl
  simp only [ei, Ideal.hostDivf_def, Ideal.ofBits_def, Ideal.ofBits_zero_f32, zero_add]
  rfl

end Cert.RefPair

end
-- ==== Proof.RefPairD.lean ====
/-
  The column variances of the all-pairs layer.

  The reference subtracts each column's mean from every row, squares, adds the 524288 rows onto a zero and
  divides by the count: the mean of the centred squares.
-/
import proofs.«141456_j50483045597756_2_alg».proof.Proof.RefPairC

noncomputable section

namespace Cert.RefPair

open Idealize.ShloMosaic Idealize.ShloMosaic.ValueIdx Cert Cert.ReferenceIdeal Cert.ReferenceIdeal.Read

variable (x0 : (⟨S65536x96, .f32⟩ : BufTy).Contents (Elt Ideal)) (x1 : (⟨S65536x64, .f32⟩ : BufTy).Contents (Elt Ideal))
  (x3 : (⟨S96x64, .f32⟩ : BufTy).Contents (Elt Ideal)) (x4 : (⟨S64, .f32⟩ : BufTy).Contents (Elt Ideal))
  (x5 x6 : (⟨S64x192, .f32⟩ : BufTy).Contents (Elt Ideal)) (x7 x8 : (⟨S192, .f32⟩ : BufTy).Contents (Elt Ideal))
variable (x15 : (⟨S128x64, .f32⟩ : BufTy).Contents (Elt Ideal)) (x16 : (⟨S64, .f32⟩ : BufTy).Contents (Elt Ideal))

/-- The reference's per-column variance over all pairs is the specification's centred column variance. -/
theorem pvar_ref :
    val_main_v110 (F := Ideal) x0 x1 x3 x4 x5 x6 x7 x8 x15 x16
      = Spec.colVarCentred (val_main_v100 (F := Ideal) x0 x1 x3 x4 x5 x6 x7 x8 x15 x16) Spec.nPairs := by
  funext n
  obtain ⟨k, rfl⟩ : ∃ k : Fin 64, n = ix1 k := ⟨n 0, eq_ix1 n⟩
  rw [val_main_v110_apply, val_main_v108_apply, val_main_v109_apply, val_main_cst_13_apply, val_main_cst_12_apply]
  simp only [val_main_v107_apply, val_main_v106_apply, val_main_v105_apply, val_main_v104_apply]
  rw [pmean_ref]
  generalize val_main_v100 (F := Ideal) x0 x1 x3 x4 x5 x6 x7 x8 x15 x16 = z
  have ei : ∀ r : Fin 524288, idx_main_v108 (ix1 k) r = ix2 r k := fun r => funext fun a => by
    match a with
    | ⟨0, _⟩ => rfl
    | ⟨1, _⟩ => rfl
  have em : ∀ r : Fin 524288, idx_main_v104 (idx_main_v105 (ix2 r k)) = ix1 k := fun r => funext fun a => by
    match a with
    | ⟨0, _⟩ => rfl
  simp only [ei, em, Ideal.hostDivf_def, Ideal.ofBits_def, Ideal.ofBits_zero_f32, zero_add, Ideal.subf_def, Ideal.mulf_def]
  rfl

end Cert.RefPair

end
-- ==== Proof.RefPairE.lean ====
/-
  The normalised and rectified all-pairs layer.

  Each entry of the pair layer has its column's mean subtracted, is scaled by the column's gain and by the
  reciprocal root of the column's variance plus the offset, shifted by the column's bias, and cut off at zero.
  The pair layer and its two statistics are not opened here.
-/
import proofs.«141456_j50483045597756_2_alg».proof.Proof.Gen.ReferenceIdeal.Read
import proofs.«141456_j50483045597756_2_alg».proof.Proof.Spec

noncomputable section

namespace Cert.RefPair

open Idealize.ShloMosaic Idealize.ShloMosaic.ValueIdx Cert Cert.ReferenceIdeal Cert.ReferenceIdeal.Read

variable (x0 : (⟨S65536x96, .f32⟩ : BufTy).Contents (Elt Ideal)) (x1 : (⟨S65536x64, .f32⟩ : BufTy).Contents (Elt Ideal))
  (x3 : (⟨S96x64, .f32⟩ : BufTy).Contents (Elt Ideal)) (x4 : (⟨S64, .f32⟩ : BufTy).Contents (Elt Ideal))
  (x5 x6 : (⟨S64x192, .f32⟩ : BufTy).Contents (Elt Ideal)) (x7 x8 : (⟨S192, .f32⟩ : BufTy).Contents (Elt Ideal))
variable (x15 : (⟨S128x64, .f32⟩ : BufTy).Contents (Elt Ideal)) (x16 : (⟨S64, .f32⟩ : BufTy).Contents (Elt Ideal))
variable (x17 x18 : (⟨S64, .f32⟩ : BufTy).Contents (Elt Ideal))

/-- The reference's rectified normalisation of the pair layer is the specification's, with the statistics and the
    two parameter vectors read as [1, 64] rows. -/
theorem act_ref :
    val_main_v126 (F := Ideal) x0 x1 x3 x4 x5 x6 x7 x8 x15 x16 x17 x18
      = Spec.bnRelu (val_main_v100 (F := Ideal) x0 x1 x3 x4 x5 x6 x7 x8 x15 x16)
          (Cert.Dense.row (val_main_v103 (F := Ideal) x0 x1 x3 x4 x5 x6 x7 x8 x15 x16))
          (Cert.Dense.row (val_main_v110 (F := Ideal) x0 x1 x3 x4 x5 x6 x7 x8 x15 x16))
          (Cert.Dense.row x17) (Cert.Dense.row x18) := by
  funext n
  obtain ⟨r, k, rfl⟩ : ∃ (r : Fin 524288) (k : Fin 64), n = ix2 r k := ⟨n 0, n 1, eq_ix2 n⟩
  simp only [val_main_v126_apply, val_main_v125_apply, val_main_v122_apply, val_main_v116_apply, val_main_v115_apply,
    val_main_v114_apply, val_main_v113_apply, val_main_v112_apply, val_main_v111_apply, val_main_v121_apply,
    val_main_v120_apply, val_main_v119_apply, val_main_v118_apply, val_main_v117_apply, val_main_cst_14_apply,
    val_main_v124_apply, val_main_v123_apply, val_main_call2_v0_apply, val_main_call2_cst_apply]
  generalize val_main_v100 (F := Ideal) x0 x1 x3 x4 x5 x6 x7 x8 x15 x16 = z
  generalize val_main_v103 (F := Ideal) x0 x1 x3 x4 x5 x6 x7 x8 x15 x16 = mu
  generalize val_main_v110 (F := Ideal) x0 x1 x3 x4 x5 x6 x7 x8 x15 x16 = va
  have e1 : idx_main_v114 (idx_main_v115 (ix2 r k)) = ix1 k := funext fun a => by
    match a with
    | ⟨0, _⟩ => rfl
  have e2 : idx_main_v111 (idx_main_v112 (ix2 r k)) = ix1 k := funext fun a => by
    match a with
    | ⟨0, _⟩ => rfl
  have e3 : idx_main_v120 (idx_main_v121 (ix2 r k)) = ix1 k := funext fun a => by
    match a with
    | ⟨0, _⟩ => rfl
  have e4 : idx_main_v123 (idx_main_v124 (ix2 r k)) = ix1 k := funext fun a => by
    match a with
    | ⟨0, _⟩ => rfl
  rw [e1, e2, e3, e4]
  rfl

end Cert.RefPair

end
-- ==== Proof.RefPairF.lean ====
/-
  The six outputs of the all-pairs head at a triple.

  Row (b, j, i) of the reference's [524288, 6] output is the 64-long contraction of that row of the rectified
  normalised pair layer with the second weight matrix, plus the bias: the specification's pair output at (b, j, i).
-/
import proofs.«141456_j50483045597756_2_alg».proof.Proof.RefPairB
import proofs.«141456_j50483045597756_2_alg».proof.Proof.RefPairE

noncomputable section

namespace Cert.RefPair

open Idealize.ShloMosaic Idealize.ShloMosaic.ValueIdx Cert Cert.ReferenceIdeal Cert.ReferenceIdeal.Read

variable (x0 : (⟨S65536x96, .f32⟩ : BufTy).Contents (Elt Ideal)) (x1 : (⟨S65536x64, .f32⟩ : BufTy).Contents (Elt Ideal))
  (x3 : (⟨S96x64, .f32⟩ : BufTy).Contents (Elt Ideal)) (x4 : (⟨S64, .f32⟩ : BufTy).Contents (Elt Ideal))
  (x5 x6 : (⟨S64x192, .f32⟩ : BufTy).Contents (Elt Ideal)) (x7 x8 : (⟨S192, .f32⟩ : BufTy).Contents (Elt Ideal))
variable (x15 : (⟨S128x64, .f32⟩ : BufTy).Contents (Elt Ideal)) (x16 : (⟨S64, .f32⟩ : BufTy).Contents (Elt Ideal))
variable (x17 x18 : (⟨S64, .f32⟩ : BufTy).Contents (Elt Ideal))
variable (x19 : (⟨S64x6, .f32⟩ : BufTy).Contents (Elt Ideal)) (x20 : (⟨S6, .f32⟩ : BufTy).Contents (Elt Ideal))

/-- The reference's 6-output layer at row (b, j, i), output e. -/
theorem out_at (b : Fin 8192) (j i : Fin 8) (e : Fin 6) :
    val_main_v130 (F := Ideal) x0 x1 x3 x4 x5 x6 x7 x8 x15 x16 x17 x18 x19 x20 (ix2 (Spec.pairRow b j i) e)
      = Spec.pairOut (Spec.grouped (val_main_v40 (F := Ideal) x0 x1 x3 x4 x5 x6 x7 x8)) (Spec.topOf x15) (Spec.botOf x15)
          (Cert.Dense.row x16)
          (Cert.Dense.row (val_main_v103 (F := Ideal) x0 x1 x3 x4 x5 x6 x7 x8 x15 x16))
          (Cert.Dense.row (val_main_v110 (F := Ideal) x0 x1 x3 x4 x5 x6 x7 x8 x15 x16))
          (Cert.Dense.row x17) (Cert.Dense.row x18) x19 (Cert.Dense.row x20) b j i e := by
  rw [val_main_v130_apply, val_main_v127_apply, val_main_v129_apply, val_main_v128_apply, Ideal.addf_def, act_ref, pair_ref]
  generalize val_main_v103 (F := Ideal) x0 x1 x3 x4 x5 x6 x7 x8 x15 x16 = mu
  generalize val_main_v110 (F := Ideal) x0 x1 x3 x4 x5 x6 x7 x8 x15 x16 = va
  generalize val_main_v40 (F := Ideal) x0 x1 x3 x4 x5 x6 x7 x8 = h
  unfold Spec.pairOut
  refine congrArg₂ (· + ·) (Finset.sum_congr rfl fun k _ => ?_) (congrArg x20 (funext fun a => by
    match a with
    | ⟨0, _⟩ => rfl))
  have el : lidx_main_v127 (ix2 (Spec.pairRow b j i) e) k = ix2 (Spec.pairRow b j i) k := funext fun a => by
    match a with
    | ⟨0, _⟩ => rfl
    | ⟨1, _⟩ => rfl
  have er : ridx_main_v127 (ix2 (Spec.pairRow b j i) e) k = ix2 k e := funext fun a => by
    match a with
    | ⟨0, _⟩ => rfl
    | ⟨1, _⟩ => rfl
  rw [el, er]
  refine congrArg (· * x19 (ix2 k e)) ?_
  show Spec.bnAct (Spec.pairMat _ _ _ _ (ix2 (Spec.pairRow b j i) k)) _ _ _ _ = _
  rw [pairMat_at]

end Cert.RefPair

end
-- ==== Proof.RefPairG.lean ====
/-
  The divergence between the awareness Gaussian and the all-pairs Gaussian, averaged.

  The reference reads the [524288, 6] output of the all-pairs head as an [8192, 8, 48] array: entry (b, j, c) is
  output c % 6 of the triple (b, j, c / 6).  Its first 24 columns are the means (pair slots 0 … 3), the last 24
  the log-variances (pair slots 4 … 7), exponentiated and floored.  Against the awareness head's means and floored
  variances it forms, component by component, one half of log (s1 / s) + (s + (m - m1)^2) / s1 - 1, and averages
  over the 24 components and then over the 8 agents of a batch entry.
-/
import proofs.«141456_j50483045597756_2_alg».proof.Proof.RefPairF

noncomputable section

namespace Cert.RefPair

open Idealize.ShloMosaic Idealize.ShloMosaic.ValueIdx Cert Cert.ReferenceIdeal Cert.ReferenceIdeal.Read

variable (x0 : (⟨S65536x96, .f32⟩ : BufTy).Contents (Elt Ideal)) (x1 : (⟨S65536x64, .f32⟩ : BufTy).Contents (Elt Ideal))
  (x3 : (⟨S96x64, .f32⟩ : BufTy).Contents (Elt Ideal)) (x4 : (⟨S64, .f32⟩ : BufTy).Contents (Elt Ideal))
  (x5 x6 : (⟨S64x192, .f32⟩ : BufTy).Contents (Elt Ideal)) (x7 x8 : (⟨S192, .f32⟩ : BufTy).Contents (Elt Ideal))
variable (x9 : (⟨S64x64, .f32⟩ : BufTy).Contents (Elt Ideal)) (x10 x11 x12 : (⟨S64, .f32⟩ : BufTy).Contents (Elt Ideal))
  (x13 : (⟨S64x48, .f32⟩ : BufTy).Contents (Elt Ideal)) (x14 : (⟨S48, .f32⟩ : BufTy).Contents (Elt Ideal))
variable (x15 : (⟨S128x64, .f32⟩ : BufTy).Contents (Elt Ideal)) (x16 x17 x18 : (⟨S64, .f32⟩ : BufTy).Contents (Elt Ideal))
  (x19 : (⟨S64x6, .f32⟩ : BufTy).Contents (Elt Ideal)) (x20 : (⟨S6, .f32⟩ : BufTy).Contents (Elt Ideal))

/-- The mean column c of agent (b, j): output c % 6 of the triple (b, j, c / 6). -/
theorem slot_lo (b : Fin 8192) (j : Fin 8) (c : Fin 24) :
    idx_main_v131 (idx_main_v132 (ix3 b j c)) = ix2 (Spec.pairRow b j (Spec.slotLo c)) (Spec.comp6 c) :=
  funext fun a => Fin.ext (by
    have hb := b.isLt; have hj := j.isLt; have hc := c.isLt
    match a with
    | ⟨0, _⟩ => show ((b.val * 8 + j.val) * 48 + c.val) / 6 = (b.val * 8 + j.val) * 8 + c.val / 6; omega
    | ⟨1, _⟩ => show ((b.val * 8 + j.val) * 48 + c.val) % 6 = c.val % 6; omega)

/-- The log-variance column 24 + c of agent (b, j): output c % 6 of the triple (b, j, 4 + c / 6). -/
theorem slot_hi (b : Fin 8192) (j : Fin 8) (c : Fin 24) :
    idx_main_v131 (idx_main_v133 (ix3 b j c)) = ix2 (Spec.pairRow b j (Spec.slotHi c)) (Spec.comp6 c) :=
  funext fun a => Fin.ext (by
    have hb := b.isLt; have hj := j.isLt; have hc := c.isLt
    match a with
    | ⟨0, _⟩ => show ((b.val * 8 + j.val) * 48 + (24 + c.val)) / 6 = (b.val * 8 + j.val) * 8 + (4 + c.val / 6); omega
    | ⟨1, _⟩ => show ((b.val * 8 + j.val) * 48 + (24 + c.val)) % 6 = c.val % 6; omega)

/-- The reference's averaged divergence of every batch entry is the specification's. -/
theorem kl_ref :
    val_main_v154 (F := Ideal) x0 x1 x3 x4 x5 x6 x7 x8 x9 x10 x11 x12 x13 x14 x15 x16 x17 x18 x19 x20
      = fun i => Spec.klMean (Spec.grouped (val_main_v40 (F := Ideal) x0 x1 x3 x4 x5 x6 x7 x8)) (Spec.topOf x15) (Spec.botOf x15)
          (Cert.Dense.row x16)
          (Cert.Dense.row (val_main_v103 (F := Ideal) x0 x1 x3 x4 x5 x6 x7 x8 x15 x16))
          (Cert.Dense.row (val_main_v110 (F := Ideal) x0 x1 x3 x4 x5 x6 x7 x8 x15 x16))
          (Cert.Dense.row x17) (Cert.Dense.row x18) x19 (Cert.Dense.row x20)
          (val_main_v76 (F := Ideal) x0 x1 x3 x4 x5 x6 x7 x8 x9 x10 x11 x12 x13 x14)
          (val_main_v80 (F := Ideal) x0 x1 x3 x4 x5 x6 x7 x8 x9 x10 x11 x12 x13 x14) (i 0) := by
  funext n
  obtain ⟨b, z, rfl⟩ : ∃ (b : Fin 8192) (z : Fin 1), n = ix2 b z := ⟨n 0, n 1, eq_ix2 n⟩
  rw [val_main_v154_apply, val_main_v152_apply, val_main_v153_apply, val_main_cst_21_apply, val_main_v151_apply,
    val_main_cst_20_apply]
  simp only [val_main_v150_apply, val_main_v149_apply, val_main_cst_19_apply, val_main_v148_apply, val_main_cst_18_apply,
    val_main_v147_apply, val_main_v146_apply, val_main_cst_17_apply, val_main_v145_apply, val_main_v144_apply,
    val_main_cst_16_apply, val_main_v143_apply, val_main_v138_apply, val_main_v137_apply, val_main_v136_apply,
    val_main_v135_apply, val_main_cst_15_apply, val_main_v134_apply, val_main_v133_apply, val_main_v142_apply,
    val_main_v141_apply, val_main_v140_apply, val_main_v139_apply, val_main_v132_apply, val_main_v131_apply]
  have eT : ∀ (j : Fin 8) (c : Fin 24),
      idx_main_v148 (idx_main_v151 (idx_main_v152 (ix2 b z)) j) c = ix3 b j c := fun j c => funext fun a => by
    match a with
    | ⟨0, _⟩ => rfl
    | ⟨1, _⟩ => rfl
    | ⟨2, _⟩ => rfl
  simp only [eT, slot_lo, slot_hi, out_at]
  generalize val_main_v76 (F := Ideal) x0 x1 x3 x4 x5 x6 x7 x8 x9 x10 x11 x12 x13 x14 = mu
  generalize val_main_v80 (F := Ideal) x0 x1 x3 x4 x5 x6 x7 x8 x9 x10 x11 x12 x13 x14 = sg
  generalize val_main_v103 (F := Ideal) x0 x1 x3 x4 x5 x6 x7 x8 x15 x16 = pm
  generalize val_main_v110 (F := Ideal) x0 x1 x3 x4 x5 x6 x7 x8 x15 x16 = pv
  generalize val_main_v40 (F := Ideal) x0 x1 x3 x4 x5 x6 x7 x8 = h
  simp only [Ideal.ofBits_def, Ideal.ofBits_zero_f32, zero_add]
  rfl

end Cert.RefPair

end
-- ==== Proof.RefSide.lean ====
/-
  The reference program's three results as the composed specification of its argument arrays.

  The reference's run ends with each result at its operations' composed term; read stage by stage, those terms are
  the new hidden state, the action values and the divergence with both normalisations' statistics taken over all
  rows (the mean of a column, and the mean of its centred squares).
-/
import proofs.«141456_j50483045597756_2_alg».proof.Proof.Gen.ReferenceIdeal.Read
import proofs.«141456_j50483045597756_2_alg».proof.Proof.Network
import proofs.«141456_j50483045597756_2_alg».proof.Proof.RefHeadCell
import proofs.«141456_j50483045597756_2_alg».proof.Proof.RefHeadPre
import proofs.«141456_j50483045597756_2_alg».proof.Proof.RefHeadStats
import proofs.«141456_j50483045597756_2_alg».proof.Proof.RefHeadAware
import proofs.«141456_j50483045597756_2_alg».proof.Proof.RefHeadMuSigma
import proofs.«141456_j50483045597756_2_alg».proof.Proof.RefHeadActions
import proofs.«141456_j50483045597756_2_alg».proof.Proof.RefPairB
import proofs.«141456_j50483045597756_2_alg».proof.Proof.RefPairD
import proofs.«141456_j50483045597756_2_alg».proof.Proof.RefPairG

noncomputable section

namespace Cert.Backward

open Idealize.ShloMosaic Idealize.ShloMosaic.TcCoe Idealize.ShloMosaic.ValueIdx Idealize.SL.Sem
open Cert.ReferenceIdeal Cert.ReferenceIdeal.Gen Cert.ReferenceIdeal.Read
open Cert.Spec Cert.Dense

variable (m : (ℓ : Loc nD τ sig) → Buf (Elt Ideal) ℓ) (c : Dev nD)

/-- The argument arrays of core c. -/
def rIn : Cert.Net.Inputs where
  inp := m ((c.tc : Thread nD τ).loc main_arg0)
  hid := m ((c.tc : Thread nD τ).loc main_arg1)
  noise := m ((c.tc : Thread nD τ).loc main_arg2)
  fc1w := m ((c.tc : Thread nD τ).loc main_arg3)
  fc1b := m ((c.tc : Thread nD τ).loc main_arg4)
  wih := m ((c.tc : Thread nD τ).loc main_arg5)
  whh := m ((c.tc : Thread nD τ).loc main_arg6)
  bih := m ((c.tc : Thread nD τ).loc main_arg7)
  bhh := m ((c.tc : Thread nD τ).loc main_arg8)
  aw1w := m ((c.tc : Thread nD τ).loc main_arg9)
  aw1b := m ((c.tc : Thread nD τ).loc main_arg10)
  awg := m ((c.tc : Thread nD τ).loc main_arg11)
  awbe := m ((c.tc : Thread nD τ).loc main_arg12)
  aw2w := m ((c.tc : Thread nD τ).loc main_arg13)
  aw2b := m ((c.tc : Thread nD τ).loc main_arg14)
  po1w := m ((c.tc : Thread nD τ).loc main_arg15)
  po1b := m ((c.tc : Thread nD τ).loc main_arg16)
  pog := m ((c.tc : Thread nD τ).loc main_arg17)
  pobe := m ((c.tc : Thread nD τ).loc main_arg18)
  po2w := m ((c.tc : Thread nD τ).loc main_arg19)
  po2b := m ((c.tc : Thread nD τ).loc main_arg20)
  fc2w := m ((c.tc : Thread nD τ).loc main_arg21)
  fc2b := m ((c.tc : Thread nD τ).loc main_arg22)

/-- The new hidden state. -/
theorem res_h : (Cert.ReferenceIdeal.Value.res_main_v40 m c : Mat 65536 64) = (rIn m c).h := by
  rw [val_main_v40_eq, Cert.RefHead.hidden_ref]
  rfl

/-- The action values. -/
theorem res_act : (Cert.ReferenceIdeal.Value.res_main_v89 m c : Mat 65536 14) = (rIn m c).act (rIn m c).mean1R (rIn m c).var1R := by
  rw [val_main_v89_eq, Cert.RefHead.actions_ref, Cert.RefHead.aware_ref, Cert.RefHead.mean_ref, Cert.RefHead.var_ref,
    Cert.RefHead.pre_ref, Cert.RefHead.hidden_ref]
  rfl

/-- The divergence. -/
theorem res_kl : (Cert.ReferenceIdeal.Value.res_main_v154 m c : Mat 8192 1)
    = (rIn m c).kl (rIn m c).mean1R (rIn m c).var1R (rIn m c).mean2R (rIn m c).var2R := by
  rw [val_main_v154_eq, Cert.RefPair.kl_ref, Cert.RefPair.pmean_ref, Cert.RefPair.pvar_ref, Cert.RefPair.pair_ref,
    Cert.RefHead.mu_ref, Cert.RefHead.sigma_ref, Cert.RefHead.aware_ref, Cert.RefHead.mean_ref, Cert.RefHead.var_ref,
    Cert.RefHead.pre_ref, Cert.RefHead.hidden_ref]
  rfl

end Cert.Backward

end
-- ==== Proof.FiniteAll.lean ====
/-
  Arrays that pass the test "every |x| is below +inf" hold only real numbers.

  On the extended reals the absolute value of x is max x (-x), and the float word 0x7F800000 is +inf.  If
  max x (-x) < +inf then x is neither +inf (it would be the maximum itself) nor -inf (its negation would be), so x
  is a real number.  A conjunction over all entries of an array, computed as a reduction by "and" from the word 1
  into the array with one entry, is 1 only if every entry's test is 1.
-/
import Idealize.ShloMosaic.Lib.ReduceAll
import Idealize.ShloMosaic.Lib.IdealHost
import Idealize.ShloMosaic.PureOps.Ideal.Laws

noncomputable section

namespace Cert.Finite

open Idealize.ShloMosaic Idealize.ShloMosaic.ValueIdx

/-- The array with no axes has exactly one index. -/
instance scalarIdx_subsingleton : Subsingleton (⟨0, ![]⟩ : Shape).Idx := ⟨fun a b => funext fun d => d.elim0⟩

/-- A conjunction of two one-bit arrays is 1 at an index only where both are. -/
theorem and_one {s : Shape} (x y : IVec s 1) (j : s.Idx) (h : andi x y j = 1#1) : x j = 1#1 ∧ y j = 1#1 :=
  IntOp.andi_eq_one.1 h

/-- The float word 0x7F800000 is +inf. -/
theorem inf_word : Ideal.ofBits .f32 0x7F800000#32 = (⊤ : EReal) := by simp [Ideal.ofBits, Ideal.ieee]

/-- An extended real whose absolute value is below +inf is a real number. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

/-- Every entry of the array is a real number. -/
def AllReal {s : Shape} (a : FVec Ideal s .f32) : Prop := ∀ i : s.Idx, ∃ r : ℝ, (a i : EReal) = (r : EReal)

/-- If the conjunction over all entries of "|a i| < +inf" is 1 then every entry of a is a real number, for an
    array a of any shape. -/
theorem entries_real {s : Shape} {axes : List (Fin s.rank)} (a : FVec Ideal s .f32)
    (hb : (⟨0, ![]⟩ : Shape).BroadcastsInDim s ![]) (init : IVec ⟨0, ![]⟩ 1)
    (hr : s.ReducesTo axes ⟨0, ![]⟩) (hu : 0 < (⟨0, ![]⟩ : Shape).numel) (j : (⟨0, ![]⟩ : Shape).Idx)
    (e : Host.reduce IntOp.andi
          (cmpf .olt (Host.absf a) (broadcastInDim s ![] hb (constant (F := Ideal) ⟨0, ![]⟩ .f32 0x7F800000#32)))
          init hr hu j = 1#1) : AllReal a :=
  fun i => real_of_abs_lt (a i) (Host.reduce_andi_all _ init hr hu j e i)

end Cert.Finite

end
-- ==== Proof.FiniteTail.lean ====
/-
  The precondition's conjunction, last ten arrays.

  The precondition is one bit: the left-nested conjunction (((t0 ∧ t1) ∧ t2) ∧ … ) ∧ t22 of the 23 arrays' tests
  t_k = "every |x| of array k is below +inf".  Its definition is a chain of functions, each continuing the previous
  one with the values that one has computed so far: the conjunction of the tests before it, and sometimes a test
  that is half computed (an absolute value, a comparison not yet reduced).  Each lemma here reads one function of
  the chain from the right: if its bit is 1 then so is the conjunction it was handed, so is every half-computed
  test it was handed once finished, and every array it tests holds real numbers only.  This file has the last
  three functions (arrays 14 to 22, and the unfinished tests of arrays 13, 17 and 20).
-/
import proofs.«141456_j50483045597756_2_alg».proof.Pre_finite_inputs
import proofs.«141456_j50483045597756_2_alg».proof.Proof.FiniteAll

noncomputable section

namespace Cert.Finite

open Idealize.ShloMosaic Idealize.ShloMosaic.ValueIdx
open Cert.Pre_finite_inputs Cert.Pre_finite_inputs.Facts

variable [Cert.Pre_finite_inputs.Facts]

theorem part6 (a21 : FVec Ideal S88x14 .f32) (a22 : FVec Ideal S14 .f32) (v98 : IVec S_ 1) (v101 : IVec S6 1)
    (c39 : IVec S_ 1) (j : S_.Idx) (h : fn_part6 (F := Ideal) a21 a22 v98 v101 c39 j = 1#1) :
    v98 j = 1#1 ∧ Host.reduce IntOp.andi v101 c39 reducesTo_S6_S_d0 h_S_ j = 1#1 ∧ AllReal a21 ∧ AllReal a22 := by
  dsimp only [fn_part6] at h
  obtain ⟨h, r22⟩ := and_one _ _ j h
  obtain ⟨h, r21⟩ := and_one _ _ j h
  obtain ⟨h, r20⟩ := and_one _ _ j h
  exact ⟨h, r20, entries_real a21 _ _ _ _ j r21, entries_real a22 _ _ _ _ j r22⟩

theorem part5 (a18 : FVec Ideal S64 .f32) (a19 : FVec Ideal S64x6 .f32) (a20 : FVec Ideal S6 .f32) (a21 : FVec Ideal S88x14 .f32) (a22 : FVec Ideal S14 .f32) (v83 : IVec S_ 1) (v84 : FVec Ideal S64 .f32)
    (cst32 : FVec Ideal S_ .f32) (j : S_.Idx)
    (h : fn_part5 (F := Ideal) a18 a19 a20 a21 a22 v83 v84 cst32 j = 1#1) :
    v83 j = 1#1
      ∧ Host.reduce IntOp.andi (cmpf .olt v84 (broadcastInDim S64 ![] bcast_S_S64 cst32)) (constantI S_ 1 1#1)
          reducesTo_S64_S_d0 h_S_ j = 1#1
      ∧ AllReal a18 ∧ AllReal a19 ∧ AllReal a20 ∧ AllReal a21 ∧ AllReal a22 := by
  dsimp only [fn_part5] at h
  obtain ⟨h, r20, R21, R22⟩ := part6 _ _ _ _ _ j h
  obtain ⟨h, r19⟩ := and_one _ _ j h
  obtain ⟨h, r18⟩ := and_one _ _ j h
  obtain ⟨h, r17⟩ := and_one _ _ j h
  exact ⟨h, r17, entries_real a18 _ _ _ _ j r18, entries_real a19 _ _ _ _ j r19, entries_real a20 _ _ _ _ j r20, R21, R22⟩

theorem part4 (a14 : FVec Ideal S48 .f32) (a15 : FVec Ideal S128x64 .f32) (a16 : FVec Ideal S64 .f32) (a17 : FVec Ideal S64 .f32) (a18 : FVec Ideal S64 .f32) (a19 : FVec Ideal S64x6 .f32) (a20 : FVec Ideal S6 .f32) (a21 : FVec Ideal S88x14 .f32) (a22 : FVec Ideal S14 .f32) (v63 v67 : IVec S_ 1) (j : S_.Idx)
    (h : fn_part4 (F := Ideal) a14 a15 a16 a17 a18 a19 a20 a21 a22 v63 v67 j = 1#1) :
    v63 j = 1#1 ∧ v67 j = 1#1 ∧ AllReal a14 ∧ AllReal a15 ∧ AllReal a16 ∧ AllReal a17 ∧ AllReal a18 ∧ AllReal a19 ∧ AllReal a20 ∧ AllReal a21 ∧ AllReal a22 := by
  dsimp only [fn_part4] at h
  obtain ⟨h, r17, R18, R19, R20, R21, R22⟩ := part5 _ _ _ _ _ _ _ _ j h
  obtain ⟨h, r16⟩ := and_one _ _ j h
  obtain ⟨h, r15⟩ := and_one _ _ j h
  obtain ⟨h, r14⟩ := and_one _ _ j h
  obtain ⟨h63, h67⟩ := and_one _ _ j h
  exact ⟨h63, h67, entries_real a14 _ _ _ _ j r14, entries_real a15 _ _ _ _ j r15, entries_real a16 _ _ _ _ j r16, entries_real a17 _ _ _ _ j r17, R18, R19, R20, R21, R22⟩

end Cert.Finite

end
-- ==== Proof.FiniteHead.lean ====
/-
  The precondition's conjunction, all 23 arrays.

  The first three functions of the chain and the function itself, read from the right as the last three were:
  the bit is the left-nested conjunction of the 23 tests, so if it is 1 every array holds real numbers only.
-/
import proofs.«141456_j50483045597756_2_alg».proof.Proof.FiniteTail

noncomputable section

namespace Cert.Finite

open Idealize.ShloMosaic Idealize.ShloMosaic.ValueIdx
open Cert.Pre_finite_inputs Cert.Pre_finite_inputs.Facts

variable [Cert.Pre_finite_inputs.Facts]

theorem part3 (a11 : FVec Ideal S64 .f32) (a12 : FVec Ideal S64 .f32) (a13 : FVec Ideal S64x48 .f32) (a14 : FVec Ideal S48 .f32) (a15 : FVec Ideal S128x64 .f32) (a16 : FVec Ideal S64 .f32) (a17 : FVec Ideal S64 .f32) (a18 : FVec Ideal S64 .f32) (a19 : FVec Ideal S64x6 .f32) (a20 : FVec Ideal S6 .f32) (a21 : FVec Ideal S88x14 .f32) (a22 : FVec Ideal S14 .f32) (v48 : IVec S_ 1) (v49 v50 : FVec Ideal S64 .f32) (j : S_.Idx)
    (h : fn_part3 (F := Ideal) a11 a12 a13 a14 a15 a16 a17 a18 a19 a20 a21 a22 v48 v49 v50 j = 1#1) :
    v48 j = 1#1
      ∧ Host.reduce IntOp.andi (cmpf .olt v49 v50) (constantI S_ 1 1#1) reducesTo_S64_S_d0 h_S_ j = 1#1
      ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ AllReal a22 := by
  dsimp only [fn_part3] at h
  obtain ⟨h, r13, R14, R15, R16, R17, R18, R19, R20, R21, R22⟩ := part4 _ _ _ _ _ _ _ _ _ _ _ j h
  obtain ⟨h, r12⟩ := and_one _ _ j h
  obtain ⟨h, r11⟩ := and_one _ _ j h
  obtain ⟨h, r10⟩ := and_one _ _ j h
  exact ⟨h, r10, entries_real a11 _ _ _ _ j r11, entries_real a12 _ _ _ _ j r12, entries_real a13 _ _ _ _ j r13, R14, R15, R16, R17, R18, R19, R20, R21, R22⟩

theorem part2 (a7 : FVec Ideal S192 .f32) (a8 : FVec Ideal S192 .f32) (a9 : FVec Ideal S64x64 .f32) (a10 : FVec Ideal S64 .f32) (a11 : FVec Ideal S64 .f32) (a12 : FVec Ideal S64 .f32) (a13 : FVec Ideal S64x48 .f32) (a14 : FVec Ideal S48 .f32) (a15 : FVec Ideal S128x64 .f32) (a16 : FVec Ideal S64 .f32) (a17 : FVec Ideal S64 .f32) (a18 : FVec Ideal S64 .f32) (a19 : FVec Ideal S64x6 .f32) (a20 : FVec Ideal S6 .f32) (a21 : FVec Ideal S88x14 .f32) (a22 : FVec Ideal S14 .f32) (v33 : IVec S_ 1) (j : S_.Idx)
    (h : fn_part2 (F := Ideal) a7 a8 a9 a10 a11 a12 a13 a14 a15 a16 a17 a18 a19 a20 a21 a22 v33 j = 1#1) :
    v33 j = 1#1 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ AllReal a22 := by
  dsimp only [fn_part2] at h
  obtain ⟨h, r10, R11, R12, R13, R14, R15, R16, R17, R18, R19, R20, R21, R22⟩ := part3 _ _ _ _ _ _ _ _ _ _ _ _ _ _ _ j h
  obtain ⟨h, r9⟩ := and_one _ _ j h
  obtain ⟨h, r8⟩ := and_one _ _ j h
  obtain ⟨h, r7⟩ := and_one _ _ j h
  exact ⟨h, entries_real a7 _ _ _ _ j r7, entries_real a8 _ _ _ _ j r8, entries_real a9 _ _ _ _ j r9, entries_real a10 _ _ _ _ j r10, R11, R12, R13, R14, R15, R16, R17, R18, R19, R20, R21, R22⟩

theorem part1 (a4 : FVec Ideal S64 .f32) (a5 : FVec Ideal S64x192 .f32) (a6 : FVec Ideal S64x192 .f32) (a7 : FVec Ideal S192 .f32) (a8 : FVec Ideal S192 .f32) (a9 : FVec Ideal S64x64 .f32) (a10 : FVec Ideal S64 .f32) (a11 : FVec Ideal S64 .f32) (a12 : FVec Ideal S64 .f32) (a13 : FVec Ideal S64x48 .f32) (a14 : FVec Ideal S48 .f32) (a15 : FVec Ideal S128x64 .f32) (a16 : FVec Ideal S64 .f32) (a17 : FVec Ideal S64 .f32) (a18 : FVec Ideal S64 .f32) (a19 : FVec Ideal S64x6 .f32) (a20 : FVec Ideal S6 .f32) (a21 : FVec Ideal S88x14 .f32) (a22 : FVec Ideal S14 .f32) (v13 : IVec S_ 1) (v16 : IVec S96x64 1) (j : S_.Idx)
    (h : fn_part1 (F := Ideal) a4 a5 a6 a7 a8 a9 a10 a11 a12 a13 a14 a15 a16 a17 a18 a19 a20 a21 a22 v13 v16 j = 1#1) :
    v13 j = 1#1
      ∧ Host.reduce IntOp.andi v16 (constantI S_ 1 1#1) reducesTo_S96x64_S_d0_1 h_S_ j = 1#1
      ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ AllReal a22 := by
  dsimp only [fn_part1] at h
  obtain ⟨h, R7, R8, R9, R10, R11, R12, R13, R14, R15, R16, R17, R18, R19, R20, R21, R22⟩ := part2 _ _ _ _ _ _ _ _ _ _ _ _ _ _ _ _ _ j h
  obtain ⟨h, r6⟩ := and_one _ _ j h
  obtain ⟨h, r5⟩ := and_one _ _ j h
  obtain ⟨h, r4⟩ := and_one _ _ j h
  obtain ⟨h, r3⟩ := and_one _ _ j h
  exact ⟨h, r3, entries_real a4 _ _ _ _ j r4, entries_real a5 _ _ _ _ j r5, entries_real a6 _ _ _ _ j r6, R7, R8, R9, R10, R11, R12, R13, R14, R15, R16, R17, R18, R19, R20, R21, R22⟩

/-- If the precondition's bit is 1 then each of the 23 arrays holds real numbers only. -/
theorem fn_real (a0 : FVec Ideal S65536x96 .f32) (a1 : FVec Ideal S65536x64 .f32) (a2 : FVec Ideal S8192x8x24 .f32) (a3 : FVec Ideal S96x64 .f32) (a4 : FVec Ideal S64 .f32) (a5 : FVec Ideal S64x192 .f32) (a6 : FVec Ideal S64x192 .f32) (a7 : FVec Ideal S192 .f32) (a8 : FVec Ideal S192 .f32) (a9 : FVec Ideal S64x64 .f32) (a10 : FVec Ideal S64 .f32) (a11 : FVec Ideal S64 .f32) (a12 : FVec Ideal S64 .f32) (a13 : FVec Ideal S64x48 .f32) (a14 : FVec Ideal S48 .f32) (a15 : FVec Ideal S128x64 .f32) (a16 : FVec Ideal S64 .f32) (a17 : FVec Ideal S64 .f32) (a18 : FVec Ideal S64 .f32) (a19 : FVec Ideal S64x6 .f32) (a20 : FVec Ideal S6 .f32) (a21 : FVec Ideal S88x14 .f32) (a22 : FVec Ideal S14 .f32) (j : S_.Idx)
    (h : fn (F := Ideal) a0 a1 a2 a3 a4 a5 a6 a7 a8 a9 a10 a11 a12 a13 a14 a15 a16 a17 a18 a19 a20 a21 a22 j = 1#1) :
    AllReal a0 ∧ AllReal a1 ∧ AllReal a2 ∧ AllReal a3 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ AllReal a22 := by
  dsimp only [fn] at h
  obtain ⟨h, r3, R4, R5, R6, R7, R8, R9, R10, R11, R12, R13, R14, R15, R16, R17, R18, R19, R20, R21, R22⟩ := part1 _ _ _ _ _ _ _ _ _ _ _ _ _ _ _ _ _ _ _ _ _ j h
  obtain ⟨h, r2⟩ := and_one _ _ j h
  obtain ⟨r0, r1⟩ := and_one _ _ j h
  exact ⟨entries_real a0 _ _ _ _ j r0, entries_real a1 _ _ _ _ j r1, entries_real a2 _ _ _ _ j r2, entries_real a3 _ _ _ _ j r3, R4, R5, R6, R7, R8, R9, R10, R11, R12, R13, R14, R15, R16, R17, R18, R19, R20, R21, R22⟩

end Cert.Finite

end
-- ==== Proof.FiniteInputs.lean ====
/-
  Under the precondition the argument arrays hold real numbers only.

  The precondition says that on every device the one-entry array computed from the 23 argument arrays — the
  conjunction, array by array, of "every |x| is below +inf" — is 1.  Read at its one index this gives, for each
  array, that every entry is a real number (neither infinity).
-/
import proofs.«141456_j50483045597756_2_alg».proof.Defs
import proofs.«141456_j50483045597756_2_alg».proof.Proof.Spec
import proofs.«141456_j50483045597756_2_alg».proof.Proof.FiniteHead

noncomputable section

namespace Cert.Finite

open Idealize.ShloMosaic Idealize.ShloMosaic.ValueIdx Idealize.SL.Sem

/-- Every entry of every one of the 23 argument arrays of device c is a real number. -/
structure ArgsReal (m : (ℓ : Loc Cert.KernelIdeal.nD Cert.KernelIdeal.τ Cert.KernelIdeal.sig) → Buf (Elt Ideal) ℓ)
    (c : Dev Cert.KernelIdeal.nD) : Prop where
  /-- argument 0, of shape [65536, 96] -/
  arg0 : ∀ i, Spec.IsReal ((m ((c.tc : Thread Cert.KernelIdeal.nD Cert.KernelIdeal.τ).loc Cert.KernelIdeal.main_arg0) : Cert.KernelIdeal.S65536x96.Idx → EReal) i)
  /-- argument 1, of shape [65536, 64] -/
  arg1 : ∀ i, Spec.IsReal ((m ((c.tc : Thread Cert.KernelIdeal.nD Cert.KernelIdeal.τ).loc Cert.KernelIdeal.main_arg1) : Cert.KernelIdeal.S65536x64.Idx → EReal) i)
  /-- argument 2, of shape [8192, 8, 24] -/
  arg2 : ∀ i, Spec.IsReal ((m ((c.tc : Thread Cert.KernelIdeal.nD Cert.KernelIdeal.τ).loc Cert.KernelIdeal.main_arg2) : Cert.KernelIdeal.S8192x8x24.Idx → EReal) i)
  /-- argument 3, of shape [96, 64] -/
  arg3 : ∀ i, Spec.IsReal ((m ((c.tc : Thread Cert.KernelIdeal.nD Cert.KernelIdeal.τ).loc Cert.KernelIdeal.main_arg3) : Cert.KernelIdeal.S96x64.Idx → EReal) i)
  /-- argument 4, of shape [64] -/
  arg4 : ∀ i, Spec.IsReal ((m ((c.tc : Thread Cert.KernelIdeal.nD Cert.KernelIdeal.τ).loc Cert.KernelIdeal.main_arg4) : Cert.KernelIdeal.S64.Idx → EReal) i)
  /-- argument 5, of shape [64, 192] -/
  arg5 : ∀ i, Spec.IsReal ((m ((c.tc : Thread Cert.KernelIdeal.nD Cert.KernelIdeal.τ).loc Cert.KernelIdeal.main_arg5) : Cert.KernelIdeal.S64x192.Idx → EReal) i)
  /-- argument 6, of shape [64, 192] -/
  arg6 : ∀ i, Spec.IsReal ((m ((c.tc : Thread Cert.KernelIdeal.nD Cert.KernelIdeal.τ).loc Cert.KernelIdeal.main_arg6) : Cert.KernelIdeal.S64x192.Idx → EReal) i)
  /-- argument 7, of shape [192] -/
  arg7 : ∀ i, Spec.IsReal ((m ((c.tc : Thread Cert.KernelIdeal.nD Cert.KernelIdeal.τ).loc Cert.KernelIdeal.main_arg7) : Cert.KernelIdeal.S192.Idx → EReal) i)
  /-- argument 8, of shape [192] -/
  arg8 : ∀ i, Spec.IsReal ((m ((c.tc : Thread Cert.KernelIdeal.nD Cert.KernelIdeal.τ).loc Cert.KernelIdeal.main_arg8) : Cert.KernelIdeal.S192.Idx → EReal) i)
  /-- argument 9, of shape [64, 64] -/
  arg9 : ∀ i, Spec.IsReal ((m ((c.tc : Thread Cert.KernelIdeal.nD Cert.KernelIdeal.τ).loc Cert.KernelIdeal.main_arg9) : Cert.KernelIdeal.S64x64.Idx → EReal) i)
  /-- argument 10, of shape [64] -/
  arg10 : ∀ i, Spec.IsReal ((m ((c.tc : Thread Cert.KernelIdeal.nD Cert.KernelIdeal.τ).loc Cert.KernelIdeal.main_arg10) : Cert.KernelIdeal.S64.Idx → EReal) i)
  /-- argument 11, of shape [64] -/
  arg11 : ∀ i, Spec.IsReal ((m ((c.tc : Thread Cert.KernelIdeal.nD Cert.KernelIdeal.τ).loc Cert.KernelIdeal.main_arg11) : Cert.KernelIdeal.S64.Idx → EReal) i)
  /-- argument 12, of shape [64] -/
  arg12 : ∀ i, Spec.IsReal ((m ((c.tc : Thread Cert.KernelIdeal.nD Cert.KernelIdeal.τ).loc Cert.KernelIdeal.main_arg12) : Cert.KernelIdeal.S64.Idx → EReal) i)
  /-- argument 13, of shape [64, 48] -/
  arg13 : ∀ i, Spec.IsReal ((m ((c.tc : Thread Cert.KernelIdeal.nD Cert.KernelIdeal.τ).loc Cert.KernelIdeal.main_arg13) : Cert.KernelIdeal.S64x48.Idx → EReal) i)
  /-- argument 14, of shape [48] -/
  arg14 : ∀ i, Spec.IsReal ((m ((c.tc : Thread Cert.KernelIdeal.nD Cert.KernelIdeal.τ).loc Cert.KernelIdeal.main_arg14) : Cert.KernelIdeal.S48.Idx → EReal) i)
  /-- argument 15, of shape [128, 64] -/
  arg15 : ∀ i, Spec.IsReal ((m ((c.tc : Thread Cert.KernelIdeal.nD Cert.KernelIdeal.τ).loc Cert.KernelIdeal.main_arg15) : Cert.KernelIdeal.S128x64.Idx → EReal) i)
  /-- argument 16, of shape [64] -/
  arg16 : ∀ i, Spec.IsReal ((m ((c.tc : Thread Cert.KernelIdeal.nD Cert.KernelIdeal.τ).loc Cert.KernelIdeal.main_arg16) : Cert.KernelIdeal.S64.Idx → EReal) i)
  /-- argument 17, of shape [64] -/
  arg17 : ∀ i, Spec.IsReal ((m ((c.tc : Thread Cert.KernelIdeal.nD Cert.KernelIdeal.τ).loc Cert.KernelIdeal.main_arg17) : Cert.KernelIdeal.S64.Idx → EReal) i)
  /-- argument 18, of shape [64] -/
  arg18 : ∀ i, Spec.IsReal ((m ((c.tc : Thread Cert.KernelIdeal.nD Cert.KernelIdeal.τ).loc Cert.KernelIdeal.main_arg18) : Cert.KernelIdeal.S64.Idx → EReal) i)
  /-- argument 19, of shape [64, 6] -/
  arg19 : ∀ i, Spec.IsReal ((m ((c.tc : Thread Cert.KernelIdeal.nD Cert.KernelIdeal.τ).loc Cert.KernelIdeal.main_arg19) : Cert.KernelIdeal.S64x6.Idx → EReal) i)
  /-- argument 20, of shape [6] -/
  arg20 : ∀ i, Spec.IsReal ((m ((c.tc : Thread Cert.KernelIdeal.nD Cert.KernelIdeal.τ).loc Cert.KernelIdeal.main_arg20) : Cert.KernelIdeal.S6.Idx → EReal) i)
  /-- argument 21, of shape [88, 14] -/
  arg21 : ∀ i, Spec.IsReal ((m ((c.tc : Thread Cert.KernelIdeal.nD Cert.KernelIdeal.τ).loc Cert.KernelIdeal.main_arg21) : Cert.KernelIdeal.S88x14.Idx → EReal) i)
  /-- argument 22, of shape [14] -/
  arg22 : ∀ i, Spec.IsReal ((m ((c.tc : Thread Cert.KernelIdeal.nD Cert.KernelIdeal.τ).loc Cert.KernelIdeal.main_arg22) : Cert.KernelIdeal.S14.Idx → EReal) i)

variable [Cert.Pre_finite_inputs.Facts]

/-- Under the precondition all 23 argument arrays hold real numbers only. -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) : ArgsReal m c := by
  obtain ⟨R0, R1, R2, R3, R4, R5, R6, R7, R8, R9, R10, R11, R12, R13, R14, R15, R16, R17, R18, R19, R20, R21, R22⟩ := fn_real _ _ _ _ _ _ _ _ _ _ _ _ _ _ _ _ _ _ _ _ _ _ _ ValueIdx.ix0 (congrFun (h c) ValueIdx.ix0)
  exact ⟨R0, R1, R2, R3, R4, R5, R6, R7, R8, R9, R10, R11, R12, R13, R14, R15, R16, R17, R18, R19, R20, R21, R22⟩

/-- The twelve arrays that enter products whose sums are re-arranged — arguments 0, 1, 3 to 10, 15 and 16 — hold
    real numbers only. -/
theorem inputs_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Spec.IsReal ((m ((c.tc : Thread Cert.KernelIdeal.nD Cert.KernelIdeal.τ).loc Cert.KernelIdeal.main_arg0) : Cert.KernelIdeal.S65536x96.Idx → EReal) i))
      ∧ (∀ i, Spec.IsReal ((m ((c.tc : Thread Cert.KernelIdeal.nD Cert.KernelIdeal.τ).loc Cert.KernelIdeal.main_arg1) : Cert.KernelIdeal.S65536x64.Idx → EReal) i))
      ∧ (∀ i, Spec.IsReal ((m ((c.tc : Thread Cert.KernelIdeal.nD Cert.KernelIdeal.τ).loc Cert.KernelIdeal.main_arg3) : Cert.KernelIdeal.S96x64.Idx → EReal) i))
      ∧ (∀ i, Spec.IsReal ((m ((c.tc : Thread Cert.KernelIdeal.nD Cert.KernelIdeal.τ).loc Cert.KernelIdeal.main_arg4) : Cert.KernelIdeal.S64.Idx → EReal) i))
      ∧ (∀ i, Spec.IsReal ((m ((c.tc : Thread Cert.KernelIdeal.nD Cert.KernelIdeal.τ).loc Cert.KernelIdeal.main_arg5) : Cert.KernelIdeal.S64x192.Idx → EReal) i))
      ∧ (∀ i, Spec.IsReal ((m ((c.tc : Thread Cert.KernelIdeal.nD Cert.KernelIdeal.τ).loc Cert.KernelIdeal.main_arg6) : Cert.KernelIdeal.S64x192.Idx → EReal) i))
      ∧ (∀ i, Spec.IsReal ((m ((c.tc : Thread Cert.KernelIdeal.nD Cert.KernelIdeal.τ).loc Cert.KernelIdeal.main_arg7) : Cert.KernelIdeal.S192.Idx → EReal) i))
      ∧ (∀ i, Spec.IsReal ((m ((c.tc : Thread Cert.KernelIdeal.nD Cert.KernelIdeal.τ).loc Cert.KernelIdeal.main_arg8) : Cert.KernelIdeal.S192.Idx → EReal) i))
      ∧ (∀ i, Spec.IsReal ((m ((c.tc : Thread Cert.KernelIdeal.nD Cert.KernelIdeal.τ).loc Cert.KernelIdeal.main_arg9) : Cert.KernelIdeal.S64x64.Idx → EReal) i))
      ∧ (∀ i, Spec.IsReal ((m ((c.tc : Thread Cert.KernelIdeal.nD Cert.KernelIdeal.τ).loc Cert.KernelIdeal.main_arg10) : Cert.KernelIdeal.S64.Idx → EReal) i))
      ∧ (∀ i, Spec.IsReal ((m ((c.tc : Thread Cert.KernelIdeal.nD Cert.KernelIdeal.τ).loc Cert.KernelIdeal.main_arg15) : Cert.KernelIdeal.S128x64.Idx → EReal) i))
      ∧ (∀ i, Spec.IsReal ((m ((c.tc : Thread Cert.KernelIdeal.nD Cert.KernelIdeal.τ).loc Cert.KernelIdeal.main_arg16) : Cert.KernelIdeal.S64.Idx → EReal) i)) :=
  have R := args_real m h c
  ⟨R.arg0, R.arg1, R.arg3, R.arg4, R.arg5, R.arg6, R.arg7, R.arg8, R.arg9, R.arg10, R.arg15, R.arg16⟩

end Cert.Finite

end
-- ==== Proof.CellDot.lean ====
/-
  The three dense layers of the recurrent cell, as the matrix unit computes them on a block of 1024 rows.

  Each layer rounds its two operands to bf16 (the identity on the extended reals), multiplies them into a zero
  accumulator and adds the bias row repeated down the rows; read entry by entry that is the textbook dense layer:
  entry (r, j) is the sum over k of X (r, k) * W (k, j), plus B (0, j).
-/
import proofs.«141456_j50483045597756_2_alg».proof.Proof.Gen.KernelIdeal.Skeleton
import proofs.«141456_j50483045597756_2_alg».proof.Proof.LibDense
import Idealize.ShloMosaic.Lib.ValueLayout
import Idealize.ShloMosaic.Lib.Pipeline.Value

noncomputable section

namespace Cert.Cell

open Idealize.ShloMosaic Idealize.ShloMosaic.ValueIdx Cert.KernelIdeal Cert.KernelIdeal.Gen Cert.Dense

abbrev Dfc1 := dot_S1024x96_S96x64_S1024x64_1_0_0_1_n_n
abbrev Dgate := dot_S1024x64_S64x192_S1024x192_1_0_0_1_n_n
abbrev Dsq := dot_S1024x64_S64x64_S1024x64_1_0_0_1_n_n

/-! The product record of shapes S1024x96, S96x64, S1024x64: its left index at an output index i and a contraction index q
    is (i 0, q), its right index (q, i 1). -/
theorem fc1_l0 (i : S1024x64.Idx) (q : Dfc1.contr.Idx) : (Dfc1.lhsIdx i q 0).val = (i 0).val := by
  unfold DotDims.lhsIdx
  rw [dif_neg (show ¬(0 : Fin S1024x96.rank) ∈ Dfc1.lhsBatch by decide), dif_pos (show (0 : Fin S1024x96.rank) ∈ Dfc1.lhsNonContracting by decide)]
  rfl
theorem fc1_l1 (i : S1024x64.Idx) (q : Dfc1.contr.Idx) : (Dfc1.lhsIdx i q 1).val = (q ⟨0, by decide⟩).val :=
  Dfc1.lhsIdx_val_of_single rfl i q
theorem fc1_r0 (i : S1024x64.Idx) (q : Dfc1.contr.Idx) : (Dfc1.rhsIdx i q 0).val = (q ⟨0, by decide⟩).val :=
  Dfc1.rhsIdx_val_of_single rfl i q
theorem fc1_r1 (i : S1024x64.Idx) (q : Dfc1.contr.Idx) : (Dfc1.rhsIdx i q 1).val = (i 1).val := by
  unfold DotDims.rhsIdx
  rw [dif_neg (show ¬(1 : Fin S96x64.rank) ∈ Dfc1.rhsBatch by decide), dif_pos (show (1 : Fin S96x64.rank) ∈ Dfc1.rhsNonContracting by decide)]
  rfl

/-! The product record of shapes S1024x64, S64x192, S1024x192: its left index at an output index i and a contraction index q
    is (i 0, q), its right index (q, i 1). -/
theorem gate_l0 (i : S1024x192.Idx) (q : Dgate.contr.Idx) : (Dgate.lhsIdx i q 0).val = (i 0).val := by
  unfold DotDims.lhsIdx
  rw [dif_neg (show ¬(0 : Fin S1024x64.rank) ∈ Dgate.lhsBatch by decide), dif_pos (show (0 : Fin S1024x64.rank) ∈ Dgate.lhsNonContracting by decide)]
  rfl
theorem gate_l1 (i : S1024x192.Idx) (q : Dgate.contr.Idx) : (Dgate.lhsIdx i q 1).val = (q ⟨0, by decide⟩).val :=
  Dgate.lhsIdx_val_of_single rfl i q
theorem gate_r0 (i : S1024x192.Idx) (q : Dgate.contr.Idx) : (Dgate.rhsIdx i q 0).val = (q ⟨0, by decide⟩).val :=
  Dgate.rhsIdx_val_of_single rfl i q
theorem gate_r1 (i : S1024x192.Idx) (q : Dgate.contr.Idx) : (Dgate.rhsIdx i q 1).val = (i 1).val := by
  unfold DotDims.rhsIdx
  rw [dif_neg (show ¬(1 : Fin S64x192.rank) ∈ Dgate.rhsBatch by decide), dif_pos (show (1 : Fin S64x192.rank) ∈ Dgate.rhsNonContracting by decide)]
  rfl

/-! The product record of shapes S1024x64, S64x64, S1024x64: its left index at an output index i and a contraction index q
    is (i 0, q), its right index (q, i 1). -/
theorem sq_l0 (i : S1024x64.Idx) (q : Dsq.contr.Idx) : (Dsq.lhsIdx i q 0).val = (i 0).val := by
  unfold DotDims.lhsIdx
  rw [dif_neg (show ¬(0 : Fin S1024x64.rank) ∈ Dsq.lhsBatch by decide), dif_pos (show (0 : Fin S1024x64.rank) ∈ Dsq.lhsNonContracting by decide)]
  rfl
theorem sq_l1 (i : S1024x64.Idx) (q : Dsq.contr.Idx) : (Dsq.lhsIdx i q 1).val = (q ⟨0, by decide⟩).val :=
  Dsq.lhsIdx_val_of_single rfl i q
theorem sq_r0 (i : S1024x64.Idx) (q : Dsq.contr.Idx) : (Dsq.rhsIdx i q 0).val = (q ⟨0, by decide⟩).val :=
  Dsq.rhsIdx_val_of_single rfl i q
theorem sq_r1 (i : S1024x64.Idx) (q : Dsq.contr.Idx) : (Dsq.rhsIdx i q 1).val = (i 1).val := by
  unfold DotDims.rhsIdx
  rw [dif_neg (show ¬(1 : Fin S64x64.rank) ∈ Dsq.rhsBatch by decide), dif_pos (show (1 : Fin S64x64.rank) ∈ Dsq.rhsNonContracting by decide)]
  rfl

/-- The input layer on a block: 96 inputs to 64 units. -/
theorem fc1_lin (X : FVec Ideal S1024x96 .f32) (W : FVec Ideal S96x64 .f32) (B : FVec Ideal S1x64 .f32) :
    addf (matmul Dfc1 none (truncf .bf16 X bitsLt_bf16_f32) (truncf .bf16 W bitsLt_bf16_f32) (constant S1024x64 .f32 0x00000000#32))
        (broadcastTo S1024x64 (shapeCast S1x64 B shapeCasts_S1x64_S1x64) broadcasts_S1x64_S1024x64)
      = lin X W B := by
  funext j
  obtain ⟨p, q, rfl⟩ : ∃ p q, j = ix2 p q := ⟨j 0, j 1, eq_ix2 j⟩
  refine congrArg₂ (· + ·) ?_ ?_
  · exact matmul_zero_eq Dfc1 rfl rfl fc1_l0 fc1_l1 fc1_r0 fc1_r1 none _ _ _
  · refine (broadcastTo_1b_ab_apply _ _ p q).trans ?_
    rw [shapeCast_self]

/-- A gate layer on a block: 64 units to the 192 gate pre-activations. -/
theorem gate_lin (X : FVec Ideal S1024x64 .f32) (W : FVec Ideal S64x192 .f32) (B : FVec Ideal S1x192 .f32) :
    addf (matmul Dgate none (truncf .bf16 X bitsLt_bf16_f32) (truncf .bf16 W bitsLt_bf16_f32) (constant S1024x192 .f32 0x00000000#32))
        (broadcastTo S1024x192 (shapeCast S1x192 B shapeCasts_S1x192_S1x192) broadcasts_S1x192_S1024x192)
      = lin X W B := by
  funext j
  obtain ⟨p, q, rfl⟩ : ∃ p q, j = ix2 p q := ⟨j 0, j 1, eq_ix2 j⟩
  refine congrArg₂ (· + ·) ?_ ?_
  · exact matmul_zero_eq Dgate rfl rfl gate_l0 gate_l1 gate_r0 gate_r1 none _ _ _
  · refine (broadcastTo_1b_ab_apply _ _ p q).trans ?_
    rw [shapeCast_self]

/-- The awareness head's first layer on a block: 64 units to 64. -/
theorem sq_lin (X : FVec Ideal S1024x64 .f32) (W : FVec Ideal S64x64 .f32) (B : FVec Ideal S1x64 .f32) :
    addf (matmul Dsq none (truncf .bf16 X bitsLt_bf16_f32) (truncf .bf16 W bitsLt_bf16_f32) (constant S1024x64 .f32 0x00000000#32))
        (broadcastTo S1024x64 (shapeCast S1x64 B shapeCasts_S1x64_S1x64) broadcasts_S1x64_S1024x64)
      = lin X W B := by
  funext j
  obtain ⟨p, q, rfl⟩ : ∃ p q, j = ix2 p q := ⟨j 0, j 1, eq_ix2 j⟩
  refine congrArg₂ (· + ·) ?_ ?_
  · exact matmul_zero_eq Dsq rfl rfl sq_l0 sq_l1 sq_r0 sq_r1 none _ _ _
  · refine (broadcastTo_1b_ab_apply _ _ p q).trans ?_
    rw [shapeCast_self]

end Cert.Cell

end
-- ==== Proof.CellSpec.lean ====
/-
  Row locality of the recurrent cell and of the awareness head's first layer.

  Every stage of the cell is row-wise: entry (r, q) of the new hidden state depends on row r of the inputs and of
  the old state only, and entry (r, q) of the dense layer that follows on row r of the hidden state only.  So a
  block of 1024 consecutive rows of the whole result is the same stage applied to that block of rows of the
  operands, and the column sums of a block are the sums over the block's rows of the whole matrix.
-/
import proofs.«141456_j50483045597756_2_alg».proof.Proof.Spec

noncomputable section

namespace Cert.Cell

open Idealize.ShloMosaic Idealize.ShloMosaic.ValueIdx Cert.Dense Cert.Spec

/-- The cell's output at (r, q), spelt out: the update gate z = logistic (gi_z + gh_z), the reset gate
    r = logistic (gi_r + gh_r), the candidate n = tanh (gi_n + r * gh_n), and (1 - z) * n + z * h. -/
theorem gruOut_apply {R : Nat} (gi gh : Mat R 192) (hid : Mat R 64) (r : Fin R) (q : Fin 64) :
    gruOut gi gh hid (ix2 r q)
      = (Spec.one - Ideal.logistic (gi (ix2 r (gateCol 1 q)) + gh (ix2 r (gateCol 1 q))))
            * Ideal.tanh (gi (ix2 r (gateCol 2 q))
                + Ideal.logistic (gi (ix2 r (gateCol 0 q)) + gh (ix2 r (gateCol 0 q))) * gh (ix2 r (gateCol 2 q)))
          + Ideal.logistic (gi (ix2 r (gateCol 1 q)) + gh (ix2 r (gateCol 1 q))) * hid (ix2 r q) := rfl

/-- The cell's output at (r, q) reads row r of the two pre-activations and entry (r, q) of the old state. -/
theorem gruOut_congr {R R' : Nat} {gi gh : Mat R 192} {hid : Mat R 64} {gi' gh' : Mat R' 192} {hid' : Mat R' 64}
    (r : Fin R) (r' : Fin R') (q : Fin 64)
    (hgi : ∀ c, gi (ix2 r c) = gi' (ix2 r' c)) (hgh : ∀ c, gh (ix2 r c) = gh' (ix2 r' c))
    (hh : hid (ix2 r q) = hid' (ix2 r' q)) :
    gruOut gi gh hid (ix2 r q) = gruOut gi' gh' hid' (ix2 r' q) := by
  rw [gruOut_apply, gruOut_apply, hgi (gateCol 0 q), hgi (gateCol 1 q), hgi (gateCol 2 q), hgh (gateCol 0 q),
    hgh (gateCol 1 q), hgh (gateCol 2 q), hh]

/-- The new hidden state of a row depends on that row of the inputs and of the old state only. -/
theorem hidden_congr {R R' : Nat} {inp : Mat R 96} {hid : Mat R 64} {inp' : Mat R' 96} {hid' : Mat R' 64}
    (fc1w : Mat 96 64) (fc1b : Mat 1 64) (wih whh : Mat 64 192) (bih bhh : Mat 1 192)
    (r : Fin R) (r' : Fin R') (q : Fin 64)
    (hi : ∀ k, inp (ix2 r k) = inp' (ix2 r' k)) (hh : ∀ k, hid (ix2 r k) = hid' (ix2 r' k)) :
    Spec.hidden inp hid fc1w fc1b wih whh bih bhh (ix2 r q) = Spec.hidden inp' hid' fc1w fc1b wih whh bih bhh (ix2 r' q) := by
  unfold Spec.hidden
  refine gruOut_congr r r' q (fun c => ?_) (fun c => ?_) (hh q)
  · refine lin_congr (ix2 r c) (ix2 r' c) rfl (fun k => ?_) rfl rfl
    show max (lin inp fc1w fc1b (ix2 r k)) zero = max (lin inp' fc1w fc1b (ix2 r' k)) zero
    exact congrArg (max · zero) (lin_congr (ix2 r k) (ix2 r' k) rfl hi rfl rfl)
  · exact lin_congr (ix2 r c) (ix2 r' c) rfl hh rfl rfl

variable (X0 : Mat 65536 96) (X1 : Mat 65536 64) (x0 : Mat 1024 96) (x1 : Mat 1024 64)
  (W2 w2 : Mat 96 64) (W3 w3 : Mat 1 64) (W4 w4 W5 w5 : Mat 64 192) (W6 w6 W7 w7 : Mat 1 192) (W8 w8 : Mat 64 64) (W9 w9 : Mat 1 64)
  (t : Fin 64)

/-- Row r of block t of the hidden state is the cell applied to block t of the inputs and of the old state
    (the weights and biases a block is computed with are the whole arrays). -/
theorem hidden_block (h0 : ∀ r k, x0 (ix2 r k) = X0 (ix2 (blockRow t r) k))
    (h1 : ∀ r k, x1 (ix2 r k) = X1 (ix2 (blockRow t r) k))
    (e2 : w2 = W2) (e3 : w3 = W3) (e4 : w4 = W4) (e5 : w5 = W5) (e6 : w6 = W6) (e7 : w7 = W7)
    (r : Fin 1024) (q : Fin 64) (i : (⟨2, ![65536, 64]⟩ : Shape).Idx) (hi : i = ix2 (blockRow t r) q) :
    Spec.hidden x0 x1 w2 w3 w4 w5 w6 w7 (ix2 r q) = Spec.hidden X0 X1 W2 W3 W4 W5 W6 W7 i := by
  subst e2 e3 e4 e5 e6 e7 hi
  exact hidden_congr w2 w3 w4 w5 w6 w7 r (blockRow t r) q (h0 r) (h1 r)

/-- The same for the dense layer on the hidden state. -/
theorem pre_block (h0 : ∀ r k, x0 (ix2 r k) = X0 (ix2 (blockRow t r) k))
    (h1 : ∀ r k, x1 (ix2 r k) = X1 (ix2 (blockRow t r) k))
    (e2 : w2 = W2) (e3 : w3 = W3) (e4 : w4 = W4) (e5 : w5 = W5) (e6 : w6 = W6) (e7 : w7 = W7) (e8 : w8 = W8) (e9 : w9 = W9)
    (r : Fin 1024) (q : Fin 64) (i : (⟨2, ![65536, 64]⟩ : Shape).Idx) (hi : i = ix2 (blockRow t r) q) :
    lin (Spec.hidden x0 x1 w2 w3 w4 w5 w6 w7) w8 w9 (ix2 r q)
      = lin (Spec.hidden X0 X1 W2 W3 W4 W5 W6 W7) W8 W9 i := by
  subst e8 e9 hi
  exact lin_congr (ix2 r q) (ix2 (blockRow t r) q) rfl
    (fun k => hidden_block X0 X1 x0 x1 W2 w2 W3 w3 W4 w4 W5 w5 W6 w6 W7 w7 t h0 h1 e2 e3 e4 e5 e6 e7 r k _ rfl) rfl rfl

/-- Block t's column sums of that layer are the partial sums of the whole matrix over the block's rows. -/
theorem sums_block (h0 : ∀ r k, x0 (ix2 r k) = X0 (ix2 (blockRow t r) k))
    (h1 : ∀ r k, x1 (ix2 r k) = X1 (ix2 (blockRow t r) k))
    (e2 : w2 = W2) (e3 : w3 = W3) (e4 : w4 = W4) (e5 : w5 = W5) (e6 : w6 = W6) (e7 : w7 = W7) (e8 : w8 = W8) (e9 : w9 = W9)
    (a : Fin 8) (q : Fin 64) (i : (⟨3, ![64, 8, 64]⟩ : Shape).Idx) (hi : i = ix3 t a q) :
    ∑ r : Fin 1024, lin (Spec.hidden x0 x1 w2 w3 w4 w5 w6 w7) w8 w9 (ix2 r q)
      = blockSums (lin (Spec.hidden X0 X1 W2 W3 W4 W5 W6 W7) W8 W9) i := by
  subst hi
  exact Finset.sum_congr rfl fun r _ =>
    pre_block X0 X1 x0 x1 W2 w2 W3 w3 W4 w4 W5 w5 W6 w6 W7 w7 W8 w8 W9 w9 t h0 h1 e2 e3 e4 e5 e6 e7 e8 e9 r q _ rfl

/-- And the sums of squares likewise. -/
theorem sqsums_block (h0 : ∀ r k, x0 (ix2 r k) = X0 (ix2 (blockRow t r) k))
    (h1 : ∀ r k, x1 (ix2 r k) = X1 (ix2 (blockRow t r) k))
    (e2 : w2 = W2) (e3 : w3 = W3) (e4 : w4 = W4) (e5 : w5 = W5) (e6 : w6 = W6) (e7 : w7 = W7) (e8 : w8 = W8) (e9 : w9 = W9)
    (a : Fin 8) (q : Fin 64) (i : (⟨3, ![64, 8, 64]⟩ : Shape).Idx) (hi : i = ix3 t a q) :
    ∑ r : Fin 1024, lin (Spec.hidden x0 x1 w2 w3 w4 w5 w6 w7) w8 w9 (ix2 r q) * lin (Spec.hidden x0 x1 w2 w3 w4 w5 w6 w7) w8 w9 (ix2 r q)
      = blockSqSums (lin (Spec.hidden X0 X1 W2 W3 W4 W5 W6 W7) W8 W9) i := by
  subst hi
  exact Finset.sum_congr rfl fun r _ => by
    rw [pre_block X0 X1 x0 x1 W2 w2 W3 w3 W4 w4 W5 w5 W6 w6 W7 w7 W8 w8 W9 w9 t h0 h1 e2 e3 e4 e5 e6 e7 e8 e9 r q _ rfl]

end Cert.Cell

end
-- ==== Proof.CellPay.lean ====
/-
  What the recurrent cell's body computes on one block of 1024 rows, entry by entry.

  From the block's inputs x, old state h and the weights the body forms gi = relu (x W1 + b1) Wih + bih and
  gh = h Whh + bhh, cuts each into its three gates of 64 columns, and stores
  h' = (1 - z) * tanh (gi_n + r * gh_n) + z * h with r, z the logistic of the summed reset and update gates;
  then z1 = h' W + b, and the sums and sums of squares of z1's columns, each repeated over 8 sublanes.
-/
import proofs.«141456_j50483045597756_2_alg».proof.Proof.CellDot
import proofs.«141456_j50483045597756_2_alg».proof.Proof.CellSpec

noncomputable section

namespace Cert.Cell

open Idealize.ShloMosaic Idealize.ShloMosaic.ValueIdx Cert.KernelIdeal Cert.KernelIdeal.Gen Cert.Dense Cert.Spec

/-- The input's gate pre-activations: the rectified input layer through the input-to-gate weights. -/
theorem pay5_eq (v0 : Vec Ideal S1024x96 .f32) (v2 : Vec Ideal S96x64 .f32) (v5 : Vec Ideal S1x64 .f32)
    (v13 : Vec Ideal S64x192 .f32) (v16 : Vec Ideal S1x192 .f32) :
    k0_pay5 v0 v2 v5 v13 v16 = lin (reluLin v0 v2 v5) v13 v16 := by
  have h1 : (maximumf (addf (matmul Dfc1 none (truncf .bf16 v0 bitsLt_bf16_f32) (truncf .bf16 v2 bitsLt_bf16_f32)
          (constant S1024x64 .f32 0x00000000#32))
        (broadcastTo S1024x64 (shapeCast S1x64 v5 shapeCasts_S1x64_S1x64) broadcasts_S1x64_S1024x64))
      (broadcast S1024x64 (Scalar.ofBits .f32 0x00000000#32)) : FVec Ideal S1024x64 .f32) = reluLin v0 v2 v5 := by
    rw [fc1_lin]; rfl
  exact (gate_lin _ v13 v16).trans (congrArg (fun X => lin X v13 v16) h1)

/-- The old state's gate pre-activations. -/
theorem pay6_eq (v11 : Vec Ideal S1024x64 .f32) (v21 : Vec Ideal S64x192 .f32) (v24 : Vec Ideal S1x192 .f32) :
    k0_pay6 v11 v21 v24 = lin v11 v21 v24 := gate_lin v11 v21 v24

/-- The stored combination at an entry, from the three gate slices of each pre-activation. -/
theorem pay1_apply (hid a2 a1 b1 a0 b0 b2 : FVec Ideal S1024x64 .f32) (j : S1024x64.Idx) :
    k0_pay1 hid a2 (logistic (addf a1 b1)) (mulf (logistic (addf a0 b0)) b2) j
      = (Spec.one - Ideal.logistic (a1 j + b1 j)) * Ideal.tanh (a2 j + Ideal.logistic (a0 j + b0 j) * b2 j)
          + Ideal.logistic (a1 j + b1 j) * hid j := rfl

/-- Columns 0..63, 64..127, 128..191 of a 192-wide matrix are its reset, update and candidate gates. -/
theorem gate0 (g : FVec Ideal S1024x192 .f32) (p : Fin 1024) (k : Fin 64) :
    extractStridedSlice S1024x64 ![0, 0] g slices_S1024x192_o0_0_S1024x64 (ix2 p k) = g (ix2 p (gateCol 0 k)) :=
  slice2_axis1_apply 0 g _ p k (gateCol 0 k) (by show (0 : ℕ) * 64 + k.val = 0 + k.val; omega)
theorem gate1 (g : FVec Ideal S1024x192 .f32) (p : Fin 1024) (k : Fin 64) :
    extractStridedSlice S1024x64 ![0, 64] g slices_S1024x192_o0_64_S1024x64 (ix2 p k) = g (ix2 p (gateCol 1 k)) :=
  slice2_axis1_apply 64 g _ p k (gateCol 1 k) (by show (1 : ℕ) * 64 + k.val = 64 + k.val; omega)
theorem gate2 (g : FVec Ideal S1024x192 .f32) (p : Fin 1024) (k : Fin 64) :
    extractStridedSlice S1024x64 ![0, 128] g slices_S1024x192_o0_128_S1024x64 (ix2 p k) = g (ix2 p (gateCol 2 k)) :=
  slice2_axis1_apply 128 g _ p k (gateCol 2 k) (by show (2 : ℕ) * 64 + k.val = 128 + k.val; omega)

/-- The body's combination of the two pre-activations and the old state is the gated recurrent cell. -/
theorem gru_eq (gi gh : FVec Ideal S1024x192 .f32) (hid : FVec Ideal S1024x64 .f32) :
    k0_pay1 hid (extractStridedSlice S1024x64 ![0, 128] gi slices_S1024x192_o0_128_S1024x64)
      (logistic (addf (extractStridedSlice S1024x64 ![0, 64] gi slices_S1024x192_o0_64_S1024x64) (extractStridedSlice S1024x64 ![0, 64] gh slices_S1024x192_o0_64_S1024x64)))
      (mulf (logistic (addf (extractStridedSlice S1024x64 ![0, 0] gi slices_S1024x192_o0_0_S1024x64) (extractStridedSlice S1024x64 ![0, 0] gh slices_S1024x192_o0_0_S1024x64)))
        (extractStridedSlice S1024x64 ![0, 128] gh slices_S1024x192_o0_128_S1024x64))
      = gruOut gi gh hid := by
  funext j
  obtain ⟨p, k, rfl⟩ : ∃ p k, j = ix2 p k := ⟨j 0, j 1, eq_ix2 j⟩
  rw [gruOut_apply]
  refine (pay1_apply _ _ _ _ _ _ _ _).trans ?_
  rw [gate0 gi, gate0 gh, gate1 gi, gate1 gh, gate2 gi, gate2 gh]

/-- The new hidden state of the block. -/
theorem pay1_eq (v0 : Vec Ideal S1024x96 .f32) (v2 : Vec Ideal S96x64 .f32) (v5 : Vec Ideal S1x64 .f32) (v11 : Vec Ideal S1024x64 .f32)
    (v13 : Vec Ideal S64x192 .f32) (v16 : Vec Ideal S1x192 .f32) (v21 : Vec Ideal S64x192 .f32) (v24 : Vec Ideal S1x192 .f32) :
    k0_pay1 v11 (k0_pay7 v0 v2 v5 v13 v16) (k0_pay8 v0 v2 v5 v11 v13 v16 v21 v24) (k0_pay9 v0 v2 v5 v11 v13 v16 v21 v24)
      = Spec.hidden v0 v11 v2 v5 v13 v21 v16 v24 := by
  refine (gru_eq (k0_pay5 v0 v2 v5 v13 v16) (k0_pay6 v11 v21 v24) v11).trans ?_
  rw [pay5_eq, pay6_eq]
  rfl

/-- The awareness head's first layer on whatever the body stored as the new state. -/
theorem pay2_eq (v11 v30 v37 v38 : FVec Ideal S1024x64 .f32) (v47 : Vec Ideal S64x64 .f32) (v50 : Vec Ideal S1x64 .f32) :
    k0_pay2 v11 v30 v37 v38 v47 v50 = lin (k0_pay1 v11 v30 v37 v38) v47 v50 :=
  sq_lin (k0_pay1 v11 v30 v37 v38) v47 v50

/-- A block's column sums, laid out as one row, repeated over 8 rows and given a leading unit axis: entry
    (0, a, q) is the sum of column q over the block's 1024 rows. -/
theorem colsum_eq (Z : FVec Ideal S1024x64 .f32) (u : Fin 1) (a : Fin 8) (q : Fin 64) :
    shapeCast S1x8x64 (broadcastTo S8x64 (shapeCast S1x64 (shapeCast S1x64
        (multiReduction .add [0] S64 Z 0x00000000#32 reduces_S1024x64_S64 (.inl rfl) rfl)
        shapeCasts_S64_S1x64) shapeCasts_S1x64_S1x64) broadcasts_S1x64_S8x64) shapeCasts_S8x64_S1x8x64 (ix3 u a q)
      = ∑ r : Fin 1024, Z (ix2 r q) := by
  refine (shapeCast_ab_1ab_apply _ _ u a q).trans ?_
  refine (broadcastTo_1b_ab_apply _ _ a q).trans ?_
  rw [shapeCast_self]
  refine (shapeCast_a_1a_apply _ _ (0 : Fin 1) q).trans ?_
  refine (Ideal.multiReduction_add_single Z 0x00000000#32 reduces_S1024x64_S64 (.inl rfl) rfl (ix1 q)).trans ?_
  exact Finset.sum_congr rfl fun r _ => congrArg Z (funext fun ax => Fin.ext (by
    match ax with
    | ⟨0, _⟩ => rfl
    | ⟨1, _⟩ => rfl))

theorem pay3_apply (v11 v30 v37 v38 : FVec Ideal S1024x64 .f32) (v47 : Vec Ideal S64x64 .f32) (v50 : Vec Ideal S1x64 .f32)
    (u : Fin 1) (a : Fin 8) (q : Fin 64) :
    k0_pay3 v11 v30 v37 v38 v47 v50 (ix3 u a q) = ∑ r : Fin 1024, k0_pay2 v11 v30 v37 v38 v47 v50 (ix2 r q) :=
  colsum_eq (k0_pay2 v11 v30 v37 v38 v47 v50) u a q

theorem pay4_apply (v11 v30 v37 v38 : FVec Ideal S1024x64 .f32) (v47 : Vec Ideal S64x64 .f32) (v50 : Vec Ideal S1x64 .f32)
    (u : Fin 1) (a : Fin 8) (q : Fin 64) :
    k0_pay4 v11 v30 v37 v38 v47 v50 (ix3 u a q)
      = ∑ r : Fin 1024, k0_pay2 v11 v30 v37 v38 v47 v50 (ix2 r q) * k0_pay2 v11 v30 v37 v38 v47 v50 (ix2 r q) :=
  colsum_eq (mulf (k0_pay2 v11 v30 v37 v38 v47 v50) (k0_pay2 v11 v30 v37 v38 v47 v50)) u a q

end Cert.Cell

end
-- ==== Proof.CellOut.lean ====
/-
  What the recurrent cell's body leaves in its four output buffers, from the blocks it loaded.

  The body loads each operand whole and stores each result whole, so the four buffers end holding: the new hidden
  state of the block's 1024 rows; the awareness head's first layer on it; and that layer's column sums and sums of
  squares over the block's rows, the same 64 numbers in each of the 8 middle positions.
-/
import proofs.«141456_j50483045597756_2_alg».proof.Proof.KernelIdealFrameP
import proofs.«141456_j50483045597756_2_alg».proof.Proof.CellPay

noncomputable section

namespace Cert.Cell

open Idealize.ShloMosaic Idealize.ShloMosaic.ValueIdx Cert.KernelIdeal Cert.KernelIdeal.Gen Cert.KernelIdeal.GenP Cert.Dense Cert.Spec

theorem hz2 : (![0, 0] : Fin 2 → Nat) = fun _ => 0 := funext fun a => by fin_cases a <;> rfl
theorem hz3 : (![0, 0, 0] : Fin 3 → Nat) = fun _ => 0 := funext fun a => by fin_cases a <;> rfl

variable (x0 : Vec Ideal S1024x96 .f32) (x1 : Vec Ideal S1024x64 .f32) (x2 : Vec Ideal S96x64 .f32) (x3 : Vec Ideal S1x64 .f32)
  (x4 x5 : Vec Ideal S64x192 .f32) (x6 x7 : Vec Ideal S1x192 .f32) (x8 : Vec Ideal S64x64 .f32) (x9 : Vec Ideal S1x64 .f32)

/-- The dense layer on the new hidden state, from the block's operands. -/
theorem z1_eq :
    k0_pay2 x1 (k0_pay7 x0 x2 x3 x4 x6) (k0_pay8 x0 x2 x3 x1 x4 x6 x5 x7) (k0_pay9 x0 x2 x3 x1 x4 x6 x5 x7) x8 x9
      = lin (Spec.hidden x0 x1 x2 x3 x4 x5 x6 x7) x8 x9 := by
  rw [pay2_eq, pay1_eq]

/-- The first output buffer: the block's new hidden state. -/
theorem out10_eq : out0_10 x0 x1 x2 x3 x4 x5 x6 x7 x8 x9 = Spec.hidden x0 x1 x2 x3 x4 x5 x6 x7 := by
  unfold out0_10
  rw [View.canon_unit_zero hz2]
  simp only [View.ld_unit_zero (S := S1024x96) hz2, View.ld_unit_zero (S := S1024x64) hz2, View.ld_unit_zero (S := S96x64) hz2,
    View.ld_unit_zero (S := S1x64) hz2, View.ld_unit_zero (S := S64x192) hz2, View.ld_unit_zero (S := S1x192) hz2,
    View.ld_unit_zero (S := S64x64) hz2]
  exact pay1_eq x0 x2 x3 x1 x4 x6 x5 x7

/-- The second: the dense layer on it. -/
theorem out11_eq : out0_11 x0 x1 x2 x3 x4 x5 x6 x7 x8 x9 = lin (Spec.hidden x0 x1 x2 x3 x4 x5 x6 x7) x8 x9 := by
  unfold out0_11
  rw [View.canon_unit_zero hz2]
  simp only [View.ld_unit_zero (S := S1024x96) hz2, View.ld_unit_zero (S := S1024x64) hz2, View.ld_unit_zero (S := S96x64) hz2,
    View.ld_unit_zero (S := S1x64) hz2, View.ld_unit_zero (S := S64x192) hz2, View.ld_unit_zero (S := S1x192) hz2,
    View.ld_unit_zero (S := S64x64) hz2]
  exact z1_eq x0 x1 x2 x3 x4 x5 x6 x7 x8 x9

/-- The third: that layer's column sums over the block's rows, in every middle position. -/
theorem out12_apply (u : Fin 1) (a : Fin 8) (q : Fin 64) :
    out0_12 x0 x1 x2 x3 x4 x5 x6 x7 x8 x9 (ix3 u a q)
      = ∑ r : Fin 1024, lin (Spec.hidden x0 x1 x2 x3 x4 x5 x6 x7) x8 x9 (ix2 r q) := by
  unfold out0_12
  rw [View.canon_unit_zero hz3]
  simp only [View.ld_unit_zero (S := S1024x96) hz2, View.ld_unit_zero (S := S1024x64) hz2, View.ld_unit_zero (S := S96x64) hz2,
    View.ld_unit_zero (S := S1x64) hz2, View.ld_unit_zero (S := S64x192) hz2, View.ld_unit_zero (S := S1x192) hz2,
    View.ld_unit_zero (S := S64x64) hz2]
  rw [pay3_apply, z1_eq]

/-- The fourth: the sums of its squares. -/
theorem out13_apply (u : Fin 1) (a : Fin 8) (q : Fin 64) :
    out0_13 x0 x1 x2 x3 x4 x5 x6 x7 x8 x9 (ix3 u a q)
      = ∑ r : Fin 1024, lin (Spec.hidden x0 x1 x2 x3 x4 x5 x6 x7) x8 x9 (ix2 r q)
          * lin (Spec.hidden x0 x1 x2 x3 x4 x5 x6 x7) x8 x9 (ix2 r q) := by
  unfold out0_13
  rw [View.canon_unit_zero hz3]
  simp only [View.ld_unit_zero (S := S1024x96) hz2, View.ld_unit_zero (S := S1024x64) hz2, View.ld_unit_zero (S := S96x64) hz2,
    View.ld_unit_zero (S := S1x64) hz2, View.ld_unit_zero (S := S64x192) hz2, View.ld_unit_zero (S := S1x192) hz2,
    View.ld_unit_zero (S := S64x64) hz2]
  rw [pay4_apply, z1_eq]

end Cert.Cell

end
-- ==== Proof.CellWindows.lean ====
/-
  The windows of the recurrent cell's grid: which part of its array each block is.

  The grid has 64 points.  Point t's block of the inputs, of the old hidden state and of the two row-wise results is
  rows t * 1024 .. t * 1024 + 1023 of the array; its block of the two arrays of partial sums is entry (t, ., .);
  its block of each weight or bias is the whole array.  The row blocks tile their arrays: row r lies in the block
  of point r / 1024.
-/
import proofs.«141456_j50483045597756_2_alg».proof.Proof.Gen.KernelIdeal.Points
import proofs.«141456_j50483045597756_2_alg».proof.Proof.CellSpec
import Idealize.ShloMosaic.Lib.Pipeline.Value

noncomputable section

namespace Cert.Cell

open Idealize.ShloMosaic Idealize.ShloMosaic.TcCoe Idealize.SL.Sem Idealize.ShloMosaic.ValueIdx
open Cert.KernelIdeal Cert.KernelIdeal.Gen Cert.Dense Cert.Spec

variable (V : (c : Dev nD) → (b : Ref sig .tc) → Buf (Elt Ideal) ((c : Thread nD τ).loc b))

/-! ## The operand arrays as the region finds them, as matrices -/

abbrev X_0 (c : Dev nD) : Mat 65536 96 := V c main_arg0
abbrev X_1 (c : Dev nD) : Mat 65536 64 := V c main_arg1
abbrev X_2 (c : Dev nD) : Mat 96 64 := V c main_arg3
abbrev X_3 (c : Dev nD) : Mat 1 64 := V c main_v0
abbrev X_4 (c : Dev nD) : Mat 64 192 := V c main_arg5
abbrev X_5 (c : Dev nD) : Mat 64 192 := V c main_arg6
abbrev X_6 (c : Dev nD) : Mat 1 192 := V c main_v1
abbrev X_7 (c : Dev nD) : Mat 1 192 := V c main_v2
abbrev X_8 (c : Dev nD) : Mat 64 64 := V c main_arg9
abbrev X_9 (c : Dev nD) : Mat 1 64 := V c main_v3

/-! ## The index maps, decided over the grid -/

/-- The grid has 64 points. -/
theorem grid_points : grid0.N = 64 := by decide

/-- The row-blocked windows are at block index (t, 0) (the partial sums at (t, 0, 0)). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ win0_11.index t (0 : Fin 2) = t.val ∧ win0_11.index t (1 : Fin 2) = 0
    ∧ win0_12.index t (0 : Fin 3) = t.val ∧ win0_12.index t (1 : Fin 3) = 0 ∧ win0_12.index t (2 : Fin 3) = 0
    ∧ win0_13.index t (0 : Fin 3) = t.val ∧ win0_13.index t (1 : Fin 3) = 0 ∧ win0_13.index t (2 : Fin 3) = 0 :=
  (by decide +kernel : ∀ t : Fin grid0.N, _)

/-- The weights' and biases' windows are at block index (0, 0) at every point. -/
theorem idx_weights : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- A point of the grid as a number below 64. -/
def pt (t : Fin cfg0.N) : Fin 64 := ⟨t.val, lt_of_lt_of_eq t.isLt grid_points⟩

/-! ## The input blocks -/

/-- Point t's block of the inputs is rows t * 1024 .. of the inputs. -/
theorem blk_inp (c : Dev nD) (t : Fin cfg0.N) (r : Fin 1024) (k : Fin 96) :
    (((cfg0.win 0).blk t).view.read (Elt Ideal) (V c main_arg0) : Mat 1024 96) (ix2 r k) = X_0 V c (ix2 (blockRow (pt t) r) k) := by
  obtain ⟨a0_0, a0_1, a1_0, a1_1, a10_0, a10_1, a11_0, a11_1, a12_0, a12_1, a12_2, a13_0, a13_1, a13_2⟩ := idx_rows t
  rw [View.read_apply]
  show (V c main_arg0 : Mat 65536 96) _ = (V c main_arg0 : Mat 65536 96) _
  refine congrArg (V c main_arg0 : Mat 65536 96) (funext fun a => Fin.ext ?_)
  match a with
  | ⟨0, _⟩ => show win0_0.index t (0 : Fin 2) * 1024 + 1 * r.val = t.val * 1024 + r.val; rw [a0_0]; omega
  | ⟨1, _⟩ => show win0_0.index t (1 : Fin 2) * 96 + 1 * k.val = k.val; rw [a0_1]; omega

/-- Point t's block of the old hidden state is rows t * 1024 .. of it. -/
theorem blk_hid (c : Dev nD) (t : Fin cfg0.N) (r : Fin 1024) (k : Fin 64) :
    (((cfg0.win 1).blk t).view.read (Elt Ideal) (V c main_arg1) : Mat 1024 64) (ix2 r k) = X_1 V c (ix2 (blockRow (pt t) r) k) := by
  obtain ⟨a0_0, a0_1, a1_0, a1_1, a10_0, a10_1, a11_0, a11_1, a12_0, a12_1, a12_2, a13_0, a13_1, a13_2⟩ := idx_rows t
  rw [View.read_apply]
  show (V c main_arg1 : Mat 65536 64) _ = (V c main_arg1 : Mat 65536 64) _
  refine congrArg (V c main_arg1 : Mat 65536 64) (funext fun a => Fin.ext ?_)
  match a with
  | ⟨0, _⟩ => show win0_1.index t (0 : Fin 2) * 1024 + 1 * r.val = t.val * 1024 + r.val; rw [a1_0]; omega
  | ⟨1, _⟩ => show win0_1.index t (1 : Fin 2) * 64 + 1 * k.val = k.val; rw [a1_1]; omega

/-! Each weight's and bias's block is the whole array. -/

theorem blk_w2 (c : Dev nD) (t : Fin cfg0.N) : (((cfg0.win 2).blk t).view.read (Elt Ideal) (V c main_arg3) : Mat 96 64) = X_2 V c := by
  obtain ⟨e2_0, e2_1, e3_0, e3_1, e4_0, e4_1, e5_0, e5_1, e6_0, e6_1, e7_0, e7_1, e8_0, e8_1, e9_0, e9_1⟩ := idx_weights t
  funext x
  rw [View.read_apply]
  show (V c main_arg3 : Mat 96 64) _ = (V c main_arg3 : Mat 96 64) _
  refine congrArg (V c main_arg3 : Mat 96 64) (funext fun a => Fin.ext ?_)
  match a with
  | ⟨0, _⟩ => show win0_2.index t (0 : Fin 2) * 96 + 1 * (x 0).val = (x 0).val; rw [e2_0]; omega
  | ⟨1, _⟩ => show win0_2.index t (1 : Fin 2) * 64 + 1 * (x 1).val = (x 1).val; rw [e2_1]; omega

theorem blk_w3 (c : Dev nD) (t : Fin cfg0.N) : (((cfg0.win 3).blk t).view.read (Elt Ideal) (V c main_v0) : Mat 1 64) = X_3 V c := by
  obtain ⟨e2_0, e2_1, e3_0, e3_1, e4_0, e4_1, e5_0, e5_1, e6_0, e6_1, e7_0, e7_1, e8_0, e8_1, e9_0, e9_1⟩ := idx_weights t
  funext x
  rw [View.read_apply]
  show (V c main_v0 : Mat 1 64) _ = (V c main_v0 : Mat 1 64) _
  refine congrArg (V c main_v0 : Mat 1 64) (funext fun a => Fin.ext ?_)
  match a with
  | ⟨0, _⟩ => show win0_3.index t (0 : Fin 2) * 1 + 1 * (x 0).val = (x 0).val; rw [e3_0]; omega
  | ⟨1, _⟩ => show win0_3.index t (1 : Fin 2) * 64 + 1 * (x 1).val = (x 1).val; rw [e3_1]; omega

theorem blk_w4 (c : Dev nD) (t : Fin cfg0.N) : (((cfg0.win 4).blk t).view.read (Elt Ideal) (V c main_arg5) : Mat 64 192) = X_4 V c := by
  obtain ⟨e2_0, e2_1, e3_0, e3_1, e4_0, e4_1, e5_0, e5_1, e6_0, e6_1, e7_0, e7_1, e8_0, e8_1, e9_0, e9_1⟩ := idx_weights t
  funext x
  rw [View.read_apply]
  show (V c main_arg5 : Mat 64 192) _ = (V c main_arg5 : Mat 64 192) _
  refine congrArg (V c main_arg5 : Mat 64 192) (funext fun a => Fin.ext ?_)
  match a with
  | ⟨0, _⟩ => show win0_4.index t (0 : Fin 2) * 64 + 1 * (x 0).val = (x 0).val; rw [e4_0]; omega
  | ⟨1, _⟩ => show win0_4.index t (1 : Fin 2) * 192 + 1 * (x 1).val = (x 1).val; rw [e4_1]; omega

theorem blk_w5 (c : Dev nD) (t : Fin cfg0.N) : (((cfg0.win 5).blk t).view.read (Elt Ideal) (V c main_arg6) : Mat 64 192) = X_5 V c := by
  obtain ⟨e2_0, e2_1, e3_0, e3_1, e4_0, e4_1, e5_0, e5_1, e6_0, e6_1, e7_0, e7_1, e8_0, e8_1, e9_0, e9_1⟩ := idx_weights t
  funext x
  rw [View.read_apply]
  show (V c main_arg6 : Mat 64 192) _ = (V c main_arg6 : Mat 64 192) _
  refine congrArg (V c main_arg6 : Mat 64 192) (funext fun a => Fin.ext ?_)
  match a with
  | ⟨0, _⟩ => show win0_5.index t (0 : Fin 2) * 64 + 1 * (x 0).val = (x 0).val; rw [e5_0]; omega
  | ⟨1, _⟩ => show win0_5.index t (1 : Fin 2) * 192 + 1 * (x 1).val = (x 1).val; rw [e5_1]; omega

theorem blk_w6 (c : Dev nD) (t : Fin cfg0.N) : (((cfg0.win 6).blk t).view.read (Elt Ideal) (V c main_v1) : Mat 1 192) = X_6 V c := by
  obtain ⟨e2_0, e2_1, e3_0, e3_1, e4_0, e4_1, e5_0, e5_1, e6_0, e6_1, e7_0, e7_1, e8_0, e8_1, e9_0, e9_1⟩ := idx_weights t
  funext x
  rw [View.read_apply]
  show (V c main_v1 : Mat 1 192) _ = (V c main_v1 : Mat 1 192) _
  refine congrArg (V c main_v1 : Mat 1 192) (funext fun a => Fin.ext ?_)
  match a with
  | ⟨0, _⟩ => show win0_6.index t (0 : Fin 2) * 1 + 1 * (x 0).val = (x 0).val; rw [e6_0]; omega
  | ⟨1, _⟩ => show win0_6.index t (1 : Fin 2) * 192 + 1 * (x 1).val = (x 1).val; rw [e6_1]; omega

theorem blk_w7 (c : Dev nD) (t : Fin cfg0.N) : (((cfg0.win 7).blk t).view.read (Elt Ideal) (V c main_v2) : Mat 1 192) = X_7 V c := by
  obtain ⟨e2_0, e2_1, e3_0, e3_1, e4_0, e4_1, e5_0, e5_1, e6_0, e6_1, e7_0, e7_1, e8_0, e8_1, e9_0, e9_1⟩ := idx_weights t
  funext x
  rw [View.read_apply]
  show (V c main_v2 : Mat 1 192) _ = (V c main_v2 : Mat 1 192) _
  refine congrArg (V c main_v2 : Mat 1 192) (funext fun a => Fin.ext ?_)
  match a with
  | ⟨0, _⟩ => show win0_7.index t (0 : Fin 2) * 1 + 1 * (x 0).val = (x 0).val; rw [e7_0]; omega
  | ⟨1, _⟩ => show win0_7.index t (1 : Fin 2) * 192 + 1 * (x 1).val = (x 1).val; rw [e7_1]; omega

theorem blk_w8 (c : Dev nD) (t : Fin cfg0.N) : (((cfg0.win 8).blk t).view.read (Elt Ideal) (V c main_arg9) : Mat 64 64) = X_8 V c := by
  obtain ⟨e2_0, e2_1, e3_0, e3_1, e4_0, e4_1, e5_0, e5_1, e6_0, e6_1, e7_0, e7_1, e8_0, e8_1, e9_0, e9_1⟩ := idx_weights t
  funext x
  rw [View.read_apply]
  show (V c main_arg9 : Mat 64 64) _ = (V c main_arg9 : Mat 64 64) _
  refine congrArg (V c main_arg9 : Mat 64 64) (funext fun a => Fin.ext ?_)
  match a with
  | ⟨0, _⟩ => show win0_8.index t (0 : Fin 2) * 64 + 1 * (x 0).val = (x 0).val; rw [e8_0]; omega
  | ⟨1, _⟩ => show win0_8.index t (1 : Fin 2) * 64 + 1 * (x 1).val = (x 1).val; rw [e8_1]; omega

theorem blk_w9 (c : Dev nD) (t : Fin cfg0.N) : (((cfg0.win 9).blk t).view.read (Elt Ideal) (V c main_v3) : Mat 1 64) = X_9 V c := by
  obtain ⟨e2_0, e2_1, e3_0, e3_1, e4_0, e4_1, e5_0, e5_1, e6_0, e6_1, e7_0, e7_1, e8_0, e8_1, e9_0, e9_1⟩ := idx_weights t
  funext x
  rw [View.read_apply]
  show (V c main_v3 : Mat 1 64) _ = (V c main_v3 : Mat 1 64) _
  refine congrArg (V c main_v3 : Mat 1 64) (funext fun a => Fin.ext ?_)
  match a with
  | ⟨0, _⟩ => show win0_9.index t (0 : Fin 2) * 1 + 1 * (x 0).val = (x 0).val; rw [e9_0]; omega
  | ⟨1, _⟩ => show win0_9.index t (1 : Fin 2) * 64 + 1 * (x 1).val = (x 1).val; rw [e9_1]; omega

/-! ## The output blocks: membership, cover, and where an element sits -/

/-- An index of the array is in point t's block of window 10 iff each coordinate is in the block's range on its axis. -/
theorem mem_blk10 (t : Fin cfg0.N) (i : S65536x64.Idx) :
    i ∈ ((cfg0.win 10).blk t).view.set ↔ ∀ a : Fin 2, win0_10.index t a * S1024x64.size a ≤ (i a).val ∧ (i a).val < win0_10.index t a * S1024x64.size a + S1024x64.size a := by
  show i ∈ ((View.whole main_v12_0).slice (win0_10.rect t)).set ↔ _
  rw [View.set_slice_whole, Rect.mem_set_unit]
  exact Iff.rfl

/-- Row i 0 of the array lies in the block of point (i 0) / 1024. -/
theorem cover10 (i : S65536x64.Idx) : ∃ t : Fin cfg0.N, (cfg0.win 10).flush t = true ∧ i ∈ ((cfg0.win 10).blk t).view.set := by
  have hi0 : (i 0).val < 65536 := (i 0).isLt
  have hi1 : (i 1).val < 64 := (i 1).isLt
  have ht : (i 0).val / 1024 < cfg0.N := by show _ < grid0.N; rw [grid_points]; omega
  obtain ⟨a0_0, a0_1, a1_0, a1_1, a10_0, a10_1, a11_0, a11_1, a12_0, a12_1, a12_2, a13_0, a13_1, a13_2⟩ := idx_rows ⟨(i 0).val / 1024, ht⟩
  refine ⟨⟨(i 0).val / 1024, ht⟩, flush0_10 _, ?_⟩
  rw [mem_blk10]
  intro a
  match a with
  | ⟨0, _⟩ =>
    show win0_10.index ⟨(i 0).val / 1024, ht⟩ (0 : Fin 2) * 1024 ≤ (i 0).val ∧ (i 0).val < win0_10.index ⟨(i 0).val / 1024, ht⟩ (0 : Fin 2) * 1024 + 1024
    rw [a10_0]; show (i 0).val / 1024 * 1024 ≤ (i 0).val ∧ (i 0).val < (i 0).val / 1024 * 1024 + 1024; omega
  | ⟨1, _⟩ =>
    show win0_10.index ⟨(i 0).val / 1024, ht⟩ (1 : Fin 2) * 64 ≤ (i 1).val ∧ (i 1).val < win0_10.index ⟨(i 0).val / 1024, ht⟩ (1 : Fin 2) * 64 + 64
    rw [a10_1]; omega

/-- An element (r, q) of point t's block of window 10 sits at row t * 1024 + r, column q of the array. -/
theorem emb10 (t : Fin cfg0.N) (r : Fin 1024) (q : Fin 64) :
    ((cfg0.win 10).blk t).view.emb (ix2 r q) = (ix2 (blockRow (pt t) r) q : S65536x64.Idx) := by
  obtain ⟨a0_0, a0_1, a1_0, a1_1, a10_0, a10_1, a11_0, a11_1, a12_0, a12_1, a12_2, a13_0, a13_1, a13_2⟩ := idx_rows t
  refine funext fun a => Fin.ext ?_
  match a with
  | ⟨0, _⟩ => show win0_10.index t (0 : Fin 2) * 1024 + 1 * r.val = t.val * 1024 + r.val; rw [a10_0]; omega
  | ⟨1, _⟩ => show win0_10.index t (1 : Fin 2) * 64 + 1 * q.val = q.val; rw [a10_1]; omega

/-- An index of the array is in point t's block of window 11 iff each coordinate is in the block's range on its axis. -/
theorem mem_blk11 (t : Fin cfg0.N) (i : S65536x64.Idx) :
    i ∈ ((cfg0.win 11).blk t).view.set ↔ ∀ a : Fin 2, win0_11.index t a * S1024x64.size a ≤ (i a).val ∧ (i a).val < win0_11.index t a * S1024x64.size a + S1024x64.size a := by
  show i ∈ ((View.whole main_v12_1).slice (win0_11.rect t)).set ↔ _
  rw [View.set_slice_whole, Rect.mem_set_unit]
  exact Iff.rfl

/-- Row i 0 of the array lies in the block of point (i 0) / 1024. -/
theorem cover11 (i : S65536x64.Idx) : ∃ t : Fin cfg0.N, (cfg0.win 11).flush t = true ∧ i ∈ ((cfg0.win 11).blk t).view.set := by
  have hi0 : (i 0).val < 65536 := (i 0).isLt
  have hi1 : (i 1).val < 64 := (i 1).isLt
  have ht : (i 0).val / 1024 < cfg0.N := by show _ < grid0.N; rw [grid_points]; omega
  obtain ⟨a0_0, a0_1, a1_0, a1_1, a10_0, a10_1, a11_0, a11_1, a12_0, a12_1, a12_2, a13_0, a13_1, a13_2⟩ := idx_rows ⟨(i 0).val / 1024, ht⟩
  refine ⟨⟨(i 0).val / 1024, ht⟩, flush0_11 _, ?_⟩
  rw [mem_blk11]
  intro a
  match a with
  | ⟨0, _⟩ =>
    show win0_11.index ⟨(i 0).val / 1024, ht⟩ (0 : Fin 2) * 1024 ≤ (i 0).val ∧ (i 0).val < win0_11.index ⟨(i 0).val / 1024, ht⟩ (0 : Fin 2) * 1024 + 1024
    rw [a11_0]; show (i 0).val / 1024 * 1024 ≤ (i 0).val ∧ (i 0).val < (i 0).val / 1024 * 1024 + 1024; omega
  | ⟨1, _⟩ =>
    show win0_11.index ⟨(i 0).val / 1024, ht⟩ (1 : Fin 2) * 64 ≤ (i 1).val ∧ (i 1).val < win0_11.index ⟨(i 0).val / 1024, ht⟩ (1 : Fin 2) * 64 + 64
    rw [a11_1]; omega

/-- An element (r, q) of point t's block of window 11 sits at row t * 1024 + r, column q of the array. -/
theorem emb11 (t : Fin cfg0.N) (r : Fin 1024) (q : Fin 64) :
    ((cfg0.win 11).blk t).view.emb (ix2 r q) = (ix2 (blockRow (pt t) r) q : S65536x64.Idx) := by
  obtain ⟨a0_0, a0_1, a1_0, a1_1, a10_0, a10_1, a11_0, a11_1, a12_0, a12_1, a12_2, a13_0, a13_1, a13_2⟩ := idx_rows t
  refine funext fun a => Fin.ext ?_
  match a with
  | ⟨0, _⟩ => show win0_11.index t (0 : Fin 2) * 1024 + 1 * r.val = t.val * 1024 + r.val; rw [a11_0]; omega
  | ⟨1, _⟩ => show win0_11.index t (1 : Fin 2) * 64 + 1 * q.val = q.val; rw [a11_1]; omega

/-- An index of the array is in point t's block of window 12 iff each coordinate is in the block's range on its axis. -/
theorem mem_blk12 (t : Fin cfg0.N) (i : S64x8x64.Idx) :
    i ∈ ((cfg0.win 12).blk t).view.set ↔ ∀ a : Fin 3, win0_12.index t a * S1x8x64.size a ≤ (i a).val ∧ (i a).val < win0_12.index t a * S1x8x64.size a + S1x8x64.size a := by
  show i ∈ ((View.whole main_v12_2).slice (win0_12.rect t)).set ↔ _
  rw [View.set_slice_whole, Rect.mem_set_unit]
  exact Iff.rfl

/-- Entry (i 0, ., .) of the array lies in the block of point i 0. -/
theorem cover12 (i : S64x8x64.Idx) : ∃ t : Fin cfg0.N, (cfg0.win 12).flush t = true ∧ i ∈ ((cfg0.win 12).blk t).view.set := by
  have hi0 : (i 0).val < 64 := (i 0).isLt
  have hi1 : (i 1).val < 8 := (i 1).isLt
  have hi2 : (i 2).val < 64 := (i 2).isLt
  have ht : (i 0).val < cfg0.N := by show _ < grid0.N; rw [grid_points]; omega
  obtain ⟨a0_0, a0_1, a1_0, a1_1, a10_0, a10_1, a11_0, a11_1, a12_0, a12_1, a12_2, a13_0, a13_1, a13_2⟩ := idx_rows ⟨(i 0).val, ht⟩
  refine ⟨⟨(i 0).val, ht⟩, flush0_12 _, ?_⟩
  rw [mem_blk12]
  intro a
  match a with
  | ⟨0, _⟩ =>
    show win0_12.index ⟨(i 0).val, ht⟩ (0 : Fin 3) * 1 ≤ (i 0).val ∧ (i 0).val < win0_12.index ⟨(i 0).val, ht⟩ (0 : Fin 3) * 1 + 1
    rw [a12_0]; show (i 0).val * 1 ≤ (i 0).val ∧ (i 0).val < (i 0).val * 1 + 1; omega
  | ⟨1, _⟩ =>
    show win0_12.index ⟨(i 0).val, ht⟩ (1 : Fin 3) * 8 ≤ (i 1).val ∧ (i 1).val < win0_12.index ⟨(i 0).val, ht⟩ (1 : Fin 3) * 8 + 8
    rw [a12_1]; omega
  | ⟨2, _⟩ =>
    show win0_12.index ⟨(i 0).val, ht⟩ (2 : Fin 3) * 64 ≤ (i 2).val ∧ (i 2).val < win0_12.index ⟨(i 0).val, ht⟩ (2 : Fin 3) * 64 + 64
    rw [a12_2]; omega

/-- An element (0, a, q) of point t's block of window 12 sits at (t, a, q) of the array. -/
theorem emb12 (t : Fin cfg0.N) (u : Fin 1) (a : Fin 8) (q : Fin 64) :
    ((cfg0.win 12).blk t).view.emb (ix3 u a q) = (ix3 (pt t) a q : S64x8x64.Idx) := by
  obtain ⟨a0_0, a0_1, a1_0, a1_1, a10_0, a10_1, a11_0, a11_1, a12_0, a12_1, a12_2, a13_0, a13_1, a13_2⟩ := idx_rows t
  have hu : u.val < 1 := u.isLt
  refine funext fun ax => Fin.ext ?_
  match ax with
  | ⟨0, _⟩ => show win0_12.index t (0 : Fin 3) * 1 + 1 * u.val = t.val; rw [a12_0]; omega
  | ⟨1, _⟩ => show win0_12.index t (1 : Fin 3) * 8 + 1 * a.val = a.val; rw [a12_1]; omega
  | ⟨2, _⟩ => show win0_12.index t (2 : Fin 3) * 64 + 1 * q.val = q.val; rw [a12_2]; omega

/-- An index of the array is in point t's block of window 13 iff each coordinate is in the block's range on its axis. -/
theorem mem_blk13 (t : Fin cfg0.N) (i : S64x8x64.Idx) :
    i ∈ ((cfg0.win 13).blk t).view.set ↔ ∀ a : Fin 3, win0_13.index t a * S1x8x64.size a ≤ (i a).val ∧ (i a).val < win0_13.index t a * S1x8x64.size a + S1x8x64.size a := by
  show i ∈ ((View.whole main_v12_3).slice (win0_13.rect t)).set ↔ _
  rw [View.set_slice_whole, Rect.mem_set_unit]
  exact Iff.rfl

/-- Entry (i 0, ., .) of the array lies in the block of point i 0. -/
theorem cover13 (i : S64x8x64.Idx) : ∃ t : Fin cfg0.N, (cfg0.win 13).flush t = true ∧ i ∈ ((cfg0.win 13).blk t).view.set := by
  have hi0 : (i 0).val < 64 := (i 0).isLt
  have hi1 : (i 1).val < 8 := (i 1).isLt
  have hi2 : (i 2).val < 64 := (i 2).isLt
  have ht : (i 0).val < cfg0.N := by show _ < grid0.N; rw [grid_points]; omega
  obtain ⟨a0_0, a0_1, a1_0, a1_1, a10_0, a10_1, a11_0, a11_1, a12_0, a12_1, a12_2, a13_0, a13_1, a13_2⟩ := idx_rows ⟨(i 0).val, ht⟩
  refine ⟨⟨(i 0).val, ht⟩, flush0_13 _, ?_⟩
  rw [mem_blk13]
  intro a
  match a with
  | ⟨0, _⟩ =>
    show win0_13.index ⟨(i 0).val, ht⟩ (0 : Fin 3) * 1 ≤ (i 0).val ∧ (i 0).val < win0_13.index ⟨(i 0).val, ht⟩ (0 : Fin 3) * 1 + 1
    rw [a13_0]; show (i 0).val * 1 ≤ (i 0).val ∧ (i 0).val < (i 0).val * 1 + 1; omega
  | ⟨1, _⟩ =>
    show win0_13.index ⟨(i 0).val, ht⟩ (1 : Fin 3) * 8 ≤ (i 1).val ∧ (i 1).val < win0_13.index ⟨(i 0).val, ht⟩ (1 : Fin 3) * 8 + 8
    rw [a13_1]; omega
  | ⟨2, _⟩ =>
    show win0_13.index ⟨(i 0).val, ht⟩ (2 : Fin 3) * 64 ≤ (i 2).val ∧ (i 2).val < win0_13.index ⟨(i 0).val, ht⟩ (2 : Fin 3) * 64 + 64
    rw [a13_2]; omega

/-- An element (0, a, q) of point t's block of window 13 sits at (t, a, q) of the array. -/
theorem emb13 (t : Fin cfg0.N) (u : Fin 1) (a : Fin 8) (q : Fin 64) :
    ((cfg0.win 13).blk t).view.emb (ix3 u a q) = (ix3 (pt t) a q : S64x8x64.Idx) := by
  obtain ⟨a0_0, a0_1, a1_0, a1_1, a10_0, a10_1, a11_0, a11_1, a12_0, a12_1, a12_2, a13_0, a13_1, a13_2⟩ := idx_rows t
  have hu : u.val < 1 := u.isLt
  refine funext fun ax => Fin.ext ?_
  match ax with
  | ⟨0, _⟩ => show win0_13.index t (0 : Fin 3) * 1 + 1 * u.val = t.val; rw [a13_0]; omega
  | ⟨1, _⟩ => show win0_13.index t (1 : Fin 3) * 8 + 1 * a.val = a.val; rw [a13_1]; omega
  | ⟨2, _⟩ => show win0_13.index t (2 : Fin 3) * 64 + 1 * q.val = q.val; rw [a13_2]; omega

end Cert.Cell

end
-- ==== Proof.CellBlocks.lean ====
/-
  From the blocks of the recurrent cell's grid to its four result arrays.

  Since the cell is row-wise, what point t writes back is block t of one function of the whole operand arrays: the
  new hidden state, the awareness head's first layer on it, and that layer's per-block column sums and sums of
  squares.  The blocks tile the arrays, so after the 64 points the arrays hold those functions.
-/
import proofs.«141456_j50483045597756_2_alg».proof.Proof.CellOut
import proofs.«141456_j50483045597756_2_alg».proof.Proof.CellWindows

noncomputable section

namespace Cert.Cell

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.Dense Cert.Spec

variable (V : (c : Dev nD) → (b : Ref sig .tc) → Buf (Elt Ideal) ((c : Thread nD τ).loc b))

/-! ## The input blocks as the proof data names them -/

theorem iblk_inp (c : Dev nD) (t : Fin cfg0.N) (r : Fin 1024) (k : Fin 96) :
    (iblk0 V c 0 t : Mat 1024 96) (ix2 r k) = X_0 V c (ix2 (blockRow (pt t) r) k) := blk_inp V c t r k
theorem iblk_hid (c : Dev nD) (t : Fin cfg0.N) (r : Fin 1024) (k : Fin 64) :
    (iblk0 V c 1 t : Mat 1024 64) (ix2 r k) = X_1 V c (ix2 (blockRow (pt t) r) k) := blk_hid V c t r k
theorem iblk_w2 (c : Dev nD) (t : Fin cfg0.N) : (iblk0 V c 2 t : Mat 96 64) = X_2 V c := blk_w2 V c t
theorem iblk_w3 (c : Dev nD) (t : Fin cfg0.N) : (iblk0 V c 3 t : Mat 1 64) = X_3 V c := blk_w3 V c t
theorem iblk_w4 (c : Dev nD) (t : Fin cfg0.N) : (iblk0 V c 4 t : Mat 64 192) = X_4 V c := blk_w4 V c t
theorem iblk_w5 (c : Dev nD) (t : Fin cfg0.N) : (iblk0 V c 5 t : Mat 64 192) = X_5 V c := blk_w5 V c t
theorem iblk_w6 (c : Dev nD) (t : Fin cfg0.N) : (iblk0 V c 6 t : Mat 1 192) = X_6 V c := blk_w6 V c t
theorem iblk_w7 (c : Dev nD) (t : Fin cfg0.N) : (iblk0 V c 7 t : Mat 1 192) = X_7 V c := blk_w7 V c t
theorem iblk_w8 (c : Dev nD) (t : Fin cfg0.N) : (iblk0 V c 8 t : Mat 64 64) = X_8 V c := blk_w8 V c t
theorem iblk_w9 (c : Dev nD) (t : Fin cfg0.N) : (iblk0 V c 9 t : Mat 1 64) = X_9 V c := blk_w9 V c t

/-! ## What each point writes back, and the arrays after the last point -/

theorem out10_at (c : Dev nD) (t : Fin cfg0.N) (y : S1024x64.Idx) :
    out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) y
      = Spec.hidden (X_0 V c) (X_1 V c) (X_2 V c) (X_3 V c) (X_4 V c) (X_5 V c) (X_6 V c) (X_7 V c) (((cfg0.win 10).blk t).view.emb y) := by
  obtain ⟨r, q, rfl⟩ : ∃ r q, y = ix2 r q := ⟨y 0, y 1, eq_ix2 y⟩
  refine (congrFun (out10_eq (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) (ix2 r q)).trans ?_
  exact hidden_block (X_0 V c) (X_1 V c) (iblk0 V c 0 t) (iblk0 V c 1 t) (X_2 V c) (iblk0 V c 2 t) (X_3 V c) (iblk0 V c 3 t) (X_4 V c) (iblk0 V c 4 t) (X_5 V c) (iblk0 V c 5 t) (X_6 V c) (iblk0 V c 6 t) (X_7 V c) (iblk0 V c 7 t) (pt t)
    (iblk_inp V c t) (iblk_hid V c t) (iblk_w2 V c t) (iblk_w3 V c t) (iblk_w4 V c t) (iblk_w5 V c t) (iblk_w6 V c t) (iblk_w7 V c t) r q (((cfg0.win 10).blk t).view.emb (ix2 r q)) (emb10 t r q)

theorem flushed10_eq (c : Dev nD) (t : Fin cfg0.N) :
    (dat0 V c).flushed 10 t = ((cfg0.win 10).blk t).view.read (Elt Ideal) (Spec.hidden (X_0 V c) (X_1 V c) (X_2 V c) (X_3 V c) (X_4 V c) (X_5 V c) (X_6 V c) (X_7 V c)) := by
  show (cfg0.win 10).cut (grid0.coords t) ((dat0 V c).after 10 t) = _
  rw [after0_10]
  funext y
  rw [View.read_apply]
  exact out10_at V c t y

/-- The new hidden state of all 65536 rows. -/
theorem hidden_arr (c : Dev nD) : (dat0 V c).arrAt 10 cfg0.N = Spec.hidden (X_0 V c) (X_1 V c) (X_2 V c) (X_3 V c) (X_4 V c) (X_5 V c) (X_6 V c) (X_7 V c) :=
  (dat0 V c).arrAt_eq_of_cover 10 (Spec.hidden (X_0 V c) (X_1 V c) (X_2 V c) (X_3 V c) (X_4 V c) (X_5 V c) (X_6 V c) (X_7 V c)) (fun t _ => flushed10_eq V c t) cover10

theorem out11_at (c : Dev nD) (t : Fin cfg0.N) (y : S1024x64.Idx) :
    out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) y
      = lin (Spec.hidden (X_0 V c) (X_1 V c) (X_2 V c) (X_3 V c) (X_4 V c) (X_5 V c) (X_6 V c) (X_7 V c)) (X_8 V c) (X_9 V c) (((cfg0.win 11).blk t).view.emb y) := by
  obtain ⟨r, q, rfl⟩ : ∃ r q, y = ix2 r q := ⟨y 0, y 1, eq_ix2 y⟩
  refine (congrFun (out11_eq (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) (ix2 r q)).trans ?_
  exact pre_block (X_0 V c) (X_1 V c) (iblk0 V c 0 t) (iblk0 V c 1 t) (X_2 V c) (iblk0 V c 2 t) (X_3 V c) (iblk0 V c 3 t) (X_4 V c) (iblk0 V c 4 t) (X_5 V c) (iblk0 V c 5 t) (X_6 V c) (iblk0 V c 6 t) (X_7 V c) (iblk0 V c 7 t) (X_8 V c) (iblk0 V c 8 t) (X_9 V c) (iblk0 V c 9 t) (pt t)
    (iblk_inp V c t) (iblk_hid V c t) (iblk_w2 V c t) (iblk_w3 V c t) (iblk_w4 V c t) (iblk_w5 V c t) (iblk_w6 V c t) (iblk_w7 V c t) (iblk_w8 V c t) (iblk_w9 V c t) r q (((cfg0.win 11).blk t).view.emb (ix2 r q)) (emb11 t r q)

theorem flushed11_eq (c : Dev nD) (t : Fin cfg0.N) :
    (dat0 V c).flushed 11 t = ((cfg0.win 11).blk t).view.read (Elt Ideal) (lin (Spec.hidden (X_0 V c) (X_1 V c) (X_2 V c) (X_3 V c) (X_4 V c) (X_5 V c) (X_6 V c) (X_7 V c)) (X_8 V c) (X_9 V c)) := by
  show (cfg0.win 11).cut (grid0.coords t) ((dat0 V c).after 11 t) = _
  rw [after0_11]
  funext y
  rw [View.read_apply]
  exact out11_at V c t y

/-- The awareness head's first layer on the new hidden state, before normalisation. -/
theorem pre_arr (c : Dev nD) : (dat0 V c).arrAt 11 cfg0.N = lin (Spec.hidden (X_0 V c) (X_1 V c) (X_2 V c) (X_3 V c) (X_4 V c) (X_5 V c) (X_6 V c) (X_7 V c)) (X_8 V c) (X_9 V c) :=
  (dat0 V c).arrAt_eq_of_cover 11 (lin (Spec.hidden (X_0 V c) (X_1 V c) (X_2 V c) (X_3 V c) (X_4 V c) (X_5 V c) (X_6 V c) (X_7 V c)) (X_8 V c) (X_9 V c)) (fun t _ => flushed11_eq V c t) cover11

theorem out12_at (c : Dev nD) (t : Fin cfg0.N) (y : S1x8x64.Idx) :
    out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) y
      = blockSums (lin (Spec.hidden (X_0 V c) (X_1 V c) (X_2 V c) (X_3 V c) (X_4 V c) (X_5 V c) (X_6 V c) (X_7 V c)) (X_8 V c) (X_9 V c)) (((cfg0.win 12).blk t).view.emb y) := by
  obtain ⟨u, a, q, rfl⟩ : ∃ u a q, y = ix3 u a q := ⟨y 0, y 1, y 2, eq_ix3 y⟩
  refine (out12_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) u a q).trans ?_
  exact sums_block (X_0 V c) (X_1 V c) (iblk0 V c 0 t) (iblk0 V c 1 t) (X_2 V c) (iblk0 V c 2 t) (X_3 V c) (iblk0 V c 3 t) (X_4 V c) (iblk0 V c 4 t) (X_5 V c) (iblk0 V c 5 t) (X_6 V c) (iblk0 V c 6 t) (X_7 V c) (iblk0 V c 7 t) (X_8 V c) (iblk0 V c 8 t) (X_9 V c) (iblk0 V c 9 t) (pt t)
    (iblk_inp V c t) (iblk_hid V c t) (iblk_w2 V c t) (iblk_w3 V c t) (iblk_w4 V c t) (iblk_w5 V c t) (iblk_w6 V c t) (iblk_w7 V c t) (iblk_w8 V c t) (iblk_w9 V c t) a q (((cfg0.win 12).blk t).view.emb (ix3 u a q)) (emb12 t u a q)

theorem flushed12_eq (c : Dev nD) (t : Fin cfg0.N) :
    (dat0 V c).flushed 12 t = ((cfg0.win 12).blk t).view.read (Elt Ideal) (blockSums (lin (Spec.hidden (X_0 V c) (X_1 V c) (X_2 V c) (X_3 V c) (X_4 V c) (X_5 V c) (X_6 V c) (X_7 V c)) (X_8 V c) (X_9 V c))) := by
  show (cfg0.win 12).cut (grid0.coords t) ((dat0 V c).after 12 t) = _
  rw [after0_12]
  funext y
  rw [View.read_apply]
  exact out12_at V c t y

/-- The per-block column sums of that layer. -/
theorem sums_arr (c : Dev nD) : (dat0 V c).arrAt 12 cfg0.N = blockSums (lin (Spec.hidden (X_0 V c) (X_1 V c) (X_2 V c) (X_3 V c) (X_4 V c) (X_5 V c) (X_6 V c) (X_7 V c)) (X_8 V c) (X_9 V c)) :=
  (dat0 V c).arrAt_eq_of_cover 12 (blockSums (lin (Spec.hidden (X_0 V c) (X_1 V c) (X_2 V c) (X_3 V c) (X_4 V c) (X_5 V c) (X_6 V c) (X_7 V c)) (X_8 V c) (X_9 V c))) (fun t _ => flushed12_eq V c t) cover12

theorem out13_at (c : Dev nD) (t : Fin cfg0.N) (y : S1x8x64.Idx) :
    out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) y
      = blockSqSums (lin (Spec.hidden (X_0 V c) (X_1 V c) (X_2 V c) (X_3 V c) (X_4 V c) (X_5 V c) (X_6 V c) (X_7 V c)) (X_8 V c) (X_9 V c)) (((cfg0.win 13).blk t).view.emb y) := by
  obtain ⟨u, a, q, rfl⟩ : ∃ u a q, y = ix3 u a q := ⟨y 0, y 1, y 2, eq_ix3 y⟩
  refine (out13_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) u a q).trans ?_
  exact sqsums_block (X_0 V c) (X_1 V c) (iblk0 V c 0 t) (iblk0 V c 1 t) (X_2 V c) (iblk0 V c 2 t) (X_3 V c) (iblk0 V c 3 t) (X_4 V c) (iblk0 V c 4 t) (X_5 V c) (iblk0 V c 5 t) (X_6 V c) (iblk0 V c 6 t) (X_7 V c) (iblk0 V c 7 t) (X_8 V c) (iblk0 V c 8 t) (X_9 V c) (iblk0 V c 9 t) (pt t)
    (iblk_inp V c t) (iblk_hid V c t) (iblk_w2 V c t) (iblk_w3 V c t) (iblk_w4 V c t) (iblk_w5 V c t) (iblk_w6 V c t) (iblk_w7 V c t) (iblk_w8 V c t) (iblk_w9 V c t) a q (((cfg0.win 13).blk t).view.emb (ix3 u a q)) (emb13 t u a q)

theorem flushed13_eq (c : Dev nD) (t : Fin cfg0.N) :
    (dat0 V c).flushed 13 t = ((cfg0.win 13).blk t).view.read (Elt Ideal) (blockSqSums (lin (Spec.hidden (X_0 V c) (X_1 V c) (X_2 V c) (X_3 V c) (X_4 V c) (X_5 V c) (X_6 V c) (X_7 V c)) (X_8 V c) (X_9 V c))) := by
  show (cfg0.win 13).cut (grid0.coords t) ((dat0 V c).after 13 t) = _
  rw [after0_13]
  funext y
  rw [View.read_apply]
  exact out13_at V c t y

/-- The per-block column sums of its squares. -/
theorem sqsums_arr (c : Dev nD) : (dat0 V c).arrAt 13 cfg0.N = blockSqSums (lin (Spec.hidden (X_0 V c) (X_1 V c) (X_2 V c) (X_3 V c) (X_4 V c) (X_5 V c) (X_6 V c) (X_7 V c)) (X_8 V c) (X_9 V c)) :=
  (dat0 V c).arrAt_eq_of_cover 13 (blockSqSums (lin (Spec.hidden (X_0 V c) (X_1 V c) (X_2 V c) (X_3 V c) (X_4 V c) (X_5 V c) (X_6 V c) (X_7 V c)) (X_8 V c) (X_9 V c))) (fun t _ => flushed13_eq V c t) cover13

end Cert.Cell

end
-- ==== Proof.AwareBlocks.lean ====
/-
  The blocks of the awareness region.

  The region runs over 32 grid points.  At point t the three row-wise inputs (the pre-activations, the hidden states,
  the noise) and the two outputs are cut into blocks of 2048 rows: block t is rows 2048 t … 2048 t + 2047 of the
  array, all columns.  The statistics, the scale and the shift, the weights and the biases are handed over whole at
  every point.  The block index of every window is decided once over the grid; an entry of a block then sits in the
  array at block index * block size + its coordinate inside the block.  The two outputs' blocks tile their arrays:
  the point covering row r is r / 2048.
-/
import proofs.«141456_j50483045597756_2_alg».proof.Proof.KernelIdealFrameP
import Idealize.ShloMosaic.Lib.Pipeline.Value
import Idealize.ShloMosaic.Lib.ValueIdx

set_option maxRecDepth 16384

noncomputable section

namespace Cert.Aware

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-- The block indices, decided over the grid: the row-wise windows move down their arrays one block per point, the
    shared ones stay at block 0. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = t.val
    ∧ win1_11.index t (1 : Fin 2) = 0
    ∧ win1_12.index t (0 : Fin 2) = t.val
    ∧ win1_12.index t (1 : Fin 2) = 0 :=
  (by decide +kernel : ∀ t : Fin grid1.N, _)

/-- Row 2048 t + p of a 65536-row array: row p of the block at point t. -/
def rowOf (t : Fin cfg1.N) (p : Fin 2048) : Fin 65536 :=
  ⟨t.val * 2048 + p.val, by have h : t.val < 32 := Nat.lt_of_lt_of_eq t.isLt N_1; omega⟩

theorem rowOf_val (t : Fin cfg1.N) (p : Fin 2048) : (rowOf t p).val = t.val * 2048 + p.val := rfl

/-! ## The input windows' blocks -/

/-- Window 0's block at point t is rows 2048 t … 2048 t + 2047 of its array. -/
theorem blk0_at (c : Dev nD) (t : Fin cfg1.N) (p : Fin 2048) (k : Fin 64) (r : Fin 65536) (hr : r.val = t.val * 2048 + p.val) :
    (iblk1 V c 0 t : Vec Ideal S2048x64 .f32) (ix2 p k) = (V c main_v12_1 : S65536x64.Idx → EReal) (ix2 r k) := by
  have e0 := (idx_facts t).1
  have e1 := (idx_facts t).2.1
  unfold iblk1
  rw [View.read_apply]
  show (V c main_v12_1 : S65536x64.Idx → EReal) _ = (V c main_v12_1 : S65536x64.Idx → EReal) _
  refine congrArg (V c main_v12_1 : S65536x64.Idx → EReal) (funext fun a => Fin.ext ?_)
  match a with
  | ⟨0, _⟩ => show win1_0.index t (0 : Fin 2) * 2048 + 1 * p.val = r.val; rw [e0, hr]; omega
  | ⟨1, _⟩ => show win1_0.index t (1 : Fin 2) * 64 + 1 * k.val = k.val; rw [e1]; omega

/-- Window 1's block at point t is rows 2048 t … 2048 t + 2047 of its array. -/
theorem blk1_at (c : Dev nD) (t : Fin cfg1.N) (p : Fin 2048) (k : Fin 64) (r : Fin 65536) (hr : r.val = t.val * 2048 + p.val) :
    (iblk1 V c 1 t : Vec Ideal S2048x64 .f32) (ix2 p k) = (V c main_v12_0 : S65536x64.Idx → EReal) (ix2 r k) := by
  have e0 := (idx_facts t).2.2.1
  have e1 := (idx_facts t).2.2.2.1
  unfold iblk1
  rw [View.read_apply]
  show (V c main_v12_0 : S65536x64.Idx → EReal) _ = (V c main_v12_0 : S65536x64.Idx → EReal) _
  refine congrArg (V c main_v12_0 : S65536x64.Idx → EReal) (funext fun a => Fin.ext ?_)
  match a with
  | ⟨0, _⟩ => show win1_1.index t (0 : Fin 2) * 2048 + 1 * p.val = r.val; rw [e0, hr]; omega
  | ⟨1, _⟩ => show win1_1.index t (1 : Fin 2) * 64 + 1 * k.val = k.val; rw [e1]; omega

/-- Window 2's block at point t is rows 2048 t … 2048 t + 2047 of its array. -/
theorem blk2_at (c : Dev nD) (t : Fin cfg1.N) (p : Fin 2048) (k : Fin 24) (r : Fin 65536) (hr : r.val = t.val * 2048 + p.val) :
    (iblk1 V c 2 t : Vec Ideal S2048x24 .f32) (ix2 p k) = (V c main_v27 : S65536x24.Idx → EReal) (ix2 r k) := by
  have e0 := (idx_facts t).2.2.2.2.1
  have e1 := (idx_facts t).2.2.2.2.2.1
  unfold iblk1
  rw [View.read_apply]
  show (V c main_v27 : S65536x24.Idx → EReal) _ = (V c main_v27 : S65536x24.Idx → EReal) _
  refine congrArg (V c main_v27 : S65536x24.Idx → EReal) (funext fun a => Fin.ext ?_)
  match a with
  | ⟨0, _⟩ => show win1_2.index t (0 : Fin 2) * 2048 + 1 * p.val = r.val; rw [e0, hr]; omega
  | ⟨1, _⟩ => show win1_2.index t (1 : Fin 2) * 24 + 1 * k.val = k.val; rw [e1]; omega

/-- Window 3's block is its whole array at every point. -/
theorem blk3_eq (c : Dev nD) (t : Fin cfg1.N) : (iblk1 V c 3 t : Vec Ideal S64x48 .f32) = (V c main_arg13 : S64x48.Idx → EReal) := by
  have e0 := (idx_facts t).2.2.2.2.2.2.1
  have e1 := (idx_facts t).2.2.2.2.2.2.2.1
  funext y
  unfold iblk1
  rw [View.read_apply]
  show (V c main_arg13 : S64x48.Idx → EReal) _ = (V c main_arg13 : S64x48.Idx → EReal) y
  refine congrArg (V c main_arg13 : S64x48.Idx → EReal) (funext fun a => Fin.ext ?_)
  match a with
  | ⟨0, _⟩ => show win1_3.index t (0 : Fin 2) * 64 + 1 * (y 0).val = (y 0).val; rw [e0]; omega
  | ⟨1, _⟩ => show win1_3.index t (1 : Fin 2) * 48 + 1 * (y 1).val = (y 1).val; rw [e1]; omega

/-- Window 4's block is its whole array at every point. -/
theorem blk4_eq (c : Dev nD) (t : Fin cfg1.N) : (iblk1 V c 4 t : Vec Ideal S1x48 .f32) = (V c main_v6 : S1x48.Idx → EReal) := by
  have e0 := (idx_facts t).2.2.2.2.2.2.2.2.1
  have e1 := (idx_facts t).2.2.2.2.2.2.2.2.2.1
  funext y
  unfold iblk1
  rw [View.read_apply]
  show (V c main_v6 : S1x48.Idx → EReal) _ = (V c main_v6 : S1x48.Idx → EReal) y
  refine congrArg (V c main_v6 : S1x48.Idx → EReal) (funext fun a => Fin.ext ?_)
  match a with
  | ⟨0, _⟩ => show win1_4.index t (0 : Fin 2) * 1 + 1 * (y 0).val = (y 0).val; rw [e0]; omega
  | ⟨1, _⟩ => show win1_4.index t (1 : Fin 2) * 48 + 1 * (y 1).val = (y 1).val; rw [e1]; omega

/-- Window 5's block is its whole array at every point. -/
theorem blk5_eq (c : Dev nD) (t : Fin cfg1.N) : (iblk1 V c 5 t : Vec Ideal S1x64 .f32) = (V c main_v4 : S1x64.Idx → EReal) := by
  have e0 := (idx_facts t).2.2.2.2.2.2.2.2.2.2.1
  have e1 := (idx_facts t).2.2.2.2.2.2.2.2.2.2.2.1
  funext y
  unfold iblk1
  rw [View.read_apply]
  show (V c main_v4 : S1x64.Idx → EReal) _ = (V c main_v4 : S1x64.Idx → EReal) y
  refine congrArg (V c main_v4 : S1x64.Idx → EReal) (funext fun a => Fin.ext ?_)
  match a with
  | ⟨0, _⟩ => show win1_5.index t (0 : Fin 2) * 1 + 1 * (y 0).val = (y 0).val; rw [e0]; omega
  | ⟨1, _⟩ => show win1_5.index t (1 : Fin 2) * 64 + 1 * (y 1).val = (y 1).val; rw [e1]; omega

/-- Window 6's block is its whole array at every point. -/
theorem blk6_eq (c : Dev nD) (t : Fin cfg1.N) : (iblk1 V c 6 t : Vec Ideal S1x64 .f32) = (V c main_v5 : S1x64.Idx → EReal) := by
  have e0 := (idx_facts t).2.2.2.2.2.2.2.2.2.2.2.2.1
  have e1 := (idx_facts t).2.2.2.2.2.2.2.2.2.2.2.2.2.1
  funext y
  unfold iblk1
  rw [View.read_apply]
  show (V c main_v5 : S1x64.Idx → EReal) _ = (V c main_v5 : S1x64.Idx → EReal) y
  refine congrArg (V c main_v5 : S1x64.Idx → EReal) (funext fun a => Fin.ext ?_)
  match a with
  | ⟨0, _⟩ => show win1_6.index t (0 : Fin 2) * 1 + 1 * (y 0).val = (y 0).val; rw [e0]; omega
  | ⟨1, _⟩ => show win1_6.index t (1 : Fin 2) * 64 + 1 * (y 1).val = (y 1).val; rw [e1]; omega

/-- Window 7's block is its whole array at every point. -/
theorem blk7_eq (c : Dev nD) (t : Fin cfg1.N) : (iblk1 V c 7 t : Vec Ideal S1x64 .f32) = (V c main_v25 : S1x64.Idx → EReal) := by
  have e0 := (idx_facts t).2.2.2.2.2.2.2.2.2.2.2.2.2.2.1
  have e1 := (idx_facts t).2.2.2.2.2.2.2.2.2.2.2.2.2.2.2.1
  funext y
  unfold iblk1
  rw [View.read_apply]
  show (V c main_v25 : S1x64.Idx → EReal) _ = (V c main_v25 : S1x64.Idx → EReal) y
  refine congrArg (V c main_v25 : S1x64.Idx → EReal) (funext fun a => Fin.ext ?_)
  match a with
  | ⟨0, _⟩ => show win1_7.index t (0 : Fin 2) * 1 + 1 * (y 0).val = (y 0).val; rw [e0]; omega
  | ⟨1, _⟩ => show win1_7.index t (1 : Fin 2) * 64 + 1 * (y 1).val = (y 1).val; rw [e1]; omega

/-- Window 8's block is its whole array at every point. -/
theorem blk8_eq (c : Dev nD) (t : Fin cfg1.N) : (iblk1 V c 8 t : Vec Ideal S1x64 .f32) = (V c main_v26 : S1x64.Idx → EReal) := by
  have e0 := (idx_facts t).2.2.2.2.2.2.2.2.2.2.2.2.2.2.2.2.1
  have e1 := (idx_facts t).2.2.2.2.2.2.2.2.2.2.2.2.2.2.2.2.2.1
  funext y
  unfold iblk1
  rw [View.read_apply]
  show (V c main_v26 : S1x64.Idx → EReal) _ = (V c main_v26 : S1x64.Idx → EReal) y
  refine congrArg (V c main_v26 : S1x64.Idx → EReal) (funext fun a => Fin.ext ?_)
  match a with
  | ⟨0, _⟩ => show win1_8.index t (0 : Fin 2) * 1 + 1 * (y 0).val = (y 0).val; rw [e0]; omega
  | ⟨1, _⟩ => show win1_8.index t (1 : Fin 2) * 64 + 1 * (y 1).val = (y 1).val; rw [e1]; omega

/-- Window 9's block is its whole array at every point. -/
theorem blk9_eq (c : Dev nD) (t : Fin cfg1.N) : (iblk1 V c 9 t : Vec Ideal S88x14 .f32) = (V c main_arg21 : S88x14.Idx → EReal) := by
  have e0 := (idx_facts t).2.2.2.2.2.2.2.2.2.2.2.2.2.2.2.2.2.2.1
  have e1 := (idx_facts t).2.2.2.2.2.2.2.2.2.2.2.2.2.2.2.2.2.2.2.1
  funext y
  unfold iblk1
  rw [View.read_apply]
  show (V c main_arg21 : S88x14.Idx → EReal) _ = (V c main_arg21 : S88x14.Idx → EReal) y
  refine congrArg (V c main_arg21 : S88x14.Idx → EReal) (funext fun a => Fin.ext ?_)
  match a with
  | ⟨0, _⟩ => show win1_9.index t (0 : Fin 2) * 88 + 1 * (y 0).val = (y 0).val; rw [e0]; omega
  | ⟨1, _⟩ => show win1_9.index t (1 : Fin 2) * 14 + 1 * (y 1).val = (y 1).val; rw [e1]; omega

/-- Window 10's block is its whole array at every point. -/
theorem blk10_eq (c : Dev nD) (t : Fin cfg1.N) : (iblk1 V c 10 t : Vec Ideal S1x14 .f32) = (V c main_v11 : S1x14.Idx → EReal) := by
  have e0 := (idx_facts t).2.2.2.2.2.2.2.2.2.2.2.2.2.2.2.2.2.2.2.2.1
  have e1 := (idx_facts t).2.2.2.2.2.2.2.2.2.2.2.2.2.2.2.2.2.2.2.2.2.1
  funext y
  unfold iblk1
  rw [View.read_apply]
  show (V c main_v11 : S1x14.Idx → EReal) _ = (V c main_v11 : S1x14.Idx → EReal) y
  refine congrArg (V c main_v11 : S1x14.Idx → EReal) (funext fun a => Fin.ext ?_)
  match a with
  | ⟨0, _⟩ => show win1_10.index t (0 : Fin 2) * 1 + 1 * (y 0).val = (y 0).val; rw [e0]; omega
  | ⟨1, _⟩ => show win1_10.index t (1 : Fin 2) * 14 + 1 * (y 1).val = (y 1).val; rw [e1]; omega

/-! ## The output windows' blocks -/

/-- An entry of output window 11's block at point t sits at row 2048 t + p of its array. -/
theorem emb11_at (t : Fin cfg1.N) (p : Fin 2048) (q : Fin 14) :
    ((cfg1.win 11).blk t).view.emb (ix2 p q) = (ix2 (rowOf t p) q : S65536x14.Idx) := by
  have e0 := (idx_facts t).2.2.2.2.2.2.2.2.2.2.2.2.2.2.2.2.2.2.2.2.2.2.1
  have e1 := (idx_facts t).2.2.2.2.2.2.2.2.2.2.2.2.2.2.2.2.2.2.2.2.2.2.2.1
  refine funext fun a => Fin.ext ?_
  match a with
  | ⟨0, _⟩ => show win1_11.index t (0 : Fin 2) * 2048 + 1 * p.val = t.val * 2048 + p.val; rw [e0]; omega
  | ⟨1, _⟩ => show win1_11.index t (1 : Fin 2) * 14 + 1 * q.val = q.val; rw [e1]; omega

/-- An index of the array is in point t's block of window 11 iff each coordinate is in the block's range. -/
theorem mem_blk11 (t : Fin cfg1.N) (i : S65536x14.Idx) :
    i ∈ ((cfg1.win 11).blk t).view.set ↔ ∀ a : Fin 2, win1_11.index t a * S2048x14.size a ≤ (i a).val ∧ (i a).val < win1_11.index t a * S2048x14.size a + S2048x14.size a := by
  show i ∈ ((View.whole main_v28_0).slice (win1_11.rect t)).set ↔ _
  rw [View.set_slice_whole, Rect.mem_set_unit]
  exact Iff.rfl

/-- Every index of window 11's array is in the block of the point its row falls in, row / 2048. -/
theorem cover11 (i : S65536x14.Idx) : ∃ t : Fin cfg1.N, (cfg1.win 11).flush t = true ∧ i ∈ ((cfg1.win 11).blk t).view.set := by
  have hi0 : (i 0).val < 65536 := (i 0).isLt
  have hi1 : (i 1).val < 14 := (i 1).isLt
  obtain ⟨t, ht⟩ : ∃ t : Fin cfg1.N, t.val = (i 0).val / 2048 :=
    ⟨⟨(i 0).val / 2048, by rw [show cfg1.N = 32 from N_1]; omega⟩, rfl⟩
  have e0 := (idx_facts t).2.2.2.2.2.2.2.2.2.2.2.2.2.2.2.2.2.2.2.2.2.2.1
  have e1 := (idx_facts t).2.2.2.2.2.2.2.2.2.2.2.2.2.2.2.2.2.2.2.2.2.2.2.1
  refine ⟨t, flush1_11 t, ?_⟩
  rw [mem_blk11]
  intro a
  match a with
  | ⟨0, _⟩ => show win1_11.index t (0 : Fin 2) * 2048 ≤ (i 0).val ∧ (i 0).val < win1_11.index t (0 : Fin 2) * 2048 + 2048; rw [e0, ht]; omega
  | ⟨1, _⟩ => show win1_11.index t (1 : Fin 2) * 14 ≤ (i 1).val ∧ (i 1).val < win1_11.index t (1 : Fin 2) * 14 + 14; rw [e1]; omega

/-- An entry of output window 12's block at point t sits at row 2048 t + p of its array. -/
theorem emb12_at (t : Fin cfg1.N) (p : Fin 2048) (q : Fin 48) :
    ((cfg1.win 12).blk t).view.emb (ix2 p q) = (ix2 (rowOf t p) q : S65536x48.Idx) := by
  have e0 := (idx_facts t).2.2.2.2.2.2.2.2.2.2.2.2.2.2.2.2.2.2.2.2.2.2.2.2.1
  have e1 := (idx_facts t).2.2.2.2.2.2.2.2.2.2.2.2.2.2.2.2.2.2.2.2.2.2.2.2.2
  refine funext fun a => Fin.ext ?_
  match a with
  | ⟨0, _⟩ => show win1_12.index t (0 : Fin 2) * 2048 + 1 * p.val = t.val * 2048 + p.val; rw [e0]; omega
  | ⟨1, _⟩ => show win1_12.index t (1 : Fin 2) * 48 + 1 * q.val = q.val; rw [e1]; omega

/-- An index of the array is in point t's block of window 12 iff each coordinate is in the block's range. -/
theorem mem_blk12 (t : Fin cfg1.N) (i : S65536x48.Idx) :
    i ∈ ((cfg1.win 12).blk t).view.set ↔ ∀ a : Fin 2, win1_12.index t a * S2048x48.size a ≤ (i a).val ∧ (i a).val < win1_12.index t a * S2048x48.size a + S2048x48.size a := by
  show i ∈ ((View.whole main_v28_1).slice (win1_12.rect t)).set ↔ _
  rw [View.set_slice_whole, Rect.mem_set_unit]
  exact Iff.rfl

/-- Every index of window 12's array is in the block of the point its row falls in, row / 2048. -/
theorem cover12 (i : S65536x48.Idx) : ∃ t : Fin cfg1.N, (cfg1.win 12).flush t = true ∧ i ∈ ((cfg1.win 12).blk t).view.set := by
  have hi0 : (i 0).val < 65536 := (i 0).isLt
  have hi1 : (i 1).val < 48 := (i 1).isLt
  obtain ⟨t, ht⟩ : ∃ t : Fin cfg1.N, t.val = (i 0).val / 2048 :=
    ⟨⟨(i 0).val / 2048, by rw [show cfg1.N = 32 from N_1]; omega⟩, rfl⟩
  have e0 := (idx_facts t).2.2.2.2.2.2.2.2.2.2.2.2.2.2.2.2.2.2.2.2.2.2.2.2.1
  have e1 := (idx_facts t).2.2.2.2.2.2.2.2.2.2.2.2.2.2.2.2.2.2.2.2.2.2.2.2.2
  refine ⟨t, flush1_12 t, ?_⟩
  rw [mem_blk12]
  intro a
  match a with
  | ⟨0, _⟩ => show win1_12.index t (0 : Fin 2) * 2048 ≤ (i 0).val ∧ (i 0).val < win1_12.index t (0 : Fin 2) * 2048 + 2048; rw [e0, ht]; omega
  | ⟨1, _⟩ => show win1_12.index t (1 : Fin 2) * 48 ≤ (i 1).val ∧ (i 1).val < win1_12.index t (1 : Fin 2) * 48 + 48; rw [e1]; omega

end Cert.Aware

end
-- ==== Proof.AwarePayBn.lean ====
/-
  The awareness head on one block of rows.

  The body normalises each of the block's 2048 rows of pre-activations with the batch mean and variance (shared [1, 64]
  rows broadcast down the block): scale * (x - mean) * rsqrt (variance + eps) + shift, rectified; multiplies the
  result by the [64, 48] weights in the matrix unit from a zero accumulator; and adds the bias row.  Entry by entry
  this is the dense layer of the normalised block: the broadcasts read row 0 of their operand, the changes of float
  format are the identity on the extended reals, and the product into zero is the textbook sum.
-/
import proofs.«141456_j50483045597756_2_alg».proof.Proof.Gen.KernelIdeal.Skeleton
import proofs.«141456_j50483045597756_2_alg».proof.Proof.Spec
import Idealize.ShloMosaic.Lib.ValueLayout

noncomputable section

namespace Cert.Aware

open Idealize.ShloMosaic Idealize.ShloMosaic.ValueIdx Idealize.SL.Sem
open Cert.KernelIdeal Cert.KernelIdeal.Gen

/-! ## The product's dimension numbers: rows of the left operand against columns of the right -/

theorem dotAw_l0 (i : S2048x48.Idx) (q : dot_S2048x64_S64x48_S2048x48_1_0_0_1_n_n.contr.Idx) : (dot_S2048x64_S64x48_S2048x48_1_0_0_1_n_n.lhsIdx i q 0).val = (i 0).val := by
  unfold DotDims.lhsIdx
  rw [dif_neg (show ¬(0 : Fin S2048x64.rank) ∈ dot_S2048x64_S64x48_S2048x48_1_0_0_1_n_n.lhsBatch by decide), dif_pos (show (0 : Fin S2048x64.rank) ∈ dot_S2048x64_S64x48_S2048x48_1_0_0_1_n_n.lhsNonContracting by decide)]
  rfl
theorem dotAw_l1 (i : S2048x48.Idx) (q : dot_S2048x64_S64x48_S2048x48_1_0_0_1_n_n.contr.Idx) : (dot_S2048x64_S64x48_S2048x48_1_0_0_1_n_n.lhsIdx i q 1).val = (q ⟨0, by decide⟩).val :=
  dot_S2048x64_S64x48_S2048x48_1_0_0_1_n_n.lhsIdx_val_of_single rfl i q
theorem dotAw_r0 (i : S2048x48.Idx) (q : dot_S2048x64_S64x48_S2048x48_1_0_0_1_n_n.contr.Idx) : (dot_S2048x64_S64x48_S2048x48_1_0_0_1_n_n.rhsIdx i q 0).val = (q ⟨0, by decide⟩).val :=
  dot_S2048x64_S64x48_S2048x48_1_0_0_1_n_n.rhsIdx_val_of_single rfl i q
theorem dotAw_r1 (i : S2048x48.Idx) (q : dot_S2048x64_S64x48_S2048x48_1_0_0_1_n_n.contr.Idx) : (dot_S2048x64_S64x48_S2048x48_1_0_0_1_n_n.rhsIdx i q 1).val = (i 1).val := by
  unfold DotDims.rhsIdx
  rw [dif_neg (show ¬(1 : Fin S64x48.rank) ∈ dot_S2048x64_S64x48_S2048x48_1_0_0_1_n_n.rhsBatch by decide), dif_pos (show (1 : Fin S64x48.rank) ∈ dot_S2048x64_S64x48_S2048x48_1_0_0_1_n_n.rhsNonContracting by decide)]
  rfl

/-- The head's 48 outputs on a block of rows, from the block of pre-activations and the shared rows. -/
theorem pay3_eq (v0 v5 : Vec Ideal S1x64 .f32) (v7 : Vec Ideal S2048x64 .f32) (v9 v17 : Vec Ideal S1x64 .f32)
    (v24 : Vec Ideal S64x48 .f32) (v27 : Vec Ideal S1x48 .f32) :
    k1_pay3 v0 v5 v7 v9 v17 v24 v27 = Cert.Spec.aware v7 v9 v0 v5 v17 v24 v27 := by
  funext j
  obtain ⟨p, q, rfl⟩ : ∃ (p : Fin 2048) (q : Fin 48), j = ix2 p q := ⟨j 0, j 1, eq_ix2 j⟩
  unfold k1_pay3 Cert.Spec.aware Cert.Dense.lin
  rw [addf_apply]
  refine congrArg₂ (· + ·) ?_ ?_
  · refine (Cert.Dense.matmul_zero_eq dot_S2048x64_S64x48_S2048x48_1_0_0_1_n_n rfl rfl dotAw_l0 dotAw_l1 dotAw_r0 dotAw_r1 none _ _ (ix2 p q)).trans ?_
    refine Cert.Dense.mm_congr (ix2 p q) (ix2 p q) (fun k => ?_) (fun k => rfl)
    show _ = Cert.Spec.bnRelu v7 v9 v0 v5 v17 (ix2 p k)
    unfold Cert.Spec.bnRelu Cert.Spec.bnAct
    simp only [truncf_apply, maximumf_apply, addf_apply, mulf_apply, subf_apply, broadcast_apply, shapeCast_self,
      broadcastTo_1b_ab_apply]
    rfl
  · rw [broadcastTo_1b_ab_apply, shapeCast_self]

end Cert.Aware

end
-- ==== Proof.AwarePayCut.lean ====
/-
  The column cuts of the awareness body and the stored join, on one block of rows.

  The head's 48 outputs per row are cut into the first 24 columns (the means) and the last 24 (the
  log-variances, exponentiated and floored at the variance floor).  The stored 48-wide matrix joins the means and the
  floored variances side by side.  A cut reads its source at the column shifted by the cut's offset; a join reads its
  first part on the columns below the first part's width and its second part, shifted back, above.
-/
import proofs.«141456_j50483045597756_2_alg».proof.Proof.Gen.KernelIdeal.Skeleton
import proofs.«141456_j50483045597756_2_alg».proof.Proof.Spec
import Idealize.ShloMosaic.Lib.ValueLayout

noncomputable section

namespace Cert.Aware

open Idealize.ShloMosaic Idealize.ShloMosaic.ValueIdx Idealize.SL.Sem
open Cert.KernelIdeal Cert.KernelIdeal.Gen

/-! ## The two cuts -/

variable (v0 v5 : Vec Ideal S1x64 .f32) (v7 : Vec Ideal S2048x64 .f32) (v9 v17 : Vec Ideal S1x64 .f32)
  (v24 : Vec Ideal S64x48 .f32) (v27 : Vec Ideal S1x48 .f32)

/-- The means: the first 24 columns of the head's outputs. -/
theorem pay4_at (p : Fin 2048) (c : Fin 24) :
    k1_pay4 v0 v5 v7 v9 v17 v24 v27 (ix2 p c) = k1_pay3 v0 v5 v7 v9 v17 v24 v27 (ix2 p (Cert.Spec.lo24 c)) := by
  unfold k1_pay4
  exact slice2_axis1_apply 0 _ slices_S2048x48_o0_0_S2048x24 p c (Cert.Spec.lo24 c) (by show c.val = 0 + c.val; omega)

/-- The floored variances: the exponential of the last 24 columns, not below the floor. -/
theorem pay5_at (p : Fin 2048) (c : Fin 24) :
    k1_pay5 v0 v5 v7 v9 v17 v24 v27 (ix2 p c)
      = max (Ideal.exp (k1_pay3 v0 v5 v7 v9 v17 v24 v27 (ix2 p (Cert.Spec.hi24 c)))) Cert.Spec.clip := by
  unfold k1_pay5
  rw [maximumf_apply, broadcast_apply]
  refine congrArg₂ max (congrArg Ideal.exp ?_) rfl
  exact slice2_axis1_apply 24 _ slices_S2048x48_o0_24_S2048x24 p c (Cert.Spec.hi24 c) rfl

/-- Their square roots. -/
theorem pay6_at (p : Fin 2048) (c : Fin 24) :
    k1_pay6 v0 v5 v7 v9 v17 v24 v27 (ix2 p c) = Ideal.sqrt (k1_pay5 v0 v5 v7 v9 v17 v24 v27 (ix2 p c)) := rfl

/-- The noise block is stored as it is loaded. -/
theorem pay7_eq (v37 : Vec Ideal S2048x24 .f32) : k1_pay7 v37 = v37 := by
  unfold k1_pay7
  exact shapeCast_self _ _

/-! ## The two joins -/

/-- Two 24-wide matrices side by side. -/
theorem pay2_at (v31 v35 : FVec Ideal S2048x24 .f32) (p : Fin 2048) (q : Fin 48) :
    k1_pay2 v31 v35 (ix2 p q)
      = if h : q.val < 24 then v31 (ix2 p ⟨q.val, h⟩) else v35 (ix2 p ⟨q.val - 24, by have := q.isLt; omega⟩) := by
  unfold k1_pay2
  by_cases h : q.val < 24
  · rw [dif_pos h]
    refine concatenate_pair_apply_left 1 v31 v35 concatenates_S2048x24_S2048x24_S2048x48_d1 (ix2 p q) rfl (ix2 p ⟨q.val, h⟩) fun b => ?_
    match b with
    | ⟨0, _⟩ => rfl
    | ⟨1, _⟩ => rfl
  · rw [dif_neg h]
    refine concatenate_pair_apply_right 1 v31 v35 concatenates_S2048x24_S2048x24_S2048x48_d1 (ix2 p q) rfl rfl
      (ix2 p ⟨q.val - 24, by have := q.isLt; omega⟩) (fun b hb => ?_) ?_
    · match b with
      | ⟨0, _⟩ => rfl
      | ⟨1, _⟩ => exact absurd rfl hb
    · show q.val - 24 + 24 = q.val
      omega

end Cert.Aware

end
-- ==== Proof.AwarePayAct.lean ====
/-
  The action layer on one block of rows.

  The body forms the sample mean + sqrt variance * noise (24 columns), joins it to the right of the block of hidden
  states (64 columns), multiplies the 88-wide result by the [88, 14] weights in the matrix unit from a zero
  accumulator, and adds the bias row.  Entry by entry this is the dense layer of the joined matrix: the join reads the
  hidden state on the columns below 64 and the sample, shifted back by 64, above.
-/
import proofs.«141456_j50483045597756_2_alg».proof.Proof.Gen.KernelIdeal.Skeleton
import proofs.«141456_j50483045597756_2_alg».proof.Proof.Spec
import Idealize.ShloMosaic.Lib.ValueLayout

noncomputable section

namespace Cert.Aware

open Idealize.ShloMosaic Idealize.ShloMosaic.ValueIdx Idealize.SL.Sem
open Cert.KernelIdeal Cert.KernelIdeal.Gen

/-! ## The product's dimension numbers: rows of the joined matrix against columns of the weights -/

theorem dotAct_l0 (i : S2048x14.Idx) (q : dot_S2048x88_S88x14_S2048x14_1_0_0_1_n_n.contr.Idx) : (dot_S2048x88_S88x14_S2048x14_1_0_0_1_n_n.lhsIdx i q 0).val = (i 0).val := by
  unfold DotDims.lhsIdx
  rw [dif_neg (show ¬(0 : Fin S2048x88.rank) ∈ dot_S2048x88_S88x14_S2048x14_1_0_0_1_n_n.lhsBatch by decide), dif_pos (show (0 : Fin S2048x88.rank) ∈ dot_S2048x88_S88x14_S2048x14_1_0_0_1_n_n.lhsNonContracting by decide)]
  rfl
theorem dotAct_l1 (i : S2048x14.Idx) (q : dot_S2048x88_S88x14_S2048x14_1_0_0_1_n_n.contr.Idx) : (dot_S2048x88_S88x14_S2048x14_1_0_0_1_n_n.lhsIdx i q 1).val = (q ⟨0, by decide⟩).val :=
  dot_S2048x88_S88x14_S2048x14_1_0_0_1_n_n.lhsIdx_val_of_single rfl i q
theorem dotAct_r0 (i : S2048x14.Idx) (q : dot_S2048x88_S88x14_S2048x14_1_0_0_1_n_n.contr.Idx) : (dot_S2048x88_S88x14_S2048x14_1_0_0_1_n_n.rhsIdx i q 0).val = (q ⟨0, by decide⟩).val :=
  dot_S2048x88_S88x14_S2048x14_1_0_0_1_n_n.rhsIdx_val_of_single rfl i q
theorem dotAct_r1 (i : S2048x14.Idx) (q : dot_S2048x88_S88x14_S2048x14_1_0_0_1_n_n.contr.Idx) : (dot_S2048x88_S88x14_S2048x14_1_0_0_1_n_n.rhsIdx i q 1).val = (i 1).val := by
  unfold DotDims.rhsIdx
  rw [dif_neg (show ¬(1 : Fin S88x14.rank) ∈ dot_S2048x88_S88x14_S2048x14_1_0_0_1_n_n.rhsBatch by decide), dif_pos (show (1 : Fin S88x14.rank) ∈ dot_S2048x88_S88x14_S2048x14_1_0_0_1_n_n.rhsNonContracting by decide)]
  rfl

/-- The action values of a block, from the means, the square roots of the variances, the noise, the hidden states,
    the weights and the bias row. -/
theorem pay1_eq (v31 v36 v38 : FVec Ideal S2048x24 .f32) (v41 : Vec Ideal S2048x64 .f32) (v45 : Vec Ideal S88x14 .f32)
    (v48 : Vec Ideal S1x14 .f32) :
    k1_pay1 v31 v36 v38 v41 v45 v48
      = Cert.Dense.lin (Cert.Spec.hcat v41 (fun i => v31 i + v36 i * v38 i)) v45 v48 := by
  funext j
  obtain ⟨p, q, rfl⟩ : ∃ (p : Fin 2048) (q : Fin 14), j = ix2 p q := ⟨j 0, j 1, eq_ix2 j⟩
  unfold k1_pay1 Cert.Dense.lin
  rw [addf_apply]
  refine congrArg₂ (· + ·) ?_ ?_
  · refine (Cert.Dense.matmul_zero_eq dot_S2048x88_S88x14_S2048x14_1_0_0_1_n_n rfl rfl dotAct_l0 dotAct_l1 dotAct_r0 dotAct_r1 none _ _ (ix2 p q)).trans ?_
    refine Cert.Dense.mm_congr (ix2 p q) (ix2 p q) (fun k => ?_) (fun k => rfl)
    unfold Cert.Spec.hcat
    show concatenate S2048x88 1 [⟨S2048x64, shapeCast S2048x64 v41 shapeCasts_S2048x64_S2048x64⟩, ⟨S2048x24, addf v31 (mulf v36 v38)⟩]
          concatenates_S2048x64_S2048x24_S2048x88_d1 (ix2 p k)
        = (if hl : k.val < 64 then v41 (ix2 p ⟨k.val, hl⟩)
            else (fun i => v31 i + v36 i * v38 i) (ix2 p ⟨k.val - 64, by have := k.isLt; omega⟩))
    by_cases hl : k.val < 64
    · rw [dif_pos hl]
      refine (concatenate_pair_apply_left 1 _ _ concatenates_S2048x64_S2048x24_S2048x88_d1 (ix2 p k) rfl (ix2 p ⟨k.val, hl⟩) fun b => ?_).trans ?_
      · match b with
        | ⟨0, _⟩ => rfl
        | ⟨1, _⟩ => rfl
      · rw [shapeCast_self]
    · rw [dif_neg hl]
      refine concatenate_pair_apply_right 1 _ _ concatenates_S2048x64_S2048x24_S2048x88_d1 (ix2 p k) rfl rfl
        (ix2 p ⟨k.val - 64, by have := k.isLt; omega⟩) (fun b hb => ?_) ?_
      · match b with
        | ⟨0, _⟩ => rfl
        | ⟨1, _⟩ => exact absurd rfl hb
      · show k.val - 64 + 64 = k.val
        omega
  · rw [broadcastTo_1b_ab_apply, shapeCast_self]

end Cert.Aware

end
-- ==== Proof.AwareBody.lean ====
/-
  One block of rows through the whole awareness body.

  Putting the pieces together on a block of 2048 rows: the stored 48-wide matrix is the means and floored variances of
  the head's outputs on the block, and the stored action values are the action layer on the block's hidden states,
  the head's outputs and the block's noise — each the same row-wise definition that describes the whole arrays.
-/
import proofs.«141456_j50483045597756_2_alg».proof.Proof.AwarePayBn
import proofs.«141456_j50483045597756_2_alg».proof.Proof.AwarePayCut
import proofs.«141456_j50483045597756_2_alg».proof.Proof.AwarePayAct

noncomputable section

namespace Cert.Aware

open Idealize.ShloMosaic Idealize.ShloMosaic.ValueIdx Idealize.SL.Sem
open Cert.KernelIdeal Cert.KernelIdeal.Gen

variable (v0 v5 : Vec Ideal S1x64 .f32) (v7 : Vec Ideal S2048x64 .f32) (v9 v17 : Vec Ideal S1x64 .f32)
  (v24 : Vec Ideal S64x48 .f32) (v27 : Vec Ideal S1x48 .f32)

/-- The stored means and floored variances of a block. -/
theorem body_muSigma :
    k1_pay2 (k1_pay4 v0 v5 v7 v9 v17 v24 v27) (k1_pay5 v0 v5 v7 v9 v17 v24 v27)
      = Cert.Spec.muSigma (Cert.Spec.aware v7 v9 v0 v5 v17 v24 v27) := by
  funext j
  obtain ⟨p, q, rfl⟩ : ∃ (p : Fin 2048) (q : Fin 48), j = ix2 p q := ⟨j 0, j 1, eq_ix2 j⟩
  rw [pay2_at]
  unfold Cert.Spec.muSigma
  show _ = (if h : q.val < 24 then Cert.Spec.muAt (Cert.Spec.aware v7 v9 v0 v5 v17 v24 v27) p ⟨q.val, h⟩
            else Cert.Spec.sigmaAt (Cert.Spec.aware v7 v9 v0 v5 v17 v24 v27) p ⟨q.val - 24, _⟩)
  by_cases h : q.val < 24
  · rw [dif_pos h, dif_pos h, pay4_at, pay3_eq]
    rfl
  · rw [dif_neg h, dif_neg h, pay5_at, pay3_eq]
    rfl

/-- The stored action values of a block. -/
theorem body_actions (v37 : Vec Ideal S2048x24 .f32) (v41 : Vec Ideal S2048x64 .f32) (v45 : Vec Ideal S88x14 .f32)
    (v48 : Vec Ideal S1x14 .f32) :
    k1_pay1 (k1_pay4 v0 v5 v7 v9 v17 v24 v27) (k1_pay6 v0 v5 v7 v9 v17 v24 v27) (k1_pay7 v37) v41 v45 v48
      = Cert.Spec.actions v41 (Cert.Spec.aware v7 v9 v0 v5 v17 v24 v27) v37 v45 v48 := by
  rw [pay1_eq, pay7_eq]
  unfold Cert.Spec.actions
  refine congrArg (fun s => Cert.Dense.lin (Cert.Spec.hcat v41 s) v45 v48) ?_
  funext i
  obtain ⟨p, c, rfl⟩ : ∃ (p : Fin 2048) (c : Fin 24), i = ix2 p c := ⟨i 0, i 1, eq_ix2 i⟩
  show k1_pay4 v0 v5 v7 v9 v17 v24 v27 (ix2 p c) + k1_pay6 v0 v5 v7 v9 v17 v24 v27 (ix2 p c) * v37 (ix2 p c)
     = Cert.Spec.sample (Cert.Spec.aware v7 v9 v0 v5 v17 v24 v27) v37 (ix2 p c)
  rw [pay4_at, pay6_at, pay5_at, pay3_eq]
  rfl

end Cert.Aware

end
-- ==== Proof.AwareRows.lean ====
/-
  Row locality of the awareness head and of the action layer.

  Every stage of the two heads is row-wise: entry (r, q) of the dense layer on the normalised values, of the
  means-and-variances matrix, and of the action values depends on the inputs only through their row r (and on the
  statistics, scales, weights and biases, which are shared by all rows).  So if a matrix with R rows and one with
  R' rows agree along a row r of the first and a row r' of the second, the stages agree at those rows.  This is
  what lets a block of 2048 rows of an array be read by the same definition as the array itself.
-/
import proofs.«141456_j50483045597756_2_alg».proof.Proof.Spec

noncomputable section

namespace Cert.Aware

open Idealize.ShloMosaic Idealize.ShloMosaic.ValueIdx Cert.Dense Cert.Spec

/-- The normalised, rectified value at (r, k) reads the input only at (r, k). -/
theorem bnRelu_row {R R' : Nat} {z : Mat R 64} {z' : Mat R' 64} (mean var g be : Mat 1 64) (r : Fin R) (r' : Fin R')
    (hz : ∀ k : Fin 64, z (ix2 r k) = z' (ix2 r' k)) (k : Fin 64) :
    bnRelu z mean var g be (ix2 r k) = bnRelu z' mean var g be (ix2 r' k) := by
  unfold bnRelu
  show bnAct (z (ix2 r k)) _ _ _ _ = bnAct (z' (ix2 r' k)) _ _ _ _
  rw [hz k]
  rfl

/-- The head's 48 outputs of row r read the input only along row r. -/
theorem aware_row {R R' : Nat} {z : Mat R 64} {z' : Mat R' 64} (mean var g be : Mat 1 64) (w : Mat 64 48) (b : Mat 1 48)
    (r : Fin R) (r' : Fin R') (hz : ∀ k : Fin 64, z (ix2 r k) = z' (ix2 r' k)) (q : Fin 48) :
    aware z mean var g be w b (ix2 r q) = aware z' mean var g be w b (ix2 r' q) :=
  lin_congr (ix2 r q) (ix2 r' q) rfl (fun k => bnRelu_row mean var g be r r' hz k) rfl rfl

/-- The means and floored variances of row r read the head's outputs only along row r. -/
theorem muSigma_row {R R' : Nat} {aw : Mat R 48} {aw' : Mat R' 48} (r : Fin R) (r' : Fin R')
    (ha : ∀ q : Fin 48, aw (ix2 r q) = aw' (ix2 r' q)) (q : Fin 48) :
    muSigma aw (ix2 r q) = muSigma aw' (ix2 r' q) := by
  unfold muSigma
  show (if h : q.val < 24 then muAt aw r ⟨q.val, h⟩ else sigmaAt aw r ⟨q.val - 24, _⟩)
     = (if h : q.val < 24 then muAt aw' r' ⟨q.val, h⟩ else sigmaAt aw' r' ⟨q.val - 24, _⟩)
  by_cases h : q.val < 24
  · rw [dif_pos h, dif_pos h]; unfold muAt; exact ha _
  · rw [dif_neg h, dif_neg h]; unfold sigmaAt; rw [ha _]

/-- The sample of row r reads the head's outputs and the noise only along row r. -/
theorem sample_row {R R' : Nat} {aw : Mat R 48} {aw' : Mat R' 48} {nz : Mat R 24} {nz' : Mat R' 24} (r : Fin R) (r' : Fin R')
    (ha : ∀ q : Fin 48, aw (ix2 r q) = aw' (ix2 r' q)) (hn : ∀ c : Fin 24, nz (ix2 r c) = nz' (ix2 r' c)) (c : Fin 24) :
    sample aw nz (ix2 r c) = sample aw' nz' (ix2 r' c) := by
  unfold sample
  show muAt aw r c + Ideal.sqrt (sigmaAt aw r c) * nz (ix2 r c) = muAt aw' r' c + Ideal.sqrt (sigmaAt aw' r' c) * nz' (ix2 r' c)
  unfold muAt sigmaAt
  rw [ha _, ha _, hn c]

/-- The joined matrix at row r reads its two parts only along row r. -/
theorem hcat_row {R R' : Nat} {h : Mat R 64} {h' : Mat R' 64} {s : Mat R 24} {s' : Mat R' 24} (r : Fin R) (r' : Fin R')
    (hh : ∀ k : Fin 64, h (ix2 r k) = h' (ix2 r' k)) (hs : ∀ c : Fin 24, s (ix2 r c) = s' (ix2 r' c)) (k : Fin 88) :
    hcat h s (ix2 r k) = hcat h' s' (ix2 r' k) := by
  unfold hcat
  show (if hl : k.val < 64 then h (ix2 r ⟨k.val, hl⟩) else s (ix2 r ⟨k.val - 64, _⟩))
     = (if hl : k.val < 64 then h' (ix2 r' ⟨k.val, hl⟩) else s' (ix2 r' ⟨k.val - 64, _⟩))
  by_cases hl : k.val < 64
  · rw [dif_pos hl, dif_pos hl]; exact hh _
  · rw [dif_neg hl, dif_neg hl]; exact hs _

/-- The action values of row r read the hidden state, the head's outputs and the noise only along row r. -/
theorem actions_row {R R' : Nat} {h : Mat R 64} {h' : Mat R' 64} {aw : Mat R 48} {aw' : Mat R' 48} {nz : Mat R 24} {nz' : Mat R' 24}
    (w : Mat 88 14) (b : Mat 1 14) (r : Fin R) (r' : Fin R')
    (hh : ∀ k : Fin 64, h (ix2 r k) = h' (ix2 r' k)) (ha : ∀ q : Fin 48, aw (ix2 r q) = aw' (ix2 r' q))
    (hn : ∀ c : Fin 24, nz (ix2 r c) = nz' (ix2 r' c)) (q : Fin 14) :
    actions h aw nz w b (ix2 r q) = actions h' aw' nz' w b (ix2 r' q) :=
  lin_congr (ix2 r q) (ix2 r' q) rfl (fun k => hcat_row r r' hh (fun c => sample_row r r' ha hn c) k) rfl rfl

end Cert.Aware

end
-- ==== Proof.AwareMuSigma.lean ====
/-
  The means-and-variances array after the awareness region.

  Each grid point writes back one block of 2048 rows of the 48-wide output: the means and floored variances of the
  awareness head on that block of pre-activations.  Every stage is row-wise, so what point t writes is block t of one
  whole-array function: the means and floored variances of the head on all 65536 rows.  The blocks tile the array,
  so the array ends holding that function.
-/
import proofs.«141456_j50483045597756_2_alg».proof.Proof.AwareBlocks
import proofs.«141456_j50483045597756_2_alg».proof.Proof.AwareBody
import proofs.«141456_j50483045597756_2_alg».proof.Proof.AwareRows

set_option maxRecDepth 16384

noncomputable section

namespace Cert.Aware

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-- The whole means-and-variances matrix, from the arrays the region is entered with. -/
abbrev muSigmaArr (c : Dev nD) : Cert.Spec.Mat 65536 48 :=
  Cert.Spec.muSigma (Cert.Spec.aware (V c main_v12_1 : S65536x64.Idx → EReal) (V c main_v25 : S1x64.Idx → EReal) (V c main_v26 : S1x64.Idx → EReal)
      (V c main_v4 : S1x64.Idx → EReal) (V c main_v5 : S1x64.Idx → EReal) (V c main_arg13 : S64x48.Idx → EReal) (V c main_v6 : S1x48.Idx → EReal))

/-- What the body leaves in the 48-wide output's buffer, over any loaded blocks. -/
theorem out12_eq (x0 x1 : Vec Ideal S2048x64 .f32) (x2 : Vec Ideal S2048x24 .f32) (x3 : Vec Ideal S64x48 .f32) (x4 : Vec Ideal S1x48 .f32)
    (x5 x6 x7 x8 : Vec Ideal S1x64 .f32) (x9 : Vec Ideal S88x14 .f32) (x10 : Vec Ideal S1x14 .f32) :
    out1_12 x0 x1 x2 x3 x4 x5 x6 x7 x8 x9 x10 = Cert.Spec.muSigma (Cert.Spec.aware x0 x7 x8 x5 x6 x3 x4) := by
  unfold out1_12
  rw [View.canon_unit_zero hz]
  simp only [View.ld_unit_zero (S := S1x64) hz, View.ld_unit_zero (S := S2048x64) hz, View.ld_unit_zero (S := S64x48) hz, View.ld_unit_zero (S := S1x48) hz]
  exact body_muSigma x8 x5 x0 x7 x6 x3 x4

/-- What point t writes back is block t of the whole matrix. -/
theorem flushed12_eq (c : Dev nD) (t : Fin cfg1.N) :
    (dat1 V c).flushed 12 t = ((cfg1.win 12).blk t).view.read (Elt Ideal) (muSigmaArr V c) := by
  show (cfg1.win 12).cut (grid1.coords t) ((dat1 V c).after 12 t) = _
  rw [after1_12, out12_eq, blk7_eq V c t, blk8_eq V c t, blk5_eq V c t, blk6_eq V c t, blk3_eq V c t, blk4_eq V c t]
  funext j
  obtain ⟨p, q, rfl⟩ : ∃ (p : Fin 2048) (q : Fin 48), j = ix2 p q := ⟨j 0, j 1, eq_ix2 j⟩
  rw [View.read_apply, emb12_at t p q]
  exact muSigma_row p (rowOf t p) (fun q' => aware_row _ _ _ _ _ _ p (rowOf t p) (fun k => blk0_at V c t p k (rowOf t p) rfl) q') q

/-- The array after the region: the means and floored variances of the awareness head on all rows. -/
theorem musigma_arr (c : Dev nD) : (dat1 V c).arrAt 12 cfg1.N = muSigmaArr V c :=
  (dat1 V c).arrAt_eq_of_cover 12 (muSigmaArr V c) (fun t _ => flushed12_eq V c t) cover12

end Cert.Aware

end
-- ==== Proof.AwareActions.lean ====
/-
  The action values after the awareness region.

  Each grid point writes back one block of 2048 rows of the 14-wide output: the action layer on that block of hidden
  states joined with the sample drawn from the awareness head's Gaussian on that block, with that block of noise.
  Every stage is row-wise, so what point t writes is block t of one whole-array function: the action values of all
  65536 rows.  The blocks tile the array, so the array ends holding that function.
-/
import proofs.«141456_j50483045597756_2_alg».proof.Proof.AwareBlocks
import proofs.«141456_j50483045597756_2_alg».proof.Proof.AwareBody
import proofs.«141456_j50483045597756_2_alg».proof.Proof.AwareRows

set_option maxRecDepth 16384

noncomputable section

namespace Cert.Aware

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-- The whole action-value matrix, from the arrays the region is entered with. -/
abbrev actionsArr (c : Dev nD) : Cert.Spec.Mat 65536 14 :=
  Cert.Spec.actions (V c main_v12_0 : S65536x64.Idx → EReal)
    (Cert.Spec.aware (V c main_v12_1 : S65536x64.Idx → EReal) (V c main_v25 : S1x64.Idx → EReal) (V c main_v26 : S1x64.Idx → EReal)
      (V c main_v4 : S1x64.Idx → EReal) (V c main_v5 : S1x64.Idx → EReal) (V c main_arg13 : S64x48.Idx → EReal) (V c main_v6 : S1x48.Idx → EReal))
    (V c main_v27 : S65536x24.Idx → EReal) (V c main_arg21 : S88x14.Idx → EReal) (V c main_v11 : S1x14.Idx → EReal)

/-- What the body leaves in the 14-wide output's buffer, over any loaded blocks. -/
theorem out11_eq (x0 x1 : Vec Ideal S2048x64 .f32) (x2 : Vec Ideal S2048x24 .f32) (x3 : Vec Ideal S64x48 .f32) (x4 : Vec Ideal S1x48 .f32)
    (x5 x6 x7 x8 : Vec Ideal S1x64 .f32) (x9 : Vec Ideal S88x14 .f32) (x10 : Vec Ideal S1x14 .f32) :
    out1_11 x0 x1 x2 x3 x4 x5 x6 x7 x8 x9 x10 = Cert.Spec.actions x1 (Cert.Spec.aware x0 x7 x8 x5 x6 x3 x4) x2 x9 x10 := by
  unfold out1_11
  rw [View.canon_unit_zero hz]
  simp only [View.ld_unit_zero (S := S1x64) hz, View.ld_unit_zero (S := S2048x64) hz, View.ld_unit_zero (S := S64x48) hz, View.ld_unit_zero (S := S1x48) hz, View.ld_unit_zero (S := S2048x24) hz, View.ld_unit_zero (S := S88x14) hz, View.ld_unit_zero (S := S1x14) hz]
  exact body_actions x8 x5 x0 x7 x6 x3 x4 x2 x1 x9 x10

/-- What point t writes back is block t of the whole matrix. -/
theorem flushed11_eq (c : Dev nD) (t : Fin cfg1.N) :
    (dat1 V c).flushed 11 t = ((cfg1.win 11).blk t).view.read (Elt Ideal) (actionsArr V c) := by
  show (cfg1.win 11).cut (grid1.coords t) ((dat1 V c).after 11 t) = _
  rw [after1_11, out11_eq, blk7_eq V c t, blk8_eq V c t, blk5_eq V c t, blk6_eq V c t, blk3_eq V c t, blk4_eq V c t,
    blk9_eq V c t, blk10_eq V c t]
  funext j
  obtain ⟨p, q, rfl⟩ : ∃ (p : Fin 2048) (q : Fin 14), j = ix2 p q := ⟨j 0, j 1, eq_ix2 j⟩
  rw [View.read_apply, emb11_at t p q]
  exact actions_row _ _ p (rowOf t p) (fun k => blk1_at V c t p k (rowOf t p) rfl)
    (fun q' => aware_row _ _ _ _ _ _ p (rowOf t p) (fun k => blk0_at V c t p k (rowOf t p) rfl) q')
    (fun c' => blk2_at V c t p c' (rowOf t p) rfl) q

/-- The array after the region: the action values of all rows. -/
theorem actions_arr (c : Dev nD) : (dat1 V c).arrAt 11 cfg1.N = actionsArr V c :=
  (dat1 V c).arrAt_eq_of_cover 11 (actionsArr V c) (fun t _ => flushed11_eq V c t) cover11

end Cert.Aware

end
-- ==== Proof.PairStatsPair.lean ====
/-
  The pair layer of the poster head inside one block of 128 batch entries.

  The block's hidden states, a [128, 8, 64] array, are read as 1024 = 128 * 8 rows (batch entry b, agent i at
  row b * 8 + i) and multiplied by each half of the pair weights.  The two [1024, 64] products are regrouped by
  batch entry; the first is repeated along the first agent index j, the second along the second agent index i,
  and the two are added together with the bias row.  Entry (b, j, i, k) of that sum is the pair layer before
  normalisation: agent i's state through the top half, plus agent j's state through the bottom half, plus the
  bias.
-/
import proofs.«141456_j50483045597756_2_alg».proof.Proof.Spec
import proofs.«141456_j50483045597756_2_alg».proof.Proof.Gen.KernelIdeal.Skeleton
import Idealize.ShloMosaic.Lib.Pipeline.Value
import Idealize.ShloMosaic.Lib.ValueLayout

noncomputable section

namespace Cert.PairStats

open Idealize.ShloMosaic Idealize.ShloMosaic.ValueIdx Cert.KernelIdeal Cert.KernelIdeal.Gen

/-! ## The product's dimension numbers: rows of the left operand against columns of the right -/

theorem dot_l0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide),
    dif_pos (show (0 : Fin S1024x64.rank) ∈ dot_S1024x64_S64x64_S1024x64_1_0_0_1_n_n.lhsNonContracting by decide)]
  rfl
theorem dot_l1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
theorem dot_r0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
theorem dot_r1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide),
    dif_pos (show (1 : Fin S64x64.rank) ∈ dot_S1024x64_S64x64_S1024x64_1_0_0_1_n_n.rhsNonContracting by decide)]
  rfl

/-! ## The block's states through one weight matrix -/

/-- The block's hidden states through one [64, 64] weight matrix, regrouped by batch entry: the states read as
    1024 rows, the product into the zero accumulator, the rows regrouped as [128, 8, 64]. -/
def proj (x : Vec Ideal S128x8x64 .f32) (w : Vec Ideal S64x64 .f32) : FVec Ideal S128x8x64 .f32 :=
  shapeCast S128x8x64
    (matmul dot_S1024x64_S64x64_S1024x64_1_0_0_1_n_n none
      (shapeCast S1024x64 (truncf .bf16 (shapeCast S128x8x64 x shapeCasts_S128x8x64_S128x8x64) bitsLt_bf16_f32)
        shapeCasts_S128x8x64_S1024x64)
      (truncf .bf16 (shapeCast S64x64 w shapeCasts_S64x64_S64x64) bitsLt_bf16_f32)
      (constant (F := Ideal) S1024x64 .f32 0x00000000#32))
    shapeCasts_S1024x64_S128x8x64

/-- Entry (b, i, k) of it is the sum over q of agent i's state of entry b at q times the weight at (q, k):
    row b * 8 + i of the flattened states is (b, i), and a change of float format changes nothing. -/
theorem proj_apply (x : Vec Ideal S128x8x64 .f32) (w : Vec Ideal S64x64 .f32) (b : Fin 128) (i : Fin 8) (k : Fin 64) :
    proj x w (ix3 b i k) = ∑ q : Fin 64, x (ix3 b i q) * w (ix2 q k) := by
  unfold proj
  refine (shapeCast_apply _ shapeCasts_S1024x64_S128x8x64 (ix3 b i k)
    (ix2 (⟨b.val * 8 + i.val, by omega⟩ : Fin 1024) k) ?_).trans ?_
  · rw [Shape.rowMajor_val_two, Shape.rowMajor_val_three]
    rfl
  · refine (Cert.Dense.matmul_zero_eq dot_S1024x64_S64x64_S1024x64_1_0_0_1_n_n rfl rfl dot_l0 dot_l1 dot_r0 dot_r1 none _ _
      (ix2 (⟨b.val * 8 + i.val, by omega⟩ : Fin 1024) k)).trans ?_
    unfold Cert.Dense.mm
    refine Finset.sum_congr rfl fun q _ => ?_
    refine congrArg₂ (· * ·) ?_ ?_
    · refine (shapeCast_apply _ shapeCasts_S128x8x64_S1024x64 (ix2 (⟨b.val * 8 + i.val, by omega⟩ : Fin 1024) q)
        (ix3 b i q) ?_).trans ?_
      · rw [Shape.rowMajor_val_two, Shape.rowMajor_val_three]
        rfl
      · show shapeCast S128x8x64 x shapeCasts_S128x8x64_S128x8x64 (ix3 b i q) = x (ix3 b i q)
        rw [shapeCast_self]
    · show shapeCast S64x64 w shapeCasts_S64x64_S64x64 (ix2 q k) = w (ix2 q k)
      rw [shapeCast_self]

/-! ## The pair tensor -/

/-- The body's [128, 8, 8, 64] pair tensor is the two regrouped products, repeated along j and along i, plus
    the bias row repeated everywhere. -/
theorem pay2_eq (x0 : Vec Ideal S128x8x64 .f32) (x1 x2 : Vec Ideal S64x64 .f32) (x3 : Vec Ideal S1x64 .f32) :
    k2_pay2 x0 x1 x2 x3 =
      addf
        (addf
          (broadcastTo S128x8x8x64
            (shapeCast S128x1x8x64 (shapeCast S128x1x8x64 (proj x0 x1) shapeCasts_S128x8x64_S128x1x8x64)
              shapeCasts_S128x1x8x64_S128x1x8x64) broadcasts_S128x1x8x64_S128x8x8x64)
          (broadcastTo S128x8x8x64
            (shapeCast S128x8x1x64 (shapeCast S128x8x1x64 (proj x0 x2) shapeCasts_S128x8x64_S128x8x1x64)
              shapeCasts_S128x8x1x64_S128x8x1x64) broadcasts_S128x8x1x64_S128x8x8x64))
        (broadcastTo S128x8x8x64
          (shapeCast S1x1x1x64 (shapeCast S1x64 x3 shapeCasts_S1x64_S1x64) shapeCasts_S1x64_S1x1x1x64)
          broadcasts_S1x1x1x64_S128x8x8x64) := rfl

/-- Entry (b, j, i, k) of the pair tensor is the pair layer before normalisation at batch entry b of the block,
    pair (j, i), unit k. -/
theorem pair_at (x0 : Vec Ideal S128x8x64 .f32) (x1 x2 : Vec Ideal S64x64 .f32) (x3 : Vec Ideal S1x64 .f32)
    (b : Fin 128) (j i : Fin 8) (k : Fin 64) :
    k2_pay2 x0 x1 x2 x3 (ix4 b j i k) = Cert.Spec.pairPre x0 x1 x2 x3 b j i k := by
  rw [pay2_eq]
  unfold Cert.Spec.pairPre
  show (_ + _) + _ = (_ + _) + _
  refine congrArg₂ (· + ·) (congrArg₂ (· + ·) ?_ ?_) ?_
  · -- the first product does not depend on j
    refine (broadcastTo_apply _ broadcasts_S128x1x8x64_S128x8x8x64 (ix4 b j i k) (ix4 b (0 : Fin 1) i k) fun a => ?_).trans ?_
    · match a with
      | ⟨0, _⟩ => rfl
      | ⟨1, _⟩ => rfl
      | ⟨2, _⟩ => rfl
      | ⟨3, _⟩ => rfl
    · rw [shapeCast_self]
      refine (shapeCast_apply _ shapeCasts_S128x8x64_S128x1x8x64 (ix4 b (0 : Fin 1) i k) (ix3 b i k) ?_).trans ?_
      · rw [Shape.rowMajor_val_three, Shape.rowMajor_val_four]
        show (b.val * 8 + i.val) * 64 + k.val = ((b.val * 1 + 0) * 8 + i.val) * 64 + k.val
        omega
      · exact proj_apply x0 x1 b i k
  · -- the second does not depend on i
    refine (broadcastTo_apply _ broadcasts_S128x8x1x64_S128x8x8x64 (ix4 b j i k) (ix4 b j (0 : Fin 1) k) fun a => ?_).trans ?_
    · match a with
      | ⟨0, _⟩ => rfl
      | ⟨1, _⟩ => rfl
      | ⟨2, _⟩ => rfl
      | ⟨3, _⟩ => rfl
    · rw [shapeCast_self]
      refine (shapeCast_apply _ shapeCasts_S128x8x64_S128x8x1x64 (ix4 b j (0 : Fin 1) k) (ix3 b j k) ?_).trans ?_
      · rw [Shape.rowMajor_val_three, Shape.rowMajor_val_four]
        show (b.val * 8 + j.val) * 64 + k.val = ((b.val * 8 + j.val) * 1 + 0) * 64 + k.val
        omega
      · exact proj_apply x0 x2 b j k
  · -- the bias row is repeated everywhere
    refine (broadcastTo_apply _ broadcasts_S1x1x1x64_S128x8x8x64 (ix4 b j i k)
      (ix4 (0 : Fin 1) (0 : Fin 1) (0 : Fin 1) k) fun a => ?_).trans ?_
    · match a with
      | ⟨0, _⟩ => rfl
      | ⟨1, _⟩ => rfl
      | ⟨2, _⟩ => rfl
      | ⟨3, _⟩ => rfl
    · refine (shapeCast_apply _ shapeCasts_S1x64_S1x1x1x64 (ix4 (0 : Fin 1) (0 : Fin 1) (0 : Fin 1) k)
        (ix2 (0 : Fin 1) k) ?_).trans ?_
      · rw [Shape.rowMajor_val_two, Shape.rowMajor_val_four]
        rfl
      · rw [shapeCast_self]

end Cert.PairStats

end
-- ==== Proof.PairStatsSums.lean ====
/-
  The statistics of the pair layer inside one block of 128 batch entries.

  The body adds the [128, 8, 8, 64] pair tensor over its second agent index, then over its first, then over the
  block's batch entries, one axis at a time, and writes the resulting 64 numbers into each of the 8 rows of a
  [1, 8, 64] block; it does the same with the tensor's squares.  So every row of the first block holds, at
  unit k, the sum over (b, j, i) of the pair layer before normalisation, and every row of the second the sum
  of its squares.
-/
import proofs.«141456_j50483045597756_2_alg».proof.Proof.PairStatsPair
import Idealize.ShloMosaic.PureOps.Ideal.Laws

noncomputable section

namespace Cert.PairStats

open Idealize.ShloMosaic Idealize.ShloMosaic.ValueIdx Cert.KernelIdeal Cert.KernelIdeal.Gen

/-! ## Adding a [128, 8, 8, 64] tensor over its three leading axes -/

/-- The sum over the third axis, then the second, then the first, each from the zero word. -/
def tripleSum (T : FVec Ideal S128x8x8x64 .f32) : FVec Ideal S64 .f32 :=
  multiReduction .add [0] S64
    (multiReduction .add [1] S128x64
      (multiReduction .add [2] S128x8x64 T 0x00000000#32 reduces_S128x8x8x64_S128x8x64 (.inl rfl) rfl)
      0x00000000#32 reduces_S128x8x64_S128x64 (.inl rfl) rfl)
    0x00000000#32 reduces_S128x64_S64 (.inl rfl) rfl

/-- At unit k it is the triple sum over (b, j, i) of the tensor at (b, j, i, k). -/
theorem tripleSum_apply (T : FVec Ideal S128x8x8x64 .f32) (k : Fin 64) :
    tripleSum T (ix1 k) = ∑ b : Fin 128, ∑ j : Fin 8, ∑ i : Fin 8, T (ix4 b j i k) := by
  unfold tripleSum
  refine (Ideal.multiReduction_add_single _ _ reduces_S128x64_S64 _ _ (ix1 k)).trans ?_
  show ∑ b : Fin 128, _ = _
  refine Finset.sum_congr rfl fun b _ => ?_
  have e0 : reduces_S128x64_S64.lift (ix1 k) b = ix2 b k := funext fun a => Fin.ext (by
    match a with
    | ⟨0, _⟩ => rfl
    | ⟨1, _⟩ => rfl)
  rw [e0]
  refine (Ideal.multiReduction_add_single _ _ reduces_S128x8x64_S128x64 _ _ (ix2 b k)).trans ?_
  show ∑ j : Fin 8, _ = _
  refine Finset.sum_congr rfl fun j _ => ?_
  have e1 : reduces_S128x8x64_S128x64.lift (ix2 b k) j = ix3 b j k := funext fun a => Fin.ext (by
    match a with
    | ⟨0, _⟩ => rfl
    | ⟨1, _⟩ => rfl
    | ⟨2, _⟩ => rfl)
  rw [e1]
  refine (Ideal.multiReduction_add_single _ _ reduces_S128x8x8x64_S128x8x64 _ _ (ix3 b j k)).trans ?_
  show ∑ i : Fin 8, _ = _
  refine Finset.sum_congr rfl fun i _ => ?_
  have e2 : reduces_S128x8x8x64_S128x8x64.lift (ix3 b j k) i = ix4 b j i k := funext fun a => Fin.ext (by
    match a with
    | ⟨0, _⟩ => rfl
    | ⟨1, _⟩ => rfl
    | ⟨2, _⟩ => rfl
    | ⟨3, _⟩ => rfl)
  rw [e2]

/-! ## Sixty-four numbers written into each of the 8 rows of a [1, 8, 64] block -/

def rowsOf (v : FVec Ideal S64 .f32) : FVec Ideal S1x8x64 .f32 :=
  shapeCast S1x8x64
    (broadcastTo S8x64 (shapeCast S1x64 (shapeCast S1x64 v shapeCasts_S64_S1x64) shapeCasts_S1x64_S1x64)
      broadcasts_S1x64_S8x64)
    shapeCasts_S8x64_S1x8x64

/-- Row p of the block holds the vector, whatever p. -/
theorem rowsOf_apply (v : FVec Ideal S64 .f32) (u : Fin 1) (p : Fin 8) (k : Fin 64) :
    rowsOf v (ix3 u p k) = v (ix1 k) := by
  unfold rowsOf
  refine (shapeCast_ab_1ab_apply _ shapeCasts_S8x64_S1x8x64 u p k).trans ?_
  refine (broadcastTo_1b_ab_apply _ broadcasts_S1x64_S8x64 p k).trans ?_
  rw [shapeCast_self]
  exact shapeCast_a_1a_apply v shapeCasts_S64_S1x64 (0 : Fin 1) k

/-! ## The two blocks the body writes -/

theorem pay4_eq (x0 : Vec Ideal S128x8x64 .f32) (x1 x2 : Vec Ideal S64x64 .f32) (x3 : Vec Ideal S1x64 .f32) :
    k2_pay4 x0 x1 x2 x3 = rowsOf (tripleSum (k2_pay2 x0 x1 x2 x3)) := rfl

theorem pay3_eq (x0 : Vec Ideal S128x8x64 .f32) (x1 x2 : Vec Ideal S64x64 .f32) (x3 : Vec Ideal S1x64 .f32) :
    k2_pay3 x0 x1 x2 x3 = tripleSum (mulf (k2_pay2 x0 x1 x2 x3) (k2_pay2 x0 x1 x2 x3)) := rfl

theorem pay1_eq (v : FVec Ideal S64 .f32) : k2_pay1 v = rowsOf v := rfl

/-- Every row of the first block: the sum over the block's batch entries and all pairs of the pair layer. -/
theorem sums_at (x0 : Vec Ideal S128x8x64 .f32) (x1 x2 : Vec Ideal S64x64 .f32) (x3 : Vec Ideal S1x64 .f32)
    (u : Fin 1) (p : Fin 8) (k : Fin 64) :
    k2_pay4 x0 x1 x2 x3 (ix3 u p k)
      = ∑ b : Fin 128, ∑ j : Fin 8, ∑ i : Fin 8, Cert.Spec.pairPre x0 x1 x2 x3 b j i k := by
  rw [pay4_eq, rowsOf_apply, tripleSum_apply]
  refine Finset.sum_congr rfl fun b _ => Finset.sum_congr rfl fun j _ => Finset.sum_congr rfl fun i _ => ?_
  exact pair_at x0 x1 x2 x3 b j i k

/-- Every row of the second block: the sum of the squares. -/
theorem sqsums_at (x0 : Vec Ideal S128x8x64 .f32) (x1 x2 : Vec Ideal S64x64 .f32) (x3 : Vec Ideal S1x64 .f32)
    (u : Fin 1) (p : Fin 8) (k : Fin 64) :
    k2_pay1 (k2_pay3 x0 x1 x2 x3) (ix3 u p k)
      = ∑ b : Fin 128, ∑ j : Fin 8, ∑ i : Fin 8,
          Cert.Spec.pairPre x0 x1 x2 x3 b j i k * Cert.Spec.pairPre x0 x1 x2 x3 b j i k := by
  rw [pay1_eq, pay3_eq, rowsOf_apply, tripleSum_apply]
  refine Finset.sum_congr rfl fun b _ => Finset.sum_congr rfl fun j _ => Finset.sum_congr rfl fun i _ => ?_
  rw [mulf_apply, pair_at]

end Cert.PairStats

end
-- ==== Proof.PairStatsBlock.lean ====
/-
  One block's statistics as a block of the whole arrays' statistics.

  The pair layer at a batch entry reads that entry's eight hidden states and nothing else of the state array.
  So when a [128, 8, 64] block holds the states of batch entries t * 128 … t * 128 + 127 of the whole
  [8192, 8, 64] array, and the weights and the bias are the whole arrays', the sums the body forms from the block
  are the t-th block sums of the whole array: every row of block t of the [64, 8, 64] result.
-/
import proofs.«141456_j50483045597756_2_alg».proof.Proof.PairStatsSums

noncomputable section

namespace Cert.PairStats

open Idealize.ShloMosaic Idealize.ShloMosaic.ValueIdx Cert.KernelIdeal Cert.KernelIdeal.Gen

/-- The pair layer at (b, j, i, k) is the same for two state arrays that agree on batch entry b's eight states. -/
theorem pairPre_congr {B B' : Nat} {hd : Cert.Spec.Ten3 B 8 64} {hd' : Cert.Spec.Ten3 B' 8 64}
    {top bot : Cert.Spec.Mat 64 64} {pb : Cert.Spec.Mat 1 64}
    (b : Fin B) (b' : Fin B') (j i : Fin 8) (k k' : Fin 64) (hk : k = k')
    (h : ∀ (a : Fin 8) (q : Fin 64), hd (ix3 b a q) = hd' (ix3 b' a q)) :
    Cert.Spec.pairPre hd top bot pb b j i k = Cert.Spec.pairPre hd' top bot pb b' j i k' := by
  subst hk
  unfold Cert.Spec.pairPre
  refine congrArg₂ (· + ·) (congrArg₂ (· + ·) (Finset.sum_congr rfl fun q _ => ?_) (Finset.sum_congr rfl fun q _ => ?_)) rfl
  · rw [h i q]
  · rw [h j q]

/-- The first block the body writes, at any of its indices: the row and the unit axis do not matter. -/
theorem sums_blk (x0 : Vec Ideal S128x8x64 .f32) (x1 x2 : Vec Ideal S64x64 .f32) (x3 : Vec Ideal S1x64 .f32)
    (y : S1x8x64.Idx) :
    k2_pay4 x0 x1 x2 x3 y
      = ∑ b : Fin 128, ∑ j : Fin 8, ∑ i : Fin 8, Cert.Spec.pairPre x0 x1 x2 x3 b j i (y 2) := by
  obtain ⟨u, p, k, rfl⟩ : ∃ (u : Fin 1) (p : Fin 8) (k : Fin 64), y = ix3 u p k := ⟨y 0, y 1, y 2, eq_ix3 y⟩
  exact sums_at x0 x1 x2 x3 u p k

/-- The second block likewise. -/
theorem sqsums_blk (x0 : Vec Ideal S128x8x64 .f32) (x1 x2 : Vec Ideal S64x64 .f32) (x3 : Vec Ideal S1x64 .f32)
    (y : S1x8x64.Idx) :
    k2_pay1 (k2_pay3 x0 x1 x2 x3) y
      = ∑ b : Fin 128, ∑ j : Fin 8, ∑ i : Fin 8,
          Cert.Spec.pairPre x0 x1 x2 x3 b j i (y 2) * Cert.Spec.pairPre x0 x1 x2 x3 b j i (y 2) := by
  obtain ⟨u, p, k, rfl⟩ : ∃ (u : Fin 1) (p : Fin 8) (k : Fin 64), y = ix3 u p k := ⟨y 0, y 1, y 2, eq_ix3 y⟩
  exact sqsums_at x0 x1 x2 x3 u p k

/-- The block of states being the o 0-th block of 128 batch entries of the whole array, and the weights and the
    bias the whole arrays', the first block the body writes is, at y, the whole arrays' block sums at any index o
    of block o 0 with y's unit. -/
theorem blockSums_of_blocks (hd : Cert.Spec.Ten3 8192 8 64) (top bot : Cert.Spec.Mat 64 64) (pb : Cert.Spec.Mat 1 64)
    (x0 : Vec Ideal S128x8x64 .f32) (x1 x2 : Vec Ideal S64x64 .f32) (x3 : Vec Ideal S1x64 .f32)
    (y : S1x8x64.Idx) (o : S64x8x64.Idx)
    (h0 : ∀ (b : Fin 128) (a : Fin 8) (q : Fin 64), x0 (ix3 b a q) = hd (ix3 (Cert.Spec.blockBatch (o 0) b) a q))
    (h1 : x1 = top) (h2 : x2 = bot) (h3 : x3 = pb) (hk : y 2 = o 2) :
    k2_pay4 x0 x1 x2 x3 y = Cert.Spec.pairBlockSums hd top bot pb o := by
  subst h1 h2 h3
  rw [sums_blk]
  unfold Cert.Spec.pairBlockSums
  exact Finset.sum_congr rfl fun b _ => Finset.sum_congr rfl fun j _ => Finset.sum_congr rfl fun i _ =>
    pairPre_congr b (Cert.Spec.blockBatch (o 0) b) j i (y 2) (o 2) hk (h0 b)

/-- The same for the sums of squares. -/
theorem blockSqSums_of_blocks (hd : Cert.Spec.Ten3 8192 8 64) (top bot : Cert.Spec.Mat 64 64) (pb : Cert.Spec.Mat 1 64)
    (x0 : Vec Ideal S128x8x64 .f32) (x1 x2 : Vec Ideal S64x64 .f32) (x3 : Vec Ideal S1x64 .f32)
    (y : S1x8x64.Idx) (o : S64x8x64.Idx)
    (h0 : ∀ (b : Fin 128) (a : Fin 8) (q : Fin 64), x0 (ix3 b a q) = hd (ix3 (Cert.Spec.blockBatch (o 0) b) a q))
    (h1 : x1 = top) (h2 : x2 = bot) (h3 : x3 = pb) (hk : y 2 = o 2) :
    k2_pay1 (k2_pay3 x0 x1 x2 x3) y = Cert.Spec.pairBlockSqSums hd top bot pb o := by
  subst h1 h2 h3
  rw [sqsums_blk]
  unfold Cert.Spec.pairBlockSqSums
  exact Finset.sum_congr rfl fun b _ => Finset.sum_congr rfl fun j _ => Finset.sum_congr rfl fun i _ =>
    congrArg₂ (· * ·) (pairPre_congr b (Cert.Spec.blockBatch (o 0) b) j i (y 2) (o 2) hk (h0 b))
      (pairPre_congr b (Cert.Spec.blockBatch (o 0) b) j i (y 2) (o 2) hk (h0 b))

end Cert.PairStats

end
-- ==== Proof.PairStatsWindows.lean ====
/-
  Where the statistics pass reads and writes.

  At grid point t the pass reads the hidden states of batch entries t * 128 … t * 128 + 127 (block t of the
  [8192, 8, 64] array), both halves of the pair weights and the bias row whole, and writes block t of each
  [64, 8, 64] result: position (0, p, k) of a block sits at (t, p, k) of the array.  The 64 blocks of a result
  cover it: index (s, p, k) lies in block s.
-/
import proofs.«141456_j50483045597756_2_alg».proof.Proof.Spec
import proofs.«141456_j50483045597756_2_alg».proof.Proof.Gen.KernelIdeal.Points
import Idealize.ShloMosaic.Lib.Pipeline.Value

noncomputable section

namespace Cert.PairStats

open Idealize.ShloMosaic Idealize.ShloMosaic.ValueIdx Idealize.ShloMosaic.TcCoe Cert.KernelIdeal Cert.KernelIdeal.Gen
open Idealize.ShloMosaic.Pipeline (Dat)

variable (V : (c : Dev nD) → (b : Ref sig .tc) → Buf (Elt Ideal) ((c : Thread nD τ).loc b))

/-- Window w's block at grid point t, read off its array as the pass finds it. -/
abbrev blockAt (c : Dev nD) (w : Fin cfg2.W) (t : Fin cfg2.N) :
    ((cfg2.win w).xblock (cfg2.grid.coords t)).Idx → Elt Ideal (cfg2.win w).elt :=
  ((cfg2.win w).blk t).view.read (Elt Ideal) (V c (Pipeline.arrRef spec2 w))

/-- The pass has 64 grid points. -/
theorem points_64 : cfg2.N = 64 := by decide

theorem zeros3 : (![0, 0, 0] : Fin 3 → Nat) = fun _ => 0 := funext fun a => by fin_cases a <;> rfl
theorem zeros2 : (![0, 0] : Fin 2 → Nat) = fun _ => 0 := funext fun a => by fin_cases a <;> rfl

/-- The block indices at grid point t: the states' and the results' blocks move with t along the first axis,
    the weights and the bias stay. -/
theorem idx_facts : ∀ t : Fin cfg2.N,
    win2_0.index t (0 : Fin 3) = t.val ∧ win2_0.index t (1 : Fin 3) = 0 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 3) = t.val ∧ win2_4.index t (1 : Fin 3) = 0 ∧ win2_4.index t (2 : Fin 3) = 0
    ∧ win2_5.index t (0 : Fin 3) = t.val ∧ win2_5.index t (1 : Fin 3) = 0 ∧ win2_5.index t (2 : Fin 3) = 0 :=
  (by decide +kernel : ∀ t : Fin grid2.N, _)

/-! ## The input blocks -/

/-- The states' block at point t holds batch entries t * 128 + b: entry b of block p, for p = t. -/
theorem states_read (c : Dev nD) (t : Fin cfg2.N) (p : Fin 64) (hp : p.val = t.val) (b : Fin 128) (a : Fin 8) (q : Fin 64) :
    (blockAt V c 0 t : Vec Ideal S128x8x64 .f32) (ix3 b a q)
      = (V c main_v31 : S8192x8x64.Idx → EReal) (ix3 (Cert.Spec.blockBatch p b) a q) := by
  obtain ⟨e0, e1, e2, -⟩ := idx_facts t
  show V c main_v31 (((cfg2.win 0).blk t).view.emb (ix3 b a q)) = _
  have h : (((cfg2.win 0).blk t).view.emb (ix3 b a q) : S8192x8x64.Idx) = ix3 (Cert.Spec.blockBatch p b) a q := by
    funext d; apply Fin.ext
    match d with
    | ⟨0, _⟩ => show win2_0.index t (0 : Fin 3) * 128 + 1 * b.val = p.val * 128 + b.val; rw [e0, hp]; omega
    | ⟨1, _⟩ => show win2_0.index t (1 : Fin 3) * 8 + 1 * a.val = a.val; omega
    | ⟨2, _⟩ => show win2_0.index t (2 : Fin 3) * 64 + 1 * q.val = q.val; omega
  rw [h]

/-- The top half of the pair weights is read whole at every point. -/
theorem top_read (c : Dev nD) (t : Fin cfg2.N) :
    (blockAt V c 1 t : Vec Ideal S64x64 .f32) = (V c main_v32 : S64x64.Idx → EReal) := by
  obtain ⟨-, -, -, e0, e1, -⟩ := idx_facts t
  funext z
  show V c main_v32 (((cfg2.win 1).blk t).view.emb z) = V c main_v32 z
  have h : (((cfg2.win 1).blk t).view.emb z : S64x64.Idx) = z := by
    funext d; apply Fin.ext
    match d with
    | ⟨0, _⟩ => show win2_1.index t (0 : Fin 2) * 64 + 1 * (z 0).val = (z 0).val; omega
    | ⟨1, _⟩ => show win2_1.index t (1 : Fin 2) * 64 + 1 * (z 1).val = (z 1).val; omega
  rw [h]

/-- So is the bottom half. -/
theorem bot_read (c : Dev nD) (t : Fin cfg2.N) :
    (blockAt V c 2 t : Vec Ideal S64x64 .f32) = (V c main_v33 : S64x64.Idx → EReal) := by
  obtain ⟨-, -, -, -, -, e0, e1, -⟩ := idx_facts t
  funext z
  show V c main_v33 (((cfg2.win 2).blk t).view.emb z) = V c main_v33 z
  have h : (((cfg2.win 2).blk t).view.emb z : S64x64.Idx) = z := by
    funext d; apply Fin.ext
    match d with
    | ⟨0, _⟩ => show win2_2.index t (0 : Fin 2) * 64 + 1 * (z 0).val = (z 0).val; omega
    | ⟨1, _⟩ => show win2_2.index t (1 : Fin 2) * 64 + 1 * (z 1).val = (z 1).val; omega
  rw [h]

/-- So is the bias row. -/
theorem bias_read (c : Dev nD) (t : Fin cfg2.N) :
    (blockAt V c 3 t : Vec Ideal S1x64 .f32) = (V c main_v7 : S1x64.Idx → EReal) := by
  obtain ⟨-, -, -, -, -, -, -, e0, e1, -⟩ := idx_facts t
  funext z
  show V c main_v7 (((cfg2.win 3).blk t).view.emb z) = V c main_v7 z
  have h : (((cfg2.win 3).blk t).view.emb z : S1x64.Idx) = z := by
    funext d; apply Fin.ext
    match d with
    | ⟨0, _⟩ => show win2_3.index t (0 : Fin 2) * 1 + 1 * (z 0).val = (z 0).val; omega
    | ⟨1, _⟩ => show win2_3.index t (1 : Fin 2) * 64 + 1 * (z 1).val = (z 1).val; omega
  rw [h]

/-! ## The output blocks -/

/-- Position y of the sums' block at point t sits in block t of the array … -/
theorem sums_pos0 (t : Fin cfg2.N) (y : S1x8x64.Idx) :
    ((((cfg2.win 4).blk t).view.emb y : S64x8x64.Idx) 0).val = t.val := by
  obtain ⟨-, -, -, -, -, -, -, -, -, e0, -⟩ := idx_facts t
  show win2_4.index t (0 : Fin 3) * 1 + 1 * (y 0).val = t.val
  have h1 : (y 0).val < 1 := (y 0).isLt
  omega
/-- … at y's own unit. -/
theorem sums_pos2 (t : Fin cfg2.N) (y : S1x8x64.Idx) :
    y 2 = (((cfg2.win 4).blk t).view.emb y : S64x8x64.Idx) 2 := by
  obtain ⟨-, -, -, -, -, -, -, -, -, -, -, e2, -⟩ := idx_facts t
  apply Fin.ext
  show (y 2).val = win2_4.index t (2 : Fin 3) * 64 + 1 * (y 2).val
  omega

/-- The same for the sums of squares' block. -/
theorem sqsums_pos0 (t : Fin cfg2.N) (y : S1x8x64.Idx) :
    ((((cfg2.win 5).blk t).view.emb y : S64x8x64.Idx) 0).val = t.val := by
  obtain ⟨-, -, -, -, -, -, -, -, -, -, -, -, e0, -⟩ := idx_facts t
  show win2_5.index t (0 : Fin 3) * 1 + 1 * (y 0).val = t.val
  have h1 : (y 0).val < 1 := (y 0).isLt
  omega
theorem sqsums_pos2 (t : Fin cfg2.N) (y : S1x8x64.Idx) :
    y 2 = (((cfg2.win 5).blk t).view.emb y : S64x8x64.Idx) 2 := by
  obtain ⟨-, -, -, -, -, -, -, -, -, -, -, -, -, -, e2⟩ := idx_facts t
  apply Fin.ext
  show (y 2).val = win2_5.index t (2 : Fin 3) * 64 + 1 * (y 2).val
  omega

/-- An index of a result lies in point t's block iff each coordinate is in the block's range on its axis. -/
theorem mem_sums_blk (t : Fin cfg2.N) (i : S64x8x64.Idx) :
    i ∈ ((cfg2.win 4).blk t).view.set ↔ ∀ a : Fin 3, win2_4.index t a * S1x8x64.size a ≤ (i a).val ∧ (i a).val < win2_4.index t a * S1x8x64.size a + S1x8x64.size a := by
  show i ∈ ((View.whole main_v34_0).slice (win2_4.rect t)).set ↔ _
  rw [View.set_slice_whole, Rect.mem_set_unit]
  exact Iff.rfl
theorem mem_sqsums_blk (t : Fin cfg2.N) (i : S64x8x64.Idx) :
    i ∈ ((cfg2.win 5).blk t).view.set ↔ ∀ a : Fin 3, win2_5.index t a * S1x8x64.size a ≤ (i a).val ∧ (i a).val < win2_5.index t a * S1x8x64.size a + S1x8x64.size a := by
  show i ∈ ((View.whole main_v34_1).slice (win2_5.rect t)).set ↔ _
  rw [View.set_slice_whole, Rect.mem_set_unit]
  exact Iff.rfl

/-- Every index (s, p, k) of the sums is in the block point s writes back. -/
theorem sums_cover (i : S64x8x64.Idx) :
    ∃ t : Fin cfg2.N, (cfg2.win 4).flush t = true ∧ i ∈ ((cfg2.win 4).blk t).view.set := by
  have hi0 : (i 0).val < 64 := (i 0).isLt
  have hi1 : (i 1).val < 8 := (i 1).isLt
  have hi2 : (i 2).val < 64 := (i 2).isLt
  have hN : cfg2.N = 64 := points_64
  refine ⟨⟨(i 0).val, by rw [hN]; exact hi0⟩, flush2_4 _, ?_⟩
  obtain ⟨-, -, -, -, -, -, -, -, -, e0, e1, e2, -⟩ := idx_facts ⟨(i 0).val, by rw [hN]; exact hi0⟩
  rw [mem_sums_blk]
  intro a
  match a with
  | ⟨0, _⟩ => show win2_4.index _ (0 : Fin 3) * 1 ≤ (i 0).val ∧ (i 0).val < win2_4.index _ (0 : Fin 3) * 1 + 1; rw [e0]; show (i 0).val * 1 ≤ (i 0).val ∧ (i 0).val < (i 0).val * 1 + 1; omega
  | ⟨1, _⟩ => show win2_4.index _ (1 : Fin 3) * 8 ≤ (i 1).val ∧ (i 1).val < win2_4.index _ (1 : Fin 3) * 8 + 8; rw [e1]; omega
  | ⟨2, _⟩ => show win2_4.index _ (2 : Fin 3) * 64 ≤ (i 2).val ∧ (i 2).val < win2_4.index _ (2 : Fin 3) * 64 + 64; rw [e2]; omega

/-- And of the sums of squares likewise. -/
theorem sqsums_cover (i : S64x8x64.Idx) :
    ∃ t : Fin cfg2.N, (cfg2.win 5).flush t = true ∧ i ∈ ((cfg2.win 5).blk t).view.set := by
  have hi0 : (i 0).val < 64 := (i 0).isLt
  have hi1 : (i 1).val < 8 := (i 1).isLt
  have hi2 : (i 2).val < 64 := (i 2).isLt
  have hN : cfg2.N = 64 := points_64
  refine ⟨⟨(i 0).val, by rw [hN]; exact hi0⟩, flush2_5 _, ?_⟩
  obtain ⟨-, -, -, -, -, -, -, -, -, -, -, -, e0, e1, e2⟩ := idx_facts ⟨(i 0).val, by rw [hN]; exact hi0⟩
  rw [mem_sqsums_blk]
  intro a
  match a with
  | ⟨0, _⟩ => show win2_5.index _ (0 : Fin 3) * 1 ≤ (i 0).val ∧ (i 0).val < win2_5.index _ (0 : Fin 3) * 1 + 1; rw [e0]; show (i 0).val * 1 ≤ (i 0).val ∧ (i 0).val < (i 0).val * 1 + 1; omega
  | ⟨1, _⟩ => show win2_5.index _ (1 : Fin 3) * 8 ≤ (i 1).val ∧ (i 1).val < win2_5.index _ (1 : Fin 3) * 8 + 8; rw [e1]; omega
  | ⟨2, _⟩ => show win2_5.index _ (2 : Fin 3) * 64 ≤ (i 2).val ∧ (i 2).val < win2_5.index _ (2 : Fin 3) * 64 + 64; rw [e2]; omega

end Cert.PairStats

end
-- ==== Proof.PairStatsPoint.lean ====
/-
  One grid point of the statistics pass.

  The body loads its four blocks whole and stores each result block whole, so what it leaves in a result's
  buffer is the block computed from the loaded blocks.  At grid point t the loaded blocks are block t of the
  hidden states and the whole weights and bias, so the first result's buffer is block t of the whole arrays'
  per-block sums of the pair layer, and the second's block t of the per-block sums of squares.
-/
import proofs.«141456_j50483045597756_2_alg».proof.Proof.PairStatsBlock
import proofs.«141456_j50483045597756_2_alg».proof.Proof.PairStatsWindows

noncomputable section

namespace Cert.PairStats

open Idealize.ShloMosaic Idealize.ShloMosaic.ValueIdx Idealize.ShloMosaic.TcCoe Cert.KernelIdeal Cert.KernelIdeal.Gen
open Idealize.ShloMosaic.Pipeline (Dat)

variable (V : (c : Dev nD) → (b : Ref sig .tc) → Buf (Elt Ideal) ((c : Thread nD τ).loc b))

/-! ## Whole loads and one whole store -/

/-- The one store of the sums, over whole loads of the four blocks, leaves the sums of the blocks. -/
theorem sums_left (x0 : Vec Ideal S128x8x64 .f32) (x1 x2 : Vec Ideal S64x64 .f32) (x3 : Vec Ideal S1x64 .f32) :
    View.canon ([⟨Rect.unit (s := S1x8x64) ![0, 0, 0] S1x8x64.size inb_S1x8x64_S1x8x64_0_0_0,
        k2_pay4 (View.ld x0 (Rect.unit (s := S128x8x64) ![0, 0, 0] S128x8x64.size inb_S128x8x64_S128x8x64_0_0_0))
          (View.ld x1 (Rect.unit (s := S64x64) ![0, 0] S64x64.size inb_S64x64_S64x64_0_0))
          (View.ld x2 (Rect.unit (s := S64x64) ![0, 0] S64x64.size inb_S64x64_S64x64_0_0))
          (View.ld x3 (Rect.unit (s := S1x64) ![0, 0] S1x64.size inb_S1x64_S1x64_0_0))⟩] :
        List (View.Piece (Elt Ideal) S1x8x64 .f32))
      = k2_pay4 x0 x1 x2 x3 := by
  rw [View.canon_unit_zero zeros3]
  simp only [View.ld_unit_zero (S := S128x8x64) zeros3, View.ld_unit_zero (S := S64x64) zeros2,
    View.ld_unit_zero (S := S1x64) zeros2]

/-- The one store of the sums of squares likewise. -/
theorem sqsums_left (x0 : Vec Ideal S128x8x64 .f32) (x1 x2 : Vec Ideal S64x64 .f32) (x3 : Vec Ideal S1x64 .f32) :
    View.canon ([⟨Rect.unit (s := S1x8x64) ![0, 0, 0] S1x8x64.size inb_S1x8x64_S1x8x64_0_0_0,
        k2_pay1 (k2_pay3 (View.ld x0 (Rect.unit (s := S128x8x64) ![0, 0, 0] S128x8x64.size inb_S128x8x64_S128x8x64_0_0_0))
          (View.ld x1 (Rect.unit (s := S64x64) ![0, 0] S64x64.size inb_S64x64_S64x64_0_0))
          (View.ld x2 (Rect.unit (s := S64x64) ![0, 0] S64x64.size inb_S64x64_S64x64_0_0))
          (View.ld x3 (Rect.unit (s := S1x64) ![0, 0] S1x64.size inb_S1x64_S1x64_0_0)))⟩] :
        List (View.Piece (Elt Ideal) S1x8x64 .f32))
      = k2_pay1 (k2_pay3 x0 x1 x2 x3) := by
  rw [View.canon_unit_zero zeros3]
  simp only [View.ld_unit_zero (S := S128x8x64) zeros3, View.ld_unit_zero (S := S64x64) zeros2,
    View.ld_unit_zero (S := S1x64) zeros2]

/-! ## The two result blocks at grid point t -/

/-- The sums computed from point t's blocks, as written back, are block t of the whole arrays' block sums. -/
theorem sums_point (c : Dev nD) (t : Fin cfg2.N) :
    (cfg2.win 4).cut (grid2.coords t)
        (k2_pay4 (blockAt V c 0 t) (blockAt V c 1 t) (blockAt V c 2 t) (blockAt V c 3 t))
      = ((cfg2.win 4).blk t).view.read (Elt Ideal)
          (Cert.Spec.pairBlockSums (V c main_v31 : S8192x8x64.Idx → EReal) (V c main_v32 : S64x64.Idx → EReal)
            (V c main_v33 : S64x64.Idx → EReal) (V c main_v7 : S1x64.Idx → EReal)) := by
  funext y
  show k2_pay4 (blockAt V c 0 t) (blockAt V c 1 t) (blockAt V c 2 t) (blockAt V c 3 t) y
    = Cert.Spec.pairBlockSums _ _ _ _ (((cfg2.win 4).blk t).view.emb y)
  exact blockSums_of_blocks _ _ _ _ (blockAt V c 0 t) (blockAt V c 1 t) (blockAt V c 2 t) (blockAt V c 3 t) y
    (((cfg2.win 4).blk t).view.emb y)
    (fun b a q => states_read V c t _ (sums_pos0 t y) b a q) (top_read V c t) (bot_read V c t) (bias_read V c t)
    (sums_pos2 t y)

/-- The sums of squares likewise. -/
theorem sqsums_point (c : Dev nD) (t : Fin cfg2.N) :
    (cfg2.win 5).cut (grid2.coords t)
        (k2_pay1 (k2_pay3 (blockAt V c 0 t) (blockAt V c 1 t) (blockAt V c 2 t) (blockAt V c 3 t)))
      = ((cfg2.win 5).blk t).view.read (Elt Ideal)
          (Cert.Spec.pairBlockSqSums (V c main_v31 : S8192x8x64.Idx → EReal) (V c main_v32 : S64x64.Idx → EReal)
            (V c main_v33 : S64x64.Idx → EReal) (V c main_v7 : S1x64.Idx → EReal)) := by
  funext y
  show k2_pay1 (k2_pay3 (blockAt V c 0 t) (blockAt V c 1 t) (blockAt V c 2 t) (blockAt V c 3 t)) y
    = Cert.Spec.pairBlockSqSums _ _ _ _ (((cfg2.win 5).blk t).view.emb y)
  exact blockSqSums_of_blocks _ _ _ _ (blockAt V c 0 t) (blockAt V c 1 t) (blockAt V c 2 t) (blockAt V c 3 t) y
    (((cfg2.win 5).blk t).view.emb y)
    (fun b a q => states_read V c t _ (sqsums_pos0 t y) b a q) (top_read V c t) (bot_read V c t) (bias_read V c t)
    (sqsums_pos2 t y)

/-! ## The two result arrays, for any proof data of the pass whose body leaves these blocks -/

section AnyData
open Idealize.SL.RA
variable {Ix : Type} [DecidableEq Ix] {Name : Type} [DecidableEq Name] {U : Type} [URA U] {Lvl : Type}

/-- If the body leaves, at every grid point, the sums computed from the point's blocks in the first result's
    buffer, the first result array ends holding the per-block sums of the pair layer: point t writes back block
    t of them, and the 64 blocks cover the array. -/
theorem sums_arr_of (c : Dev nD) (dat : Dat τ (Elt Ideal) Ix Name U Lvl cfg2 c)
    (hafter : ∀ t : Fin cfg2.N, dat.after 4 t
      = k2_pay4 (blockAt V c 0 t) (blockAt V c 1 t) (blockAt V c 2 t) (blockAt V c 3 t)) :
    dat.arrAt 4 cfg2.N
      = Cert.Spec.pairBlockSums (V c main_v31 : S8192x8x64.Idx → EReal) (V c main_v32 : S64x64.Idx → EReal)
          (V c main_v33 : S64x64.Idx → EReal) (V c main_v7 : S1x64.Idx → EReal) :=
  dat.arrAt_eq_of_cover 4 _ (fun t _ => by
    show (cfg2.win 4).cut (grid2.coords t) (dat.after 4 t) = _
    rw [hafter t]
    exact sums_point V c t) sums_cover

/-- The same for the sums of squares. -/
theorem sqsums_arr_of (c : Dev nD) (dat : Dat τ (Elt Ideal) Ix Name U Lvl cfg2 c)
    (hafter : ∀ t : Fin cfg2.N, dat.after 5 t
      = k2_pay1 (k2_pay3 (blockAt V c 0 t) (blockAt V c 1 t) (blockAt V c 2 t) (blockAt V c 3 t))) :
    dat.arrAt 5 cfg2.N
      = Cert.Spec.pairBlockSqSums (V c main_v31 : S8192x8x64.Idx → EReal) (V c main_v32 : S64x64.Idx → EReal)
          (V c main_v33 : S64x64.Idx → EReal) (V c main_v7 : S1x64.Idx → EReal) :=
  dat.arrAt_eq_of_cover 5 _ (fun t _ => by
    show (cfg2.win 5).cut (grid2.coords t) (dat.after 5 t) = _
    rw [hafter t]
    exact sqsums_point V c t) sqsums_cover

end AnyData

end Cert.PairStats

end
-- ==== Proof.PairStatsArr.lean ====
/-
  The statistics pass as a whole: its two result arrays.

  At every grid point the body leaves in each result's buffer the block computed from the point's loaded blocks,
  so after the pass the first result array is `Spec.pairBlockSums` and the second `Spec.pairBlockSqSums` of the
  hidden states grouped by batch entry, the two halves of the pair weights and the bias row, as the pass finds
  them.
-/
import proofs.«141456_j50483045597756_2_alg».proof.Proof.PairStatsPoint
import proofs.«141456_j50483045597756_2_alg».proof.Proof.KernelIdealFrameP

noncomputable section

namespace Cert.PairStats

open Idealize.ShloMosaic Idealize.ShloMosaic.ValueIdx Idealize.ShloMosaic.TcCoe Cert.KernelIdeal Cert.KernelIdeal.Gen Cert.KernelIdeal.GenP
open Idealize.ShloMosaic.Pipeline (Dat)

variable (V : (c : Dev nD) → (b : Ref sig .tc) → Buf (Elt Ideal) ((c : Thread nD τ).loc b))

/-- After the pass the first result array holds the per-block sums of the pair layer. -/
theorem sums_arr (c : Dev nD) :
    (dat2 V c).arrAt 4 cfg2.N
      = Cert.Spec.pairBlockSums (V c main_v31 : S8192x8x64.Idx → EReal) (V c main_v32 : S64x64.Idx → EReal)
          (V c main_v33 : S64x64.Idx → EReal) (V c main_v7 : S1x64.Idx → EReal) :=
  sums_arr_of V c (dat2 V c) fun t =>
    (after2_4 V c t).trans (sums_left (iblk2 V c 0 t) (iblk2 V c 1 t) (iblk2 V c 2 t) (iblk2 V c 3 t))

/-- And the second the per-block sums of its squares. -/
theorem sqsums_arr (c : Dev nD) :
    (dat2 V c).arrAt 5 cfg2.N
      = Cert.Spec.pairBlockSqSums (V c main_v31 : S8192x8x64.Idx → EReal) (V c main_v32 : S64x64.Idx → EReal)
          (V c main_v33 : S64x64.Idx → EReal) (V c main_v7 : S1x64.Idx → EReal) :=
  sqsums_arr_of V c (dat2 V c) fun t =>
    (after2_5 V c t).trans (sqsums_left (iblk2 V c 0 t) (iblk2 V c 1 t) (iblk2 V c 2 t) (iblk2 V c 3 t))

end Cert.PairStats

end
-- ==== Proof.PairKLa.lean ====
import proofs.«141456_j50483045597756_2_alg».proof.Proof.Gen.KernelIdeal.Skeleton
import proofs.«141456_j50483045597756_2_alg».proof.Proof.Spec
import Idealize.ShloMosaic.Lib.Pipeline.Value
import Idealize.ShloMosaic.Lib.ValueLayout

noncomputable section

namespace Cert.PairKL

open Idealize.ShloMosaic Idealize.ShloMosaic.ValueIdx Cert.KernelIdeal Cert.KernelIdeal.Gen Cert.Dense

/-! # The pair layer of the poster head, entry by entry

  The body flattens the block's hidden states to 1024 = 128 * 8 rows, multiplies them by the top and by the bottom
  half of the pair weights, folds both products back to [128, 8, 64], repeats the first over the pair's first agent
  and the second over its second agent, and adds the bias row: at (b, j, i, k) that is agent i's state through the top
  half plus agent j's state through the bottom half plus the bias, the specification's pair layer. -/

/-! ## The product's coordinates -/

theorem d64_l0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide),
    dif_pos (show (0 : Fin S1024x64.rank) ∈ dot_S1024x64_S64x64_S1024x64_1_0_0_1_n_n.lhsNonContracting by decide)]
  rfl
theorem d64_l1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
theorem d64_r0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
theorem d64_r1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide),
    dif_pos (show (1 : Fin S64x64.rank) ∈ dot_S1024x64_S64x64_S1024x64_1_0_0_1_n_n.rhsNonContracting by decide)]
  rfl

/-! ## Layout steps at an index -/

/-- Row r of the 1024 flattened rows is agent r % 8 of batch entry r / 8. -/
theorem flat_apply {φ : FTy} (x : FVec Ideal S128x8x64 φ) (h : S128x8x64.ShapeCasts S1024x64) (r : Fin 1024) (q : Fin 64) :
    shapeCast S1024x64 x h (ix2 r q) = x (ix3 ⟨r.val / 8, by omega⟩ ⟨r.val % 8, by omega⟩ q) := by
  refine shapeCast_apply x _ (ix2 r q) _ ?_
  rw [Shape.rowMajor_val_three, Shape.rowMajor_val_two]
  show ((r.val / 8) * 8 + r.val % 8) * 64 + q.val = r.val * 64 + q.val
  omega

/-- Folding 1024 rows back: (b, a) is row b * 8 + a. -/
theorem fold_apply (x : FVec Ideal S1024x64 .f32) (h : S1024x64.ShapeCasts S128x8x64) (b : Fin 128) (a : Fin 8) (k : Fin 64) :
    shapeCast S128x8x64 x h (ix3 b a k) = x (ix2 ⟨b.val * 8 + a.val, by omega⟩ k) := by
  refine shapeCast_apply x _ (ix3 b a k) _ ?_
  rw [Shape.rowMajor_val_three, Shape.rowMajor_val_two]
  rfl

/-- A [128, 8, 64] value given a unit second axis and repeated along it: (b, j, i, k) reads (b, i, k). -/
theorem overFirst_apply (x : FVec Ideal S128x8x64 .f32) (h1 : S128x8x64.ShapeCasts S128x1x8x64)
    (h2 : S128x1x8x64.ShapeCasts S128x1x8x64) (h3 : S128x1x8x64.Broadcasts S128x8x8x64) (b : Fin 128) (j i : Fin 8) (k : Fin 64) :
    broadcastTo S128x8x8x64 (shapeCast S128x1x8x64 (shapeCast S128x1x8x64 x h1) h2) h3 (ix4 b j i k) = x (ix3 b i k) := by
  refine (broadcastTo_apply _ h3 (ix4 b j i k) (ix4 b (0 : Fin 1) i k) fun a => ?_).trans ?_
  · match a with
    | ⟨0, _⟩ => rfl
    | ⟨1, _⟩ => rfl
    | ⟨2, _⟩ => rfl
    | ⟨3, _⟩ => rfl
  · rw [shapeCast_self]
    refine shapeCast_apply x h1 (ix4 b (0 : Fin 1) i k) (ix3 b i k) ?_
    rw [Shape.rowMajor_val_three, Shape.rowMajor_val_four]
    show (b.val * 8 + i.val) * 64 + k.val = ((b.val * 1 + 0) * 8 + i.val) * 64 + k.val
    omega

/-- A [128, 8, 64] value given a unit third axis and repeated along it: (b, j, i, k) reads (b, j, k). -/
theorem overSecond_apply (x : FVec Ideal S128x8x64 .f32) (h1 : S128x8x64.ShapeCasts S128x8x1x64)
    (h2 : S128x8x1x64.ShapeCasts S128x8x1x64) (h3 : S128x8x1x64.Broadcasts S128x8x8x64) (b : Fin 128) (j i : Fin 8) (k : Fin 64) :
    broadcastTo S128x8x8x64 (shapeCast S128x8x1x64 (shapeCast S128x8x1x64 x h1) h2) h3 (ix4 b j i k) = x (ix3 b j k) := by
  refine (broadcastTo_apply _ h3 (ix4 b j i k) (ix4 b j (0 : Fin 1) k) fun a => ?_).trans ?_
  · match a with
    | ⟨0, _⟩ => rfl
    | ⟨1, _⟩ => rfl
    | ⟨2, _⟩ => rfl
    | ⟨3, _⟩ => rfl
  · rw [shapeCast_self]
    refine shapeCast_apply x h1 (ix4 b j (0 : Fin 1) k) (ix3 b j k) ?_
    rw [Shape.rowMajor_val_three, Shape.rowMajor_val_four]
    show (b.val * 8 + j.val) * 64 + k.val = ((b.val * 8 + j.val) * 1 + 0) * 64 + k.val
    omega

/-- A [1, 64] row as a [1, 1, 1, 64] value: (0, 0, 0, k) reads (0, k). -/
theorem row4_apply (x : FVec Ideal S1x64 .f32) (h : S1x64.ShapeCasts S1x1x1x64) (k : Fin 64) :
    shapeCast S1x1x1x64 x h (ix4 (0 : Fin 1) (0 : Fin 1) (0 : Fin 1) k) = x (ix2 (0 : Fin 1) k) := by
  refine shapeCast_apply x h _ (ix2 (0 : Fin 1) k) ?_
  rw [Shape.rowMajor_val_two, Shape.rowMajor_val_four]
  rfl

/-- A [1, 1, 1, 64] value repeated over the three leading axes: (b, j, i, k) reads (0, 0, 0, k). -/
theorem overAll_apply (x : FVec Ideal S1x1x1x64 .f32) (h : S1x1x1x64.Broadcasts S128x8x8x64) (b : Fin 128) (j i : Fin 8) (k : Fin 64) :
    broadcastTo S128x8x8x64 x h (ix4 b j i k) = x (ix4 (0 : Fin 1) (0 : Fin 1) (0 : Fin 1) k) := by
  refine broadcastTo_apply _ h (ix4 b j i k) _ fun a => ?_
  match a with
  | ⟨0, _⟩ => rfl
  | ⟨1, _⟩ => rfl
  | ⟨2, _⟩ => rfl
  | ⟨3, _⟩ => rfl

/-! ## One half of the pair layer -/

/-- The flattened states times a [64, 64] weight, folded back: at (b, a, k) the sum over q of the state of agent a of
    entry b at q times the weight at (q, k). -/
theorem half_apply (x0 : Vec Ideal S128x8x64 .f32) (w : Vec Ideal S64x64 .f32) (b : Fin 128) (a : Fin 8) (k : Fin 64) :
    shapeCast S128x8x64 (matmul (F := Ideal) dot_S1024x64_S64x64_S1024x64_1_0_0_1_n_n none
        (shapeCast S1024x64 (truncf (F := Ideal) .bf16 (shapeCast S128x8x64 x0 shapeCasts_S128x8x64_S128x8x64) bitsLt_bf16_f32) shapeCasts_S128x8x64_S1024x64)
        (truncf (F := Ideal) .bf16 (shapeCast S64x64 w shapeCasts_S64x64_S64x64) bitsLt_bf16_f32)
        (constant (F := Ideal) S1024x64 .f32 0x00000000#32)) shapeCasts_S1024x64_S128x8x64 (ix3 b a k)
      = ∑ q : Fin 64, x0 (ix3 b a q) * w (ix2 q k) := by
  refine (fold_apply _ _ b a k).trans ?_
  refine (matmul_zero_eq dot_S1024x64_S64x64_S1024x64_1_0_0_1_n_n rfl rfl d64_l0 d64_l1 d64_r0 d64_r1 none _ _ _).trans ?_
  unfold mm
  refine Finset.sum_congr rfl fun q _ => ?_
  rw [shapeCast_self, shapeCast_self]
  show shapeCast S1024x64 (truncf (F := Ideal) .bf16 x0 bitsLt_bf16_f32) shapeCasts_S128x8x64_S1024x64 (ix2 ⟨b.val * 8 + a.val, _⟩ q) * w (ix2 q k) = _
  rw [flat_apply]
  show x0 (ix3 ⟨(b.val * 8 + a.val) / 8, _⟩ ⟨(b.val * 8 + a.val) % 8, _⟩ q) * w (ix2 q k) = _
  have e1 : (⟨(b.val * 8 + a.val) / 8, by omega⟩ : Fin 128) = b := Fin.ext (by show (b.val * 8 + a.val) / 8 = b.val; omega)
  have e2 : (⟨(b.val * 8 + a.val) % 8, by omega⟩ : Fin 8) = a := Fin.ext (by show (b.val * 8 + a.val) % 8 = a.val; omega)
  rw [e1, e2]

/-! ## The pair layer -/

/-- The body's [128, 8, 8, 64] pair tensor at (b, j, i, k) is the specification's pair layer of the block's hidden
    states, the two weight halves and the bias row. -/
theorem pair_apply (x0 : Vec Ideal S128x8x64 .f32) (x1 x2 : Vec Ideal S64x64 .f32) (x3 : Vec Ideal S1x64 .f32)
    (b : Fin 128) (j i : Fin 8) (k : Fin 64) :
    k3_pay2 x0 x1 x2 x3 (ix4 b j i k) = Spec.pairPre x0 x1 x2 x3 b j i k := by
  unfold k3_pay2 Spec.pairPre
  show (broadcastTo S128x8x8x64 _ _ (ix4 b j i k) + broadcastTo S128x8x8x64 _ _ (ix4 b j i k)) + broadcastTo S128x8x8x64 _ _ (ix4 b j i k) = _
  rw [overFirst_apply, overSecond_apply, overAll_apply, half_apply, half_apply, row4_apply, shapeCast_self]

end Cert.PairKL

end
-- ==== Proof.PairKLb.lean ====
import proofs.«141456_j50483045597756_2_alg».proof.Proof.Gen.KernelIdeal.Skeleton
import proofs.«141456_j50483045597756_2_alg».proof.Proof.Spec
import proofs.«141456_j50483045597756_2_alg».proof.Proof.PairKLa
import Idealize.ShloMosaic.Lib.Pipeline.Value
import Idealize.ShloMosaic.Lib.ValueLayout

noncomputable section

namespace Cert.PairKL

open Idealize.ShloMosaic Idealize.ShloMosaic.ValueIdx Cert.KernelIdeal Cert.KernelIdeal.Gen Cert.Dense

/-! # Normalisation, rectifier and the 6-output layer of the poster head, entry by entry

  The body subtracts the batch mean from the pair tensor, scales by the gain and by the reciprocal square root of
  the variance plus the offset, adds the shift and rectifies; it reads the result as 8192 = 128 * 8 * 8 rows and
  applies the 6-output dense layer.  Row (b * 8 + j) * 8 + i is the pair (j, i) of batch entry b, so the layer's
  output there is the specification's pair output at (b, j, i). -/

/-! ## The product's coordinates -/

theorem d6_l0 (i : S8192x6.Idx) (q : dot_S8192x64_S64x6_S8192x6_1_0_0_1_n_n.contr.Idx) :
    (dot_S8192x64_S64x6_S8192x6_1_0_0_1_n_n.lhsIdx i q 0).val = (i 0).val := by
  unfold DotDims.lhsIdx
  rw [dif_neg (show ¬(0 : Fin S8192x64.rank) ∈ dot_S8192x64_S64x6_S8192x6_1_0_0_1_n_n.lhsBatch by decide),
    dif_pos (show (0 : Fin S8192x64.rank) ∈ dot_S8192x64_S64x6_S8192x6_1_0_0_1_n_n.lhsNonContracting by decide)]
  rfl
theorem d6_l1 (i : S8192x6.Idx) (q : dot_S8192x64_S64x6_S8192x6_1_0_0_1_n_n.contr.Idx) :
    (dot_S8192x64_S64x6_S8192x6_1_0_0_1_n_n.lhsIdx i q 1).val = (q ⟨0, by decide⟩).val :=
  dot_S8192x64_S64x6_S8192x6_1_0_0_1_n_n.lhsIdx_val_of_single rfl i q
theorem d6_r0 (i : S8192x6.Idx) (q : dot_S8192x64_S64x6_S8192x6_1_0_0_1_n_n.contr.Idx) :
    (dot_S8192x64_S64x6_S8192x6_1_0_0_1_n_n.rhsIdx i q 0).val = (q ⟨0, by decide⟩).val :=
  dot_S8192x64_S64x6_S8192x6_1_0_0_1_n_n.rhsIdx_val_of_single rfl i q
theorem d6_r1 (i : S8192x6.Idx) (q : dot_S8192x64_S64x6_S8192x6_1_0_0_1_n_n.contr.Idx) :
    (dot_S8192x64_S64x6_S8192x6_1_0_0_1_n_n.rhsIdx i q 1).val = (i 1).val := by
  unfold DotDims.rhsIdx
  rw [dif_neg (show ¬(1 : Fin S64x6.rank) ∈ dot_S8192x64_S64x6_S8192x6_1_0_0_1_n_n.rhsBatch by decide),
    dif_pos (show (1 : Fin S64x6.rank) ∈ dot_S8192x64_S64x6_S8192x6_1_0_0_1_n_n.rhsNonContracting by decide)]
  rfl

/-! ## Layout steps at an index -/

/-- Row (b * 8 + j) * 8 + i of the 8192 flattened rows is (b, j, i). -/
theorem flat4_apply {φ : FTy} (x : FVec Ideal S128x8x8x64 φ) (h : S128x8x8x64.ShapeCasts S8192x64)
    (b : Fin 128) (j i : Fin 8) (k : Fin 64) :
    shapeCast S8192x64 x h (ix2 (⟨(b.val * 8 + j.val) * 8 + i.val, by omega⟩ : Fin 8192) k) = x (ix4 b j i k) := by
  refine shapeCast_apply x h _ (ix4 b j i k) ?_
  rw [Shape.rowMajor_val_four, Shape.rowMajor_val_two]
  rfl

/-- A [1, 6] row repeated over 8192 rows. -/
theorem biasRow_apply (x : FVec Ideal S1x6 .f32) (h : S1x6.Broadcasts S8192x6) (r : Fin 8192) (e : Fin 6) :
    broadcastTo S8192x6 x h (ix2 r e) = x (ix2 (0 : Fin 1) e) := by
  refine broadcastTo_apply _ h (ix2 r e) _ fun a => ?_
  match a with
  | ⟨0, _⟩ => rfl
  | ⟨1, _⟩ => rfl

/-! ## The normalised, rectified pair tensor -/

/-- One normalised, scaled, shifted and rectified entry, from the pair tensor and the four [1, 1, 1, 64] or [1, 64]
    rows the body holds: the reciprocal root r, the mean m, the gain g and the shift. -/
def rawAct (v25 : FVec Ideal S128x8x8x64 .f32) (r m g : FVec Ideal S1x1x1x64 .f32) (sh : Vec Ideal S1x64 .f32)
    (b : Fin 128) (j i : Fin 8) (k : Fin 64) : EReal :=
  max (g (ix4 (0 : Fin 1) (0 : Fin 1) (0 : Fin 1) k) * (v25 (ix4 b j i k) - m (ix4 (0 : Fin 1) (0 : Fin 1) (0 : Fin 1) k))
      * r (ix4 (0 : Fin 1) (0 : Fin 1) (0 : Fin 1) k) + sh (ix2 (0 : Fin 1) k)) Spec.zero

theorem act_apply (v25 : FVec Ideal S128x8x8x64 .f32) (v31 v34 v37 : FVec Ideal S1x1x1x64 .f32) (v38 : Vec Ideal S1x64 .f32)
    (b : Fin 128) (j i : Fin 8) (k : Fin 64) :
    (maximumf (F := Ideal) (addf (mulf (mulf (broadcastTo S128x8x8x64 v37 broadcasts_S1x1x1x64_S128x8x8x64) (subf v25 (broadcastTo S128x8x8x64 v34 broadcasts_S1x1x1x64_S128x8x8x64))) (broadcastTo S128x8x8x64 v31 broadcasts_S1x1x1x64_S128x8x8x64)) (broadcastTo S128x8x8x64 (shapeCast S1x1x1x64 (shapeCast S1x64 v38 shapeCasts_S1x64_S1x64) shapeCasts_S1x64_S1x1x1x64) broadcasts_S1x1x1x64_S128x8x8x64)) (broadcast S128x8x8x64 (Scalar.ofBits (F := Ideal) .f32 0x00000000#32))) (ix4 b j i k) = rawAct v25 v31 v34 v37 v38 b j i k := by
  unfold rawAct
  show max (broadcastTo S128x8x8x64 v37 _ (ix4 b j i k) * (v25 (ix4 b j i k) - broadcastTo S128x8x8x64 v34 _ (ix4 b j i k))
      * broadcastTo S128x8x8x64 v31 _ (ix4 b j i k) + broadcastTo S128x8x8x64 _ _ (ix4 b j i k)) _ = _
  rw [overAll_apply, overAll_apply, overAll_apply, overAll_apply, row4_apply, shapeCast_self]
  rfl

/-! ## The 6-output layer -/

/-- The layer's output at (b, j, i), output e, from the body's values. -/
def rawOut (v25 : FVec Ideal S128x8x8x64 .f32) (r m g : FVec Ideal S1x1x1x64 .f32) (sh : Vec Ideal S1x64 .f32)
    (w : Vec Ideal S64x6 .f32) (bias : Vec Ideal S1x6 .f32) (b : Fin 128) (j i : Fin 8) (e : Fin 6) : EReal :=
  (∑ k : Fin 64, rawAct v25 r m g sh b j i k * w (ix2 k e)) + bias (ix2 (0 : Fin 1) e)

theorem out_apply (v25 : FVec Ideal S128x8x8x64 .f32) (v31 v34 v37 : FVec Ideal S1x1x1x64 .f32) (v38 : Vec Ideal S1x64 .f32)
    (v53 : Vec Ideal S64x6 .f32) (v56 : Vec Ideal S1x6 .f32) (b : Fin 128) (j i : Fin 8) (e : Fin 6) :
    (addf (F := Ideal) (matmul (F := Ideal) dot_S8192x64_S64x6_S8192x6_1_0_0_1_n_n none (truncf (F := Ideal) .bf16 (shapeCast S8192x64 (maximumf (F := Ideal) (addf (mulf (mulf (broadcastTo S128x8x8x64 v37 broadcasts_S1x1x1x64_S128x8x8x64) (subf v25 (broadcastTo S128x8x8x64 v34 broadcasts_S1x1x1x64_S128x8x8x64))) (broadcastTo S128x8x8x64 v31 broadcasts_S1x1x1x64_S128x8x8x64)) (broadcastTo S128x8x8x64 (shapeCast S1x1x1x64 (shapeCast S1x64 v38 shapeCasts_S1x64_S1x64) shapeCasts_S1x64_S1x1x1x64) broadcasts_S1x1x1x64_S128x8x8x64)) (broadcast S128x8x8x64 (Scalar.ofBits (F := Ideal) .f32 0x00000000#32))) shapeCasts_S128x8x8x64_S8192x64) bitsLt_bf16_f32) (truncf (F := Ideal) .bf16 v53 bitsLt_bf16_f32) (constant (F := Ideal) S8192x6 .f32 0x00000000#32)) (broadcastTo S8192x6 (shapeCast S1x6 v56 shapeCasts_S1x6_S1x6) broadcasts_S1x6_S8192x6))
        (ix2 (⟨(b.val * 8 + j.val) * 8 + i.val, by omega⟩ : Fin 8192) e)
      = rawOut v25 v31 v34 v37 v38 v53 v56 b j i e := by
  unfold rawOut
  show matmul (F := Ideal) _ _ _ _ _ (ix2 _ e) + broadcastTo S8192x6 _ _ (ix2 _ e) = _
  rw [biasRow_apply, shapeCast_self v56]
  refine congrArg (· + v56 (ix2 (0 : Fin 1) e)) ?_
  refine (matmul_zero_eq dot_S8192x64_S64x6_S8192x6_1_0_0_1_n_n rfl rfl d6_l0 d6_l1 d6_r0 d6_r1 none _ _ _).trans ?_
  unfold mm
  refine Finset.sum_congr rfl fun k _ => ?_
  rw [truncf_apply, truncf_apply]
  exact congrArg₂ (· * ·) ((flat4_apply _ _ b j i k).trans (act_apply v25 v31 v34 v37 v38 b j i k)) rfl

/-! ## The three statistics rows -/

theorem pay3_apply (v26 : Vec Ideal S1x64 .f32) (k : Fin 64) :
    k3_pay3 v26 (ix4 (0 : Fin 1) (0 : Fin 1) (0 : Fin 1) k) = Ideal.rsqrt (v26 (ix2 (0 : Fin 1) k) + Spec.eps) := by
  unfold k3_pay3
  rw [row4_apply, shapeCast_self]
  rfl

theorem pay4_apply (v32 : Vec Ideal S1x64 .f32) (k : Fin 64) :
    k3_pay4 v32 (ix4 (0 : Fin 1) (0 : Fin 1) (0 : Fin 1) k) = v32 (ix2 (0 : Fin 1) k) := by
  unfold k3_pay4
  rw [row4_apply, shapeCast_self]

theorem pay5_apply (v35 : Vec Ideal S1x64 .f32) (k : Fin 64) :
    k3_pay5 v35 (ix4 (0 : Fin 1) (0 : Fin 1) (0 : Fin 1) k) = v35 (ix2 (0 : Fin 1) k) := by
  unfold k3_pay5
  rw [row4_apply, shapeCast_self]

/-! ## The layer's output is the specification's pair output -/

/-- With the pair tensor, the reciprocal root of the variance row x5, the mean row x4 and the gain row x6 as the
    body computes them, the layer's output at (b, j, i) is the specification's. -/
theorem rawOut_pair (x0 : Vec Ideal S128x8x64 .f32) (x1 x2 : Vec Ideal S64x64 .f32) (x3 x4 x5 x6 x7 : Vec Ideal S1x64 .f32)
    (x8 : Vec Ideal S64x6 .f32) (x9 : Vec Ideal S1x6 .f32) (b : Fin 128) (j i : Fin 8) (e : Fin 6) :
    rawOut (k3_pay2 x0 x1 x2 x3) (k3_pay3 x5) (k3_pay4 x4) (k3_pay5 x6) x7 x8 x9 b j i e
      = Spec.pairOut x0 x1 x2 x3 x4 x5 x6 x7 x8 x9 b j i e := by
  unfold rawOut Spec.pairOut rawAct Spec.bnAct
  refine congrArg (· + x9 (ix2 (0 : Fin 1) e)) (Finset.sum_congr rfl fun k _ => ?_)
  rw [pair_apply, pay3_apply, pay4_apply, pay5_apply]

end Cert.PairKL

end
-- ==== Proof.PairKLc.lean ====
import proofs.«141456_j50483045597756_2_alg».proof.Proof.Gen.KernelIdeal.Skeleton
import proofs.«141456_j50483045597756_2_alg».proof.Proof.Spec
import proofs.«141456_j50483045597756_2_alg».proof.Proof.PairKLb
import Idealize.ShloMosaic.Lib.Pipeline.Value
import Idealize.ShloMosaic.Lib.ValueLayout

noncomputable section

namespace Cert.PairKL

open Idealize.ShloMosaic Idealize.ShloMosaic.ValueIdx Cert.KernelIdeal Cert.KernelIdeal.Gen Cert.Dense

/-! # The two merged slices and one component's divergence term

  The [8192, 6] layer output is read as [128, 8, 8, 6]; the outputs of the first four agents i and of the last four are
  each merged to 24 = 4 * 6 components, component c being agent slot c / 6 (or 4 + c / 6) and output c % 6.  The first
  24 are means, the exponentials of the last 24, floored, are variances; with the awareness head's mean and variance
  the body forms one half of (log (s1 / s) + (s + (m - m1)^2) / s1 - 1), the specification's divergence term. -/

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- Component c of the first four agents' merged outputs at (b, j) is the layer's row (b * 8 + j) * 8 + c / 6,
    output c % 6. -/
theorem lo_apply (o : FVec Ideal S8192x6 .f32) (h1 : S8192x6.ShapeCasts S128x8x8x6)
    (h2 : S128x8x8x6.Slices ![0, 0, 0, 0] S128x8x4x6) (h3 : S128x8x4x6.ShapeCasts S128x8x24) (b : Fin 128) (j : Fin 8) (c : Fin 24) :
    shapeCast S128x8x24 (extractStridedSlice S128x8x4x6 ![0, 0, 0, 0] (shapeCast S128x8x8x6 o h1) h2) h3 (ix3 b j c)
      = o (ix2 (⟨(b.val * 8 + j.val) * 8 + (Spec.slotLo c).val, by have := (Spec.slotLo c).isLt; omega⟩ : Fin 8192) (Spec.comp6 c)) := by
  refine (shapeCast_apply _ h3 (ix3 b j c) (ix4 b j (⟨c.val / 6, by omega⟩ : Fin 4) (Spec.comp6 c)) ?_).trans ?_
  · rw [Shape.rowMajor_val_four, Shape.rowMajor_val_three]
    show ((b.val * 8 + j.val) * 4 + c.val / 6) * 6 + c.val % 6 = (b.val * 8 + j.val) * 24 + c.val
    omega
  refine (extractStridedSlice_apply _ _ h2 _ (ix4 b j (Spec.slotLo c) (Spec.comp6 c)) fun a => ?_).trans ?_
  · match a with
    | ⟨0, _⟩ => show b.val = 0 + b.val; omega
    | ⟨1, _⟩ => show j.val = 0 + j.val; omega
    | ⟨2, _⟩ => show c.val / 6 = 0 + c.val / 6; omega
    | ⟨3, _⟩ => show c.val % 6 = 0 + c.val % 6; omega
  refine shapeCast_apply o h1 _ (ix2 _ (Spec.comp6 c)) ?_
  rw [Shape.rowMajor_val_two, Shape.rowMajor_val_four]
  rfl

/-- Component c of the last four agents' merged outputs at (b, j) is the layer's row (b * 8 + j) * 8 + 4 + c / 6,
    output c % 6. -/
theorem hi_apply (o : FVec Ideal S8192x6 .f32) (h1 : S8192x6.ShapeCasts S128x8x8x6)
    (h2 : S128x8x8x6.Slices ![0, 0, 4, 0] S128x8x4x6) (h3 : S128x8x4x6.ShapeCasts S128x8x24) (b : Fin 128) (j : Fin 8) (c : Fin 24) :
    shapeCast S128x8x24 (extractStridedSlice S128x8x4x6 ![0, 0, 4, 0] (shapeCast S128x8x8x6 o h1) h2) h3 (ix3 b j c)
      = o (ix2 (⟨(b.val * 8 + j.val) * 8 + (Spec.slotHi c).val, by have := (Spec.slotHi c).isLt; omega⟩ : Fin 8192) (Spec.comp6 c)) := by
  refine (shapeCast_apply _ h3 (ix3 b j c) (ix4 b j (⟨c.val / 6, by omega⟩ : Fin 4) (Spec.comp6 c)) ?_).trans ?_
  · rw [Shape.rowMajor_val_four, Shape.rowMajor_val_three]
    show ((b.val * 8 + j.val) * 4 + c.val / 6) * 6 + c.val % 6 = (b.val * 8 + j.val) * 24 + c.val
    omega
  refine (extractStridedSlice_apply _ _ h2 _ (ix4 b j (Spec.slotHi c) (Spec.comp6 c)) fun a => ?_).trans ?_
  · match a with
    | ⟨0, _⟩ => show b.val = 0 + b.val; omega
    | ⟨1, _⟩ => show j.val = 0 + j.val; omega
    | ⟨2, _⟩ => show 4 + c.val / 6 = 4 + c.val / 6; omega
    | ⟨3, _⟩ => show c.val % 6 = 0 + c.val % 6; omega
  refine shapeCast_apply o h1 _ (ix2 _ (Spec.comp6 c)) ?_
  rw [Shape.rowMajor_val_two, Shape.rowMajor_val_four]
  rfl

/-- The body's [128, 8, 24] tensor of divergence terms at (b, j, c), from the awareness mean and variance blocks
    v68 and v70 and the layer's outputs. -/
theorem term_apply (v25 : FVec Ideal S128x8x8x64 .f32) (v31 v34 v37 : FVec Ideal S1x1x1x64 .f32) (v38 : Vec Ideal S1x64 .f32)
    (v53 : Vec Ideal S64x6 .f32) (v56 : Vec Ideal S1x6 .f32) (v68 v70 : Vec Ideal S128x8x24 .f32)
    (b : Fin 128) (j : Fin 8) (c : Fin 24) :
    k3_pay6 v25 v31 v34 v37 v38 v53 v56 v68 v70 (ix3 b j c)
      = Spec.klTerm (v68 (ix3 b j c)) (v70 (ix3 b j c))
          (rawOut v25 v31 v34 v37 v38 v53 v56 b j (Spec.slotLo c) (Spec.comp6 c))
          (max (Ideal.exp (rawOut v25 v31 v34 v37 v38 v53 v56 b j (Spec.slotHi c) (Spec.comp6 c))) Spec.clip) := by
  unfold k3_pay6 Spec.klTerm
  simp only [mulf_apply, subf_apply, addf_apply, divf_apply, maximumf_apply, broadcast_apply, exp_apply, log_apply]
  rw [lo_apply, hi_apply, out_apply, out_apply, shapeCast_self v68, shapeCast_self v70]
  rfl

end Cert.PairKL

end
-- ==== Proof.PairKLd.lean ====
import proofs.«141456_j50483045597756_2_alg».proof.Proof.Gen.KernelIdeal.Skeleton
import proofs.«141456_j50483045597756_2_alg».proof.Proof.Spec
import proofs.«141456_j50483045597756_2_alg».proof.Proof.PairKLc
import Idealize.ShloMosaic.Lib.Pipeline.Value
import Idealize.ShloMosaic.Lib.ValueLayout

noncomputable section

namespace Cert.PairKL

open Idealize.ShloMosaic Idealize.ShloMosaic.ValueIdx Cert.KernelIdeal Cert.KernelIdeal.Gen Cert.Dense

/-! # The two means, and the block's divergence

  The body sums the [128, 8, 24] divergence terms over the 24 components and divides by 24, sums the result over the
  8 agents and divides by 8: the specification's mean divergence of each batch entry of the block. -/

/-- The sum over the last axis of a [128, 8, 24] value at (b, j). -/
theorem sumLast_apply (v : FVec Ideal S128x8x24 .f32) (h : S128x8x24.Reduces [2] S128x8) (b : Fin 128) (j : Fin 8) :
    multiReduction .add [2] S128x8 v 0x00000000#32 h (.inl rfl) rfl (ix2 b j) = ∑ c : Fin 24, v (ix3 b j c) := by
  refine (Ideal.multiReduction_add_single v _ h (.inl rfl) rfl (ix2 b j)).trans ?_
  refine Finset.sum_congr rfl fun c _ => congrArg v (funext fun a => Fin.ext ?_)
  match a with
  | ⟨0, _⟩ => rfl
  | ⟨1, _⟩ => rfl
  | ⟨2, _⟩ => rfl

/-- The sum over the last axis of a [128, 8] value at b. -/
theorem sumMid_apply (v : FVec Ideal S128x8 .f32) (h : S128x8.Reduces [1] S128) (b : Fin 128) :
    multiReduction .add [1] S128 v 0x00000000#32 h (.inl rfl) rfl (ix1 b) = ∑ j : Fin 8, v (ix2 b j) := by
  refine (Ideal.multiReduction_add_single v _ h (.inl rfl) rfl (ix1 b)).trans ?_
  refine Finset.sum_congr rfl fun j _ => congrArg v (funext fun a => Fin.ext ?_)
  match a with
  | ⟨0, _⟩ => rfl
  | ⟨1, _⟩ => rfl

/-- A length-128 value as a [128, 1] column. -/
theorem col_apply (v : FVec Ideal S128 .f32) (h : S128.ShapeCasts S128x1) (b : Fin 128) :
    shapeCast S128x1 v h (ix2 b (0 : Fin 1)) = v (ix1 b) := by
  refine shapeCast_apply v h _ (ix1 b) ?_
  rw [Shape.rowMajor_val_one, Shape.rowMajor_val_two]
  show b.val = b.val * 1 + 0
  omega

/-- The stored [128, 1] column at (b, 0): the mean over the agents of the mean over the components. -/
theorem mean_apply (v82 : FVec Ideal S128x8x24 .f32) (b : Fin 128) :
    k3_pay1 v82 (ix2 b (0 : Fin 1))
      = Ideal.div (∑ j : Fin 8, Ideal.div (∑ c : Fin 24, v82 (ix3 b j c)) Spec.c24) Spec.c8 := by
  unfold k3_pay1
  simp only [divf_apply, broadcast_apply]
  refine congrArg (Ideal.div · Spec.c8) ?_
  refine (col_apply _ _ b).trans ?_
  refine (sumMid_apply _ _ b).trans ?_
  refine Finset.sum_congr rfl fun j _ => ?_
  rw [divf_apply, broadcast_apply, sumLast_apply]
  rfl

/-- What the body stores at (b, 0), from its twelve loaded blocks: the specification's divergence of batch entry b of
    the block. -/
theorem stored_apply (x0 : Vec Ideal S128x8x64 .f32) (x1 x2 : Vec Ideal S64x64 .f32) (x3 x4 x5 x6 x7 : Vec Ideal S1x64 .f32)
    (x8 : Vec Ideal S64x6 .f32) (x9 : Vec Ideal S1x6 .f32) (x10 x11 : Vec Ideal S128x8x24 .f32) (b : Fin 128) :
    k3_pay1 (k3_pay6 (k3_pay2 x0 x1 x2 x3) (k3_pay3 x5) (k3_pay4 x4) (k3_pay5 x6) x7 x8 x9 x10 x11) (ix2 b (0 : Fin 1))
      = Spec.klMean x0 x1 x2 x3 x4 x5 x6 x7 x8 x9 x10 x11 b := by
  rw [mean_apply]
  unfold Spec.klMean
  refine congrArg (Ideal.div · Spec.c8) (Finset.sum_congr rfl fun j _ => ?_)
  refine congrArg (Ideal.div · Spec.c24) (Finset.sum_congr rfl fun c _ => ?_)
  rw [term_apply, rawOut_pair, rawOut_pair]

/-- The divergence of a batch entry reads the hidden states and the awareness head's means and variances of that
    entry only: two arrays that agree on the entry give the same value. -/
theorem klMean_congr {B B' : Nat} (hd : Spec.Ten3 B 8 64) (hd' : Spec.Ten3 B' 8 64) (top bot : Spec.Mat 64 64)
    (pb mean var g be : Spec.Mat 1 64) (po2w : Spec.Mat 64 6) (po2b : Spec.Mat 1 6) (mu sg : Spec.Ten3 B 8 24)
    (mu' sg' : Spec.Ten3 B' 8 24) (b : Fin B) (b' : Fin B')
    (hhd : ∀ (a : Fin 8) (q : Fin 64), hd (ix3 b a q) = hd' (ix3 b' a q))
    (hmu : ∀ (j : Fin 8) (c : Fin 24), mu (ix3 b j c) = mu' (ix3 b' j c))
    (hsg : ∀ (j : Fin 8) (c : Fin 24), sg (ix3 b j c) = sg' (ix3 b' j c)) :
    Spec.klMean hd top bot pb mean var g be po2w po2b mu sg b = Spec.klMean hd' top bot pb mean var g be po2w po2b mu' sg' b' := by
  unfold Spec.klMean Spec.pairOut Spec.pairPre
  simp only [hhd, hmu, hsg]

end Cert.PairKL

end
-- ==== Proof.PairKLe.lean ====
import proofs.«141456_j50483045597756_2_alg».proof.Proof.Gen.KernelIdeal.Points

noncomputable section

namespace Cert.PairKL

open Idealize.ShloMosaic Cert.KernelIdeal Cert.KernelIdeal.Gen

/-! # Where the apply pass's windows sit at a grid point

  At point t of the 64 the hidden states, the awareness means and variances and the result are at block t along the
  batch axis; every weight, bias and statistics row is its whole array, block 0.  Decided once over the grid. -/

theorem idx_facts : ∀ t : Fin grid3.N,
    win3_0.index t (0 : Fin 3) = t.val
    ∧ win3_0.index t (1 : Fin 3) = 0
    ∧ win3_0.index t (2 : Fin 3) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = 0
    ∧ win3_9.index t (1 : Fin 2) = 0
    ∧ win3_10.index t (0 : Fin 3) = t.val
    ∧ win3_10.index t (1 : Fin 3) = 0
    ∧ win3_10.index t (2 : Fin 3) = 0
    ∧ win3_11.index t (0 : Fin 3) = t.val
    ∧ win3_11.index t (1 : Fin 3) = 0
    ∧ win3_11.index t (2 : Fin 3) = 0
    ∧ win3_12.index t (0 : Fin 2) = t.val
    ∧ win3_12.index t (1 : Fin 2) = 0 :=
  by decide +kernel

end Cert.PairKL

end
-- ==== Proof.PairKLf.lean ====
import proofs.«141456_j50483045597756_2_alg».proof.Proof.KernelIdealFrameP
import proofs.«141456_j50483045597756_2_alg».proof.Proof.PairKLd
import proofs.«141456_j50483045597756_2_alg».proof.Proof.PairKLe
import Idealize.ShloMosaic.Lib.Pipeline.Value
import Idealize.ShloMosaic.Lib.Tactic

noncomputable section

namespace Cert.PairKL

open Idealize.ShloMosaic Idealize.ShloMosaic.ValueIdx Idealize.ShloMosaic.TcCoe Idealize.SL.Sem
open Cert.KernelIdeal Cert.KernelIdeal.Gen Cert.KernelIdeal.GenP
open Idealize.ShloMosaic.Pipeline (Dat)

/-! # From the blocks to the array

  At point t the body is given block t (128 batch entries) of the hidden states and of the awareness head's means and
  variances, and every weight, bias and statistics row whole; it writes block t of the result.  Batch entry p of the
  block is entry t * 128 + p of the arrays, and the divergence of an entry reads only that entry, so what point t
  writes back is block t of the divergence of the whole arrays; the 64 blocks cover the 8192 entries. -/

variable (V : (c : Dev nD) → (b : Ref sig .tc) → Buf (Elt Ideal) ((c : Thread nD τ).loc b))

theorem points_eq : cfg3.N = 64 := by decide

theorem hz2 : (![0, 0] : Fin 2 → Nat) = fun _ => 0 := funext fun a => by fin_cases a <;> rfl
theorem hz3 : (![0, 0, 0] : Fin 3 → Nat) = fun _ => 0 := funext fun a => by fin_cases a <;> rfl

/-- Batch entry p of the block at point t. -/
def entryAt (t : Fin cfg3.N) (p : Fin 128) : Fin 8192 :=
  ⟨t.val * 128 + p.val, by have h : t.val < 64 := Nat.lt_of_lt_of_eq t.isLt points_eq; omega⟩

/-- The divergence per batch entry of the arrays as the region finds them. -/
abbrev klOf (c : Dev nD) : Spec.Mat 8192 1 := fun i =>
  Spec.klMean (V c main_v31 : Spec.Ten3 8192 8 64) (V c main_v32 : Spec.Mat 64 64) (V c main_v33 : Spec.Mat 64 64) (V c main_v7 : Spec.Mat 1 64) (V c main_v47 : Spec.Mat 1 64) (V c main_v48 : Spec.Mat 1 64) (V c main_v8 : Spec.Mat 1 64) (V c main_v9 : Spec.Mat 1 64) (V c main_arg19 : Spec.Mat 64 6) (V c main_v10 : Spec.Mat 1 6) (V c main_v49 : Spec.Ten3 8192 8 24) (V c main_v50 : Spec.Ten3 8192 8 24) (i 0)

/-- What the body stores at (p, 0) when its weight, bias and statistics blocks are the whole arrays and entry p of its
    three batch blocks is entry r of the arrays: the divergence of entry r. -/
theorem point_eq (X0 : Spec.Ten3 8192 8 64) (X1 X2 : Spec.Mat 64 64) (X3 X4 X5 X6 X7 : Spec.Mat 1 64) (X8 : Spec.Mat 64 6)
    (X9 : Spec.Mat 1 6) (X10 X11 : Spec.Ten3 8192 8 24) (x0 : Vec Ideal S128x8x64 .f32) (x10 x11 : Vec Ideal S128x8x24 .f32)
    (p : Fin 128) (r : Fin 8192)
    (h0 : ∀ (a : Fin 8) (q : Fin 64), x0 (ix3 p a q) = X0 (ix3 r a q))
    (h10 : ∀ (j : Fin 8) (cc : Fin 24), x10 (ix3 p j cc) = X10 (ix3 r j cc))
    (h11 : ∀ (j : Fin 8) (cc : Fin 24), x11 (ix3 p j cc) = X11 (ix3 r j cc)) :
    k3_pay1 (k3_pay6 (k3_pay2 x0 X1 X2 X3) (k3_pay3 X5) (k3_pay4 X4) (k3_pay5 X6) X7 X8 X9 x10 x11) (ix2 p (0 : Fin 1))
      = Spec.klMean X0 X1 X2 X3 X4 X5 X6 X7 X8 X9 X10 X11 r :=
  (stored_apply x0 X1 X2 X3 X4 X5 X6 X7 X8 X9 x10 x11 p).trans
    (klMean_congr (B := 128) (B' := 8192) x0 X0 X1 X2 X3 X4 X5 X6 X7 X8 X9 x10 x11 X10 X11 p r h0 h10 h11)

/-! ## Each input block, read off its array -/

theorem blk1_eq (c : Dev nD) (t : Fin cfg3.N) : (iblk3 V c 1 t : Vec Ideal S64x64 .f32) = (V c main_v32 : Spec.Mat 64 64) := by
  obtain ⟨e0_0, e0_1, e0_2, e1_0, e1_1, e2_0, e2_1, e3_0, e3_1, e4_0, e4_1, e5_0, e5_1, e6_0, e6_1, e7_0, e7_1, e8_0, e8_1, e9_0, e9_1, e10_0, e10_1, e10_2, e11_0, e11_1, e11_2, e12_0, e12_1⟩ := idx_facts t
  funext z
  unfold iblk3
  rw [View.read_apply]
  show V c main_v32 _ = V c main_v32 z
  refine congrArg _ (funext fun d => Fin.ext ?_)
  match d with
  | ⟨0, _⟩ => show win3_1.index t (0 : Fin 2) * 64 + 1 * (z 0).val = (z 0).val; rw [e1_0]; omega
  | ⟨1, _⟩ => show win3_1.index t (1 : Fin 2) * 64 + 1 * (z 1).val = (z 1).val; rw [e1_1]; omega

theorem blk2_eq (c : Dev nD) (t : Fin cfg3.N) : (iblk3 V c 2 t : Vec Ideal S64x64 .f32) = (V c main_v33 : Spec.Mat 64 64) := by
  obtain ⟨e0_0, e0_1, e0_2, e1_0, e1_1, e2_0, e2_1, e3_0, e3_1, e4_0, e4_1, e5_0, e5_1, e6_0, e6_1, e7_0, e7_1, e8_0, e8_1, e9_0, e9_1, e10_0, e10_1, e10_2, e11_0, e11_1, e11_2, e12_0, e12_1⟩ := idx_facts t
  funext z
  unfold iblk3
  rw [View.read_apply]
  show V c main_v33 _ = V c main_v33 z
  refine congrArg _ (funext fun d => Fin.ext ?_)
  match d with
  | ⟨0, _⟩ => show win3_2.index t (0 : Fin 2) * 64 + 1 * (z 0).val = (z 0).val; rw [e2_0]; omega
  | ⟨1, _⟩ => show win3_2.index t (1 : Fin 2) * 64 + 1 * (z 1).val = (z 1).val; rw [e2_1]; omega

theorem blk3_eq (c : Dev nD) (t : Fin cfg3.N) : (iblk3 V c 3 t : Vec Ideal S1x64 .f32) = (V c main_v7 : Spec.Mat 1 64) := by
  obtain ⟨e0_0, e0_1, e0_2, e1_0, e1_1, e2_0, e2_1, e3_0, e3_1, e4_0, e4_1, e5_0, e5_1, e6_0, e6_1, e7_0, e7_1, e8_0, e8_1, e9_0, e9_1, e10_0, e10_1, e10_2, e11_0, e11_1, e11_2, e12_0, e12_1⟩ := idx_facts t
  funext z
  unfold iblk3
  rw [View.read_apply]
  show V c main_v7 _ = V c main_v7 z
  refine congrArg _ (funext fun d => Fin.ext ?_)
  match d with
  | ⟨0, _⟩ => show win3_3.index t (0 : Fin 2) * 1 + 1 * (z 0).val = (z 0).val; rw [e3_0]; omega
  | ⟨1, _⟩ => show win3_3.index t (1 : Fin 2) * 64 + 1 * (z 1).val = (z 1).val; rw [e3_1]; omega

theorem blk4_eq (c : Dev nD) (t : Fin cfg3.N) : (iblk3 V c 4 t : Vec Ideal S1x64 .f32) = (V c main_v47 : Spec.Mat 1 64) := by
  obtain ⟨e0_0, e0_1, e0_2, e1_0, e1_1, e2_0, e2_1, e3_0, e3_1, e4_0, e4_1, e5_0, e5_1, e6_0, e6_1, e7_0, e7_1, e8_0, e8_1, e9_0, e9_1, e10_0, e10_1, e10_2, e11_0, e11_1, e11_2, e12_0, e12_1⟩ := idx_facts t
  funext z
  unfold iblk3
  rw [View.read_apply]
  show V c main_v47 _ = V c main_v47 z
  refine congrArg _ (funext fun d => Fin.ext ?_)
  match d with
  | ⟨0, _⟩ => show win3_4.index t (0 : Fin 2) * 1 + 1 * (z 0).val = (z 0).val; rw [e4_0]; omega
  | ⟨1, _⟩ => show win3_4.index t (1 : Fin 2) * 64 + 1 * (z 1).val = (z 1).val; rw [e4_1]; omega

theorem blk5_eq (c : Dev nD) (t : Fin cfg3.N) : (iblk3 V c 5 t : Vec Ideal S1x64 .f32) = (V c main_v48 : Spec.Mat 1 64) := by
  obtain ⟨e0_0, e0_1, e0_2, e1_0, e1_1, e2_0, e2_1, e3_0, e3_1, e4_0, e4_1, e5_0, e5_1, e6_0, e6_1, e7_0, e7_1, e8_0, e8_1, e9_0, e9_1, e10_0, e10_1, e10_2, e11_0, e11_1, e11_2, e12_0, e12_1⟩ := idx_facts t
  funext z
  unfold iblk3
  rw [View.read_apply]
  show V c main_v48 _ = V c main_v48 z
  refine congrArg _ (funext fun d => Fin.ext ?_)
  match d with
  | ⟨0, _⟩ => show win3_5.index t (0 : Fin 2) * 1 + 1 * (z 0).val = (z 0).val; rw [e5_0]; omega
  | ⟨1, _⟩ => show win3_5.index t (1 : Fin 2) * 64 + 1 * (z 1).val = (z 1).val; rw [e5_1]; omega

theorem blk6_eq (c : Dev nD) (t : Fin cfg3.N) : (iblk3 V c 6 t : Vec Ideal S1x64 .f32) = (V c main_v8 : Spec.Mat 1 64) := by
  obtain ⟨e0_0, e0_1, e0_2, e1_0, e1_1, e2_0, e2_1, e3_0, e3_1, e4_0, e4_1, e5_0, e5_1, e6_0, e6_1, e7_0, e7_1, e8_0, e8_1, e9_0, e9_1, e10_0, e10_1, e10_2, e11_0, e11_1, e11_2, e12_0, e12_1⟩ := idx_facts t
  funext z
  unfold iblk3
  rw [View.read_apply]
  show V c main_v8 _ = V c main_v8 z
  refine congrArg _ (funext fun d => Fin.ext ?_)
  match d with
  | ⟨0, _⟩ => show win3_6.index t (0 : Fin 2) * 1 + 1 * (z 0).val = (z 0).val; rw [e6_0]; omega
  | ⟨1, _⟩ => show win3_6.index t (1 : Fin 2) * 64 + 1 * (z 1).val = (z 1).val; rw [e6_1]; omega

theorem blk7_eq (c : Dev nD) (t : Fin cfg3.N) : (iblk3 V c 7 t : Vec Ideal S1x64 .f32) = (V c main_v9 : Spec.Mat 1 64) := by
  obtain ⟨e0_0, e0_1, e0_2, e1_0, e1_1, e2_0, e2_1, e3_0, e3_1, e4_0, e4_1, e5_0, e5_1, e6_0, e6_1, e7_0, e7_1, e8_0, e8_1, e9_0, e9_1, e10_0, e10_1, e10_2, e11_0, e11_1, e11_2, e12_0, e12_1⟩ := idx_facts t
  funext z
  unfold iblk3
  rw [View.read_apply]
  show V c main_v9 _ = V c main_v9 z
  refine congrArg _ (funext fun d => Fin.ext ?_)
  match d with
  | ⟨0, _⟩ => show win3_7.index t (0 : Fin 2) * 1 + 1 * (z 0).val = (z 0).val; rw [e7_0]; omega
  | ⟨1, _⟩ => show win3_7.index t (1 : Fin 2) * 64 + 1 * (z 1).val = (z 1).val; rw [e7_1]; omega

theorem blk8_eq (c : Dev nD) (t : Fin cfg3.N) : (iblk3 V c 8 t : Vec Ideal S64x6 .f32) = (V c main_arg19 : Spec.Mat 64 6) := by
  obtain ⟨e0_0, e0_1, e0_2, e1_0, e1_1, e2_0, e2_1, e3_0, e3_1, e4_0, e4_1, e5_0, e5_1, e6_0, e6_1, e7_0, e7_1, e8_0, e8_1, e9_0, e9_1, e10_0, e10_1, e10_2, e11_0, e11_1, e11_2, e12_0, e12_1⟩ := idx_facts t
  funext z
  unfold iblk3
  rw [View.read_apply]
  show V c main_arg19 _ = V c main_arg19 z
  refine congrArg _ (funext fun d => Fin.ext ?_)
  match d with
  | ⟨0, _⟩ => show win3_8.index t (0 : Fin 2) * 64 + 1 * (z 0).val = (z 0).val; rw [e8_0]; omega
  | ⟨1, _⟩ => show win3_8.index t (1 : Fin 2) * 6 + 1 * (z 1).val = (z 1).val; rw [e8_1]; omega

theorem blk9_eq (c : Dev nD) (t : Fin cfg3.N) : (iblk3 V c 9 t : Vec Ideal S1x6 .f32) = (V c main_v10 : Spec.Mat 1 6) := by
  obtain ⟨e0_0, e0_1, e0_2, e1_0, e1_1, e2_0, e2_1, e3_0, e3_1, e4_0, e4_1, e5_0, e5_1, e6_0, e6_1, e7_0, e7_1, e8_0, e8_1, e9_0, e9_1, e10_0, e10_1, e10_2, e11_0, e11_1, e11_2, e12_0, e12_1⟩ := idx_facts t
  funext z
  unfold iblk3
  rw [View.read_apply]
  show V c main_v10 _ = V c main_v10 z
  refine congrArg _ (funext fun d => Fin.ext ?_)
  match d with
  | ⟨0, _⟩ => show win3_9.index t (0 : Fin 2) * 1 + 1 * (z 0).val = (z 0).val; rw [e9_0]; omega
  | ⟨1, _⟩ => show win3_9.index t (1 : Fin 2) * 6 + 1 * (z 1).val = (z 1).val; rw [e9_1]; omega

theorem blk0_apply (c : Dev nD) (t : Fin cfg3.N) (p : Fin 128) (a : Fin 8) (q : Fin 64) :
    (iblk3 V c 0 t : Vec Ideal S128x8x64 .f32) (ix3 p a q) = (V c main_v31 : Spec.Ten3 8192 8 64) (ix3 (entryAt t p) a q) := by
  obtain ⟨e0_0, e0_1, e0_2, e1_0, e1_1, e2_0, e2_1, e3_0, e3_1, e4_0, e4_1, e5_0, e5_1, e6_0, e6_1, e7_0, e7_1, e8_0, e8_1, e9_0, e9_1, e10_0, e10_1, e10_2, e11_0, e11_1, e11_2, e12_0, e12_1⟩ := idx_facts t
  unfold iblk3
  rw [View.read_apply]
  show V c main_v31 _ = V c main_v31 _
  refine congrArg _ (funext fun d => Fin.ext ?_)
  match d with
  | ⟨0, _⟩ => show win3_0.index t (0 : Fin 3) * 128 + 1 * p.val = t.val * 128 + p.val; rw [e0_0]; omega
  | ⟨1, _⟩ => show win3_0.index t (1 : Fin 3) * 8 + 1 * a.val = a.val; rw [e0_1]; omega
  | ⟨2, _⟩ => show win3_0.index t (2 : Fin 3) * 64 + 1 * q.val = q.val; rw [e0_2]; omega

theorem blk10_apply (c : Dev nD) (t : Fin cfg3.N) (p : Fin 128) (a : Fin 8) (q : Fin 24) :
    (iblk3 V c 10 t : Vec Ideal S128x8x24 .f32) (ix3 p a q) = (V c main_v49 : Spec.Ten3 8192 8 24) (ix3 (entryAt t p) a q) := by
  obtain ⟨e0_0, e0_1, e0_2, e1_0, e1_1, e2_0, e2_1, e3_0, e3_1, e4_0, e4_1, e5_0, e5_1, e6_0, e6_1, e7_0, e7_1, e8_0, e8_1, e9_0, e9_1, e10_0, e10_1, e10_2, e11_0, e11_1, e11_2, e12_0, e12_1⟩ := idx_facts t
  unfold iblk3
  rw [View.read_apply]
  show V c main_v49 _ = V c main_v49 _
  refine congrArg _ (funext fun d => Fin.ext ?_)
  match d with
  | ⟨0, _⟩ => show win3_10.index t (0 : Fin 3) * 128 + 1 * p.val = t.val * 128 + p.val; rw [e10_0]; omega
  | ⟨1, _⟩ => show win3_10.index t (1 : Fin 3) * 8 + 1 * a.val = a.val; rw [e10_1]; omega
  | ⟨2, _⟩ => show win3_10.index t (2 : Fin 3) * 24 + 1 * q.val = q.val; rw [e10_2]; omega

theorem blk11_apply (c : Dev nD) (t : Fin cfg3.N) (p : Fin 128) (a : Fin 8) (q : Fin 24) :
    (iblk3 V c 11 t : Vec Ideal S128x8x24 .f32) (ix3 p a q) = (V c main_v50 : Spec.Ten3 8192 8 24) (ix3 (entryAt t p) a q) := by
  obtain ⟨e0_0, e0_1, e0_2, e1_0, e1_1, e2_0, e2_1, e3_0, e3_1, e4_0, e4_1, e5_0, e5_1, e6_0, e6_1, e7_0, e7_1, e8_0, e8_1, e9_0, e9_1, e10_0, e10_1, e10_2, e11_0, e11_1, e11_2, e12_0, e12_1⟩ := idx_facts t
  unfold iblk3
  rw [View.read_apply]
  show V c main_v50 _ = V c main_v50 _
  refine congrArg _ (funext fun d => Fin.ext ?_)
  match d with
  | ⟨0, _⟩ => show win3_11.index t (0 : Fin 3) * 128 + 1 * p.val = t.val * 128 + p.val; rw [e11_0]; omega
  | ⟨1, _⟩ => show win3_11.index t (1 : Fin 3) * 8 + 1 * a.val = a.val; rw [e11_1]; omega
  | ⟨2, _⟩ => show win3_11.index t (2 : Fin 3) * 24 + 1 * q.val = q.val; rw [e11_2]; omega

/-! ## What a point writes back -/

/-- The write-back of point t is the stored column of the point's twelve input blocks. -/
theorem flushed_pay (c : Dev nD) (t : Fin cfg3.N) :
    (dat3 V c).flushed 12 t
      = k3_pay1 (k3_pay6 (k3_pay2 (iblk3 V c 0 t) (iblk3 V c 1 t) (iblk3 V c 2 t) (iblk3 V c 3 t)) (k3_pay3 (iblk3 V c 5 t))
          (k3_pay4 (iblk3 V c 4 t)) (k3_pay5 (iblk3 V c 6 t)) (iblk3 V c 7 t) (iblk3 V c 8 t) (iblk3 V c 9 t)
          (iblk3 V c 10 t) (iblk3 V c 11 t)) := by
  show (cfg3.win 12).cut (grid3.coords t) ((dat3 V c).after 12 t) = _
  rw [after3_12]
  unfold out3_12
  rw [View.canon_unit_zero hz2]
  simp only [View.ld_unit_zero (S := S128x8x64) hz3, View.ld_unit_zero (S := S64x64) hz2, View.ld_unit_zero (S := S1x64) hz2,
    View.ld_unit_zero (S := S64x6) hz2, View.ld_unit_zero (S := S1x6) hz2, View.ld_unit_zero (S := S128x8x24) hz3]
  rfl

theorem flushed_eq (c : Dev nD) (t : Fin cfg3.N) :
    (dat3 V c).flushed 12 t = ((cfg3.win 12).blk t).view.read (Elt Ideal) (klOf V c) := by
  obtain ⟨e0_0, e0_1, e0_2, e1_0, e1_1, e2_0, e2_1, e3_0, e3_1, e4_0, e4_1, e5_0, e5_1, e6_0, e6_1, e7_0, e7_1, e8_0, e8_1, e9_0, e9_1, e10_0, e10_1, e10_2, e11_0, e11_1, e11_2, e12_0, e12_1⟩ := idx_facts t
  rw [flushed_pay, blk1_eq, blk2_eq, blk3_eq, blk4_eq, blk5_eq, blk6_eq, blk7_eq, blk8_eq, blk9_eq]
  refine funext fun (y : S128x1.Idx) => ?_
  obtain ⟨p, q, rfl⟩ : ∃ (p : Fin 128) (q : Fin 1), y = ix2 p q := ⟨y 0, y 1, eq_ix2 y⟩
  obtain rfl : q = 0 := Subsingleton.elim _ _
  have hr : ((cfg3.win 12).blk t).view.emb (ix2 p (0 : Fin 1)) 0 = entryAt t p := Fin.ext (by
    show win3_12.index t (0 : Fin 2) * 128 + 1 * p.val = t.val * 128 + p.val
    rw [e12_0]; omega)
  rw [View.read_apply]
  show _ = Spec.klMean (V c main_v31 : Spec.Ten3 8192 8 64) (V c main_v32 : Spec.Mat 64 64) (V c main_v33 : Spec.Mat 64 64) (V c main_v7 : Spec.Mat 1 64) (V c main_v47 : Spec.Mat 1 64) (V c main_v48 : Spec.Mat 1 64) (V c main_v8 : Spec.Mat 1 64) (V c main_v9 : Spec.Mat 1 64) (V c main_arg19 : Spec.Mat 64 6) (V c main_v10 : Spec.Mat 1 6) (V c main_v49 : Spec.Ten3 8192 8 24) (V c main_v50 : Spec.Ten3 8192 8 24) (((cfg3.win 12).blk t).view.emb (ix2 p (0 : Fin 1)) 0)
  rw [hr]
  exact point_eq (V c main_v31 : Spec.Ten3 8192 8 64) (V c main_v32 : Spec.Mat 64 64) (V c main_v33 : Spec.Mat 64 64) (V c main_v7 : Spec.Mat 1 64) (V c main_v47 : Spec.Mat 1 64) (V c main_v48 : Spec.Mat 1 64) (V c main_v8 : Spec.Mat 1 64) (V c main_v9 : Spec.Mat 1 64) (V c main_arg19 : Spec.Mat 64 6) (V c main_v10 : Spec.Mat 1 6) (V c main_v49 : Spec.Ten3 8192 8 24) (V c main_v50 : Spec.Ten3 8192 8 24) (iblk3 V c 0 t) (iblk3 V c 10 t) (iblk3 V c 11 t) p (entryAt t p)
    (fun a q => blk0_apply V c t p a q) (fun j cc => blk10_apply V c t p j cc) (fun j cc => blk11_apply V c t p j cc)

/-! ## The blocks cover the array -/

theorem cover (i : S8192x1.Idx) :
    ∃ t : Fin cfg3.N, (cfg3.win 12).flush t = true ∧ i ∈ ((cfg3.win 12).blk t).view.set := by
  have hi0 : (i 0).val < 8192 := (i 0).isLt
  have hi1 : (i 1).val < 1 := (i 1).isLt
  have ht : (i 0).val / 128 < cfg3.N := by rw [points_eq]; omega
  obtain ⟨e0_0, e0_1, e0_2, e1_0, e1_1, e2_0, e2_1, e3_0, e3_1, e4_0, e4_1, e5_0, e5_1, e6_0, e6_1, e7_0, e7_1, e8_0, e8_1, e9_0, e9_1, e10_0, e10_1, e10_2, e11_0, e11_1, e11_2, e12_0, e12_1⟩ := idx_facts ⟨(i 0).val / 128, ht⟩
  have f0 : win3_12.index ⟨(i 0).val / 128, ht⟩ (0 : Fin 2) = (i 0).val / 128 := e12_0
  refine ⟨⟨(i 0).val / 128, ht⟩, flush3_12 _, ?_⟩
  show i ∈ ((View.whole main_v51).slice (win3_12.rect ⟨(i 0).val / 128, ht⟩)).set
  rw [View.set_slice_whole, Rect.mem_set_unit]
  intro a
  match a with
  | ⟨0, _⟩ =>
    show win3_12.index ⟨(i 0).val / 128, ht⟩ (0 : Fin 2) * 128 ≤ (i 0).val
      ∧ (i 0).val < win3_12.index ⟨(i 0).val / 128, ht⟩ (0 : Fin 2) * 128 + 128
    rw [f0]; omega
  | ⟨1, _⟩ =>
    show win3_12.index ⟨(i 0).val / 128, ht⟩ (1 : Fin 2) * 1 ≤ (i 1).val
      ∧ (i 1).val < win3_12.index ⟨(i 0).val / 128, ht⟩ (1 : Fin 2) * 1 + 1
    rw [e12_1]; omega

/-! ## The result array -/

/-- After the region the result array holds, at batch entry (i 0), the divergence of that entry of the arrays the
    region found. -/
theorem kl_arr (c : Dev nD) : (dat3 V c).arrAt 12 cfg3.N = klOf V c :=
  (dat3 V c).arrAt_eq_of_cover 12 (klOf V c) (fun t _ => flushed_eq V c t) cover

end Cert.PairKL

end
-- ==== Proof.lean ====
/-
  The certificate of one step of a recurrent multi-agent network — a dense layer and a gated recurrent cell, an
  awareness head and a poster head each with a batch normalisation over the whole batch, and the divergence between
  the two heads' Gaussians — computed by four grid regions among stretches of host operations, against the plain
  array program.

  Both programs are the same composition of dense layers and pointwise functions of the 23 argument arrays
  (proof/Proof/Spec.lean, Network.lean), except for the two batch normalisations' statistics.  The kernel takes
  each column's sum and sum of squares block by block, adds the 64 partial results on the host, and forms the
  variance as the mean of squares minus the squared mean; for the poster head it never forms the all-pairs matrix
  but adds agent i's state through the top half of the weights to agent j's state through the bottom half.  The
  reference sums whole columns and forms the variance from the centred squares.  Regrouping a finite sum needs only
  commutativity and associativity; the two variance formulas agree on real numbers, and under the precondition
  every entry the statistics range over is real (proof/Proof/Bridge.lean, over the Stats modules and the Finite modules).

  Kernel side: each region's output arrays as the specification's function of the region's input arrays, for any
  contents at the region's entry (Cell, Aware, PairStats, PairKL modules); the contents at the program's eight
  boundaries walked from the launch to the three results (Boundary0 … Boundary4) under the run with the results named
  (RunValues).  Reference side: the generated run and its stage-by-stage reading (RefHead, RefPair, RefSide modules).
  The two frames of the kernel programs are the generated frame theorems; the reference's frame is its run with the
  results dropped; the idealisation rewrote no operation, so there is nothing to preserve.
-/
import proofs.«141456_j50483045597756_2_alg».proof.Defs
import proofs.«141456_j50483045597756_2_alg».proof.Proof.Gen.Kernel
import proofs.«141456_j50483045597756_2_alg».proof.Proof.Gen.Kernel.Skeleton
import proofs.«141456_j50483045597756_2_alg».proof.Proof.KernelLaunchP
import proofs.«141456_j50483045597756_2_alg».proof.Proof.Gen.Kernel.Points
import proofs.«141456_j50483045597756_2_alg».proof.Proof.KernelFrameP
import proofs.«141456_j50483045597756_2_alg».proof.Proof.Gen.KernelIdeal
import proofs.«141456_j50483045597756_2_alg».proof.Proof.Gen.KernelIdeal.Skeleton
import proofs.«141456_j50483045597756_2_alg».proof.Proof.KernelIdealLaunchP
import proofs.«141456_j50483045597756_2_alg».proof.Proof.Gen.KernelIdeal.Points
import proofs.«141456_j50483045597756_2_alg».proof.Proof.KernelIdealFrameP
import proofs.«141456_j50483045597756_2_alg».proof.Proof.Gen.ReferenceIdeal
import proofs.«141456_j50483045597756_2_alg».proof.Proof.Gen.Pre_finite_inputs
import proofs.«141456_j50483045597756_2_alg».proof.Proof.Gen.ReferenceIdeal.Run
import proofs.«141456_j50483045597756_2_alg».proof.Proof.Gen.ReferenceIdeal.Read
import proofs.«141456_j50483045597756_2_alg».proof.Proof.RunValues
import proofs.«141456_j50483045597756_2_alg».proof.Proof.Boundary4
import proofs.«141456_j50483045597756_2_alg».proof.Proof.Bridge
import proofs.«141456_j50483045597756_2_alg».proof.Proof.RefSide
import proofs.«141456_j50483045597756_2_alg».proof.Proof.FiniteInputs
import proofs.«141456_j50483045597756_2_alg».proof.Proof.CellBlocks
import proofs.«141456_j50483045597756_2_alg».proof.Proof.AwareMuSigma
import proofs.«141456_j50483045597756_2_alg».proof.Proof.AwareActions
import proofs.«141456_j50483045597756_2_alg».proof.Proof.PairStatsArr
import proofs.«141456_j50483045597756_2_alg».proof.Proof.PairKLf
import Idealize.ShloMosaic.Adequacy
import Idealize.ShloMosaic.Init

set_option maxRecDepth 16384

noncomputable section

namespace Cert.Proof

open Idealize.ShloMosaic Idealize.SL.Sem Cert.Spec

/-- What the four regions leave in their output arrays, for any contents at their entry. -/
theorem regions : Cert.Forward.RegionFacts where
  hidden_arr := Cert.Cell.hidden_arr
  pre_arr := Cert.Cell.pre_arr
  sums_arr := Cert.Cell.sums_arr
  sqsums_arr := Cert.Cell.sqsums_arr
  actions_arr := Cert.Aware.actions_arr
  musigma_arr := Cert.Aware.musigma_arr
  pairsums_arr := Cert.PairStats.sums_arr
  pairsq_arr := Cert.PairStats.sqsums_arr
  kl_arr := Cert.PairKL.kl_arr

/-- Under the precondition the arguments the statistics depend on are real-valued. -/
theorem real_of_pre (m : (ℓ : Loc Cert.KernelIdeal.nD Cert.KernelIdeal.τ Cert.KernelIdeal.sig) → Buf (Elt Ideal) ℓ)
    (hpre : Cert.Pre_KernelIdeal m) (c : Dev Cert.KernelIdeal.nD) : (Cert.Forward.kIn m c).Real :=
  have A := Cert.Finite.args_real m hpre c
  ⟨A.arg0, A.arg1, A.arg3, A.arg4, A.arg5, A.arg6, A.arg7, A.arg8, A.arg9, A.arg10, A.arg15, A.arg16⟩

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- From memories agreeing on the arguments both programs end at the same three arrays: the composed specification
    with the statistics over all rows. -/
theorem algebraic : Cert.algebraic_KernelIdeal_ReferenceIdeal := by
  intro m ρ m' ρ' hpre hagree
  have hI : ∀ c, Cert.Backward.rIn m' c = Cert.Forward.kIn m c := fun c => by
    obtain ⟨h0, h1, h2, h3, h4, h5, h6, h7, h8, h9, h10, h11, h12, h13, h14, h15, h16, h17, h18, h19, h20, h21, h22⟩ := hagree c
    unfold Cert.Backward.rIn Cert.Forward.kIn
    rw [h0, h1, h2, h3, h4, h5, h6, h7, h8, h9, h10, h11, h12, h13, h14, h15, h16, h17, h18, h19, h20, h21, h22]
  refine ⟨fun c => (Cert.Forward.kIn m c).act (Cert.Forward.kIn m c).mean1R (Cert.Forward.kIn m c).var1R,
    fun c => (Cert.Forward.kIn m c).h,
    fun c => (Cert.Forward.kIn m c).kl (Cert.Forward.kIn m c).mean1R (Cert.Forward.kIn m c).var1R
      (Cert.Forward.kIn m c).mean2R (Cert.Forward.kIn m c).var2R, ?_, ?_⟩
  · exact (θ_run Cert.KernelIdeal.defs _ _).mono (fun r h c =>
      ⟨(h c).1.trans ((Cert.Forward.W8_act m ρ c regions).trans ((Cert.Forward.kIn m c).act_eq (real_of_pre m hpre c))),
       (h c).2.1.trans (Cert.Forward.W8_h m ρ c regions),
       (h c).2.2.1.trans ((Cert.Forward.W8_kl m ρ c regions).trans ((Cert.Forward.kIn m c).kl_eq (real_of_pre m hpre c))),
       (h c).2.2.2⟩) (Cert.Forward.run_values m ρ)
  · exact (θ_run Cert.ReferenceIdeal.defs _ _).mono (fun r h c =>
      ⟨(h c).1.trans ((Cert.Backward.res_act m' c).trans (by rw [hI c])),
       (h c).2.1.trans ((Cert.Backward.res_h m' c).trans (by rw [hI c])),
       (h c).2.2.1.trans ((Cert.Backward.res_kl m' c).trans (by rw [hI c])),
       (h c).2.2.2⟩) (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
